-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S8192x40 : Shape := ⟨2, ![8192, 40]⟩
abbrev S512x256 : Shape := ⟨2, ![512, 256]⟩
abbrev S256 : Shape := ⟨1, ![256]⟩
abbrev S256x40 : Shape := ⟨2, ![256, 40]⟩
abbrev S40 : Shape := ⟨1, ![40]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192x40 : S_.BroadcastsInDim S8192x40 (![] : Fin 0 → Fin S8192x40.rank)
  reducesTo_S8192x40_S_d0_1 : S8192x40.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg7 : FVec F S256x40 .f32) (main_arg8 : FVec F S40 .f32) (main_v33 : IVec S_ 1) : IVec S_ 1 :=
  let main_v34 : FVec F S256x40 .f32 := Host.absf main_arg7
  let main_cst_12 : FVec F S_ .f32 := constant S_ .f32 0x7F800000#32
  let main_v35 : FVec F S256x40 .f32 := broadcastInDim S256x40 ![] bcast_S_S256x40 main_cst_12
  let main_v36 : IVec S256x40 1 := cmpf .olt main_v34 main_v35
  let main_c_13 : IVec S_ 1 := constantI S_ 1 1#1
  let main_v37 : IVec S_ 1 := (fun x v => Host.reduce IntOp.andi x v reducesTo_S256x40_S_d0_1 h_S_) main_v36 main_c_13
  let main_v38 : IVec S_ 1 := andi main_v33 main_v37
  let main_v39 : FVec F S40 .f32 := Host.absf main_arg8
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg4 : FVec F S8192x8192 .f32) (main_arg5 : FVec F S512x256 .f32) (main_arg6 : FVec F S256 .f32) (main_arg7 : FVec F S256x40 .f32) (main_arg8 : FVec F S40 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S8192x8192 .f32 := Host.absf main_arg4
  let main_cst_6 : FVec F S_ .f32 := constant S_ .f32 0x7F800000#32
  let main_v20 : FVec F S8192x8192 .f32 := broadcastInDim S8192x8192 ![] bcast_S_S8192x8192 main_cst_6
  let main_v21 : IVec S8192x8192 1 := cmpf .olt main_v19 main_v20
  let main_c_7 : IVec S_ 1 := constantI S_ 1 1#1
  let main_v22 : IVec S_ 1 := (fun x v => Host.reduce IntOp.andi x v reducesTo_S8192x8192_S_d0_1 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S8192x512 .f32) (main_arg1 : FVec F S8192x8192 .f32) (main_arg2 : FVec F S8192x40 .f32) (main_arg3 : FVec F S8192x8192 .f32) (main_arg4 : FVec F S8192x8192 .f32) (main_arg5 : FVec F S512x256 .f32) (main_arg6 : FVec F S256 .f32) (main_arg7 : FVec F S256x40 .f32) (main_arg8 : FVec F S40 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x40 .f32 := Host.absf main_arg2
  let main_cst_2 : FVec F S_ .f32 := constant S_ .f32 0x7F800000#32
  let main_v10 : FVec F S8192x40 .f32 := broadcastInDim S8192x40 ![] bcast_S_S8192x40 main_cst_2
  let main_v11 : IVec S8192x40 1 := cmpf .olt main_v9 main_v10
  let main_c_3 : IVec S_ 1 := constantI S_ 1 1#1
  let main_v12 : IVec S_ 1 := (fun x v => Host.reduce IntOp.andi x v reducesTo_S8192x40_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg4 main_arg5 main_arg6 main_arg7 main_arg8 main_v13 main_v16
-- ==== Kernel.lean ====
abbrev S8192x512 : Shape := ⟨2, ![8192, 512]⟩
abbrev S8192x8192 : Shape := ⟨2, ![8192, 8192]⟩
abbrev S8192x40 : Shape := ⟨2, ![8192, 40]⟩
abbrev S512x256 : Shape := ⟨2, ![512, 256]⟩
abbrev S256 : Shape := ⟨1, ![256]⟩
abbrev S256x40 : Shape := ⟨2, ![256, 40]⟩
abbrev S40 : Shape := ⟨1, ![40]⟩
abbrev S8192x256 : Shape := ⟨2, ![8192, 256]⟩
abbrev S1024x512 : Shape := ⟨2, ![1024, 512]⟩
abbrev S1024x256 : Shape := ⟨2, ![1024, 256]⟩
abbrev S1x256 : Shape := ⟨2, ![1, 256]⟩
abbrev S1024x1024 : Shape := ⟨2, ![1024, 1024]⟩
abbrev S1024x40 : Shape := ⟨2, ![1024, 40]⟩
abbrev S1024x1 : Shape := ⟨2, ![1024, 1]⟩
abbrev S1024 : Shape := ⟨1, ![1024]⟩
abbrev S1x40 : Shape := ⟨2, ![1, 40]⟩

abbrev nBuf : Space → Nat
  | .hbm => 17
  | .vmem => 42
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S8192x40, .f32⟩
  | .hbm, ⟨3, _⟩ => ⟨S8192x8192, .f32⟩
  | .hbm, ⟨4, _⟩ => ⟨S8192x8192, .f32⟩
  | .hbm, ⟨5, _⟩ => ⟨S512x256, .f32⟩
  | .hbm, ⟨6, _⟩ => ⟨S256, .f32⟩
  | .hbm, ⟨7, _⟩ => ⟨S256x40, .f32⟩
  | .hbm, ⟨8, _⟩ => ⟨S40, .f32⟩
  | .hbm, ⟨9, _⟩ => ⟨S8192x256, .f32⟩
  | .hbm, ⟨10, _⟩ => ⟨S1x256, .f32⟩
  | .hbm, ⟨11, _⟩ => ⟨S8192x256, .f32⟩
  | .hbm, ⟨12, _⟩ => ⟨S8192x40, .f32⟩
  | .hbm, ⟨13, _⟩ => ⟨S8192x40, .f32⟩
  | .hbm, ⟨14, _⟩ => ⟨S1x40, .f32⟩
  | .hbm, ⟨15, _⟩ => ⟨S8192x40, .f32⟩
  | .hbm, ⟨16, _⟩ => ⟨S8192x40, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S1024x256, .f32⟩
  | .local _ .vmem, ⟨4, _⟩ => ⟨S1024x256, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x256, .f32⟩
  | .local _ .vmem, ⟨10, _⟩ => ⟨S1024x256, .f32⟩
  | .local _ .vmem, ⟨11, _⟩ => ⟨S1024x40, .f32⟩
  | .local _ .vmem, ⟨12, _⟩ => ⟨S1024x40, .f32⟩
  | .local _ .vmem, ⟨13, _⟩ => ⟨S1x256, .f32⟩
  | .local _ .vmem, ⟨14, _⟩ => ⟨S1024x256, .f32⟩
  | .local _ .vmem, ⟨15, _⟩ => ⟨S1024x256, .f32⟩
  | .local _ .vmem, ⟨16, _⟩ => ⟨S1024x40, .f32⟩
  | .local _ .vmem, ⟨17, _⟩ => ⟨S1024x40, .f32⟩
  | .local _ .vmem, ⟨18, _⟩ => ⟨S1024x256, .f32⟩
  | .local _ .vmem, ⟨19, _⟩ => ⟨S1024x40, .f32⟩
  | .local _ .vmem, ⟨20, _⟩ => ⟨S1024x1, .f32⟩
  | .local _ .vmem, ⟨21, _⟩ => ⟨S1024x256, .f32⟩
  | .local _ .vmem, ⟨22, _⟩ => ⟨S1024x256, .f32⟩
  | .local _ .vmem, ⟨23, _⟩ => ⟨S256x40, .f32⟩
  | .local _ .vmem, ⟨24, _⟩ => ⟨S1024x40, .f32⟩
  | .local _ .vmem, ⟨25, _⟩ => ⟨S1024x40, .f32⟩
  | .local _ .vmem, ⟨26, _⟩ => ⟨S1024x1024, .f32⟩
  | .local _ .vmem, ⟨27, _⟩ => ⟨S1024x1024, .f32⟩
  | .local _ .vmem, ⟨28, _⟩ => ⟨S1024x1024, .f32⟩
  | .local _ .vmem, ⟨29, _⟩ => ⟨S1024x1024, .f32⟩
  | .local _ .vmem, ⟨30, _⟩ => ⟨S1024x40, .f32⟩
  | .local _ .vmem, ⟨31, _⟩ => ⟨S1024x40, .f32⟩
  | .local _ .vmem, ⟨32, _⟩ => ⟨S1024x40, .f32⟩
  | .local _ .vmem, ⟨33, _⟩ => ⟨S1024x40, .f32⟩
  | .local _ .vmem, ⟨34, _⟩ => ⟨S1x40, .f32⟩
  | .local _ .vmem, ⟨35, _⟩ => ⟨S1024x40, .f32⟩
  | .local _ .vmem, ⟨36, _⟩ => ⟨S1024x40, .f32⟩
  | .local _ .vmem, ⟨37, _⟩ => ⟨S1024x40, .f32⟩
  | .local _ .vmem, ⟨38, _⟩ => ⟨S1024x40, .f32⟩
  | .local _ .vmem, ⟨39, _⟩ => ⟨S1024x40, .f32⟩
  | .local _ .vmem, ⟨40, _⟩ => ⟨S1024x40, .f32⟩
  | .local _ .vmem, ⟨41, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg2_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg5_1 : Ref sig .tc := ⟨.vmem, 36, rfl⟩
abbrev cc3_stg6_0 : Ref sig .tc := ⟨.vmem, 37, rfl⟩
abbrev cc3_stg6_1 : Ref sig .tc := ⟨.vmem, 38, rfl⟩
abbrev cc3_scratch0 : Ref sig .tc := ⟨.vmem, 39, rfl⟩
abbrev cc3_scratch1 : Ref sig .tc := ⟨.vmem, 40, rfl⟩
abbrev cc3_scratch2 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem3_1 : DmaSem sig := 30
abbrev cc3_sem4_0 : DmaSem sig := 31
abbrev cc3_sem5_0 : DmaSem sig := 32
abbrev cc3_sem5_1 : DmaSem sig := 33
abbrev cc3_sem6_0 : DmaSem sig := 34
abbrev cc3_sem6_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v32 : BitVec 1 := Scalar.cmpi .eq arg1 c7_i32
  let v33 : BitVec 32 := Scalar.extui v32
  let c0_i32_22 : BitVec 32 := 0#32
  let v34 : BitVec 1 := Scalar.cmpi .ne v33 c0_i32_22
  v34

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1024x40 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![8, 8], ![false, false]⟩

def k3_cond2 (i : grid3.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_22 : BitVec 32 := 0#32
  let v35 : BitVec 1 := Scalar.cmpi .ne v34 c0_i32_22
  v35

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1024x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1024x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 1 → Memref sig .tc .vmem S1x40 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S1024x40 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 2 → Memref sig .tc .vmem S1024x40 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  shapeCasts_S256_S1x256 : S256.ShapeCasts S1x256
  shapeCasts_S1024x256_S1024x256 : S1024x256.ShapeCasts S1024x256
  inb_S1024x40_S1024x40_0_0 : ∀ a, (![0, 0] : Fin 2 → Nat) a + S1024x40.size a ≤ S1024x40.size a
  h_S1024x40 : 0 < S1024x40.numel
  shapeCasts_S1024x40_S1024x40 : S1024x40.ShapeCasts S1024x40
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x256 : S1024x1.Broadcasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  broadcasts_S1024x1_S1024x40 : S1024x1.Broadcasts S1024x40
  inb_S256x40_S256x40_0_0 : ∀ a, (![0, 0] : Fin 2 → Nat) a + S256x40.size a ≤ S256x40.size a
  h_S256x40 : 0 < S256x40.numel
  shapeCasts_S40_S1x40 : S40.ShapeCasts S1x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S1024x40 : S1x40.Broadcasts S1024x40
  reduces_S1024x40_S1024 : S1024x40.Reduces [1] S1024
  dot_S1024x512_S512x256_S1024x256_1_0_0_1_n_n_wf : DotDims.WF S1024x512 S512x256 S1024x256 [1] [0] [0] [1] [] []
  dot_S1024x1024_S1024x256_S1024x256_1_0_0_1_n_n_wf : DotDims.WF S1024x1024 S1024x256 S1024x256 [1] [0] [0] [1] [] []
  dot_S1024x1024_S1024x40_S1024x40_1_0_0_1_n_n_wf : DotDims.WF S1024x1024 S1024x40 S1024x40 [1] [0] [0] [1] [] []
  dot_S1024x256_S256x40_S1024x40_1_0_0_1_n_n_wf : DotDims.WF S1024x256 S256x40 S1024x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x8192.size a
  hwx1_1 : ∀ i : grid1.Coords, EltTy.bits .f32 = 32 ∨ (Rect.block (s := S8192x8192) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x256.size a
  hwx1_2 : ∀ i : grid1.Coords, EltTy.bits .f32 = 32 ∨ (Rect.block (s := S8192x256) S1024x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x40.size a ≤ S8192x40.size a
  hwx1_3 : ∀ i : grid1.Coords, EltTy.bits .f32 = 32 ∨ (Rect.block (s := S8192x40) S1024x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x256.size a ≤ S8192x256.size a
  hwx1_5 : ∀ i : grid1.Coords, EltTy.bits .f32 = 32 ∨ (Rect.block (s := S8192x256) S1024x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x40.size a ≤ S8192x40.size a
  hwx1_6 : ∀ i : grid1.Coords, EltTy.bits .f32 = 32 ∨ (Rect.block (s := S8192x40) S1024x40.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S8192x256.size a
  hwx2_0 : ∀ i : grid2.Coords, EltTy.bits .f32 = 32 ∨ (Rect.block (s := S8192x256) S1024x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x40.size a ≤ S256x40.size a
  hwx2_1 : ∀ i : grid2.Coords, EltTy.bits .f32 = 32 ∨ (Rect.block (s := S256x40) S256x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x40.size a ≤ S8192x40.size a
  hwx2_2 : ∀ i : grid2.Coords, EltTy.bits .f32 = 32 ∨ (Rect.block (s := S8192x40) S1024x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S8192x8192.size a
  hwx3_0 : ∀ i : grid3.Coords, EltTy.bits .f32 = 32 ∨ (Rect.block (s := S8192x8192) S1024x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S8192x8192.size a
  hwx3_1 : ∀ i : grid3.Coords, EltTy.bits .f32 = 32 ∨ (Rect.block (s := S8192x8192) S1024x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x40.size a ≤ S8192x40.size a
  hwx3_2 : ∀ i : grid3.Coords, EltTy.bits .f32 = 32 ∨ (Rect.block (s := S8192x40) S1024x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x40.size a ≤ S8192x40.size a
  hwx3_3 : ∀ i : grid3.Coords, EltTy.bits .f32 = 32 ∨ (Rect.block (s := S8192x40) S1024x40.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x40.size a ≤ S1x40.size a
  hwx3_4 : ∀ i : grid3.Coords, EltTy.bits .f32 = 32 ∨ (Rect.block (s := S1x40) S1x40.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1024x40.size a ≤ S8192x40.size a
  hwx3_5 : ∀ i : grid3.Coords, EltTy.bits .f32 = 32 ∨ (Rect.block (s := S8192x40) S1024x40.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1024x40.size a ≤ S8192x40.size a
  hwx3_6 : ∀ i : grid3.Coords, EltTy.bits .f32 = 32 ∨ (Rect.block (s := S8192x40) S1024x40.size (cc3_transform_6 i) (hinb3_6 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x1024_S1024x40_S1024x40_1_0_0_1_n_n : DotDims S1024x1024 S1024x40 S1024x40 where
  lhsContracting := [1]
  rhsContracting := [0]
  lhsNonContracting := [0]
  rhsNonContracting := [1]
  lhsBatch := []
  rhsBatch := []
  wf := dot_S1024x1024_S1024x40_S1024x40_1_0_0_1_n_n_wf
def dot_S1024x256_S256x40_S1024x40_1_0_0_1_n_n : DotDims S1024x256 S256x40 S1024x40 where
  lhsContracting := [1]
  rhsContracting := [0]
  lhsNonContracting := [0]
  rhsNonContracting := [1]
  lhsBatch := []
  rhsBatch := []
  wf := dot_S1024x256_S256x40_S1024x40_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S1024x40.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2_0) S1024x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v2_1) S1024x40.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v2_0) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S256x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1024x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg1) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S1024x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v3) S1024x40.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v2_1) S1024x40.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v4) S1x40.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v5_0) S1024x40.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v5_1) S1024x40.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun i => !(k3_cond2 i == 1#1) | 6 => fun i => !(k3_cond2 i == 1#1) | ⟨_ + 7, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S8192x40 : Shape := ⟨2, ![8192, 40]⟩
abbrev S512x256 : Shape := ⟨2, ![512, 256]⟩
abbrev S256 : Shape := ⟨1, ![256]⟩
abbrev S256x40 : Shape := ⟨2, ![256, 40]⟩
abbrev S40 : Shape := ⟨1, ![40]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x256 : Shape := ⟨2, ![1, 256]⟩
abbrev S1x40 : Shape := ⟨2, ![1, 40]⟩

abbrev nBuf : Space → Nat
  | .hbm => 74
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S8192x40, .f32⟩
  | .hbm, ⟨3, _⟩ => ⟨S8192x8192, .f32⟩
  | .hbm, ⟨4, _⟩ => ⟨S8192x8192, .f32⟩
  | .hbm, ⟨5, _⟩ => ⟨S512x256, .f32⟩
  | .hbm, ⟨6, _⟩ => ⟨S256, .f32⟩
  | .hbm, ⟨7, _⟩ => ⟨S256x40, .f32⟩
  | .hbm, ⟨8, _⟩ => ⟨S40, .f32⟩
  | .hbm, ⟨9, _⟩ => ⟨S8192x256, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x8192, .f32⟩
  | .hbm, ⟨19, _⟩ => ⟨S8192x8192, .f32⟩
  | .hbm, ⟨20, _⟩ => ⟨S8192x256, .f32⟩
  | .hbm, ⟨21, _⟩ => ⟨S1x256, .f32⟩
  | .hbm, ⟨22, _⟩ => ⟨S8192x256, .f32⟩
  | .hbm, ⟨23, _⟩ => ⟨S8192x256, .f32⟩
  | .hbm, ⟨24, _⟩ => ⟨S8192x40, .f32⟩
  | .hbm, ⟨25, _⟩ => ⟨S_, .f32⟩
  | .hbm, ⟨26, _⟩ => ⟨S8192x256, .f32⟩
  | .hbm, ⟨27, _⟩ => ⟨S8192x256, .f32⟩
  | .hbm, ⟨28, _⟩ => ⟨S8192x40, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x8192, .f32⟩
  | .hbm, ⟨38, _⟩ => ⟨S8192x8192, .f32⟩
  | .hbm, ⟨39, _⟩ => ⟨S8192x40, .f32⟩
  | .hbm, ⟨40, _⟩ => ⟨S1x40, .f32⟩
  | .hbm, ⟨41, _⟩ => ⟨S8192x40, .f32⟩
  | .hbm, ⟨42, _⟩ => ⟨S8192x40, .f32⟩
  | .hbm, ⟨43, _⟩ => ⟨S8192x40, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192x1, .f32⟩
  | .hbm, ⟨50, _⟩ => ⟨S8192x40, .f32⟩
  | .hbm, ⟨51, _⟩ => ⟨S8192x40, .f32⟩
  | .hbm, ⟨52, _⟩ => ⟨S8192x40, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x1, .f32⟩
  | .hbm, ⟨57, _⟩ => ⟨S8192x40, .f32⟩
  | .hbm, ⟨58, _⟩ => ⟨S8192x40, .f32⟩
  | .hbm, ⟨59, _⟩ => ⟨S_, .f32⟩
  | .hbm, ⟨60, _⟩ => ⟨S8192, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S8192x1, .f32⟩
  | .hbm, ⟨65, _⟩ => ⟨S8192x40, .f32⟩
  | .hbm, ⟨66, _⟩ => ⟨S8192x40, .f32⟩
  | .hbm, ⟨67, _⟩ => ⟨S8192x40, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S8192x1, .f32⟩
  | .hbm, ⟨72, _⟩ => ⟨S8192x40, .f32⟩
  | .hbm, ⟨73, _⟩ => ⟨S8192x40, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_cst : Ref sig .tc := ⟨.hbm, 25, rfl⟩
abbrev main_call0_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call1_cst : Ref sig .tc := ⟨.hbm, 44, rfl⟩
abbrev main_call1_v0 : Ref sig .tc := ⟨.hbm, 45, rfl⟩
abbrev main_call1_cst_0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_cst_1 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_v29 : Ref sig .tc := ⟨.hbm, 58, rfl⟩
abbrev main_call2_cst : Ref sig .tc := ⟨.hbm, 59, rfl⟩
abbrev main_call2_v0 : Ref sig .tc := ⟨.hbm, 60, rfl⟩
abbrev main_call2_cst_0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_v6 : Ref sig .tc := ⟨.hbm, 67, rfl⟩
abbrev main_call2_cst_1 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_v30 : Ref sig .tc := ⟨.hbm, 73, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x8192_0_1 : S8192x1.BroadcastsInDim S8192x8192 (![0, 1] : Fin 2 → Fin S8192x8192.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S40_S1x40_1 : S40.BroadcastsInDim S1x40 (![1] : Fin 1 → Fin S1x40.rank)
  bcast_S1x40_S8192x40_0_1 : S1x40.BroadcastsInDim S8192x40 (![0, 1] : Fin 2 → Fin S8192x40.rank)
  reducesTo_S8192x40_S8192_d1 : S8192x40.ReducesTo [1] S8192
  bcast_S_S8192 : S_.BroadcastsInDim S8192 (![] : Fin 0 → Fin S8192.rank)
  bcast_S8192x1_S8192x40_0_1 : S8192x1.BroadcastsInDim S8192x40 (![0, 1] : Fin 2 → Fin S8192x40.rank)
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []
  dot_S8192x8192_S8192x40_S8192x40_1_0_0_1_n_n_wf : DotDims.WF S8192x8192 S8192x40 S8192x40 [1] [0] [0] [1] [] []
  dot_S8192x256_S256x40_S8192x40_1_0_0_1_n_n_wf : DotDims.WF S8192x256 S256x40 S8192x40 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x8192_S8192x40_S8192x40_1_0_0_1_n_n : DotDims S8192x8192 S8192x40 S8192x40 where
  lhsContracting := [1]
  rhsContracting := [0]
  lhsNonContracting := [0]
  rhsNonContracting := [1]
  lhsBatch := []
  rhsBatch := []
  wf := dot_S8192x8192_S8192x40_S8192x40_1_0_0_1_n_n_wf
def dot_S8192x256_S256x40_S8192x40_1_0_0_1_n_n : DotDims S8192x256 S256x40 S8192x40 where
  lhsContracting := [1]
  rhsContracting := [0]
  lhsNonContracting := [0]
  rhsNonContracting := [1]
  lhsBatch := []
  rhsBatch := []
  wf := dot_S8192x256_S256x40_S8192x40_1_0_0_1_n_n_wf

class Facts : Prop extends Facts₀ where

variable [Facts]
-- ==== Proof.RegA0.lean ====
/- Region 0 (the first projection): the proof data of its pipeline and the body obligation. The body reads a row block of the left factor and the whole right factor, and stores their product over the output's row block. -/
import proofs.«156794_j4621384810949_2_alg».proof.Proof.Gen.KernelIdeal.Launch
import proofs.«156794_j4621384810949_2_alg».proof.Proof.Gen.KernelIdeal.Skeleton
import proofs.«156794_j4621384810949_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the product of the features with the first weight matrix, row block by row block -/

/-! ## The windows' blocks -/

/-- Window `w`'s block at grid point `t`: the window's view at that point read off the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's staging buffer holds its row block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right factor's staging buffer holds the whole right factor at every point: it is brought in at the first
    point only, and where it is not brought in its block index has not moved, so the buffer still holds it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_a : Rect S1024x512 := Rect.unit (s := S1024x512) ![0, 0] S1024x512.size inb_S1024x512_S1024x512_0_0
abbrev r0_b : Rect S512x256 := Rect.unit (s := S512x256) ![0, 0] S512x256.size inb_S512x256_S512x256_0_0
abbrev r0_o : Rect S1024x256 := Rect.unit (s := S1024x256) ![0, 0] S1024x256.size inb_S1024x256_S1024x256_0_0

/-! ## What the body leaves in the output window's buffer -/

/-- The output buffer after the body, from the two input blocks: its single whole-buffer store, whose payload is the
    product of the two blocks as the skeleton names it. -/
def out0_2 (x0 : Vec F S1024x512 .f32) (x1 : Vec F S512x256 .f32) : Vec F S1024x256 .f32 :=
  View.canon [⟨r0_o, k0_pay1 (View.ld x0 r0_a) (View.ld x1 r0_b)⟩]

/-- The single store is of the whole buffer, so it covers every index. -/
theorem cover0_2 (p0 : Vec F S1024x256 .f32) (y : S1024x256.Idx) :
    ∃ pc ∈ ([⟨r0_o, p0⟩] : List (View.Piece (Elt F) S1024x256 .f32)), y ∈ pc.1.set :=
  View.cover_of_tiled [⟨r0_o, p0⟩] S1024x256.size (by rfl) y

/-! ## The body's triple -/

set_option maxHeartbeats 1000000 in
/-- The body on whole staging buffers, the inputs' at read contents `x0`, `x1` and the output's at anything: it reads
    both inputs whole, reads the output (the value is not used), and stores the product over the whole output. It runs
    to the continuation holding the inputs as they were and the output at `out0_2 x0 x1`. -/
theorem sound_kernel0 (c : Dev nD) (E : Set ℕ) (i : grid0.Coords)
    (arg0 : Memref sig .tc .vmem S1024x512 .f32) (harg0 : arg0.IsWhole)
    (arg1 : Memref sig .tc .vmem S512x256 .f32) (harg1 : arg1.IsWhole)
    (arg2 : Memref sig .tc .vmem S1024x256 .f32) (harg2 : arg2.IsWhole)
    (x0 : Vec F S1024x512 .f32) (x1 : Vec F S512x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__proj_kernel i arg0 harg0 arg1 harg1 arg2 harg2) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this region on core `c`: the arrays as the region finds them; after the body at point `t` each
    input's buffer still at its block and the output's at the product of the two blocks; the invariant is the
    untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The invariant at entry and at exit is the untouched rest itself. -/
theorem hin0 (c : Dev nD) : (Pipeline.ΦA spec0 c : sProp 𝕄) ⊢ (dat0 V c).Φ 0 := .rfl

theorem hout0 (c : Dev nD) : (dat0 V c).Φ (Fin.last cfg0.N) ⊢ (Pipeline.ΦA spec0 c : sProp 𝕄) := .rfl

end Cert.KernelIdeal.Hand

end
-- ==== Proof.RegA2.lean ====
/- Region 2 (the second projection): the proof data of its pipeline and the body obligation. The body reads a row block of the hidden features and the whole second weight matrix, and stores their product over the output's row block. -/
import proofs.«156794_j4621384810949_2_alg».proof.Proof.Gen.KernelIdeal.Launch
import proofs.«156794_j4621384810949_2_alg».proof.Proof.Gen.KernelIdeal.Skeleton
import proofs.«156794_j4621384810949_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the product of the hidden features with the second weight matrix, row block by row block -/

/-! ## The windows' blocks -/

/-- Window `w`'s block at grid point `t`: the window's view at that point read off the array the region finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left factor's staging buffer holds its row block at every point, for any proof data whose array is the
    entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right factor's staging buffer holds the whole right factor at every point: it is brought in at the first
    point only, and where it is not brought in its block index has not moved, so the buffer still holds it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_a : Rect S1024x256 := Rect.unit (s := S1024x256) ![0, 0] S1024x256.size inb_S1024x256_S1024x256_0_0
abbrev r2_b : Rect S256x40 := Rect.unit (s := S256x40) ![0, 0] S256x40.size inb_S256x40_S256x40_0_0
abbrev r2_o : Rect S1024x40 := Rect.unit (s := S1024x40) ![0, 0] S1024x40.size inb_S1024x40_S1024x40_0_0

/-! ## What the body leaves in the output window's buffer -/

/-- The output buffer after the body, from the two input blocks: its single whole-buffer store, whose payload is the
    product of the two blocks as the skeleton names it. -/
def out2_2 (x0 : Vec F S1024x256 .f32) (x1 : Vec F S256x40 .f32) : Vec F S1024x40 .f32 :=
  View.canon [⟨r2_o, k2_pay1 (View.ld x0 r2_a) (View.ld x1 r2_b)⟩]

/-- The single store is of the whole buffer, so it covers every index. -/
theorem cover2_2 (p0 : Vec F S1024x40 .f32) (y : S1024x40.Idx) :
    ∃ pc ∈ ([⟨r2_o, p0⟩] : List (View.Piece (Elt F) S1024x40 .f32)), y ∈ pc.1.set :=
  View.cover_of_tiled [⟨r2_o, p0⟩] S1024x40.size (by rfl) y

/-! ## The body's triple -/

set_option maxHeartbeats 1000000 in
/-- The body on whole staging buffers, the inputs' at read contents `x0`, `x1` and the output's at anything: it reads
    both inputs whole, reads the output (the value is not used), and stores the product over the whole output. It runs
    to the continuation holding the inputs as they were and the output at `out2_2 x0 x1`. -/
theorem sound_kernel2 (c : Dev nD) (E : Set ℕ) (i : grid2.Coords)
    (arg0 : Memref sig .tc .vmem S1024x256 .f32) (harg0 : arg0.IsWhole)
    (arg1 : Memref sig .tc .vmem S256x40 .f32) (harg1 : arg1.IsWhole)
    (arg2 : Memref sig .tc .vmem S1024x40 .f32) (harg2 : arg2.IsWhole)
    (x0 : Vec F S1024x256 .f32) (x1 : Vec F S256x40 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out2_2 x0 x1)) -∗ K ⟨⟩))
      ⊢ wp frame (wpE (defs₀ (F := F)) Variants.none c none) E (cc2__proj_kernel i arg0 harg0 arg1 harg1 arg2 harg2) K := by
  simp only [cc2__proj_kernel_eq_skeleton]; unfold cc2__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of this region on core `c`: the arrays as the region finds them; after the body at point `t` each
    input's buffer still at its block and the output's at the product of the two blocks; the invariant is the
    untouched rest; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- The invariant at entry and at exit is the untouched rest itself. -/
theorem hin2 (c : Dev nD) : (Pipeline.ΦA spec2 c : sProp 𝕄) ⊢ (dat2 V c).Φ 0 := .rfl

theorem hout2 (c : Dev nD) : (dat2 V c).Φ (Fin.last cfg2.N) ⊢ (Pipeline.ΦA spec2 c : sProp 𝕄) := .rfl

end Cert.KernelIdeal.Hand

end
-- ==== Proof.R1RunA.lean ====
/-
  Region 1 — the first layer kernel on its 8 × 8 grid — the body's branch conditions over the grid and the run of
  the body at the first column block of a row block (`k = 0`): the three accumulators are zeroed, the block's
  contribution is added, nothing is stored into the outputs.
-/
import proofs.«156794_j4621384810949_2_alg».proof.Proof.Gen.KernelIdeal.Launch
import proofs.«156794_j4621384810949_2_alg».proof.Proof.Gen.KernelIdeal.Skeleton
import proofs.«156794_j4621384810949_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two branch conditions, decided over the grid -/

/-- The first `scf.if`: the column block is the first one (`k = 0`): the accumulators are reset. -/
abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second `scf.if`: the column block is the last one (`k = 7`): the outputs are written. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## The staging and scratch memrefs the body is called with -/

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x40 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x40 .f32 := win1_6.stage (cfg1.slots t 6)
abbrev hs1_6 (t : Fin cfg1.N) : (ms1_6 t).IsWhole := hstage1_6 ((cfg1.slots t 6).cast nbuf1_6)
/-- The three accumulators: whole scoped buffers of the kernel's own. -/
abbrev scM1_0 : Memref sig .tc .vmem S1024x256 .f32 := Memref.whole cc1_scratch0
abbrev scM1_1 : Memref sig .tc .vmem S1024x40 .f32 := Memref.whole cc1_scratch1
abbrev scM1_2 : Memref sig .tc .vmem S1024x1 .f32 := Memref.whole cc1_scratch2
abbrev VS1_0 : View sig .tc .vmem S1024x256 .f32 := scM1_0.view
abbrev VS1_1 : View sig .tc .vmem S1024x40 .f32 := scM1_1.view
abbrev VS1_2 : View sig .tc .vmem S1024x1 .f32 := scM1_2.view
abbrev VO1_5 : View sig .tc .vmem S1024x256 .f32 := (Memref.whole cc1_stg5_0 : Memref sig .tc .vmem S1024x256 .f32).view
abbrev VO1_6 : View sig .tc .vmem S1024x40 .f32 := (Memref.whole cc1_stg6_0 : Memref sig .tc .vmem S1024x40 .f32).view

/-! ## The body at `k = 0` -/

set_option maxHeartbeats 4000000 in
/-- The pieces the body's stores leave in the three accumulators at a point with `k = 0` (and `k ≠ 7`), with the
    proof that the body runs there: inputs at their contents and handed back, the outputs untouched, the accumulators
    entered at anything. -/
noncomputable def kernelRun1_A (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x256 .f32) (harg4 : arg4.IsWhole) (arg5 : Memref sig .tc .vmem S1024x40 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x40 .f32) (harg8 : arg8.IsWhole) (arg9 : Memref sig .tc .vmem S1024x256 .f32) (harg9 : arg9.IsWhole) (arg10 : Memref sig .tc .vmem S1024x40 .f32) (harg10 : arg10.IsWhole) (arg11 : Memref sig .tc .vmem S1024x1 .f32) (harg11 : arg11.IsWhole) (hc0 : cond1_0 i) (hc1 : ¬cond1_1 i)
    (x0 : Vec F S1024x1024 .f32) (x1 : Vec F S1024x1024 .f32) (x2 : Vec F S1024x256 .f32) (x3 : Vec F S1024x40 .f32) (x4 : Vec F S1x256 .f32) :
    Σ' (LS0 : List (View.Piece (Elt F) S1024x256 .f32)) (LS1 : List (View.Piece (Elt F) S1024x40 .f32)), { LS2 : List (View.Piece (Elt F) S1024x1 .f32) //
      ∀ (d5 : Vec F S1024x256 .f32) (d6 : Vec F S1024x40 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare d5 ∗ owns (c : Thread nD τ) arg8 fullShare d6
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare d5 ∗ owns (c : Thread nD τ) arg8 fullShare d6
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)) -∗ K ⟨⟩))
          ⊢ wp frame (wpE (defs₀ (F := F)) Variants.none c none) E (cc1__layer_kernel i arg2 harg2 arg3 harg3 arg4 harg4 arg5 harg5 arg6 harg6 arg7 harg7 arg8 harg8 arg9 harg9 arg10 harg10 arg11 harg11) K } := by
  refine ⟨?_, ?_, ?_, fun d5 d6 E K => ?run⟩
  case run =>
    simp only [cc1__layer_kernel_eq_skeleton]; unfold cc1__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact hf5
      iexact H5
    isplitl [H6]
    · iexists _; isplitr; · ipureintro; exact hf6
      iexact H6
    isplitl [HS0]; · iexists _; iexact HS0
    isplitl [HS1]; · iexists _; iexact HS1
    iexists _; iexact HS2

end Cert.KernelIdeal.Hand

end
-- ==== Proof.R1RunB.lean ====
/-
  Region 1: the run of the body at an inner column block (`0 < k < 7`): the block's contribution is added to the three
  accumulators, which are entered at what the point before left; nothing is stored into the outputs.
-/
import proofs.«156794_j4621384810949_2_alg».proof.Proof.Gen.KernelIdeal.Launch
import proofs.«156794_j4621384810949_2_alg».proof.Proof.Gen.KernelIdeal.Skeleton
import proofs.«156794_j4621384810949_2_alg».proof.Proof.Gen.KernelIdeal.Points
import proofs.«156794_j4621384810949_2_alg».proof.Proof.R1RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave in the three accumulators at a point with `0 < k < 7`, with the proof that
    the body runs there. -/
noncomputable def kernelRun1_B (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x256 .f32) (harg4 : arg4.IsWhole) (arg5 : Memref sig .tc .vmem S1024x40 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x40 .f32) (harg8 : arg8.IsWhole) (arg9 : Memref sig .tc .vmem S1024x256 .f32) (harg9 : arg9.IsWhole) (arg10 : Memref sig .tc .vmem S1024x40 .f32) (harg10 : arg10.IsWhole) (arg11 : Memref sig .tc .vmem S1024x1 .f32) (harg11 : arg11.IsWhole) (hc0 : ¬cond1_0 i) (hc1 : ¬cond1_1 i)
    (x0 : Vec F S1024x1024 .f32) (x1 : Vec F S1024x1024 .f32) (x2 : Vec F S1024x256 .f32) (x3 : Vec F S1024x40 .f32) (x4 : Vec F S1x256 .f32) (xs0 : Vec F S1024x256 .f32) (xs1 : Vec F S1024x40 .f32) (xs2 : Vec F S1024x1 .f32) :
    Σ' (LS0 : List (View.Piece (Elt F) S1024x256 .f32)) (LS1 : List (View.Piece (Elt F) S1024x40 .f32)), { LS2 : List (View.Piece (Elt F) S1024x1 .f32) //
      ∀ (d5 : Vec F S1024x256 .f32) (d6 : Vec F S1024x40 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare d5 ∗ owns (c : Thread nD τ) arg8 fullShare d6
            ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare d5 ∗ owns (c : Thread nD τ) arg8 fullShare d6
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)) -∗ K ⟨⟩))
          ⊢ wp frame (wpE (defs₀ (F := F)) Variants.none c none) E (cc1__layer_kernel i arg2 harg2 arg3 harg3 arg4 harg4 arg5 harg5 arg6 harg6 arg7 harg7 arg8 harg8 arg9 harg9 arg10 harg10 arg11 harg11) K } := by
  refine ⟨?_, ?_, ?_, fun d5 d6 E K => ?run⟩
  case run =>
    simp only [cc1__layer_kernel_eq_skeleton]; unfold cc1__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact hf5
      iexact H5
    isplitl [H6]
    · iexists _; isplitr; · ipureintro; exact hf6
      iexact H6
    isplitl [HS0]; · iexists _; iexact HS0
    isplitl [HS1]; · iexists _; iexact HS1
    iexists _; iexact HS2

end Cert.KernelIdeal.Hand

end
-- ==== Proof.R1RunC.lean ====
/-
  Region 1: the run of the body at the last column block of a row block (`k = 7`): the block's contribution is added
  to the accumulators, then the two output blocks are stored: the feature accumulator times the inverse clipped
  row norm plus the bias, rectified; the label accumulator times the same inverse.
-/
import proofs.«156794_j4621384810949_2_alg».proof.Proof.Gen.KernelIdeal.Launch
import proofs.«156794_j4621384810949_2_alg».proof.Proof.Gen.KernelIdeal.Skeleton
import proofs.«156794_j4621384810949_2_alg».proof.Proof.Gen.KernelIdeal.Points
import proofs.«156794_j4621384810949_2_alg».proof.Proof.R1RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave in the two output blocks and the three accumulators at a point with `k = 7`,
    with the proof that the body runs there. -/
noncomputable def kernelRun1_C (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x256 .f32) (harg4 : arg4.IsWhole) (arg5 : Memref sig .tc .vmem S1024x40 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x40 .f32) (harg8 : arg8.IsWhole) (arg9 : Memref sig .tc .vmem S1024x256 .f32) (harg9 : arg9.IsWhole) (arg10 : Memref sig .tc .vmem S1024x40 .f32) (harg10 : arg10.IsWhole) (arg11 : Memref sig .tc .vmem S1024x1 .f32) (harg11 : arg11.IsWhole) (hc0 : ¬cond1_0 i) (hc1 : cond1_1 i)
    (x0 : Vec F S1024x1024 .f32) (x1 : Vec F S1024x1024 .f32) (x2 : Vec F S1024x256 .f32) (x3 : Vec F S1024x40 .f32) (x4 : Vec F S1x256 .f32) (xs0 : Vec F S1024x256 .f32) (xs1 : Vec F S1024x40 .f32) (xs2 : Vec F S1024x1 .f32) :
    Σ' (L5 : List (View.Piece (Elt F) S1024x256 .f32)) (L6 : List (View.Piece (Elt F) S1024x40 .f32)) (LS0 : List (View.Piece (Elt F) S1024x256 .f32)) (LS1 : List (View.Piece (Elt F) S1024x40 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)) -∗ K ⟨⟩))
          ⊢ wp frame (wpE (defs₀ (F := F)) Variants.none c none) E (cc1__layer_kernel i arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc1__layer_kernel_eq_skeleton]; unfold cc1__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]; · iexists _; iexact HS0
    isplitl [HS1]; · iexists _; iexact HS1
    iexists _; iexact HS2

end Cert.KernelIdeal.Hand

end
-- ==== Proof.R1Data.lean ====
/-
  Region 1 — the first layer kernel on its 8 × 8 grid: what the three accumulators and the two output blocks hold
  after every grid point, by recursion on the point; the region's invariant (the accumulators at those contents); the
  proof data; and the body obligation, by cases on the column block `k` of the point (`k = 0`: reset and add;
  `0 < k < 7`: add; `k = 7`: add and write the two output blocks).
-/
import proofs.«156794_j4621384810949_2_alg».proof.Proof.Gen.KernelIdeal.Launch
import proofs.«156794_j4621384810949_2_alg».proof.Proof.Gen.KernelIdeal.Skeleton
import proofs.«156794_j4621384810949_2_alg».proof.Proof.Gen.KernelIdeal.Points
import proofs.«156794_j4621384810949_2_alg».proof.Proof.R1RunB
import proofs.«156794_j4621384810949_2_alg».proof.Proof.R1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the window's view at that point read off the array the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, brought in there or still there from an
    earlier point (the bias row is brought in once). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## Where the output windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Off the last column block the two output windows are idle and not written back; at it they are live. -/
theorem idleAt1_5 : ∀ t : Fin cfg1.N, ¬cond1_1 (grid1.coords t) → cfg1.idle 5 (grid1.coords t) = true := by decide +kernel
theorem idleAt1_6 : ∀ t : Fin cfg1.N, ¬cond1_1 (grid1.coords t) → cfg1.idle 6 (grid1.coords t) = true := by decide +kernel
theorem noFlush1_5 : ∀ t : Fin cfg1.N, ¬cond1_1 (grid1.coords t) → (cfg1.win 5).flush t = false := by decide +kernel
theorem noFlush1_6 : ∀ t : Fin cfg1.N, ¬cond1_1 (grid1.coords t) → (cfg1.win 6).flush t = false := by decide +kernel
theorem liveAt1_5 : ∀ t : Fin cfg1.N, cond1_1 (grid1.coords t) → cfg1.idle 5 (grid1.coords t) = false := by decide +kernel
theorem liveAt1_6 : ∀ t : Fin cfg1.N, cond1_1 (grid1.coords t) → cfg1.idle 6 (grid1.coords t) = false := by decide +kernel

/-! ## The region's untouched rest -/

/-- Every scoped buffer of the core other than the three accumulators, unopened. -/
abbrev Rest1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- What the launch hands the region: the three accumulators at some contents, the rest, the generator register. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d))
          ∗ Rest1 (F := F) c) ∗ (∃ r, prngReg c r)) := by
  unfold Pipeline.ΦA; rw [scopedRest1_split]; simp only [scM1_0, scM1_1, scM1_2, owns_whole]; try rfl

/-! ## What one point leaves, by the point's column block -/

/-- What the two output blocks and the three accumulators hold after a point. -/
abbrev Outs1 : Type := Vec F S1024x256 .f32 × Vec F S1024x40 .f32 × Vec F S1024x256 .f32 × Vec F S1024x40 .f32 × Vec F S1024x1 .f32

/-- Contents nothing consults: an output block at a point where the body stores nothing into it. -/
def junk1_5 : Vec F S1024x256 .f32 := VO1_5.read (Elt F) VO1_5.junk
def junk1_6 : Vec F S1024x40 .f32 := VO1_6.read (Elt F) VO1_6.junk

theorem notC_of_A {t : Fin cfg1.N} (h0 : t.val % 8 = 0) : ¬cond1_1 (grid1.coords t) :=
  fun h => by have := (hcond1_1 t).mp h; omega

/-- The body's run at a point with `k = 0`. -/
abbrev runA (c : Dev nD) (t : Fin cfg1.N) (h0 : t.val % 8 = 0) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (notC_of_A h0) (iblk1 V c 0 t) (iblk1 V c 1 t) (iblk1 V c 2 t) (iblk1 V c 3 t) (iblk1 V c 4 t)
/-- The body's run at a point with `0 < k < 7`, the accumulators entered at `xs`. -/
abbrev runB (c : Dev nD) (t : Fin cfg1.N) (h0 : ¬t.val % 8 = 0) (h1 : ¬t.val % 8 = 7) (xs0 : Vec F S1024x256 .f32) (xs1 : Vec F S1024x40 .f32) (xs2 : Vec F S1024x1 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs0 xs1 xs2
/-- The body's run at a point with `k = 7`, the accumulators entered at `xs`. -/
abbrev runC (c : Dev nD) (t : Fin cfg1.N) (h0 : ¬t.val % 8 = 0) (h1 : t.val % 8 = 7) (xs0 : Vec F S1024x256 .f32) (xs1 : Vec F S1024x40 .f32) (xs2 : Vec F S1024x1 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) xs0 xs1 xs2

/-- After a point with `k = 0`: the accumulators at the run's pieces read back; the outputs untouched. -/
def stepA (c : Dev nD) (t : Fin cfg1.N) (h0 : t.val % 8 = 0) : Outs1 (F := F) :=
  (junk1_5, junk1_6,
    VS1_0.read (Elt F) (VS1_0.writes (Elt F) VS1_0.junk (runA V c t h0).1),
    VS1_1.read (Elt F) (VS1_1.writes (Elt F) VS1_1.junk (runA V c t h0).2.1),
    VS1_2.read (Elt F) (VS1_2.writes (Elt F) VS1_2.junk (runA V c t h0).2.2.1))

/-- After a point with `0 < k < 7`, from what the point before left. -/
def stepB (c : Dev nD) (t : Fin cfg1.N) (h0 : ¬t.val % 8 = 0) (h1 : ¬t.val % 8 = 7) (prev : Outs1 (F := F)) : Outs1 (F := F) :=
  (junk1_5, junk1_6,
    VS1_0.read (Elt F) (VS1_0.writes (Elt F) VS1_0.junk (runB V c t h0 h1 prev.2.2.1 prev.2.2.2.1 prev.2.2.2.2).1),
    VS1_1.read (Elt F) (VS1_1.writes (Elt F) VS1_1.junk (runB V c t h0 h1 prev.2.2.1 prev.2.2.2.1 prev.2.2.2.2).2.1),
    VS1_2.read (Elt F) (VS1_2.writes (Elt F) VS1_2.junk (runB V c t h0 h1 prev.2.2.1 prev.2.2.2.1 prev.2.2.2.2).2.2.1))

/-- After a point with `k = 7`, from what the point before left: the output blocks written too. -/
def stepC (c : Dev nD) (t : Fin cfg1.N) (h0 : ¬t.val % 8 = 0) (h1 : t.val % 8 = 7) (prev : Outs1 (F := F)) : Outs1 (F := F) :=
  (VO1_5.read (Elt F) (VO1_5.writes (Elt F) VO1_5.junk (runC V c t h0 h1 prev.2.2.1 prev.2.2.2.1 prev.2.2.2.2).1),
    VO1_6.read (Elt F) (VO1_6.writes (Elt F) VO1_6.junk (runC V c t h0 h1 prev.2.2.1 prev.2.2.2.1 prev.2.2.2.2).2.1),
    VS1_0.read (Elt F) (VS1_0.writes (Elt F) VS1_0.junk (runC V c t h0 h1 prev.2.2.1 prev.2.2.2.1 prev.2.2.2.2).2.2.1),
    VS1_1.read (Elt F) (VS1_1.writes (Elt F) VS1_1.junk (runC V c t h0 h1 prev.2.2.1 prev.2.2.2.1 prev.2.2.2.2).2.2.2.1),
    VS1_2.read (Elt F) (VS1_2.writes (Elt F) VS1_2.junk (runC V c t h0 h1 prev.2.2.1 prev.2.2.2.1 prev.2.2.2.2).2.2.2.2.1))

/-! ### The pieces cover their buffers -/

theorem scoverA_0 (c : Dev nD) (t : Fin cfg1.N) (h0 : t.val % 8 = 0) (y : S1024x256.Idx) : ∃ pc ∈ (runA V c t h0).1, y ∈ pc.1.set :=
  View.cover_of_tiledL (runA V c t h0).1 S1024x256.size (by sl_kernel_rfl) y
theorem scoverA_1 (c : Dev nD) (t : Fin cfg1.N) (h0 : t.val % 8 = 0) (y : S1024x40.Idx) : ∃ pc ∈ (runA V c t h0).2.1, y ∈ pc.1.set :=
  View.cover_of_tiledL (runA V c t h0).2.1 S1024x40.size (by sl_kernel_rfl) y
theorem scoverA_2 (c : Dev nD) (t : Fin cfg1.N) (h0 : t.val % 8 = 0) (y : S1024x1.Idx) : ∃ pc ∈ (runA V c t h0).2.2.1, y ∈ pc.1.set :=
  View.cover_of_tiledL (runA V c t h0).2.2.1 S1024x1.size (by sl_kernel_rfl) y
theorem scoverB_0 (c : Dev nD) (t : Fin cfg1.N) (h0 : ¬t.val % 8 = 0) (h1 : ¬t.val % 8 = 7) (xs0 : Vec F S1024x256 .f32) (xs1 : Vec F S1024x40 .f32) (xs2 : Vec F S1024x1 .f32) (y : S1024x256.Idx) : ∃ pc ∈ (runB V c t h0 h1 xs0 xs1 xs2).1, y ∈ pc.1.set :=
  View.cover_of_tiledL (runB V c t h0 h1 xs0 xs1 xs2).1 S1024x256.size (by sl_kernel_rfl) y
theorem scoverB_1 (c : Dev nD) (t : Fin cfg1.N) (h0 : ¬t.val % 8 = 0) (h1 : ¬t.val % 8 = 7) (xs0 : Vec F S1024x256 .f32) (xs1 : Vec F S1024x40 .f32) (xs2 : Vec F S1024x1 .f32) (y : S1024x40.Idx) : ∃ pc ∈ (runB V c t h0 h1 xs0 xs1 xs2).2.1, y ∈ pc.1.set :=
  View.cover_of_tiledL (runB V c t h0 h1 xs0 xs1 xs2).2.1 S1024x40.size (by sl_kernel_rfl) y
theorem scoverB_2 (c : Dev nD) (t : Fin cfg1.N) (h0 : ¬t.val % 8 = 0) (h1 : ¬t.val % 8 = 7) (xs0 : Vec F S1024x256 .f32) (xs1 : Vec F S1024x40 .f32) (xs2 : Vec F S1024x1 .f32) (y : S1024x1.Idx) : ∃ pc ∈ (runB V c t h0 h1 xs0 xs1 xs2).2.2.1, y ∈ pc.1.set :=
  View.cover_of_tiledL (runB V c t h0 h1 xs0 xs1 xs2).2.2.1 S1024x1.size (by sl_kernel_rfl) y
theorem coverC_5 (c : Dev nD) (t : Fin cfg1.N) (h0 : ¬t.val % 8 = 0) (h1 : t.val % 8 = 7) (xs0 : Vec F S1024x256 .f32) (xs1 : Vec F S1024x40 .f32) (xs2 : Vec F S1024x1 .f32) (y : S1024x256.Idx) : ∃ pc ∈ (runC V c t h0 h1 xs0 xs1 xs2).1, y ∈ pc.1.set :=
  View.cover_of_tiledL (runC V c t h0 h1 xs0 xs1 xs2).1 S1024x256.size (by sl_kernel_rfl) y
theorem coverC_6 (c : Dev nD) (t : Fin cfg1.N) (h0 : ¬t.val % 8 = 0) (h1 : t.val % 8 = 7) (xs0 : Vec F S1024x256 .f32) (xs1 : Vec F S1024x40 .f32) (xs2 : Vec F S1024x1 .f32) (y : S1024x40.Idx) : ∃ pc ∈ (runC V c t h0 h1 xs0 xs1 xs2).2.1, y ∈ pc.1.set :=
  View.cover_of_tiledL (runC V c t h0 h1 xs0 xs1 xs2).2.1 S1024x40.size (by sl_kernel_rfl) y
theorem scoverC_0 (c : Dev nD) (t : Fin cfg1.N) (h0 : ¬t.val % 8 = 0) (h1 : t.val % 8 = 7) (xs0 : Vec F S1024x256 .f32) (xs1 : Vec F S1024x40 .f32) (xs2 : Vec F S1024x1 .f32) (y : S1024x256.Idx) : ∃ pc ∈ (runC V c t h0 h1 xs0 xs1 xs2).2.2.1, y ∈ pc.1.set :=
  View.cover_of_tiledL (runC V c t h0 h1 xs0 xs1 xs2).2.2.1 S1024x256.size (by sl_kernel_rfl) y
theorem scoverC_1 (c : Dev nD) (t : Fin cfg1.N) (h0 : ¬t.val % 8 = 0) (h1 : t.val % 8 = 7) (xs0 : Vec F S1024x256 .f32) (xs1 : Vec F S1024x40 .f32) (xs2 : Vec F S1024x1 .f32) (y : S1024x40.Idx) : ∃ pc ∈ (runC V c t h0 h1 xs0 xs1 xs2).2.2.2.1, y ∈ pc.1.set :=
  View.cover_of_tiledL (runC V c t h0 h1 xs0 xs1 xs2).2.2.2.1 S1024x40.size (by sl_kernel_rfl) y
theorem scoverC_2 (c : Dev nD) (t : Fin cfg1.N) (h0 : ¬t.val % 8 = 0) (h1 : t.val % 8 = 7) (xs0 : Vec F S1024x256 .f32) (xs1 : Vec F S1024x40 .f32) (xs2 : Vec F S1024x1 .f32) (y : S1024x1.Idx) : ∃ pc ∈ (runC V c t h0 h1 xs0 xs1 xs2).2.2.2.2.1, y ∈ pc.1.set :=
  View.cover_of_tiledL (runC V c t h0 h1 xs0 xs1 xs2).2.2.2.2.1 S1024x1.size (by sl_kernel_rfl) y

/-! ## What the buffers hold after each point -/

/-- THE ACCUMULATION: what the output blocks and the accumulators hold after the body at position `n`, by recursion
    on the position: the step of the position's column block over what the position before left. -/
def outsAt1 (c : Dev nD) : (n : ℕ) → n < cfg1.N → Outs1 (F := F)
  | 0, hn => stepA V c ⟨0, hn⟩ (Nat.zero_mod _)
  | n + 1, hn =>
    if h0 : (n + 1) % 8 = 0 then stepA V c ⟨n + 1, hn⟩ h0
    else if h1 : (n + 1) % 8 = 7 then stepC V c ⟨n + 1, hn⟩ h0 h1 (outsAt1 c n (Nat.lt_of_succ_lt hn))
    else stepB V c ⟨n + 1, hn⟩ h0 h1 (outsAt1 c n (Nat.lt_of_succ_lt hn))

theorem outsAt1_A (c : Dev nD) (t : Fin cfg1.N) (h0 : t.val % 8 = 0) : outsAt1 V c t.val t.isLt = stepA V c t h0 := by
  obtain ⟨n, hn⟩ := t
  cases n with
  | zero => rfl
  | succ n => exact (dif_pos h0).trans rfl

theorem outsAt1_B (c : Dev nD) (t : Fin cfg1.N) (h0 : ¬t.val % 8 = 0) (h1 : ¬t.val % 8 = 7) :
    outsAt1 V c t.val t.isLt = stepB V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = stepC V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The region invariant before position `n`: before the first point what the launch hands over; afterwards the three
    accumulators at what the position before left, the rest and the generator register. -/
def PhiS1 (c : Dev nD) : (n : ℕ) → n ≤ cfg1.N → sProp 𝕄
  | 0, _ => Pipeline.ΦA spec1 c
  | n + 1, hn => iprop(iprop(iprop(owns (c : Thread nD τ) scM1_0 fullShare (outsAt1 V c n hn).2.2.1 ∗ owns (c : Thread nD τ) scM1_1 fullShare (outsAt1 V c n hn).2.2.2.1 ∗ owns (c : Thread nD τ) scM1_2 fullShare (outsAt1 V c n hn).2.2.2.2)
      ∗ Rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (outsAt1 V c n hn).2.2.1 ∗ owns (c : Thread nD τ) scM1_1 fullShare (outsAt1 V c n hn).2.2.2.1 ∗ owns (c : Thread nD τ) scM1_2 fullShare (outsAt1 V c n hn).2.2.2.2)
      ∗ Rest1 (F := F) c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (outsAt1 V c (n - 1) (by omega)).2.2.1 ∗ owns (c : Thread nD τ) scM1_1 fullShare (outsAt1 V c (n - 1) (by omega)).2.2.2.1 ∗ owns (c : Thread nD τ) scM1_2 fullShare (outsAt1 V c (n - 1) (by omega)).2.2.2.2)
      ∗ Rest1 (F := F) c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2.1 := by dsimp only [dat1]

theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d
theorem before1_4 (c : Dev nD) (t : Fin cfg1.N) (d) : (dat1 V c).before 4 t d = iblk1 V c 4 t := before1_4_of V (dat1 V c) (A_eq1 V c 4) (after1_4 V c) t d

end Cert.KernelIdeal.Hand

end
-- ==== Proof.R1Body.lean ====
/-
  Region 1: the body obligation. At every grid point the body, called with the input windows' blocks, the output
  windows' buffers and the accumulators as the point before left them, runs and leaves the accumulators (and at the last
  column block the two output blocks) at the contents the recursion names.
-/
import proofs.«156794_j4621384810949_2_alg».proof.Proof.Gen.KernelIdeal.Launch
import proofs.«156794_j4621384810949_2_alg».proof.Proof.Gen.KernelIdeal.Skeleton
import proofs.«156794_j4621384810949_2_alg».proof.Proof.Gen.KernelIdeal.Points
import proofs.«156794_j4621384810949_2_alg».proof.Proof.R1Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- What it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t ∗ (dat1 V c).leavesExact 5 t ∗ (dat1 V c).leavesExact 6 t)

theorem leaves1_in (c : Dev nD) (t : Fin cfg1.N) :
    (dat1 V c).leavesExact 0 t = owns (c : Thread nD τ) (ms1_0 t) fullShare (iblk1 V c 0 t)
    ∧ (dat1 V c).leavesExact 1 t = owns (c : Thread nD τ) (ms1_1 t) fullShare (iblk1 V c 1 t)
    ∧ (dat1 V c).leavesExact 2 t = owns (c : Thread nD τ) (ms1_2 t) fullShare (iblk1 V c 2 t)
    ∧ (dat1 V c).leavesExact 3 t = owns (c : Thread nD τ) (ms1_3 t) fullShare (iblk1 V c 3 t)
    ∧ (dat1 V c).leavesExact 4 t = owns (c : Thread nD τ) (ms1_4 t) fullShare (iblk1 V c 4 t) := by
  refine ⟨?_, ?_, ?_, ?_, ?_⟩
  · unfold Dat.leavesExact; rw [liveAt1_0 t, after1_0]
  · unfold Dat.leavesExact; rw [liveAt1_1 t, after1_1]
  · unfold Dat.leavesExact; rw [liveAt1_2 t, after1_2]
  · unfold Dat.leavesExact; rw [liveAt1_3 t, after1_3]
  · unfold Dat.leavesExact; rw [liveAt1_4 t, after1_4]

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  obtain ⟨hl0, hl1, hl2, hl3, hl4⟩ := leaves1_in V c t
  rw [hl0, hl1, hl2, hl3, hl4]
  have hN : t.val < 64 := lt_of_lt_of_eq t.isLt (show cfg1.N = 64 from N_1)
  by_cases h0 : t.val % 8 = 0
  · -- the first column block: the accumulators are entered at anything
    have hc1 : ¬cond1_1 (grid1.coords t) := notC_of_A h0
    rw [Dat.leavesExact_idle (dat1 V c) 5 t (idleAt1_5 t hc1) (noFlush1_5 t hc1),
      Dat.leavesExact_idle (dat1 V c) 6 t (idleAt1_6 t hc1) (noFlush1_6 t hc1)]
    rw [outsAt1_A V c t h0]
    unfold stepA; (try dsimp only)
    have hΦ : (dat1 V c).Φ t.castSucc ⊢ iprop(iprop(iprop((∃ d, owns (c : Thread nD τ) scM1_0 fullShare d) ∗ (∃ d, owns (c : Thread nD τ) scM1_1 fullShare d) ∗ (∃ d, owns (c : Thread nD τ) scM1_2 fullShare d))
          ∗ Rest1 (F := F) c) ∗ (∃ r, prngReg c r)) := by
      by_cases hz : t.val = 0
      · rw [PhiS1_castSucc V c t, PhiS1_zero V c _ _ hz, PhiA1_eq]; try exact .rfl
      · rw [PhiS1_castSucc V c t, PhiS1_pos V c _ _ hz]
        iintro ⟨⟨⟨HS0, HS1, HS2⟩, Hrest⟩, Hg⟩
        isplitl [HS0 HS1 HS2 Hrest]
        · isplitl [HS0 HS1 HS2]
          · isplitl [HS0]; · iexists _; iexact HS0
            isplitl [HS1]; · iexists _; iexact HS1
            iexists _; iexact HS2
          iexact Hrest
        iexact Hg
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := hΦ $$ HΦ
    icases HΦ' with ⟨⟨⟨HS0, HS1, HS2⟩, Hrest⟩, Hg⟩
    iapply ((runA V c t h0).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, ⟨%es0, HS0⟩, ⟨%es1, HS1⟩, ⟨%es2, HS2⟩⟩
    isplitl [HS0 HS1 HS2 Hrest Hg]
    · isplitl [HS0 HS1 HS2 Hrest]
      · isplitl [HS0 HS1 HS2]
        · isplitl [HS0]
          · unfold owns; iexists _; isplitr
            swap; · iexact HS0
            ipureintro; exact View.read_writes_of_cover _ _ _ _ _ (scoverA_0 V c t h0)
          isplitl [HS1]
          · unfold owns; iexists _; isplitr
            swap; · iexact HS1
            ipureintro; exact View.read_writes_of_cover _ _ _ _ _ (scoverA_1 V c t h0)
          unfold owns; iexists _; isplitr
          swap; · iexact HS2
          ipureintro; exact View.read_writes_of_cover _ _ _ _ _ (scoverA_2 V c t h0)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hz : t.val ≠ 0 := fun h => h0 (by rw [h])
    by_cases h1 : t.val % 8 = 7
    · -- the last column block: the outputs are written
      have hc1 : cond1_1 (grid1.coords t) := (hcond1_1 t).mpr h1
      rw [show (dat1 V c).leavesExact 5 t = owns (c : Thread nD τ) (ms1_5 t) fullShare ((dat1 V c).after 5 t) from by
          unfold Dat.leavesExact; rw [liveAt1_5 t hc1], after1_5,
        show (dat1 V c).leavesExact 6 t = owns (c : Thread nD τ) (ms1_6 t) fullShare ((dat1 V c).after 6 t) from by
          unfold Dat.leavesExact; rw [liveAt1_6 t hc1], after1_6]
      rw [outsAt1_C V c t h0 h1]
      unfold stepC; (try dsimp only)
      rw [PhiS1_castSucc V c t, PhiS1_pos V c _ _ hz]
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((runC V c t h0 h1 _ _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, H4, ⟨%e5, H5⟩, ⟨%e6, H6⟩, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scoverC_0 V c t h0 h1 _ _ _)
            isplitl [HS1]
            · unfold owns; iexists _; isplitr
              swap; · iexact HS1
              ipureintro; exact View.read_writes_of_cover _ _ _ _ _ (scoverC_1 V c t h0 h1 _ _ _)
            unfold owns; iexists _; isplitr
            swap; · iexact HS2
            ipureintro; exact View.read_writes_of_cover _ _ _ _ _ (scoverC_2 V c t h0 h1 _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverC_5 V c t h0 h1 _ _ _)
      unfold owns; iexists _; isplitr
      swap; · iexact H6
      ipureintro; exact View.read_writes_of_cover _ _ _ _ _ (coverC_6 V c t h0 h1 _ _ _)
    · -- an inner column block
      have hc1 : ¬cond1_1 (grid1.coords t) := fun h => h1 ((hcond1_1 t).mp h)
      rw [Dat.leavesExact_idle (dat1 V c) 5 t (idleAt1_5 t hc1) (noFlush1_5 t hc1),
        Dat.leavesExact_idle (dat1 V c) 6 t (idleAt1_6 t hc1) (noFlush1_6 t hc1)]
      rw [outsAt1_B V c t h0 h1]
      unfold stepB; (try dsimp only)
      rw [PhiS1_castSucc V c t, PhiS1_pos V c _ _ hz]
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((runB V c t h0 h1 _ _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scoverB_0 V c t h0 h1 _ _ _)
            isplitl [HS1]
            · unfold owns; iexists _; isplitr
              swap; · iexact HS1
              ipureintro; exact View.read_writes_of_cover _ _ _ _ _ (scoverB_1 V c t h0 h1 _ _ _)
            unfold owns; iexists _; isplitr
            swap; · iexact HS2
            ipureintro; exact View.read_writes_of_cover _ _ _ _ _ (scoverB_2 V c t h0 h1 _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact .rfl

/-- After the last point the invariant gives the launch's rest back: the accumulators' contents are forgotten. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨⟨HS0, HS1, HS2⟩, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

end Cert.KernelIdeal.Hand

end
-- ==== Proof.RegR1.lean ====
/- Region 1: its proof data and body obligation, under the names the assembly uses. -/
import proofs.«156794_j4621384810949_2_alg».proof.Proof.R1Body
-- ==== Proof.R3RunA.lean ====
/-
  Region 3 — the second layer kernel, with the logarithm of the softmax fused in, on its 8 × 8 grid — the body's branch conditions over the grid and the run of
  the body at the first column block of a row block (`k = 0`): the three accumulators are zeroed, the block's
  contribution is added, nothing is stored into the outputs.
-/
import proofs.«156794_j4621384810949_2_alg».proof.Proof.Gen.KernelIdeal.Launch
import proofs.«156794_j4621384810949_2_alg».proof.Proof.Gen.KernelIdeal.Skeleton
import proofs.«156794_j4621384810949_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two branch conditions, decided over the grid -/

/-- The first `scf.if`: the column block is the first one (`k = 0`): the accumulators are reset. -/
abbrev cond3_0 (i : grid3.Coords) : Prop :=
  (Scalar.cmpi .ne (Scalar.extui (Scalar.cmpi .eq (BitVec.ofNat 32 (i 1).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)

/-- The second `scf.if`: the column block is the last one (`k = 7`): the outputs are written. -/
abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

/-! ## The staging and scratch memrefs the body is called with -/

abbrev ms3_0 (t : Fin cfg3.N) : Memref sig .tc .vmem S1024x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x40 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x40 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x40 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1024x40 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1024x40 .f32 := win3_6.stage (cfg3.slots t 6)
abbrev hs3_6 (t : Fin cfg3.N) : (ms3_6 t).IsWhole := hstage3_6 ((cfg3.slots t 6).cast nbuf3_6)
/-- The three accumulators: whole scoped buffers of the kernel's own. -/
abbrev scM3_0 : Memref sig .tc .vmem S1024x40 .f32 := Memref.whole cc3_scratch0
abbrev scM3_1 : Memref sig .tc .vmem S1024x40 .f32 := Memref.whole cc3_scratch1
abbrev scM3_2 : Memref sig .tc .vmem S1024x1 .f32 := Memref.whole cc3_scratch2
abbrev VS3_0 : View sig .tc .vmem S1024x40 .f32 := scM3_0.view
abbrev VS3_1 : View sig .tc .vmem S1024x40 .f32 := scM3_1.view
abbrev VS3_2 : View sig .tc .vmem S1024x1 .f32 := scM3_2.view
abbrev VO3_5 : View sig .tc .vmem S1024x40 .f32 := (Memref.whole cc3_stg5_0 : Memref sig .tc .vmem S1024x40 .f32).view
abbrev VO3_6 : View sig .tc .vmem S1024x40 .f32 := (Memref.whole cc3_stg6_0 : Memref sig .tc .vmem S1024x40 .f32).view

/-! ## The body at `k = 0` -/

set_option maxHeartbeats 4000000 in
/-- The pieces the body's stores leave in the three accumulators at a point with `k = 0` (and `k ≠ 7`), with the
    proof that the body runs there: inputs at their contents and handed back, the outputs untouched, the accumulators
    entered at anything. -/
noncomputable def kernelRun3_A (c : Dev nD) (i : grid3.Coords) (arg2 : Memref sig .tc .vmem S1024x1024 .f32) (harg2 : arg2.IsWhole) (arg3 : Memref sig .tc .vmem S1024x1024 .f32) (harg3 : arg3.IsWhole) (arg4 : Memref sig .tc .vmem S1024x40 .f32) (harg4 : arg4.IsWhole) (arg5 : Memref sig .tc .vmem S1024x40 .f32) (harg5 : arg5.IsWhole) (arg6 : Memref sig .tc .vmem S1x40 .f32) (harg6 : arg6.IsWhole) (arg7 : Memref sig .tc .vmem S1024x40 .f32) (harg7 : arg7.IsWhole) (arg8 : Memref sig .tc .vmem S1024x40 .f32) (harg8 : arg8.IsWhole) (arg9 : Memref sig .tc .vmem S1024x40 .f32) (harg9 : arg9.IsWhole) (arg10 : Memref sig .tc .vmem S1024x40 .f32) (harg10 : arg10.IsWhole) (arg11 : Memref sig .tc .vmem S1024x1 .f32) (harg11 : arg11.IsWhole) (hc0 : cond3_0 i) (hc1 : ¬cond3_1 i)
    (x0 : Vec F S1024x1024 .f32) (x1 : Vec F S1024x1024 .f32) (x2 : Vec F S1024x40 .f32) (x3 : Vec F S1024x40 .f32) (x4 : Vec F S1x40 .f32) :
    Σ' (LS0 : List (View.Piece (Elt F) S1024x40 .f32)) (LS1 : List (View.Piece (Elt F) S1024x40 .f32)), { LS2 : List (View.Piece (Elt F) S1024x1 .f32) //
      ∀ (d5 : Vec F S1024x40 .f32) (d6 : Vec F S1024x40 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare d5 ∗ owns (c : Thread nD τ) arg8 fullShare d6
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare d5 ∗ owns (c : Thread nD τ) arg8 fullShare d6
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)) -∗ K ⟨⟩))
          ⊢ wp frame (wpE (defs₀ (F := F)) Variants.none c none) E (cc3__layer_kernel i arg2 harg2 arg3 harg3 arg4 harg4 arg5 harg5 arg6 harg6 arg7 harg7 arg8 harg8 arg9 harg9 arg10 harg10 arg11 harg11) K } := by
  refine ⟨?_, ?_, ?_, fun d5 d6 E K => ?run⟩
  case run =>
    simp only [cc3__layer_kernel_eq_skeleton]; unfold cc3__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact hf5
      iexact H5
    isplitl [H6]
    · iexists _; isplitr; · ipureintro; exact hf6
      iexact H6
    isplitl [HS0]; · iexists _; iexact HS0
    isplitl [HS1]; · iexists _; iexact HS1
    iexists _; iexact HS2

end Cert.KernelIdeal.Hand

end
-- ==== Proof.R3RunB.lean ====
/-
  Region 3: the run of the body at an inner column block (`0 < k < 7`): the block's contribution is added to the three
  accumulators, which are entered at what the point before left; nothing is stored into the outputs.
-/
import proofs.«156794_j4621384810949_2_alg».proof.Proof.Gen.KernelIdeal.Launch
import proofs.«156794_j4621384810949_2_alg».proof.Proof.Gen.KernelIdeal.Skeleton
import proofs.«156794_j4621384810949_2_alg».proof.Proof.Gen.KernelIdeal.Points
import proofs.«156794_j4621384810949_2_alg».proof.Proof.R3RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave in the three accumulators at a point with `0 < k < 7`, with the proof that
    the body runs there. -/
noncomputable def kernelRun3_B (c : Dev nD) (i : grid3.Coords) (arg2 : Memref sig .tc .vmem S1024x1024 .f32) (harg2 : arg2.IsWhole) (arg3 : Memref sig .tc .vmem S1024x1024 .f32) (harg3 : arg3.IsWhole) (arg4 : Memref sig .tc .vmem S1024x40 .f32) (harg4 : arg4.IsWhole) (arg5 : Memref sig .tc .vmem S1024x40 .f32) (harg5 : arg5.IsWhole) (arg6 : Memref sig .tc .vmem S1x40 .f32) (harg6 : arg6.IsWhole) (arg7 : Memref sig .tc .vmem S1024x40 .f32) (harg7 : arg7.IsWhole) (arg8 : Memref sig .tc .vmem S1024x40 .f32) (harg8 : arg8.IsWhole) (arg9 : Memref sig .tc .vmem S1024x40 .f32) (harg9 : arg9.IsWhole) (arg10 : Memref sig .tc .vmem S1024x40 .f32) (harg10 : arg10.IsWhole) (arg11 : Memref sig .tc .vmem S1024x1 .f32) (harg11 : arg11.IsWhole) (hc0 : ¬cond3_0 i) (hc1 : ¬cond3_1 i)
    (x0 : Vec F S1024x1024 .f32) (x1 : Vec F S1024x1024 .f32) (x2 : Vec F S1024x40 .f32) (x3 : Vec F S1024x40 .f32) (x4 : Vec F S1x40 .f32) (xs0 : Vec F S1024x40 .f32) (xs1 : Vec F S1024x40 .f32) (xs2 : Vec F S1024x1 .f32) :
    Σ' (LS0 : List (View.Piece (Elt F) S1024x40 .f32)) (LS1 : List (View.Piece (Elt F) S1024x40 .f32)), { LS2 : List (View.Piece (Elt F) S1024x1 .f32) //
      ∀ (d5 : Vec F S1024x40 .f32) (d6 : Vec F S1024x40 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare d5 ∗ owns (c : Thread nD τ) arg8 fullShare d6
            ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare d5 ∗ owns (c : Thread nD τ) arg8 fullShare d6
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)) -∗ K ⟨⟩))
          ⊢ wp frame (wpE (defs₀ (F := F)) Variants.none c none) E (cc3__layer_kernel i arg2 harg2 arg3 harg3 arg4 harg4 arg5 harg5 arg6 harg6 arg7 harg7 arg8 harg8 arg9 harg9 arg10 harg10 arg11 harg11) K } := by
  refine ⟨?_, ?_, ?_, fun d5 d6 E K => ?run⟩
  case run =>
    simp only [cc3__layer_kernel_eq_skeleton]; unfold cc3__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact hf5
      iexact H5
    isplitl [H6]
    · iexists _; isplitr; · ipureintro; exact hf6
      iexact H6
    isplitl [HS0]; · iexists _; iexact HS0
    isplitl [HS1]; · iexists _; iexact HS1
    iexists _; iexact HS2

end Cert.KernelIdeal.Hand

end
-- ==== Proof.R3RunC.lean ====
/-
  Region 3: the run of the body at the last column block of a row block (`k = 7`): the block's contribution is added
  to the accumulators, then the two output blocks are stored: the logarithm of the softmax along the rows
  of the first accumulator times the inverse clipped row norm plus the bias, and of the second accumulator times the
  same inverse.
-/
import proofs.«156794_j4621384810949_2_alg».proof.Proof.Gen.KernelIdeal.Launch
import proofs.«156794_j4621384810949_2_alg».proof.Proof.Gen.KernelIdeal.Skeleton
import proofs.«156794_j4621384810949_2_alg».proof.Proof.Gen.KernelIdeal.Points
import proofs.«156794_j4621384810949_2_alg».proof.Proof.R3RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave in the two output blocks and the three accumulators at a point with `k = 7`,
    with the proof that the body runs there. -/
noncomputable def kernelRun3_C (c : Dev nD) (i : grid3.Coords) (arg2 : Memref sig .tc .vmem S1024x1024 .f32) (harg2 : arg2.IsWhole) (arg3 : Memref sig .tc .vmem S1024x1024 .f32) (harg3 : arg3.IsWhole) (arg4 : Memref sig .tc .vmem S1024x40 .f32) (harg4 : arg4.IsWhole) (arg5 : Memref sig .tc .vmem S1024x40 .f32) (harg5 : arg5.IsWhole) (arg6 : Memref sig .tc .vmem S1x40 .f32) (harg6 : arg6.IsWhole) (arg7 : Memref sig .tc .vmem S1024x40 .f32) (harg7 : arg7.IsWhole) (arg8 : Memref sig .tc .vmem S1024x40 .f32) (harg8 : arg8.IsWhole) (arg9 : Memref sig .tc .vmem S1024x40 .f32) (harg9 : arg9.IsWhole) (arg10 : Memref sig .tc .vmem S1024x40 .f32) (harg10 : arg10.IsWhole) (arg11 : Memref sig .tc .vmem S1024x1 .f32) (harg11 : arg11.IsWhole) (hc0 : ¬cond3_0 i) (hc1 : cond3_1 i)
    (x0 : Vec F S1024x1024 .f32) (x1 : Vec F S1024x1024 .f32) (x2 : Vec F S1024x40 .f32) (x3 : Vec F S1024x40 .f32) (x4 : Vec F S1x40 .f32) (xs0 : Vec F S1024x40 .f32) (xs1 : Vec F S1024x40 .f32) (xs2 : Vec F S1024x1 .f32) :
    Σ' (L5 : List (View.Piece (Elt F) S1024x40 .f32)) (L6 : List (View.Piece (Elt F) S1024x40 .f32)) (LS0 : List (View.Piece (Elt F) S1024x40 .f32)) (LS1 : List (View.Piece (Elt F) S1024x40 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)) -∗ K ⟨⟩))
          ⊢ wp frame (wpE (defs₀ (F := F)) Variants.none c none) E (cc3__layer_kernel i arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc3__layer_kernel_eq_skeleton]; unfold cc3__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]; · iexists _; iexact HS0
    isplitl [HS1]; · iexists _; iexact HS1
    iexists _; iexact HS2

end Cert.KernelIdeal.Hand

end
-- ==== Proof.R3Data.lean ====
/-
  Region 3 — the second layer kernel, with the logarithm of the softmax fused in, on its 8 × 8 grid: what the three accumulators and the two output blocks hold
  after every grid point, by recursion on the point; the region's invariant (the accumulators at those contents); the
  proof data; and the body obligation, by cases on the column block `k` of the point (`k = 0`: reset and add;
  `0 < k < 7`: add; `k = 7`: add and write the two output blocks).
-/
import proofs.«156794_j4621384810949_2_alg».proof.Proof.Gen.KernelIdeal.Launch
import proofs.«156794_j4621384810949_2_alg».proof.Proof.Gen.KernelIdeal.Skeleton
import proofs.«156794_j4621384810949_2_alg».proof.Proof.Gen.KernelIdeal.Points
import proofs.«156794_j4621384810949_2_alg».proof.Proof.R3RunB
import proofs.«156794_j4621384810949_2_alg».proof.Proof.R3RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the window's view at that point read off the array the region finds. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's staging buffer holds its block at every point, brought in there or still there from an
    earlier point (the bias row is brought in once). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## Where the output windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
/-- Off the last column block the two output windows are idle and not written back; at it they are live. -/
theorem idleAt3_5 : ∀ t : Fin cfg3.N, ¬cond3_1 (grid3.coords t) → cfg3.idle 5 (grid3.coords t) = true := by decide +kernel
theorem idleAt3_6 : ∀ t : Fin cfg3.N, ¬cond3_1 (grid3.coords t) → cfg3.idle 6 (grid3.coords t) = true := by decide +kernel
theorem noFlush3_5 : ∀ t : Fin cfg3.N, ¬cond3_1 (grid3.coords t) → (cfg3.win 5).flush t = false := by decide +kernel
theorem noFlush3_6 : ∀ t : Fin cfg3.N, ¬cond3_1 (grid3.coords t) → (cfg3.win 6).flush t = false := by decide +kernel
theorem liveAt3_5 : ∀ t : Fin cfg3.N, cond3_1 (grid3.coords t) → cfg3.idle 5 (grid3.coords t) = false := by decide +kernel
theorem liveAt3_6 : ∀ t : Fin cfg3.N, cond3_1 (grid3.coords t) → cfg3.idle 6 (grid3.coords t) = false := by decide +kernel

/-! ## The region's untouched rest -/

/-- Every scoped buffer of the core other than the three accumulators, unopened. -/
abbrev Rest3 (c : Dev nD) : sProp 𝕄 :=
  Pipeline.scopedRestBut (Ix := Unit) (Name := ℕ) (U := UR sig nD τ) (Lvl := ℕ) (Val := Elt F) spec3 c [cc3_scratch0, cc3_scratch1, cc3_scratch2]

/-- What the launch hands the region: the three accumulators at some contents, the rest, the generator register. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d) ∗ (∃ d, owns (c : Thread nD τ) scM3_2 fullShare d))
          ∗ Rest3 (F := F) c) ∗ (∃ r, prngReg c r)) := by
  unfold Pipeline.ΦA; rw [scopedRest3_split]; simp only [scM3_0, scM3_1, scM3_2, owns_whole]; try rfl

/-! ## What one point leaves, by the point's column block -/

/-- What the two output blocks and the three accumulators hold after a point. -/
abbrev Outs3 : Type := Vec F S1024x40 .f32 × Vec F S1024x40 .f32 × Vec F S1024x40 .f32 × Vec F S1024x40 .f32 × Vec F S1024x1 .f32

/-- Contents nothing consults: an output block at a point where the body stores nothing into it. -/
def junk3_5 : Vec F S1024x40 .f32 := VO3_5.read (Elt F) VO3_5.junk
def junk3_6 : Vec F S1024x40 .f32 := VO3_6.read (Elt F) VO3_6.junk

theorem notC_of_A3 {t : Fin cfg3.N} (h0 : t.val % 8 = 0) : ¬cond3_1 (grid3.coords t) :=
  fun h => by have := (hcond3_1 t).mp h; omega

/-- The body's run at a point with `k = 0`. -/
abbrev run3A (c : Dev nD) (t : Fin cfg3.N) (h0 : t.val % 8 = 0) :=
  kernelRun3_A (F := F) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) ((hcond3_0 t).mpr h0) (notC_of_A3 h0) (iblk3 V c 0 t) (iblk3 V c 1 t) (iblk3 V c 2 t) (iblk3 V c 3 t) (iblk3 V c 4 t)
/-- The body's run at a point with `0 < k < 7`, the accumulators entered at `xs`. -/
abbrev run3B (c : Dev nD) (t : Fin cfg3.N) (h0 : ¬t.val % 8 = 0) (h1 : ¬t.val % 8 = 7) (xs0 : Vec F S1024x40 .f32) (xs1 : Vec F S1024x40 .f32) (xs2 : Vec F S1024x1 .f32) :=
  kernelRun3_B (F := F) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) xs0 xs1 xs2
/-- The body's run at a point with `k = 7`, the accumulators entered at `xs`. -/
abbrev run3C (c : Dev nD) (t : Fin cfg3.N) (h0 : ¬t.val % 8 = 0) (h1 : t.val % 8 = 7) (xs0 : Vec F S1024x40 .f32) (xs1 : Vec F S1024x40 .f32) (xs2 : Vec F S1024x1 .f32) :=
  kernelRun3_C (F := F) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) xs0 xs1 xs2

/-- After a point with `k = 0`: the accumulators at the run's pieces read back; the outputs untouched. -/
def step3A (c : Dev nD) (t : Fin cfg3.N) (h0 : t.val % 8 = 0) : Outs3 (F := F) :=
  (junk3_5, junk3_6,
    VS3_0.read (Elt F) (VS3_0.writes (Elt F) VS3_0.junk (run3A V c t h0).1),
    VS3_1.read (Elt F) (VS3_1.writes (Elt F) VS3_1.junk (run3A V c t h0).2.1),
    VS3_2.read (Elt F) (VS3_2.writes (Elt F) VS3_2.junk (run3A V c t h0).2.2.1))

/-- After a point with `0 < k < 7`, from what the point before left. -/
def step3B (c : Dev nD) (t : Fin cfg3.N) (h0 : ¬t.val % 8 = 0) (h1 : ¬t.val % 8 = 7) (prev : Outs3 (F := F)) : Outs3 (F := F) :=
  (junk3_5, junk3_6,
    VS3_0.read (Elt F) (VS3_0.writes (Elt F) VS3_0.junk (run3B V c t h0 h1 prev.2.2.1 prev.2.2.2.1 prev.2.2.2.2).1),
    VS3_1.read (Elt F) (VS3_1.writes (Elt F) VS3_1.junk (run3B V c t h0 h1 prev.2.2.1 prev.2.2.2.1 prev.2.2.2.2).2.1),
    VS3_2.read (Elt F) (VS3_2.writes (Elt F) VS3_2.junk (run3B V c t h0 h1 prev.2.2.1 prev.2.2.2.1 prev.2.2.2.2).2.2.1))

/-- After a point with `k = 7`, from what the point before left: the output blocks written too. -/
def step3C (c : Dev nD) (t : Fin cfg3.N) (h0 : ¬t.val % 8 = 0) (h1 : t.val % 8 = 7) (prev : Outs3 (F := F)) : Outs3 (F := F) :=
  (VO3_5.read (Elt F) (VO3_5.writes (Elt F) VO3_5.junk (run3C V c t h0 h1 prev.2.2.1 prev.2.2.2.1 prev.2.2.2.2).1),
    VO3_6.read (Elt F) (VO3_6.writes (Elt F) VO3_6.junk (run3C V c t h0 h1 prev.2.2.1 prev.2.2.2.1 prev.2.2.2.2).2.1),
    VS3_0.read (Elt F) (VS3_0.writes (Elt F) VS3_0.junk (run3C V c t h0 h1 prev.2.2.1 prev.2.2.2.1 prev.2.2.2.2).2.2.1),
    VS3_1.read (Elt F) (VS3_1.writes (Elt F) VS3_1.junk (run3C V c t h0 h1 prev.2.2.1 prev.2.2.2.1 prev.2.2.2.2).2.2.2.1),
    VS3_2.read (Elt F) (VS3_2.writes (Elt F) VS3_2.junk (run3C V c t h0 h1 prev.2.2.1 prev.2.2.2.1 prev.2.2.2.2).2.2.2.2.1))

/-! ### The pieces cover their buffers -/

theorem scover3A_0 (c : Dev nD) (t : Fin cfg3.N) (h0 : t.val % 8 = 0) (y : S1024x40.Idx) : ∃ pc ∈ (run3A V c t h0).1, y ∈ pc.1.set :=
  View.cover_of_tiledL (run3A V c t h0).1 S1024x40.size (by sl_kernel_rfl) y
theorem scover3A_1 (c : Dev nD) (t : Fin cfg3.N) (h0 : t.val % 8 = 0) (y : S1024x40.Idx) : ∃ pc ∈ (run3A V c t h0).2.1, y ∈ pc.1.set :=
  View.cover_of_tiledL (run3A V c t h0).2.1 S1024x40.size (by sl_kernel_rfl) y
theorem scover3A_2 (c : Dev nD) (t : Fin cfg3.N) (h0 : t.val % 8 = 0) (y : S1024x1.Idx) : ∃ pc ∈ (run3A V c t h0).2.2.1, y ∈ pc.1.set :=
  View.cover_of_tiledL (run3A V c t h0).2.2.1 S1024x1.size (by sl_kernel_rfl) y
theorem scover3B_0 (c : Dev nD) (t : Fin cfg3.N) (h0 : ¬t.val % 8 = 0) (h1 : ¬t.val % 8 = 7) (xs0 : Vec F S1024x40 .f32) (xs1 : Vec F S1024x40 .f32) (xs2 : Vec F S1024x1 .f32) (y : S1024x40.Idx) : ∃ pc ∈ (run3B V c t h0 h1 xs0 xs1 xs2).1, y ∈ pc.1.set :=
  View.cover_of_tiledL (run3B V c t h0 h1 xs0 xs1 xs2).1 S1024x40.size (by sl_kernel_rfl) y
theorem scover3B_1 (c : Dev nD) (t : Fin cfg3.N) (h0 : ¬t.val % 8 = 0) (h1 : ¬t.val % 8 = 7) (xs0 : Vec F S1024x40 .f32) (xs1 : Vec F S1024x40 .f32) (xs2 : Vec F S1024x1 .f32) (y : S1024x40.Idx) : ∃ pc ∈ (run3B V c t h0 h1 xs0 xs1 xs2).2.1, y ∈ pc.1.set :=
  View.cover_of_tiledL (run3B V c t h0 h1 xs0 xs1 xs2).2.1 S1024x40.size (by sl_kernel_rfl) y
theorem scover3B_2 (c : Dev nD) (t : Fin cfg3.N) (h0 : ¬t.val % 8 = 0) (h1 : ¬t.val % 8 = 7) (xs0 : Vec F S1024x40 .f32) (xs1 : Vec F S1024x40 .f32) (xs2 : Vec F S1024x1 .f32) (y : S1024x1.Idx) : ∃ pc ∈ (run3B V c t h0 h1 xs0 xs1 xs2).2.2.1, y ∈ pc.1.set :=
  View.cover_of_tiledL (run3B V c t h0 h1 xs0 xs1 xs2).2.2.1 S1024x1.size (by sl_kernel_rfl) y
theorem cover3C_5 (c : Dev nD) (t : Fin cfg3.N) (h0 : ¬t.val % 8 = 0) (h1 : t.val % 8 = 7) (xs0 : Vec F S1024x40 .f32) (xs1 : Vec F S1024x40 .f32) (xs2 : Vec F S1024x1 .f32) (y : S1024x40.Idx) : ∃ pc ∈ (run3C V c t h0 h1 xs0 xs1 xs2).1, y ∈ pc.1.set :=
  View.cover_of_tiledL (run3C V c t h0 h1 xs0 xs1 xs2).1 S1024x40.size (by sl_kernel_rfl) y
theorem cover3C_6 (c : Dev nD) (t : Fin cfg3.N) (h0 : ¬t.val % 8 = 0) (h1 : t.val % 8 = 7) (xs0 : Vec F S1024x40 .f32) (xs1 : Vec F S1024x40 .f32) (xs2 : Vec F S1024x1 .f32) (y : S1024x40.Idx) : ∃ pc ∈ (run3C V c t h0 h1 xs0 xs1 xs2).2.1, y ∈ pc.1.set :=
  View.cover_of_tiledL (run3C V c t h0 h1 xs0 xs1 xs2).2.1 S1024x40.size (by sl_kernel_rfl) y
theorem scover3C_0 (c : Dev nD) (t : Fin cfg3.N) (h0 : ¬t.val % 8 = 0) (h1 : t.val % 8 = 7) (xs0 : Vec F S1024x40 .f32) (xs1 : Vec F S1024x40 .f32) (xs2 : Vec F S1024x1 .f32) (y : S1024x40.Idx) : ∃ pc ∈ (run3C V c t h0 h1 xs0 xs1 xs2).2.2.1, y ∈ pc.1.set :=
  View.cover_of_tiledL (run3C V c t h0 h1 xs0 xs1 xs2).2.2.1 S1024x40.size (by sl_kernel_rfl) y
theorem scover3C_1 (c : Dev nD) (t : Fin cfg3.N) (h0 : ¬t.val % 8 = 0) (h1 : t.val % 8 = 7) (xs0 : Vec F S1024x40 .f32) (xs1 : Vec F S1024x40 .f32) (xs2 : Vec F S1024x1 .f32) (y : S1024x40.Idx) : ∃ pc ∈ (run3C V c t h0 h1 xs0 xs1 xs2).2.2.2.1, y ∈ pc.1.set :=
  View.cover_of_tiledL (run3C V c t h0 h1 xs0 xs1 xs2).2.2.2.1 S1024x40.size (by sl_kernel_rfl) y
theorem scover3C_2 (c : Dev nD) (t : Fin cfg3.N) (h0 : ¬t.val % 8 = 0) (h1 : t.val % 8 = 7) (xs0 : Vec F S1024x40 .f32) (xs1 : Vec F S1024x40 .f32) (xs2 : Vec F S1024x1 .f32) (y : S1024x1.Idx) : ∃ pc ∈ (run3C V c t h0 h1 xs0 xs1 xs2).2.2.2.2.1, y ∈ pc.1.set :=
  View.cover_of_tiledL (run3C V c t h0 h1 xs0 xs1 xs2).2.2.2.2.1 S1024x1.size (by sl_kernel_rfl) y

/-! ## What the buffers hold after each point -/

/-- THE ACCUMULATION: what the output blocks and the accumulators hold after the body at position `n`, by recursion
    on the position: the step of the position's column block over what the position before left. -/
def outsAt3 (c : Dev nD) : (n : ℕ) → n < cfg3.N → Outs3 (F := F)
  | 0, hn => step3A V c ⟨0, hn⟩ (Nat.zero_mod _)
  | n + 1, hn =>
    if h0 : (n + 1) % 8 = 0 then step3A V c ⟨n + 1, hn⟩ h0
    else if h1 : (n + 1) % 8 = 7 then step3C V c ⟨n + 1, hn⟩ h0 h1 (outsAt3 c n (Nat.lt_of_succ_lt hn))
    else step3B V c ⟨n + 1, hn⟩ h0 h1 (outsAt3 c n (Nat.lt_of_succ_lt hn))

theorem outsAt3_A (c : Dev nD) (t : Fin cfg3.N) (h0 : t.val % 8 = 0) : outsAt3 V c t.val t.isLt = step3A V c t h0 := by
  obtain ⟨n, hn⟩ := t
  cases n with
  | zero => rfl
  | succ n => exact (dif_pos h0).trans rfl

theorem outsAt3_B (c : Dev nD) (t : Fin cfg3.N) (h0 : ¬t.val % 8 = 0) (h1 : ¬t.val % 8 = 7) :
    outsAt3 V c t.val t.isLt = step3B V c t h0 h1 (outsAt3 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt3_C (c : Dev nD) (t : Fin cfg3.N) (h0 : ¬t.val % 8 = 0) (h1 : t.val % 8 = 7) :
    outsAt3 V c t.val t.isLt = step3C V c t h0 h1 (outsAt3 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The region invariant before position `n`: before the first point what the launch hands over; afterwards the three
    accumulators at what the position before left, the rest and the generator register. -/
def PhiS3 (c : Dev nD) : (n : ℕ) → n ≤ cfg3.N → sProp 𝕄
  | 0, _ => Pipeline.ΦA spec3 c
  | n + 1, hn => iprop(iprop(iprop(owns (c : Thread nD τ) scM3_0 fullShare (outsAt3 V c n hn).2.2.1 ∗ owns (c : Thread nD τ) scM3_1 fullShare (outsAt3 V c n hn).2.2.2.1 ∗ owns (c : Thread nD τ) scM3_2 fullShare (outsAt3 V c n hn).2.2.2.2)
      ∗ Rest3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare (outsAt3 V c n hn).2.2.1 ∗ owns (c : Thread nD τ) scM3_1 fullShare (outsAt3 V c n hn).2.2.2.1 ∗ owns (c : Thread nD τ) scM3_2 fullShare (outsAt3 V c n hn).2.2.2.2)
      ∗ Rest3 (F := F) c) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare (outsAt3 V c (n - 1) (by omega)).2.2.1 ∗ owns (c : Thread nD τ) scM3_1 fullShare (outsAt3 V c (n - 1) (by omega)).2.2.2.1 ∗ owns (c : Thread nD τ) scM3_2 fullShare (outsAt3 V c (n - 1) (by omega)).2.2.2.2)
      ∗ Rest3 (F := F) c) ∗ (∃ r, prngReg c r)) := by
  cases n with
  | zero => exact absurd rfl hz
  | succ n => rfl

/-! ## The proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
    | ⟨6, _⟩ => (outsAt3 V c t.val t.isLt).2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = (outsAt3 V c t.val t.isLt).1 := by dsimp only [dat3]
theorem after3_6 (c : Dev nD) (t : Fin cfg3.N) : (dat3 V c).after 6 t = (outsAt3 V c t.val t.isLt).2.1 := by dsimp only [dat3]

theorem before3_0 (c : Dev nD) (t : Fin cfg3.N) (d) : (dat3 V c).before 0 t d = iblk3 V c 0 t := before3_0_of V (dat3 V c) (A_eq3 V c 0) (after3_0 V c) t d
theorem before3_1 (c : Dev nD) (t : Fin cfg3.N) (d) : (dat3 V c).before 1 t d = iblk3 V c 1 t := before3_1_of V (dat3 V c) (A_eq3 V c 1) (after3_1 V c) t d
theorem before3_2 (c : Dev nD) (t : Fin cfg3.N) (d) : (dat3 V c).before 2 t d = iblk3 V c 2 t := before3_2_of V (dat3 V c) (A_eq3 V c 2) (after3_2 V c) t d
theorem before3_3 (c : Dev nD) (t : Fin cfg3.N) (d) : (dat3 V c).before 3 t d = iblk3 V c 3 t := before3_3_of V (dat3 V c) (A_eq3 V c 3) (after3_3 V c) t d
theorem before3_4 (c : Dev nD) (t : Fin cfg3.N) (d) : (dat3 V c).before 4 t d = iblk3 V c 4 t := before3_4_of V (dat3 V c) (A_eq3 V c 4) (after3_4 V c) t d

end Cert.KernelIdeal.Hand

end
-- ==== Proof.R3Body.lean ====
/-
  Region 3: the body obligation. At every grid point the body, called with the input windows' blocks, the output
  windows' buffers and the accumulators as the point before left them, runs and leaves the accumulators (and at the last
  column block the two output blocks) at the contents the recursion names.
-/
import proofs.«156794_j4621384810949_2_alg».proof.Proof.Gen.KernelIdeal.Launch
import proofs.«156794_j4621384810949_2_alg».proof.Proof.Gen.KernelIdeal.Skeleton
import proofs.«156794_j4621384810949_2_alg».proof.Proof.Gen.KernelIdeal.Points
import proofs.«156794_j4621384810949_2_alg».proof.Proof.R3Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`. -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

/-- What it returns. -/
def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t ∗ (dat3 V c).leavesExact 3 t
    ∗ (dat3 V c).leavesExact 4 t ∗ (dat3 V c).leavesExact 5 t ∗ (dat3 V c).leavesExact 6 t)

theorem leaves3_in (c : Dev nD) (t : Fin cfg3.N) :
    (dat3 V c).leavesExact 0 t = owns (c : Thread nD τ) (ms3_0 t) fullShare (iblk3 V c 0 t)
    ∧ (dat3 V c).leavesExact 1 t = owns (c : Thread nD τ) (ms3_1 t) fullShare (iblk3 V c 1 t)
    ∧ (dat3 V c).leavesExact 2 t = owns (c : Thread nD τ) (ms3_2 t) fullShare (iblk3 V c 2 t)
    ∧ (dat3 V c).leavesExact 3 t = owns (c : Thread nD τ) (ms3_3 t) fullShare (iblk3 V c 3 t)
    ∧ (dat3 V c).leavesExact 4 t = owns (c : Thread nD τ) (ms3_4 t) fullShare (iblk3 V c 4 t) := by
  refine ⟨?_, ?_, ?_, ?_, ?_⟩
  · unfold Dat.leavesExact; rw [liveAt3_0 t, after3_0]
  · unfold Dat.leavesExact; rw [liveAt3_1 t, after3_1]
  · unfold Dat.leavesExact; rw [liveAt3_2 t, after3_2]
  · unfold Dat.leavesExact; rw [liveAt3_3 t, after3_3]
  · unfold Dat.leavesExact; rw [liveAt3_4 t, after3_4]

set_option maxHeartbeats 8000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  obtain ⟨hl0, hl1, hl2, hl3, hl4⟩ := leaves3_in V c t
  rw [hl0, hl1, hl2, hl3, hl4]
  have hN : t.val < 64 := lt_of_lt_of_eq t.isLt (show cfg3.N = 64 from N_3)
  by_cases h0 : t.val % 8 = 0
  · -- the first column block: the accumulators are entered at anything
    have hc1 : ¬cond3_1 (grid3.coords t) := notC_of_A3 h0
    rw [Dat.leavesExact_idle (dat3 V c) 5 t (idleAt3_5 t hc1) (noFlush3_5 t hc1),
      Dat.leavesExact_idle (dat3 V c) 6 t (idleAt3_6 t hc1) (noFlush3_6 t hc1)]
    rw [outsAt3_A V c t h0]
    unfold step3A; (try dsimp only)
    have hΦ : (dat3 V c).Φ t.castSucc ⊢ iprop(iprop(iprop((∃ d, owns (c : Thread nD τ) scM3_0 fullShare d) ∗ (∃ d, owns (c : Thread nD τ) scM3_1 fullShare d) ∗ (∃ d, owns (c : Thread nD τ) scM3_2 fullShare d))
          ∗ Rest3 (F := F) c) ∗ (∃ r, prngReg c r)) := by
      by_cases hz : t.val = 0
      · rw [PhiS3_castSucc V c t, PhiS3_zero V c _ _ hz, PhiA3_eq]; try exact .rfl
      · rw [PhiS3_castSucc V c t, PhiS3_pos V c _ _ hz]
        iintro ⟨⟨⟨HS0, HS1, HS2⟩, Hrest⟩, Hg⟩
        isplitl [HS0 HS1 HS2 Hrest]
        · isplitl [HS0 HS1 HS2]
          · isplitl [HS0]; · iexists _; iexact HS0
            isplitl [HS1]; · iexists _; iexact HS1
            iexists _; iexact HS2
          iexact Hrest
        iexact Hg
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := hΦ $$ HΦ
    icases HΦ' with ⟨⟨⟨HS0, HS1, HS2⟩, Hrest⟩, Hg⟩
    iapply ((run3A V c t h0).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, ⟨%es0, HS0⟩, ⟨%es1, HS1⟩, ⟨%es2, HS2⟩⟩
    isplitl [HS0 HS1 HS2 Hrest Hg]
    · isplitl [HS0 HS1 HS2 Hrest]
      · isplitl [HS0 HS1 HS2]
        · isplitl [HS0]
          · unfold owns; iexists _; isplitr
            swap; · iexact HS0
            ipureintro; exact View.read_writes_of_cover _ _ _ _ _ (scover3A_0 V c t h0)
          isplitl [HS1]
          · unfold owns; iexists _; isplitr
            swap; · iexact HS1
            ipureintro; exact View.read_writes_of_cover _ _ _ _ _ (scover3A_1 V c t h0)
          unfold owns; iexists _; isplitr
          swap; · iexact HS2
          ipureintro; exact View.read_writes_of_cover _ _ _ _ _ (scover3A_2 V c t h0)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hz : t.val ≠ 0 := fun h => h0 (by rw [h])
    by_cases h1 : t.val % 8 = 7
    · -- the last column block: the outputs are written
      have hc1 : cond3_1 (grid3.coords t) := (hcond3_1 t).mpr h1
      rw [show (dat3 V c).leavesExact 5 t = owns (c : Thread nD τ) (ms3_5 t) fullShare ((dat3 V c).after 5 t) from by
          unfold Dat.leavesExact; rw [liveAt3_5 t hc1], after3_5,
        show (dat3 V c).leavesExact 6 t = owns (c : Thread nD τ) (ms3_6 t) fullShare ((dat3 V c).after 6 t) from by
          unfold Dat.leavesExact; rw [liveAt3_6 t hc1], after3_6]
      rw [outsAt3_C V c t h0 h1]
      unfold step3C; (try dsimp only)
      rw [PhiS3_castSucc V c t, PhiS3_pos V c _ _ hz]
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((run3C V c t h0 h1 _ _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, H4, ⟨%e5, H5⟩, ⟨%e6, H6⟩, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover3C_0 V c t h0 h1 _ _ _)
            isplitl [HS1]
            · unfold owns; iexists _; isplitr
              swap; · iexact HS1
              ipureintro; exact View.read_writes_of_cover _ _ _ _ _ (scover3C_1 V c t h0 h1 _ _ _)
            unfold owns; iexists _; isplitr
            swap; · iexact HS2
            ipureintro; exact View.read_writes_of_cover _ _ _ _ _ (scover3C_2 V c t h0 h1 _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover3C_5 V c t h0 h1 _ _ _)
      unfold owns; iexists _; isplitr
      swap; · iexact H6
      ipureintro; exact View.read_writes_of_cover _ _ _ _ _ (cover3C_6 V c t h0 h1 _ _ _)
    · -- an inner column block
      have hc1 : ¬cond3_1 (grid3.coords t) := fun h => h1 ((hcond3_1 t).mp h)
      rw [Dat.leavesExact_idle (dat3 V c) 5 t (idleAt3_5 t hc1) (noFlush3_5 t hc1),
        Dat.leavesExact_idle (dat3 V c) 6 t (idleAt3_6 t hc1) (noFlush3_6 t hc1)]
      rw [outsAt3_B V c t h0 h1]
      unfold step3B; (try dsimp only)
      rw [PhiS3_castSucc V c t, PhiS3_pos V c _ _ hz]
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((run3B V c t h0 h1 _ _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover3B_0 V c t h0 h1 _ _ _)
            isplitl [HS1]
            · unfold owns; iexists _; isplitr
              swap; · iexact HS1
              ipureintro; exact View.read_writes_of_cover _ _ _ _ _ (scover3B_1 V c t h0 h1 _ _ _)
            unfold owns; iexists _; isplitr
            swap; · iexact HS2
            ipureintro; exact View.read_writes_of_cover _ _ _ _ _ (scover3B_2 V c t h0 h1 _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact .rfl

/-- After the last point the invariant gives the launch's rest back: the accumulators' contents are forgotten. -/
theorem hout3 (c : Dev nD) : (dat3 V c).Φ (Fin.last cfg3.N) ⊢ (Pipeline.ΦA spec3 c : sProp 𝕄) := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 64 := N_3; omega), PhiA3_eq]
  iintro ⟨⟨⟨HS0, HS1, HS2⟩, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

end Cert.KernelIdeal.Hand

end
-- ==== Proof.RegR3.lean ====
/- Region 3: its proof data and body obligation, under the names the assembly uses. -/
import proofs.«156794_j4621384810949_2_alg».proof.Proof.R3Body
-- ==== Proof.Run.lean ====
/- The run of @main: the contents of every unscoped buffer at each boundary between two segments, the four regions
   and the two host stretches as segments over one thread state, the launch, and what the final memory holds. -/
import proofs.«156794_j4621384810949_2_alg».proof.Proof.RegA0
import proofs.«156794_j4621384810949_2_alg».proof.Proof.RegA2
import proofs.«156794_j4621384810949_2_alg».proof.Proof.RegR1
import proofs.«156794_j4621384810949_2_alg».proof.Proof.RegR3
import proofs.«156794_j4621384810949_2_alg».proof.Proof.Gen.KernelIdeal.Launch
import proofs.«156794_j4621384810949_2_alg».proof.Proof.Gen.KernelIdeal.Skeleton
import proofs.«156794_j4621384810949_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch (region 0's entry). -/
abbrev W0 : Dev nD → Valuation τ sig (Elt F) := fun c b => (s₀ m ρ).mem ((c : Dev nD), b)
/-- The launch contents read at the TensorCore's references (what region 0's proof data take). -/
abbrev V0 : (c : Dev nD) → (b : Ref sig .tc) → Buf (Elt F) ((c : Thread nD τ).loc b) := fun c b => W0 m ρ c b

/-- At region 0's exit: its windows' arrays at what the pipeline leaves (an input as entered, an output with its
    write-backs folded in), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- Region 0's exit contents read at the TensorCore's references. -/
abbrev V1 : (c : Dev nD) → (b : Ref sig .tc) → Buf (Elt F) ((c : Thread nD τ).loc b) := fun c b => W1 m ρ c b
/-- At region 0's exit each of its arrays holds what the pipeline leaves and every other buffer what it held at entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host stretch that reshapes the first bias to a row (region 1's entry). -/
abbrev W2 : Dev nD → Valuation τ sig (Elt F) := fun c => StableHlo.after hostOps1 (W1 m ρ c)
/-- Region 1's entry contents read at the TensorCore's references. -/
abbrev V2 : (c : Dev nD) → (b : Ref sig .tc) → Buf (Elt F) ((c : Thread nD τ).loc b) := fun c b => W2 m ρ c b

/-- At region 1's exit: its windows' arrays at what the pipeline leaves (an input as entered, an output with its
    write-backs folded in), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- Region 1's exit contents, which are region 2's entry contents, read at the TensorCore's references. -/
abbrev V3 : (c : Dev nD) → (b : Ref sig .tc) → Buf (Elt F) ((c : Thread nD τ).loc b) := fun c b => W3 m ρ c b
/-- At region 1's exit each of its arrays holds what the pipeline leaves and every other buffer what it held at entry. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its windows' arrays at what the pipeline leaves (an input as entered, an output with its
    write-backs folded in), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- Region 2's exit contents read at the TensorCore's references. -/
abbrev V4 : (c : Dev nD) → (b : Ref sig .tc) → Buf (Elt F) ((c : Thread nD τ).loc b) := fun c b => W4 m ρ c b
/-- At region 2's exit each of its arrays holds what the pipeline leaves and every other buffer what it held at entry. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the host stretch that reshapes the second bias to a row (region 3's entry). -/
abbrev W5 : Dev nD → Valuation τ sig (Elt F) := fun c => StableHlo.after hostOps3 (W4 m ρ c)
/-- Region 3's entry contents read at the TensorCore's references. -/
abbrev V5 : (c : Dev nD) → (b : Ref sig .tc) → Buf (Elt F) ((c : Thread nD τ).loc b) := fun c b => W5 m ρ c b

/-- At region 3's exit: its windows' arrays at what the pipeline leaves (an input as entered, an output with its
    write-backs folded in), every other buffer as entered. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
/-- The final contents read at the TensorCore's references. -/
abbrev V6 : (c : Dev nD) → (b : Ref sig .tc) → Buf (Elt F) ((c : Thread nD τ).loc b) := fun c b => W6 m ρ c b
/-- At region 3's exit each of its arrays holds what the pipeline leaves and every other buffer what it held at entry. -/
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents: a literal `match`, so that the pinned
    configuration at a numeral reduces to the printed one. -/
def pdats : (p : Fin 4) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V3 m ρ) c
  | ⟨3, _⟩ => fun c => dat3 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev Rth (c : Dev nD) : sProp 𝕄 := iprop((∃ r, prngReg c r) ∗ ∃ W, owes (c : Thread nD τ) (0 : CellTallies nD τ sig Unit) W)
/-- A host stretch as a segment over the unscoped references from the contents `W`, `Rth` riding along; it is left
    with those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rth

/-- Neither host stretch allocates a buffer. -/
theorem hostOps1_fresh' : (hostOps1 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the final contents `W6`, the generator
    register at some state. -/
abbrev Tₙ (c : Dev nD) : sProp 𝕄 := iprop(StableHlo.held (c : Thread nD τ) (Pipeline.ucRefs τ sig) (W6 m ρ c) ∗ ∃ r, prngReg c r)

/-- Into a region's invariant: the generator register and the scoped buffers no window stages, the (empty) tables dropped. -/
theorem sep_drop_mid (X P S : sProp 𝕄) : iprop(X ∗ P ∗ S) ⊢ iprop(S ∗ X) := by
  iintro ⟨Hx, -, Hs⟩
  isplitl [Hs]; · iexact Hs
  iexact Hx
/-- Out of a region's invariant: the same two, beside no semaphore of the kernel's own. -/
theorem sep_add_emp (X S : sProp 𝕄) : iprop(S ∗ X) ⊢ iprop(X ∗ BI.emp ∗ S) := by
  iintro ⟨Hs, Hx⟩
  isplitl [Hx]; · iexact Hx
  isplitr; · iempintro
  iexact Hs

/-! ## The regions as segments -/

-- a library lemma stated over the pinned configuration unifies with the printed one only when unification may unfold
-- plain definitions in a metavariable's type
set_option backward.isDefEq.respectTransparency.types false in
/-- Region 0 over the thread state: entered from every unscoped buffer at `W0`, left at `W1`. Its windows' arrays
    are split out of the unscoped buffers at entry and put back at the exit contents; the generator register and the
    scoped buffers no window stages pass through the region's invariant; nothing is owed; the kernel has no semaphore
    of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ Rth c)
  post c := iprop(StableHlo.held (c : Thread nD τ) (Pipeline.ucRefs τ sig) (W1 m ρ c) ∗ Rth c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (sep_drop_mid _ _ _).trans (hin0 (V0 m ρ) c)
  hout c := by
    rw [Pipeline.ownSems0_none]
    exact (hout0 (V0 m ρ) c).trans (sep_add_emp _ _)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W2`, left at `W3`. Its windows' arrays
    are split out of the unscoped buffers at entry and put back at the exit contents; the generator register and the
    scoped buffers no window stages pass through the region's invariant; nothing is owed; the kernel has no semaphore
    of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ Rth c)
  post c := iprop(StableHlo.held (c : Thread nD τ) (Pipeline.ucRefs τ sig) (W3 m ρ c) ∗ Rth c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (sep_drop_mid _ _ _).trans (hin1 (V2 m ρ) c)
  hout c := by
    rw [Pipeline.ownSems0_none]
    exact (hout1 (V2 m ρ) c).trans (sep_add_emp _ _)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at `W3`, left at `W4`. Its windows' arrays
    are split out of the unscoped buffers at entry and put back at the exit contents; the generator register and the
    scoped buffers no window stages pass through the region's invariant; nothing is owed; the kernel has no semaphore
    of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ Rth c)
  post c := iprop(StableHlo.held (c : Thread nD τ) (Pipeline.ucRefs τ sig) (W4 m ρ c) ∗ Rth c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (sep_drop_mid _ _ _).trans (hin2 (V3 m ρ) c)
  hout c := by
    rw [Pipeline.ownSems0_none]
    exact (hout2 (V3 m ρ) c).trans (sep_add_emp _ _)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 over the thread state: entered from every unscoped buffer at `W5`, left at `W6`. Its windows' arrays
    are split out of the unscoped buffers at entry and put back at the exit contents; the generator register and the
    scoped buffers no window stages pass through the region's invariant; nothing is owed; the kernel has no semaphore
    of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ Rth c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) (A_eq3 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (sep_drop_mid _ _ _).trans (hin3 (V5 m ρ) c)
  hout c := by
    rw [Pipeline.ownSems0_none]
    exact (hout3 (V5 m ρ) c).trans (sep_add_emp _ _)
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order. -/
abbrev segs : List (Pipeline.Seg (pcfgs (F := F)) adm (pdats m ρ) () defs₀ 𝒱₀ L lv) :=
  [ .region (reg0 m ρ),
    .host (hseg hostOps1 hostOps1_sub hostOps1_fresh' (W1 m ρ)),
    .region (reg1 m ρ),
    .region (reg2 m ρ),
    .host (hseg hostOps3 hostOps3_sub hostOps3_fresh' (W4 m ρ)),
    .region (reg3 m ρ) ]
/-- @main is the run of the segments. -/
theorem main_run (c : Dev nD) : main (F := F) c = Pipeline.Seg.run (segs m ρ) := (main_chain c).trans (by chain_rfl)

-- the library lemma's implicit arguments are found by unifying its conclusion with this one, which takes unfolding plain
-- definitions in a metavariable's type
set_option backward.isDefEq.respectTransparency.types false in
/-- THE RUN, at any post `Q` that follows from the final memory holding every unscoped buffer at `W6`: at the compiled
    mesh, from any memory with zero counters, every weakly fair execution of @main on the TensorCores terminates,
    nothing faulting, and every final state satisfies `Q`. -/
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W6 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rth c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := hQ)

/-- THE RUN with the final memory's unscoped buffers as the post. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W6 m ρ c b) :=
  run_post m ρ fun _ h => h

/-! ## What each segment leaves unchanged -/

/-- The references the two host stretches write: each reshapes a bias vector into a one-row matrix. -/
abbrev hostOps1_W' : List (Ref sig .tc) := [main_v1]
theorem hostOps1_writes' : (hostOps1 : List (HloOp τ sig (Elt F))).Forall fun op => op.writes ⊆ (hostOps1_W'.map (Proc.devRef (τ := τ) .tc)).toFinset := by
  simp only [List.Forall]; exact (by simp only [StableHlo.reshape_writes, Finset.singleton_subset_iff, List.mem_toFinset]; exact List.mem_map_of_mem (by decide))
abbrev hostOps3_W' : List (Ref sig .tc) := [main_v4]
theorem hostOps3_writes' : (hostOps3 : List (HloOp τ sig (Elt F))).Forall fun op => op.writes ⊆ (hostOps3_W'.map (Proc.devRef (τ := τ) .tc)).toFinset := by
  simp only [List.Forall]; exact (by simp only [StableHlo.reshape_writes, Finset.singleton_subset_iff, List.mem_toFinset]; exact List.mem_map_of_mem (by decide))
theorem W2_keep (c : Dev nD) (b : Ref sig .tc) (h : b ∉ hostOps1_W') : W2 m ρ c (Proc.devRef .tc b) = W1 m ρ c (Proc.devRef .tc b) :=
  StableHlo.after_of_writes_sub hostOps1 _ hostOps1_writes' h
theorem W5_keep (c : Dev nD) (b : Ref sig .tc) (h : b ∉ hostOps3_W') : W5 m ρ c (Proc.devRef .tc b) = W4 m ρ c (Proc.devRef .tc b) :=
  StableHlo.after_of_writes_sub hostOps3 _ hostOps3_writes' h
/-- Region 0 leaves every buffer that is no output window's array as it was entered: an input window's array is
    read only, a buffer no window stages is not touched. -/
theorem W1_keep (c : Dev nD) (b : Ref sig .tc) (hb : ∀ w, Pipeline.arrRef spec0 w = b → (cfg0.win w).isOut = false) :
    W1 m ρ c (Proc.devRef .tc b) = W0 m ρ c (Proc.devRef .tc b) := by
  by_cases h : ∃ w, Pipeline.arrRef spec0 w = b
  · obtain ⟨w, rfl⟩ := h
    exact (W1_arr m ρ c w).trans (((dat0 (V0 m ρ) c).arrAt_in w (hb w rfl) _).trans (A_eq0 (V0 m ρ) c w))
  · exact W1_of_ne m ρ c b fun w e => h ⟨w, e⟩
/-- Region 1 leaves every buffer that is no output window's array as it was entered: an input window's array is
    read only, a buffer no window stages is not touched. -/
theorem W3_keep (c : Dev nD) (b : Ref sig .tc) (hb : ∀ w, Pipeline.arrRef spec1 w = b → (cfg1.win w).isOut = false) :
    W3 m ρ c (Proc.devRef .tc b) = W2 m ρ c (Proc.devRef .tc b) := by
  by_cases h : ∃ w, Pipeline.arrRef spec1 w = b
  · obtain ⟨w, rfl⟩ := h
    exact (W3_arr m ρ c w).trans (((dat1 (V2 m ρ) c).arrAt_in w (hb w rfl) _).trans (A_eq1 (V2 m ρ) c w))
  · exact W3_of_ne m ρ c b fun w e => h ⟨w, e⟩
/-- Region 2 leaves every buffer that is no output window's array as it was entered: an input window's array is
    read only, a buffer no window stages is not touched. -/
theorem W4_keep (c : Dev nD) (b : Ref sig .tc) (hb : ∀ w, Pipeline.arrRef spec2 w = b → (cfg2.win w).isOut = false) :
    W4 m ρ c (Proc.devRef .tc b) = W3 m ρ c (Proc.devRef .tc b) := by
  by_cases h : ∃ w, Pipeline.arrRef spec2 w = b
  · obtain ⟨w, rfl⟩ := h
    exact (W4_arr m ρ c w).trans (((dat2 (V3 m ρ) c).arrAt_in w (hb w rfl) _).trans (A_eq2 (V3 m ρ) c w))
  · exact W4_of_ne m ρ c b fun w e => h ⟨w, e⟩
/-- Region 3 leaves every buffer that is no output window's array as it was entered: an input window's array is
    read only, a buffer no window stages is not touched. -/
theorem W6_keep (c : Dev nD) (b : Ref sig .tc) (hb : ∀ w, Pipeline.arrRef spec3 w = b → (cfg3.win w).isOut = false) :
    W6 m ρ c (Proc.devRef .tc b) = W5 m ρ c (Proc.devRef .tc b) := by
  by_cases h : ∃ w, Pipeline.arrRef spec3 w = b
  · obtain ⟨w, rfl⟩ := h
    exact (W6_arr m ρ c w).trans (((dat3 (V5 m ρ) c).arrAt_in w (hb w rfl) _).trans (A_eq3 (V5 m ρ) c w))
  · exact W6_of_ne m ρ c b fun w e => h ⟨w, e⟩

/-! ## The arguments hold their launch contents at every boundary: no host stretch writes one and no region has one as
    an output window's array -/
theorem W0_main_arg0 (c : Dev nD) : W0 m ρ c (Proc.devRef .tc main_arg0) = m ((c : Thread nD τ).loc main_arg0) := rfl
theorem W1_main_arg0 (c : Dev nD) : W1 m ρ c (Proc.devRef .tc main_arg0) = m ((c : Thread nD τ).loc main_arg0) :=
  (W1_keep m ρ c main_arg0 (by decide)).trans (W0_main_arg0 m ρ c)
theorem W2_main_arg0 (c : Dev nD) : W2 m ρ c (Proc.devRef .tc main_arg0) = m ((c : Thread nD τ).loc main_arg0) :=
  (W2_keep m ρ c main_arg0 (by decide)).trans (W1_main_arg0 m ρ c)
theorem W3_main_arg0 (c : Dev nD) : W3 m ρ c (Proc.devRef .tc main_arg0) = m ((c : Thread nD τ).loc main_arg0) :=
  (W3_keep m ρ c main_arg0 (by decide)).trans (W2_main_arg0 m ρ c)
theorem W4_main_arg0 (c : Dev nD) : W4 m ρ c (Proc.devRef .tc main_arg0) = m ((c : Thread nD τ).loc main_arg0) :=
  (W4_keep m ρ c main_arg0 (by decide)).trans (W3_main_arg0 m ρ c)
theorem W5_main_arg0 (c : Dev nD) : W5 m ρ c (Proc.devRef .tc main_arg0) = m ((c : Thread nD τ).loc main_arg0) :=
  (W5_keep m ρ c main_arg0 (by decide)).trans (W4_main_arg0 m ρ c)
theorem W6_main_arg0 (c : Dev nD) : W6 m ρ c (Proc.devRef .tc main_arg0) = m ((c : Thread nD τ).loc main_arg0) :=
  (W6_keep m ρ c main_arg0 (by decide)).trans (W5_main_arg0 m ρ c)
theorem W0_main_arg1 (c : Dev nD) : W0 m ρ c (Proc.devRef .tc main_arg1) = m ((c : Thread nD τ).loc main_arg1) := rfl
theorem W1_main_arg1 (c : Dev nD) : W1 m ρ c (Proc.devRef .tc main_arg1) = m ((c : Thread nD τ).loc main_arg1) :=
  (W1_keep m ρ c main_arg1 (by decide)).trans (W0_main_arg1 m ρ c)
theorem W2_main_arg1 (c : Dev nD) : W2 m ρ c (Proc.devRef .tc main_arg1) = m ((c : Thread nD τ).loc main_arg1) :=
  (W2_keep m ρ c main_arg1 (by decide)).trans (W1_main_arg1 m ρ c)
theorem W3_main_arg1 (c : Dev nD) : W3 m ρ c (Proc.devRef .tc main_arg1) = m ((c : Thread nD τ).loc main_arg1) :=
  (W3_keep m ρ c main_arg1 (by decide)).trans (W2_main_arg1 m ρ c)
theorem W4_main_arg1 (c : Dev nD) : W4 m ρ c (Proc.devRef .tc main_arg1) = m ((c : Thread nD τ).loc main_arg1) :=
  (W4_keep m ρ c main_arg1 (by decide)).trans (W3_main_arg1 m ρ c)
theorem W5_main_arg1 (c : Dev nD) : W5 m ρ c (Proc.devRef .tc main_arg1) = m ((c : Thread nD τ).loc main_arg1) :=
  (W5_keep m ρ c main_arg1 (by decide)).trans (W4_main_arg1 m ρ c)
theorem W6_main_arg1 (c : Dev nD) : W6 m ρ c (Proc.devRef .tc main_arg1) = m ((c : Thread nD τ).loc main_arg1) :=
  (W6_keep m ρ c main_arg1 (by decide)).trans (W5_main_arg1 m ρ c)
theorem W0_main_arg2 (c : Dev nD) : W0 m ρ c (Proc.devRef .tc main_arg2) = m ((c : Thread nD τ).loc main_arg2) := rfl
theorem W1_main_arg2 (c : Dev nD) : W1 m ρ c (Proc.devRef .tc main_arg2) = m ((c : Thread nD τ).loc main_arg2) :=
  (W1_keep m ρ c main_arg2 (by decide)).trans (W0_main_arg2 m ρ c)
theorem W2_main_arg2 (c : Dev nD) : W2 m ρ c (Proc.devRef .tc main_arg2) = m ((c : Thread nD τ).loc main_arg2) :=
  (W2_keep m ρ c main_arg2 (by decide)).trans (W1_main_arg2 m ρ c)
theorem W3_main_arg2 (c : Dev nD) : W3 m ρ c (Proc.devRef .tc main_arg2) = m ((c : Thread nD τ).loc main_arg2) :=
  (W3_keep m ρ c main_arg2 (by decide)).trans (W2_main_arg2 m ρ c)
theorem W4_main_arg2 (c : Dev nD) : W4 m ρ c (Proc.devRef .tc main_arg2) = m ((c : Thread nD τ).loc main_arg2) :=
  (W4_keep m ρ c main_arg2 (by decide)).trans (W3_main_arg2 m ρ c)
theorem W5_main_arg2 (c : Dev nD) : W5 m ρ c (Proc.devRef .tc main_arg2) = m ((c : Thread nD τ).loc main_arg2) :=
  (W5_keep m ρ c main_arg2 (by decide)).trans (W4_main_arg2 m ρ c)
theorem W6_main_arg2 (c : Dev nD) : W6 m ρ c (Proc.devRef .tc main_arg2) = m ((c : Thread nD τ).loc main_arg2) :=
  (W6_keep m ρ c main_arg2 (by decide)).trans (W5_main_arg2 m ρ c)
theorem W0_main_arg3 (c : Dev nD) : W0 m ρ c (Proc.devRef .tc main_arg3) = m ((c : Thread nD τ).loc main_arg3) := rfl
theorem W1_main_arg3 (c : Dev nD) : W1 m ρ c (Proc.devRef .tc main_arg3) = m ((c : Thread nD τ).loc main_arg3) :=
  (W1_keep m ρ c main_arg3 (by decide)).trans (W0_main_arg3 m ρ c)
theorem W2_main_arg3 (c : Dev nD) : W2 m ρ c (Proc.devRef .tc main_arg3) = m ((c : Thread nD τ).loc main_arg3) :=
  (W2_keep m ρ c main_arg3 (by decide)).trans (W1_main_arg3 m ρ c)
theorem W3_main_arg3 (c : Dev nD) : W3 m ρ c (Proc.devRef .tc main_arg3) = m ((c : Thread nD τ).loc main_arg3) :=
  (W3_keep m ρ c main_arg3 (by decide)).trans (W2_main_arg3 m ρ c)
theorem W4_main_arg3 (c : Dev nD) : W4 m ρ c (Proc.devRef .tc main_arg3) = m ((c : Thread nD τ).loc main_arg3) :=
  (W4_keep m ρ c main_arg3 (by decide)).trans (W3_main_arg3 m ρ c)
theorem W5_main_arg3 (c : Dev nD) : W5 m ρ c (Proc.devRef .tc main_arg3) = m ((c : Thread nD τ).loc main_arg3) :=
  (W5_keep m ρ c main_arg3 (by decide)).trans (W4_main_arg3 m ρ c)
theorem W6_main_arg3 (c : Dev nD) : W6 m ρ c (Proc.devRef .tc main_arg3) = m ((c : Thread nD τ).loc main_arg3) :=
  (W6_keep m ρ c main_arg3 (by decide)).trans (W5_main_arg3 m ρ c)
theorem W0_main_arg4 (c : Dev nD) : W0 m ρ c (Proc.devRef .tc main_arg4) = m ((c : Thread nD τ).loc main_arg4) := rfl
theorem W1_main_arg4 (c : Dev nD) : W1 m ρ c (Proc.devRef .tc main_arg4) = m ((c : Thread nD τ).loc main_arg4) :=
  (W1_keep m ρ c main_arg4 (by decide)).trans (W0_main_arg4 m ρ c)
theorem W2_main_arg4 (c : Dev nD) : W2 m ρ c (Proc.devRef .tc main_arg4) = m ((c : Thread nD τ).loc main_arg4) :=
  (W2_keep m ρ c main_arg4 (by decide)).trans (W1_main_arg4 m ρ c)
theorem W3_main_arg4 (c : Dev nD) : W3 m ρ c (Proc.devRef .tc main_arg4) = m ((c : Thread nD τ).loc main_arg4) :=
  (W3_keep m ρ c main_arg4 (by decide)).trans (W2_main_arg4 m ρ c)
theorem W4_main_arg4 (c : Dev nD) : W4 m ρ c (Proc.devRef .tc main_arg4) = m ((c : Thread nD τ).loc main_arg4) :=
  (W4_keep m ρ c main_arg4 (by decide)).trans (W3_main_arg4 m ρ c)
theorem W5_main_arg4 (c : Dev nD) : W5 m ρ c (Proc.devRef .tc main_arg4) = m ((c : Thread nD τ).loc main_arg4) :=
  (W5_keep m ρ c main_arg4 (by decide)).trans (W4_main_arg4 m ρ c)
theorem W6_main_arg4 (c : Dev nD) : W6 m ρ c (Proc.devRef .tc main_arg4) = m ((c : Thread nD τ).loc main_arg4) :=
  (W6_keep m ρ c main_arg4 (by decide)).trans (W5_main_arg4 m ρ c)
theorem W0_main_arg5 (c : Dev nD) : W0 m ρ c (Proc.devRef .tc main_arg5) = m ((c : Thread nD τ).loc main_arg5) := rfl
theorem W1_main_arg5 (c : Dev nD) : W1 m ρ c (Proc.devRef .tc main_arg5) = m ((c : Thread nD τ).loc main_arg5) :=
  (W1_keep m ρ c main_arg5 (by decide)).trans (W0_main_arg5 m ρ c)
theorem W2_main_arg5 (c : Dev nD) : W2 m ρ c (Proc.devRef .tc main_arg5) = m ((c : Thread nD τ).loc main_arg5) :=
  (W2_keep m ρ c main_arg5 (by decide)).trans (W1_main_arg5 m ρ c)
theorem W3_main_arg5 (c : Dev nD) : W3 m ρ c (Proc.devRef .tc main_arg5) = m ((c : Thread nD τ).loc main_arg5) :=
  (W3_keep m ρ c main_arg5 (by decide)).trans (W2_main_arg5 m ρ c)
theorem W4_main_arg5 (c : Dev nD) : W4 m ρ c (Proc.devRef .tc main_arg5) = m ((c : Thread nD τ).loc main_arg5) :=
  (W4_keep m ρ c main_arg5 (by decide)).trans (W3_main_arg5 m ρ c)
theorem W5_main_arg5 (c : Dev nD) : W5 m ρ c (Proc.devRef .tc main_arg5) = m ((c : Thread nD τ).loc main_arg5) :=
  (W5_keep m ρ c main_arg5 (by decide)).trans (W4_main_arg5 m ρ c)
theorem W6_main_arg5 (c : Dev nD) : W6 m ρ c (Proc.devRef .tc main_arg5) = m ((c : Thread nD τ).loc main_arg5) :=
  (W6_keep m ρ c main_arg5 (by decide)).trans (W5_main_arg5 m ρ c)
theorem W0_main_arg6 (c : Dev nD) : W0 m ρ c (Proc.devRef .tc main_arg6) = m ((c : Thread nD τ).loc main_arg6) := rfl
theorem W1_main_arg6 (c : Dev nD) : W1 m ρ c (Proc.devRef .tc main_arg6) = m ((c : Thread nD τ).loc main_arg6) :=
  (W1_keep m ρ c main_arg6 (by decide)).trans (W0_main_arg6 m ρ c)
theorem W2_main_arg6 (c : Dev nD) : W2 m ρ c (Proc.devRef .tc main_arg6) = m ((c : Thread nD τ).loc main_arg6) :=
  (W2_keep m ρ c main_arg6 (by decide)).trans (W1_main_arg6 m ρ c)
theorem W3_main_arg6 (c : Dev nD) : W3 m ρ c (Proc.devRef .tc main_arg6) = m ((c : Thread nD τ).loc main_arg6) :=
  (W3_keep m ρ c main_arg6 (by decide)).trans (W2_main_arg6 m ρ c)
theorem W4_main_arg6 (c : Dev nD) : W4 m ρ c (Proc.devRef .tc main_arg6) = m ((c : Thread nD τ).loc main_arg6) :=
  (W4_keep m ρ c main_arg6 (by decide)).trans (W3_main_arg6 m ρ c)
theorem W5_main_arg6 (c : Dev nD) : W5 m ρ c (Proc.devRef .tc main_arg6) = m ((c : Thread nD τ).loc main_arg6) :=
  (W5_keep m ρ c main_arg6 (by decide)).trans (W4_main_arg6 m ρ c)
theorem W6_main_arg6 (c : Dev nD) : W6 m ρ c (Proc.devRef .tc main_arg6) = m ((c : Thread nD τ).loc main_arg6) :=
  (W6_keep m ρ c main_arg6 (by decide)).trans (W5_main_arg6 m ρ c)
theorem W0_main_arg7 (c : Dev nD) : W0 m ρ c (Proc.devRef .tc main_arg7) = m ((c : Thread nD τ).loc main_arg7) := rfl
theorem W1_main_arg7 (c : Dev nD) : W1 m ρ c (Proc.devRef .tc main_arg7) = m ((c : Thread nD τ).loc main_arg7) :=
  (W1_keep m ρ c main_arg7 (by decide)).trans (W0_main_arg7 m ρ c)
theorem W2_main_arg7 (c : Dev nD) : W2 m ρ c (Proc.devRef .tc main_arg7) = m ((c : Thread nD τ).loc main_arg7) :=
  (W2_keep m ρ c main_arg7 (by decide)).trans (W1_main_arg7 m ρ c)
theorem W3_main_arg7 (c : Dev nD) : W3 m ρ c (Proc.devRef .tc main_arg7) = m ((c : Thread nD τ).loc main_arg7) :=
  (W3_keep m ρ c main_arg7 (by decide)).trans (W2_main_arg7 m ρ c)
theorem W4_main_arg7 (c : Dev nD) : W4 m ρ c (Proc.devRef .tc main_arg7) = m ((c : Thread nD τ).loc main_arg7) :=
  (W4_keep m ρ c main_arg7 (by decide)).trans (W3_main_arg7 m ρ c)
theorem W5_main_arg7 (c : Dev nD) : W5 m ρ c (Proc.devRef .tc main_arg7) = m ((c : Thread nD τ).loc main_arg7) :=
  (W5_keep m ρ c main_arg7 (by decide)).trans (W4_main_arg7 m ρ c)
theorem W6_main_arg7 (c : Dev nD) : W6 m ρ c (Proc.devRef .tc main_arg7) = m ((c : Thread nD τ).loc main_arg7) :=
  (W6_keep m ρ c main_arg7 (by decide)).trans (W5_main_arg7 m ρ c)
theorem W0_main_arg8 (c : Dev nD) : W0 m ρ c (Proc.devRef .tc main_arg8) = m ((c : Thread nD τ).loc main_arg8) := rfl
theorem W1_main_arg8 (c : Dev nD) : W1 m ρ c (Proc.devRef .tc main_arg8) = m ((c : Thread nD τ).loc main_arg8) :=
  (W1_keep m ρ c main_arg8 (by decide)).trans (W0_main_arg8 m ρ c)
theorem W2_main_arg8 (c : Dev nD) : W2 m ρ c (Proc.devRef .tc main_arg8) = m ((c : Thread nD τ).loc main_arg8) :=
  (W2_keep m ρ c main_arg8 (by decide)).trans (W1_main_arg8 m ρ c)
theorem W3_main_arg8 (c : Dev nD) : W3 m ρ c (Proc.devRef .tc main_arg8) = m ((c : Thread nD τ).loc main_arg8) :=
  (W3_keep m ρ c main_arg8 (by decide)).trans (W2_main_arg8 m ρ c)
theorem W4_main_arg8 (c : Dev nD) : W4 m ρ c (Proc.devRef .tc main_arg8) = m ((c : Thread nD τ).loc main_arg8) :=
  (W4_keep m ρ c main_arg8 (by decide)).trans (W3_main_arg8 m ρ c)
theorem W5_main_arg8 (c : Dev nD) : W5 m ρ c (Proc.devRef .tc main_arg8) = m ((c : Thread nD τ).loc main_arg8) :=
  (W5_keep m ρ c main_arg8 (by decide)).trans (W4_main_arg8 m ρ c)
theorem W6_main_arg8 (c : Dev nD) : W6 m ρ c (Proc.devRef .tc main_arg8) = m ((c : Thread nD τ).loc main_arg8) :=
  (W6_keep m ρ c main_arg8 (by decide)).trans (W5_main_arg8 m ρ c)

/-! ## The frame: every argument array ends as launched -/

/-- At the compiled mesh, from any memory with zero counters, every weakly fair execution of @main on the TensorCores
    terminates, nothing faulting, and every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_post m ρ fun s h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c)⟩

/-! ## What the regions hand one another -/

/-- The two results are region 3's two output arrays as its pipeline leaves them. -/
theorem results (c : Dev nD) :
    W6 m ρ c (Proc.devRef .tc main_v5_0) = (dat3 (V5 m ρ) c).arrAt 5 cfg3.N
    ∧ W6 m ρ c (Proc.devRef .tc main_v5_1) = (dat3 (V5 m ρ) c).arrAt 6 cfg3.N :=
  ⟨W6_arr m ρ c 5, W6_arr m ρ c 6⟩

/-- Region 1 reads region 0's product at `main_v0`. -/
theorem V2_main_v0 (c : Dev nD) : V2 m ρ c main_v0 = (dat0 (V0 m ρ) c).arrAt 2 cfg0.N :=
  (W2_keep m ρ c main_v0 (by decide)).trans (W1_arr m ρ c 2)
/-- Region 2 reads region 1's first output at `main_v2_0`. -/
theorem V3_main_v2_0 (c : Dev nD) : V3 m ρ c main_v2_0 = (dat1 (V2 m ρ) c).arrAt 5 cfg1.N := W3_arr m ρ c 5
theorem V3_main_v2_1 (c : Dev nD) : V3 m ρ c main_v2_1 = (dat1 (V2 m ρ) c).arrAt 6 cfg1.N := W3_arr m ρ c 6
/-- Region 3 reads region 1's second output at `main_v2_1` (region 2 and the second host stretch leave it) and region 2's
    product at `main_v3`. -/
theorem V5_main_v2_1 (c : Dev nD) : V5 m ρ c main_v2_1 = (dat1 (V2 m ρ) c).arrAt 6 cfg1.N :=
  (W5_keep m ρ c main_v2_1 (by decide)).trans ((W4_keep m ρ c main_v2_1 (by decide)).trans (W3_arr m ρ c 6))
theorem V5_main_v3 (c : Dev nD) : V5 m ρ c main_v3 = (dat2 (V3 m ρ) c).arrAt 2 cfg2.N :=
  (W5_keep m ρ c main_v3 (by decide)).trans (W4_arr m ρ c 2)
/-- The bias rows: each host stretch reshapes a bias vector, still as launched, into a one-row matrix. -/
theorem V2_main_v1 (c : Dev nD) : V2 m ρ c main_v1
    = fun i => shapeCast main_v1.ty.shape (m ((c : Thread nD τ).loc main_arg6)) shapeCasts_S256_S1x256 i := by
  show StableHlo.after hostOps1 (W1 m ρ c) (Proc.devRef .tc main_v1) = _
  after_results
  rw [W1_main_arg6 m ρ c]
theorem V5_main_v4 (c : Dev nD) : V5 m ρ c main_v4
    = fun i => shapeCast main_v4.ty.shape (m ((c : Thread nD τ).loc main_arg8)) shapeCasts_S40_S1x40 i := by
  show StableHlo.after hostOps3 (W4 m ρ c) (Proc.devRef .tc main_v4) = _
  after_results
  rw [W4_main_arg8 m ρ c]

end Cert.KernelIdeal.Hand

end
-- ==== Proof.KRegA0.lean ====
/- Region 0 (the first projection): the proof data of its pipeline and the body obligation. The body reads a row block of the left factor and the whole right factor, and stores their product over the output's row block. -/
import proofs.«156794_j4621384810949_2_alg».proof.Proof.Gen.Kernel.Launch
import proofs.«156794_j4621384810949_2_alg».proof.Proof.Gen.Kernel.Skeleton
import proofs.«156794_j4621384810949_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the product of the features with the first weight matrix, row block by row block -/

/-! ## The windows' blocks -/

/-- Window `w`'s block at grid point `t`: the window's view at that point read off the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's staging buffer holds its row block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right factor's staging buffer holds the whole right factor at every point: it is brought in at the first
    point only, and where it is not brought in its block index has not moved, so the buffer still holds it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_a : Rect S1024x512 := Rect.unit (s := S1024x512) ![0, 0] S1024x512.size inb_S1024x512_S1024x512_0_0
abbrev r0_b : Rect S512x256 := Rect.unit (s := S512x256) ![0, 0] S512x256.size inb_S512x256_S512x256_0_0
abbrev r0_o : Rect S1024x256 := Rect.unit (s := S1024x256) ![0, 0] S1024x256.size inb_S1024x256_S1024x256_0_0

/-! ## What the body leaves in the output window's buffer -/

/-- The output buffer after the body, from the two input blocks: its single whole-buffer store, whose payload is the
    product of the two blocks as the skeleton names it. -/
def out0_2 (x0 : Vec F S1024x512 .f32) (x1 : Vec F S512x256 .f32) : Vec F S1024x256 .f32 :=
  View.canon [⟨r0_o, k0_pay1 (View.ld x0 r0_a) (View.ld x1 r0_b)⟩]

/-- The single store is of the whole buffer, so it covers every index. -/
theorem cover0_2 (p0 : Vec F S1024x256 .f32) (y : S1024x256.Idx) :
    ∃ pc ∈ ([⟨r0_o, p0⟩] : List (View.Piece (Elt F) S1024x256 .f32)), y ∈ pc.1.set :=
  View.cover_of_tiled [⟨r0_o, p0⟩] S1024x256.size (by rfl) y

/-! ## The body's triple -/

set_option maxHeartbeats 1000000 in
/-- The body on whole staging buffers, the inputs' at read contents `x0`, `x1` and the output's at anything: it reads
    both inputs whole, reads the output (the value is not used), and stores the product over the whole output. It runs
    to the continuation holding the inputs as they were and the output at `out0_2 x0 x1`. -/
theorem sound_kernel0 (c : Dev nD) (E : Set ℕ) (i : grid0.Coords)
    (arg0 : Memref sig .tc .vmem S1024x512 .f32) (harg0 : arg0.IsWhole)
    (arg1 : Memref sig .tc .vmem S512x256 .f32) (harg1 : arg1.IsWhole)
    (arg2 : Memref sig .tc .vmem S1024x256 .f32) (harg2 : arg2.IsWhole)
    (x0 : Vec F S1024x512 .f32) (x1 : Vec F S512x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__proj_kernel i arg0 harg0 arg1 harg1 arg2 harg2) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this region on core `c`: the arrays as the region finds them; after the body at point `t` each
    input's buffer still at its block and the output's at the product of the two blocks; the invariant is the
    untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The invariant at entry and at exit is the untouched rest itself. -/
theorem hin0 (c : Dev nD) : (Pipeline.ΦA spec0 c : sProp 𝕄) ⊢ (dat0 V c).Φ 0 := .rfl

theorem hout0 (c : Dev nD) : (dat0 V c).Φ (Fin.last cfg0.N) ⊢ (Pipeline.ΦA spec0 c : sProp 𝕄) := .rfl

end Cert.Kernel.Hand

end
-- ==== Proof.KRegA2.lean ====
/- Region 2 (the second projection): the proof data of its pipeline and the body obligation. The body reads a row block of the hidden features and the whole second weight matrix, and stores their product over the output's row block. -/
import proofs.«156794_j4621384810949_2_alg».proof.Proof.Gen.Kernel.Launch
import proofs.«156794_j4621384810949_2_alg».proof.Proof.Gen.Kernel.Skeleton
import proofs.«156794_j4621384810949_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the product of the hidden features with the second weight matrix, row block by row block -/

/-! ## The windows' blocks -/

/-- Window `w`'s block at grid point `t`: the window's view at that point read off the array the region finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left factor's staging buffer holds its row block at every point, for any proof data whose array is the
    entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right factor's staging buffer holds the whole right factor at every point: it is brought in at the first
    point only, and where it is not brought in its block index has not moved, so the buffer still holds it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_a : Rect S1024x256 := Rect.unit (s := S1024x256) ![0, 0] S1024x256.size inb_S1024x256_S1024x256_0_0
abbrev r2_b : Rect S256x40 := Rect.unit (s := S256x40) ![0, 0] S256x40.size inb_S256x40_S256x40_0_0
abbrev r2_o : Rect S1024x40 := Rect.unit (s := S1024x40) ![0, 0] S1024x40.size inb_S1024x40_S1024x40_0_0

/-! ## What the body leaves in the output window's buffer -/

/-- The output buffer after the body, from the two input blocks: its single whole-buffer store, whose payload is the
    product of the two blocks as the skeleton names it. -/
def out2_2 (x0 : Vec F S1024x256 .f32) (x1 : Vec F S256x40 .f32) : Vec F S1024x40 .f32 :=
  View.canon [⟨r2_o, k2_pay1 (View.ld x0 r2_a) (View.ld x1 r2_b)⟩]

/-- The single store is of the whole buffer, so it covers every index. -/
theorem cover2_2 (p0 : Vec F S1024x40 .f32) (y : S1024x40.Idx) :
    ∃ pc ∈ ([⟨r2_o, p0⟩] : List (View.Piece (Elt F) S1024x40 .f32)), y ∈ pc.1.set :=
  View.cover_of_tiled [⟨r2_o, p0⟩] S1024x40.size (by rfl) y

/-! ## The body's triple -/

set_option maxHeartbeats 1000000 in
/-- The body on whole staging buffers, the inputs' at read contents `x0`, `x1` and the output's at anything: it reads
    both inputs whole, reads the output (the value is not used), and stores the product over the whole output. It runs
    to the continuation holding the inputs as they were and the output at `out2_2 x0 x1`. -/
theorem sound_kernel2 (c : Dev nD) (E : Set ℕ) (i : grid2.Coords)
    (arg0 : Memref sig .tc .vmem S1024x256 .f32) (harg0 : arg0.IsWhole)
    (arg1 : Memref sig .tc .vmem S256x40 .f32) (harg1 : arg1.IsWhole)
    (arg2 : Memref sig .tc .vmem S1024x40 .f32) (harg2 : arg2.IsWhole)
    (x0 : Vec F S1024x256 .f32) (x1 : Vec F S256x40 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out2_2 x0 x1)) -∗ K ⟨⟩))
      ⊢ wp frame (wpE (defs₀ (F := F)) Variants.none c none) E (cc2__proj_kernel i arg0 harg0 arg1 harg1 arg2 harg2) K := by
  simp only [cc2__proj_kernel_eq_skeleton]; unfold cc2__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of this region on core `c`: the arrays as the region finds them; after the body at point `t` each
    input's buffer still at its block and the output's at the product of the two blocks; the invariant is the
    untouched rest; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- The invariant at entry and at exit is the untouched rest itself. -/
theorem hin2 (c : Dev nD) : (Pipeline.ΦA spec2 c : sProp 𝕄) ⊢ (dat2 V c).Φ 0 := .rfl

theorem hout2 (c : Dev nD) : (dat2 V c).Φ (Fin.last cfg2.N) ⊢ (Pipeline.ΦA spec2 c : sProp 𝕄) := .rfl

end Cert.Kernel.Hand

end
-- ==== Proof.KR1RunA.lean ====
/-
  Region 1 — the first layer kernel on its 8 × 8 grid — the body's branch conditions over the grid and the run of
  the body at the first column block of a row block (`k = 0`): the three accumulators are zeroed, the block's
  contribution is added, nothing is stored into the outputs.
-/
import proofs.«156794_j4621384810949_2_alg».proof.Proof.Gen.Kernel.Launch
import proofs.«156794_j4621384810949_2_alg».proof.Proof.Gen.Kernel.Skeleton
import proofs.«156794_j4621384810949_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two branch conditions, decided over the grid -/

/-- The first `scf.if`: the column block is the first one (`k = 0`): the accumulators are reset. -/
abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second `scf.if`: the column block is the last one (`k = 7`): the outputs are written. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## The staging and scratch memrefs the body is called with -/

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x40 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x40 .f32 := win1_6.stage (cfg1.slots t 6)
abbrev hs1_6 (t : Fin cfg1.N) : (ms1_6 t).IsWhole := hstage1_6 ((cfg1.slots t 6).cast nbuf1_6)
/-- The three accumulators: whole scoped buffers of the kernel's own. -/
abbrev scM1_0 : Memref sig .tc .vmem S1024x256 .f32 := Memref.whole cc1_scratch0
abbrev scM1_1 : Memref sig .tc .vmem S1024x40 .f32 := Memref.whole cc1_scratch1
abbrev scM1_2 : Memref sig .tc .vmem S1024x1 .f32 := Memref.whole cc1_scratch2
abbrev VS1_0 : View sig .tc .vmem S1024x256 .f32 := scM1_0.view
abbrev VS1_1 : View sig .tc .vmem S1024x40 .f32 := scM1_1.view
abbrev VS1_2 : View sig .tc .vmem S1024x1 .f32 := scM1_2.view
abbrev VO1_5 : View sig .tc .vmem S1024x256 .f32 := (Memref.whole cc1_stg5_0 : Memref sig .tc .vmem S1024x256 .f32).view
abbrev VO1_6 : View sig .tc .vmem S1024x40 .f32 := (Memref.whole cc1_stg6_0 : Memref sig .tc .vmem S1024x40 .f32).view

/-! ## The body at `k = 0` -/

set_option maxHeartbeats 4000000 in
/-- The pieces the body's stores leave in the three accumulators at a point with `k = 0` (and `k ≠ 7`), with the
    proof that the body runs there: inputs at their contents and handed back, the outputs untouched, the accumulators
    entered at anything. -/
noncomputable def kernelRun1_A (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x256 .f32) (harg4 : arg4.IsWhole) (arg5 : Memref sig .tc .vmem S1024x40 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x40 .f32) (harg8 : arg8.IsWhole) (arg9 : Memref sig .tc .vmem S1024x256 .f32) (harg9 : arg9.IsWhole) (arg10 : Memref sig .tc .vmem S1024x40 .f32) (harg10 : arg10.IsWhole) (arg11 : Memref sig .tc .vmem S1024x1 .f32) (harg11 : arg11.IsWhole) (hc0 : cond1_0 i) (hc1 : ¬cond1_1 i)
    (x0 : Vec F S1024x1024 .f32) (x1 : Vec F S1024x1024 .f32) (x2 : Vec F S1024x256 .f32) (x3 : Vec F S1024x40 .f32) (x4 : Vec F S1x256 .f32) :
    Σ' (LS0 : List (View.Piece (Elt F) S1024x256 .f32)) (LS1 : List (View.Piece (Elt F) S1024x40 .f32)), { LS2 : List (View.Piece (Elt F) S1024x1 .f32) //
      ∀ (d5 : Vec F S1024x256 .f32) (d6 : Vec F S1024x40 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare d5 ∗ owns (c : Thread nD τ) arg8 fullShare d6
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare d5 ∗ owns (c : Thread nD τ) arg8 fullShare d6
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)) -∗ K ⟨⟩))
          ⊢ wp frame (wpE (defs₀ (F := F)) Variants.none c none) E (cc1__layer_kernel i arg2 harg2 arg3 harg3 arg4 harg4 arg5 harg5 arg6 harg6 arg7 harg7 arg8 harg8 arg9 harg9 arg10 harg10 arg11 harg11) K } := by
  refine ⟨?_, ?_, ?_, fun d5 d6 E K => ?run⟩
  case run =>
    simp only [cc1__layer_kernel_eq_skeleton]; unfold cc1__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact hf5
      iexact H5
    isplitl [H6]
    · iexists _; isplitr; · ipureintro; exact hf6
      iexact H6
    isplitl [HS0]; · iexists _; iexact HS0
    isplitl [HS1]; · iexists _; iexact HS1
    iexists _; iexact HS2

end Cert.Kernel.Hand

end
-- ==== Proof.KR1RunB.lean ====
/-
  Region 1: the run of the body at an inner column block (`0 < k < 7`): the block's contribution is added to the three
  accumulators, which are entered at what the point before left; nothing is stored into the outputs.
-/
import proofs.«156794_j4621384810949_2_alg».proof.Proof.Gen.Kernel.Launch
import proofs.«156794_j4621384810949_2_alg».proof.Proof.Gen.Kernel.Skeleton
import proofs.«156794_j4621384810949_2_alg».proof.Proof.Gen.Kernel.Points
import proofs.«156794_j4621384810949_2_alg».proof.Proof.KR1RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave in the three accumulators at a point with `0 < k < 7`, with the proof that
    the body runs there. -/
noncomputable def kernelRun1_B (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x256 .f32) (harg4 : arg4.IsWhole) (arg5 : Memref sig .tc .vmem S1024x40 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x40 .f32) (harg8 : arg8.IsWhole) (arg9 : Memref sig .tc .vmem S1024x256 .f32) (harg9 : arg9.IsWhole) (arg10 : Memref sig .tc .vmem S1024x40 .f32) (harg10 : arg10.IsWhole) (arg11 : Memref sig .tc .vmem S1024x1 .f32) (harg11 : arg11.IsWhole) (hc0 : ¬cond1_0 i) (hc1 : ¬cond1_1 i)
    (x0 : Vec F S1024x1024 .f32) (x1 : Vec F S1024x1024 .f32) (x2 : Vec F S1024x256 .f32) (x3 : Vec F S1024x40 .f32) (x4 : Vec F S1x256 .f32) (xs0 : Vec F S1024x256 .f32) (xs1 : Vec F S1024x40 .f32) (xs2 : Vec F S1024x1 .f32) :
    Σ' (LS0 : List (View.Piece (Elt F) S1024x256 .f32)) (LS1 : List (View.Piece (Elt F) S1024x40 .f32)), { LS2 : List (View.Piece (Elt F) S1024x1 .f32) //
      ∀ (d5 : Vec F S1024x256 .f32) (d6 : Vec F S1024x40 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare d5 ∗ owns (c : Thread nD τ) arg8 fullShare d6
            ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare d5 ∗ owns (c : Thread nD τ) arg8 fullShare d6
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)) -∗ K ⟨⟩))
          ⊢ wp frame (wpE (defs₀ (F := F)) Variants.none c none) E (cc1__layer_kernel i arg2 harg2 arg3 harg3 arg4 harg4 arg5 harg5 arg6 harg6 arg7 harg7 arg8 harg8 arg9 harg9 arg10 harg10 arg11 harg11) K } := by
  refine ⟨?_, ?_, ?_, fun d5 d6 E K => ?run⟩
  case run =>
    simp only [cc1__layer_kernel_eq_skeleton]; unfold cc1__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact hf5
      iexact H5
    isplitl [H6]
    · iexists _; isplitr; · ipureintro; exact hf6
      iexact H6
    isplitl [HS0]; · iexists _; iexact HS0
    isplitl [HS1]; · iexists _; iexact HS1
    iexists _; iexact HS2

end Cert.Kernel.Hand

end
-- ==== Proof.KR1RunC.lean ====
/-
  Region 1: the run of the body at the last column block of a row block (`k = 7`): the block's contribution is added
  to the accumulators, then the two output blocks are stored: the feature accumulator times the inverse clipped
  row norm plus the bias, rectified; the label accumulator times the same inverse.
-/
import proofs.«156794_j4621384810949_2_alg».proof.Proof.Gen.Kernel.Launch
import proofs.«156794_j4621384810949_2_alg».proof.Proof.Gen.Kernel.Skeleton
import proofs.«156794_j4621384810949_2_alg».proof.Proof.Gen.Kernel.Points
import proofs.«156794_j4621384810949_2_alg».proof.Proof.KR1RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave in the two output blocks and the three accumulators at a point with `k = 7`,
    with the proof that the body runs there. -/
noncomputable def kernelRun1_C (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x256 .f32) (harg4 : arg4.IsWhole) (arg5 : Memref sig .tc .vmem S1024x40 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x40 .f32) (harg8 : arg8.IsWhole) (arg9 : Memref sig .tc .vmem S1024x256 .f32) (harg9 : arg9.IsWhole) (arg10 : Memref sig .tc .vmem S1024x40 .f32) (harg10 : arg10.IsWhole) (arg11 : Memref sig .tc .vmem S1024x1 .f32) (harg11 : arg11.IsWhole) (hc0 : ¬cond1_0 i) (hc1 : cond1_1 i)
    (x0 : Vec F S1024x1024 .f32) (x1 : Vec F S1024x1024 .f32) (x2 : Vec F S1024x256 .f32) (x3 : Vec F S1024x40 .f32) (x4 : Vec F S1x256 .f32) (xs0 : Vec F S1024x256 .f32) (xs1 : Vec F S1024x40 .f32) (xs2 : Vec F S1024x1 .f32) :
    Σ' (L5 : List (View.Piece (Elt F) S1024x256 .f32)) (L6 : List (View.Piece (Elt F) S1024x40 .f32)) (LS0 : List (View.Piece (Elt F) S1024x256 .f32)) (LS1 : List (View.Piece (Elt F) S1024x40 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)) -∗ K ⟨⟩))
          ⊢ wp frame (wpE (defs₀ (F := F)) Variants.none c none) E (cc1__layer_kernel i arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc1__layer_kernel_eq_skeleton]; unfold cc1__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]; · iexists _; iexact HS0
    isplitl [HS1]; · iexists _; iexact HS1
    iexists _; iexact HS2

end Cert.Kernel.Hand

end
-- ==== Proof.KR1Data.lean ====
/-
  Region 1 — the first layer kernel on its 8 × 8 grid: what the three accumulators and the two output blocks hold
  after every grid point, by recursion on the point; the region's invariant (the accumulators at those contents); the
  proof data; and the body obligation, by cases on the column block `k` of the point (`k = 0`: reset and add;
  `0 < k < 7`: add; `k = 7`: add and write the two output blocks).
-/
import proofs.«156794_j4621384810949_2_alg».proof.Proof.Gen.Kernel.Launch
import proofs.«156794_j4621384810949_2_alg».proof.Proof.Gen.Kernel.Skeleton
import proofs.«156794_j4621384810949_2_alg».proof.Proof.Gen.Kernel.Points
import proofs.«156794_j4621384810949_2_alg».proof.Proof.KR1RunB
import proofs.«156794_j4621384810949_2_alg».proof.Proof.KR1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the window's view at that point read off the array the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, brought in there or still there from an
    earlier point (the bias row is brought in once). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## Where the output windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Off the last column block the two output windows are idle and not written back; at it they are live. -/
theorem idleAt1_5 : ∀ t : Fin cfg1.N, ¬cond1_1 (grid1.coords t) → cfg1.idle 5 (grid1.coords t) = true := by decide +kernel
theorem idleAt1_6 : ∀ t : Fin cfg1.N, ¬cond1_1 (grid1.coords t) → cfg1.idle 6 (grid1.coords t) = true := by decide +kernel
theorem noFlush1_5 : ∀ t : Fin cfg1.N, ¬cond1_1 (grid1.coords t) → (cfg1.win 5).flush t = false := by decide +kernel
theorem noFlush1_6 : ∀ t : Fin cfg1.N, ¬cond1_1 (grid1.coords t) → (cfg1.win 6).flush t = false := by decide +kernel
theorem liveAt1_5 : ∀ t : Fin cfg1.N, cond1_1 (grid1.coords t) → cfg1.idle 5 (grid1.coords t) = false := by decide +kernel
theorem liveAt1_6 : ∀ t : Fin cfg1.N, cond1_1 (grid1.coords t) → cfg1.idle 6 (grid1.coords t) = false := by decide +kernel

/-! ## The region's untouched rest -/

/-- Every scoped buffer of the core other than the three accumulators, unopened. -/
abbrev Rest1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- What the launch hands the region: the three accumulators at some contents, the rest, the generator register. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d))
          ∗ Rest1 (F := F) c) ∗ (∃ r, prngReg c r)) := by
  unfold Pipeline.ΦA; rw [scopedRest1_split]; simp only [scM1_0, scM1_1, scM1_2, owns_whole]; try rfl

/-! ## What one point leaves, by the point's column block -/

/-- What the two output blocks and the three accumulators hold after a point. -/
abbrev Outs1 : Type := Vec F S1024x256 .f32 × Vec F S1024x40 .f32 × Vec F S1024x256 .f32 × Vec F S1024x40 .f32 × Vec F S1024x1 .f32

/-- Contents nothing consults: an output block at a point where the body stores nothing into it. -/
def junk1_5 : Vec F S1024x256 .f32 := VO1_5.read (Elt F) VO1_5.junk
def junk1_6 : Vec F S1024x40 .f32 := VO1_6.read (Elt F) VO1_6.junk

theorem notC_of_A {t : Fin cfg1.N} (h0 : t.val % 8 = 0) : ¬cond1_1 (grid1.coords t) :=
  fun h => by have := (hcond1_1 t).mp h; omega

/-- The body's run at a point with `k = 0`. -/
abbrev runA (c : Dev nD) (t : Fin cfg1.N) (h0 : t.val % 8 = 0) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (notC_of_A h0) (iblk1 V c 0 t) (iblk1 V c 1 t) (iblk1 V c 2 t) (iblk1 V c 3 t) (iblk1 V c 4 t)
/-- The body's run at a point with `0 < k < 7`, the accumulators entered at `xs`. -/
abbrev runB (c : Dev nD) (t : Fin cfg1.N) (h0 : ¬t.val % 8 = 0) (h1 : ¬t.val % 8 = 7) (xs0 : Vec F S1024x256 .f32) (xs1 : Vec F S1024x40 .f32) (xs2 : Vec F S1024x1 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs0 xs1 xs2
/-- The body's run at a point with `k = 7`, the accumulators entered at `xs`. -/
abbrev runC (c : Dev nD) (t : Fin cfg1.N) (h0 : ¬t.val % 8 = 0) (h1 : t.val % 8 = 7) (xs0 : Vec F S1024x256 .f32) (xs1 : Vec F S1024x40 .f32) (xs2 : Vec F S1024x1 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) xs0 xs1 xs2

/-- After a point with `k = 0`: the accumulators at the run's pieces read back; the outputs untouched. -/
def stepA (c : Dev nD) (t : Fin cfg1.N) (h0 : t.val % 8 = 0) : Outs1 (F := F) :=
  (junk1_5, junk1_6,
    VS1_0.read (Elt F) (VS1_0.writes (Elt F) VS1_0.junk (runA V c t h0).1),
    VS1_1.read (Elt F) (VS1_1.writes (Elt F) VS1_1.junk (runA V c t h0).2.1),
    VS1_2.read (Elt F) (VS1_2.writes (Elt F) VS1_2.junk (runA V c t h0).2.2.1))

/-- After a point with `0 < k < 7`, from what the point before left. -/
def stepB (c : Dev nD) (t : Fin cfg1.N) (h0 : ¬t.val % 8 = 0) (h1 : ¬t.val % 8 = 7) (prev : Outs1 (F := F)) : Outs1 (F := F) :=
  (junk1_5, junk1_6,
    VS1_0.read (Elt F) (VS1_0.writes (Elt F) VS1_0.junk (runB V c t h0 h1 prev.2.2.1 prev.2.2.2.1 prev.2.2.2.2).1),
    VS1_1.read (Elt F) (VS1_1.writes (Elt F) VS1_1.junk (runB V c t h0 h1 prev.2.2.1 prev.2.2.2.1 prev.2.2.2.2).2.1),
    VS1_2.read (Elt F) (VS1_2.writes (Elt F) VS1_2.junk (runB V c t h0 h1 prev.2.2.1 prev.2.2.2.1 prev.2.2.2.2).2.2.1))

/-- After a point with `k = 7`, from what the point before left: the output blocks written too. -/
def stepC (c : Dev nD) (t : Fin cfg1.N) (h0 : ¬t.val % 8 = 0) (h1 : t.val % 8 = 7) (prev : Outs1 (F := F)) : Outs1 (F := F) :=
  (VO1_5.read (Elt F) (VO1_5.writes (Elt F) VO1_5.junk (runC V c t h0 h1 prev.2.2.1 prev.2.2.2.1 prev.2.2.2.2).1),
    VO1_6.read (Elt F) (VO1_6.writes (Elt F) VO1_6.junk (runC V c t h0 h1 prev.2.2.1 prev.2.2.2.1 prev.2.2.2.2).2.1),
    VS1_0.read (Elt F) (VS1_0.writes (Elt F) VS1_0.junk (runC V c t h0 h1 prev.2.2.1 prev.2.2.2.1 prev.2.2.2.2).2.2.1),
    VS1_1.read (Elt F) (VS1_1.writes (Elt F) VS1_1.junk (runC V c t h0 h1 prev.2.2.1 prev.2.2.2.1 prev.2.2.2.2).2.2.2.1),
    VS1_2.read (Elt F) (VS1_2.writes (Elt F) VS1_2.junk (runC V c t h0 h1 prev.2.2.1 prev.2.2.2.1 prev.2.2.2.2).2.2.2.2.1))

/-! ### The pieces cover their buffers -/

theorem scoverA_0 (c : Dev nD) (t : Fin cfg1.N) (h0 : t.val % 8 = 0) (y : S1024x256.Idx) : ∃ pc ∈ (runA V c t h0).1, y ∈ pc.1.set :=
  View.cover_of_tiledL (runA V c t h0).1 S1024x256.size (by sl_kernel_rfl) y
theorem scoverA_1 (c : Dev nD) (t : Fin cfg1.N) (h0 : t.val % 8 = 0) (y : S1024x40.Idx) : ∃ pc ∈ (runA V c t h0).2.1, y ∈ pc.1.set :=
  View.cover_of_tiledL (runA V c t h0).2.1 S1024x40.size (by sl_kernel_rfl) y
theorem scoverA_2 (c : Dev nD) (t : Fin cfg1.N) (h0 : t.val % 8 = 0) (y : S1024x1.Idx) : ∃ pc ∈ (runA V c t h0).2.2.1, y ∈ pc.1.set :=
  View.cover_of_tiledL (runA V c t h0).2.2.1 S1024x1.size (by sl_kernel_rfl) y
theorem scoverB_0 (c : Dev nD) (t : Fin cfg1.N) (h0 : ¬t.val % 8 = 0) (h1 : ¬t.val % 8 = 7) (xs0 : Vec F S1024x256 .f32) (xs1 : Vec F S1024x40 .f32) (xs2 : Vec F S1024x1 .f32) (y : S1024x256.Idx) : ∃ pc ∈ (runB V c t h0 h1 xs0 xs1 xs2).1, y ∈ pc.1.set :=
  View.cover_of_tiledL (runB V c t h0 h1 xs0 xs1 xs2).1 S1024x256.size (by sl_kernel_rfl) y
theorem scoverB_1 (c : Dev nD) (t : Fin cfg1.N) (h0 : ¬t.val % 8 = 0) (h1 : ¬t.val % 8 = 7) (xs0 : Vec F S1024x256 .f32) (xs1 : Vec F S1024x40 .f32) (xs2 : Vec F S1024x1 .f32) (y : S1024x40.Idx) : ∃ pc ∈ (runB V c t h0 h1 xs0 xs1 xs2).2.1, y ∈ pc.1.set :=
  View.cover_of_tiledL (runB V c t h0 h1 xs0 xs1 xs2).2.1 S1024x40.size (by sl_kernel_rfl) y
theorem scoverB_2 (c : Dev nD) (t : Fin cfg1.N) (h0 : ¬t.val % 8 = 0) (h1 : ¬t.val % 8 = 7) (xs0 : Vec F S1024x256 .f32) (xs1 : Vec F S1024x40 .f32) (xs2 : Vec F S1024x1 .f32) (y : S1024x1.Idx) : ∃ pc ∈ (runB V c t h0 h1 xs0 xs1 xs2).2.2.1, y ∈ pc.1.set :=
  View.cover_of_tiledL (runB V c t h0 h1 xs0 xs1 xs2).2.2.1 S1024x1.size (by sl_kernel_rfl) y
theorem coverC_5 (c : Dev nD) (t : Fin cfg1.N) (h0 : ¬t.val % 8 = 0) (h1 : t.val % 8 = 7) (xs0 : Vec F S1024x256 .f32) (xs1 : Vec F S1024x40 .f32) (xs2 : Vec F S1024x1 .f32) (y : S1024x256.Idx) : ∃ pc ∈ (runC V c t h0 h1 xs0 xs1 xs2).1, y ∈ pc.1.set :=
  View.cover_of_tiledL (runC V c t h0 h1 xs0 xs1 xs2).1 S1024x256.size (by sl_kernel_rfl) y
theorem coverC_6 (c : Dev nD) (t : Fin cfg1.N) (h0 : ¬t.val % 8 = 0) (h1 : t.val % 8 = 7) (xs0 : Vec F S1024x256 .f32) (xs1 : Vec F S1024x40 .f32) (xs2 : Vec F S1024x1 .f32) (y : S1024x40.Idx) : ∃ pc ∈ (runC V c t h0 h1 xs0 xs1 xs2).2.1, y ∈ pc.1.set :=
  View.cover_of_tiledL (runC V c t h0 h1 xs0 xs1 xs2).2.1 S1024x40.size (by sl_kernel_rfl) y
theorem scoverC_0 (c : Dev nD) (t : Fin cfg1.N) (h0 : ¬t.val % 8 = 0) (h1 : t.val % 8 = 7) (xs0 : Vec F S1024x256 .f32) (xs1 : Vec F S1024x40 .f32) (xs2 : Vec F S1024x1 .f32) (y : S1024x256.Idx) : ∃ pc ∈ (runC V c t h0 h1 xs0 xs1 xs2).2.2.1, y ∈ pc.1.set :=
  View.cover_of_tiledL (runC V c t h0 h1 xs0 xs1 xs2).2.2.1 S1024x256.size (by sl_kernel_rfl) y
theorem scoverC_1 (c : Dev nD) (t : Fin cfg1.N) (h0 : ¬t.val % 8 = 0) (h1 : t.val % 8 = 7) (xs0 : Vec F S1024x256 .f32) (xs1 : Vec F S1024x40 .f32) (xs2 : Vec F S1024x1 .f32) (y : S1024x40.Idx) : ∃ pc ∈ (runC V c t h0 h1 xs0 xs1 xs2).2.2.2.1, y ∈ pc.1.set :=
  View.cover_of_tiledL (runC V c t h0 h1 xs0 xs1 xs2).2.2.2.1 S1024x40.size (by sl_kernel_rfl) y
theorem scoverC_2 (c : Dev nD) (t : Fin cfg1.N) (h0 : ¬t.val % 8 = 0) (h1 : t.val % 8 = 7) (xs0 : Vec F S1024x256 .f32) (xs1 : Vec F S1024x40 .f32) (xs2 : Vec F S1024x1 .f32) (y : S1024x1.Idx) : ∃ pc ∈ (runC V c t h0 h1 xs0 xs1 xs2).2.2.2.2.1, y ∈ pc.1.set :=
  View.cover_of_tiledL (runC V c t h0 h1 xs0 xs1 xs2).2.2.2.2.1 S1024x1.size (by sl_kernel_rfl) y

/-! ## What the buffers hold after each point -/

/-- THE ACCUMULATION: what the output blocks and the accumulators hold after the body at position `n`, by recursion
    on the position: the step of the position's column block over what the position before left. -/
def outsAt1 (c : Dev nD) : (n : ℕ) → n < cfg1.N → Outs1 (F := F)
  | 0, hn => stepA V c ⟨0, hn⟩ (Nat.zero_mod _)
  | n + 1, hn =>
    if h0 : (n + 1) % 8 = 0 then stepA V c ⟨n + 1, hn⟩ h0
    else if h1 : (n + 1) % 8 = 7 then stepC V c ⟨n + 1, hn⟩ h0 h1 (outsAt1 c n (Nat.lt_of_succ_lt hn))
    else stepB V c ⟨n + 1, hn⟩ h0 h1 (outsAt1 c n (Nat.lt_of_succ_lt hn))

theorem outsAt1_A (c : Dev nD) (t : Fin cfg1.N) (h0 : t.val % 8 = 0) : outsAt1 V c t.val t.isLt = stepA V c t h0 := by
  obtain ⟨n, hn⟩ := t
  cases n with
  | zero => rfl
  | succ n => exact (dif_pos h0).trans rfl

theorem outsAt1_B (c : Dev nD) (t : Fin cfg1.N) (h0 : ¬t.val % 8 = 0) (h1 : ¬t.val % 8 = 7) :
    outsAt1 V c t.val t.isLt = stepB V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = stepC V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The region invariant before position `n`: before the first point what the launch hands over; afterwards the three
    accumulators at what the position before left, the rest and the generator register. -/
def PhiS1 (c : Dev nD) : (n : ℕ) → n ≤ cfg1.N → sProp 𝕄
  | 0, _ => Pipeline.ΦA spec1 c
  | n + 1, hn => iprop(iprop(iprop(owns (c : Thread nD τ) scM1_0 fullShare (outsAt1 V c n hn).2.2.1 ∗ owns (c : Thread nD τ) scM1_1 fullShare (outsAt1 V c n hn).2.2.2.1 ∗ owns (c : Thread nD τ) scM1_2 fullShare (outsAt1 V c n hn).2.2.2.2)
      ∗ Rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (outsAt1 V c n hn).2.2.1 ∗ owns (c : Thread nD τ) scM1_1 fullShare (outsAt1 V c n hn).2.2.2.1 ∗ owns (c : Thread nD τ) scM1_2 fullShare (outsAt1 V c n hn).2.2.2.2)
      ∗ Rest1 (F := F) c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (outsAt1 V c (n - 1) (by omega)).2.2.1 ∗ owns (c : Thread nD τ) scM1_1 fullShare (outsAt1 V c (n - 1) (by omega)).2.2.2.1 ∗ owns (c : Thread nD τ) scM1_2 fullShare (outsAt1 V c (n - 1) (by omega)).2.2.2.2)
      ∗ Rest1 (F := F) c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2.1 := by dsimp only [dat1]

theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d
theorem before1_4 (c : Dev nD) (t : Fin cfg1.N) (d) : (dat1 V c).before 4 t d = iblk1 V c 4 t := before1_4_of V (dat1 V c) (A_eq1 V c 4) (after1_4 V c) t d

end Cert.Kernel.Hand

end
-- ==== Proof.KR1Body.lean ====
/-
  Region 1: the body obligation. At every grid point the body, called with the input windows' blocks, the output
  windows' buffers and the accumulators as the point before left them, runs and leaves the accumulators (and at the last
  column block the two output blocks) at the contents the recursion names.
-/
import proofs.«156794_j4621384810949_2_alg».proof.Proof.Gen.Kernel.Launch
import proofs.«156794_j4621384810949_2_alg».proof.Proof.Gen.Kernel.Skeleton
import proofs.«156794_j4621384810949_2_alg».proof.Proof.Gen.Kernel.Points
import proofs.«156794_j4621384810949_2_alg».proof.Proof.KR1Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- What it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t ∗ (dat1 V c).leavesExact 5 t ∗ (dat1 V c).leavesExact 6 t)

theorem leaves1_in (c : Dev nD) (t : Fin cfg1.N) :
    (dat1 V c).leavesExact 0 t = owns (c : Thread nD τ) (ms1_0 t) fullShare (iblk1 V c 0 t)
    ∧ (dat1 V c).leavesExact 1 t = owns (c : Thread nD τ) (ms1_1 t) fullShare (iblk1 V c 1 t)
    ∧ (dat1 V c).leavesExact 2 t = owns (c : Thread nD τ) (ms1_2 t) fullShare (iblk1 V c 2 t)
    ∧ (dat1 V c).leavesExact 3 t = owns (c : Thread nD τ) (ms1_3 t) fullShare (iblk1 V c 3 t)
    ∧ (dat1 V c).leavesExact 4 t = owns (c : Thread nD τ) (ms1_4 t) fullShare (iblk1 V c 4 t) := by
  refine ⟨?_, ?_, ?_, ?_, ?_⟩
  · unfold Dat.leavesExact; rw [liveAt1_0 t, after1_0]
  · unfold Dat.leavesExact; rw [liveAt1_1 t, after1_1]
  · unfold Dat.leavesExact; rw [liveAt1_2 t, after1_2]
  · unfold Dat.leavesExact; rw [liveAt1_3 t, after1_3]
  · unfold Dat.leavesExact; rw [liveAt1_4 t, after1_4]

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  obtain ⟨hl0, hl1, hl2, hl3, hl4⟩ := leaves1_in V c t
  rw [hl0, hl1, hl2, hl3, hl4]
  have hN : t.val < 64 := lt_of_lt_of_eq t.isLt (show cfg1.N = 64 from N_1)
  by_cases h0 : t.val % 8 = 0
  · -- the first column block: the accumulators are entered at anything
    have hc1 : ¬cond1_1 (grid1.coords t) := notC_of_A h0
    rw [Dat.leavesExact_idle (dat1 V c) 5 t (idleAt1_5 t hc1) (noFlush1_5 t hc1),
      Dat.leavesExact_idle (dat1 V c) 6 t (idleAt1_6 t hc1) (noFlush1_6 t hc1)]
    rw [outsAt1_A V c t h0]
    unfold stepA; (try dsimp only)
    have hΦ : (dat1 V c).Φ t.castSucc ⊢ iprop(iprop(iprop((∃ d, owns (c : Thread nD τ) scM1_0 fullShare d) ∗ (∃ d, owns (c : Thread nD τ) scM1_1 fullShare d) ∗ (∃ d, owns (c : Thread nD τ) scM1_2 fullShare d))
          ∗ Rest1 (F := F) c) ∗ (∃ r, prngReg c r)) := by
      by_cases hz : t.val = 0
      · rw [PhiS1_castSucc V c t, PhiS1_zero V c _ _ hz, PhiA1_eq]; try exact .rfl
      · rw [PhiS1_castSucc V c t, PhiS1_pos V c _ _ hz]
        iintro ⟨⟨⟨HS0, HS1, HS2⟩, Hrest⟩, Hg⟩
        isplitl [HS0 HS1 HS2 Hrest]
        · isplitl [HS0 HS1 HS2]
          · isplitl [HS0]; · iexists _; iexact HS0
            isplitl [HS1]; · iexists _; iexact HS1
            iexists _; iexact HS2
          iexact Hrest
        iexact Hg
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := hΦ $$ HΦ
    icases HΦ' with ⟨⟨⟨HS0, HS1, HS2⟩, Hrest⟩, Hg⟩
    iapply ((runA V c t h0).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, ⟨%es0, HS0⟩, ⟨%es1, HS1⟩, ⟨%es2, HS2⟩⟩
    isplitl [HS0 HS1 HS2 Hrest Hg]
    · isplitl [HS0 HS1 HS2 Hrest]
      · isplitl [HS0 HS1 HS2]
        · isplitl [HS0]
          · unfold owns; iexists _; isplitr
            swap; · iexact HS0
            ipureintro; exact View.read_writes_of_cover _ _ _ _ _ (scoverA_0 V c t h0)
          isplitl [HS1]
          · unfold owns; iexists _; isplitr
            swap; · iexact HS1
            ipureintro; exact View.read_writes_of_cover _ _ _ _ _ (scoverA_1 V c t h0)
          unfold owns; iexists _; isplitr
          swap; · iexact HS2
          ipureintro; exact View.read_writes_of_cover _ _ _ _ _ (scoverA_2 V c t h0)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hz : t.val ≠ 0 := fun h => h0 (by rw [h])
    by_cases h1 : t.val % 8 = 7
    · -- the last column block: the outputs are written
      have hc1 : cond1_1 (grid1.coords t) := (hcond1_1 t).mpr h1
      rw [show (dat1 V c).leavesExact 5 t = owns (c : Thread nD τ) (ms1_5 t) fullShare ((dat1 V c).after 5 t) from by
          unfold Dat.leavesExact; rw [liveAt1_5 t hc1], after1_5,
        show (dat1 V c).leavesExact 6 t = owns (c : Thread nD τ) (ms1_6 t) fullShare ((dat1 V c).after 6 t) from by
          unfold Dat.leavesExact; rw [liveAt1_6 t hc1], after1_6]
      rw [outsAt1_C V c t h0 h1]
      unfold stepC; (try dsimp only)
      rw [PhiS1_castSucc V c t, PhiS1_pos V c _ _ hz]
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((runC V c t h0 h1 _ _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, H4, ⟨%e5, H5⟩, ⟨%e6, H6⟩, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scoverC_0 V c t h0 h1 _ _ _)
            isplitl [HS1]
            · unfold owns; iexists _; isplitr
              swap; · iexact HS1
              ipureintro; exact View.read_writes_of_cover _ _ _ _ _ (scoverC_1 V c t h0 h1 _ _ _)
            unfold owns; iexists _; isplitr
            swap; · iexact HS2
            ipureintro; exact View.read_writes_of_cover _ _ _ _ _ (scoverC_2 V c t h0 h1 _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverC_5 V c t h0 h1 _ _ _)
      unfold owns; iexists _; isplitr
      swap; · iexact H6
      ipureintro; exact View.read_writes_of_cover _ _ _ _ _ (coverC_6 V c t h0 h1 _ _ _)
    · -- an inner column block
      have hc1 : ¬cond1_1 (grid1.coords t) := fun h => h1 ((hcond1_1 t).mp h)
      rw [Dat.leavesExact_idle (dat1 V c) 5 t (idleAt1_5 t hc1) (noFlush1_5 t hc1),
        Dat.leavesExact_idle (dat1 V c) 6 t (idleAt1_6 t hc1) (noFlush1_6 t hc1)]
      rw [outsAt1_B V c t h0 h1]
      unfold stepB; (try dsimp only)
      rw [PhiS1_castSucc V c t, PhiS1_pos V c _ _ hz]
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((runB V c t h0 h1 _ _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scoverB_0 V c t h0 h1 _ _ _)
            isplitl [HS1]
            · unfold owns; iexists _; isplitr
              swap; · iexact HS1
              ipureintro; exact View.read_writes_of_cover _ _ _ _ _ (scoverB_1 V c t h0 h1 _ _ _)
            unfold owns; iexists _; isplitr
            swap; · iexact HS2
            ipureintro; exact View.read_writes_of_cover _ _ _ _ _ (scoverB_2 V c t h0 h1 _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact .rfl

/-- After the last point the invariant gives the launch's rest back: the accumulators' contents are forgotten. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨⟨HS0, HS1, HS2⟩, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

end Cert.Kernel.Hand

end
-- ==== Proof.KRegR1.lean ====
/- Region 1: its proof data and body obligation, under the names the assembly uses. -/
import proofs.«156794_j4621384810949_2_alg».proof.Proof.KR1Body
-- ==== Proof.KR3RunA.lean ====
/-
  Region 3 — the second layer kernel, with the logarithm of the softmax fused in, on its 8 × 8 grid — the body's branch conditions over the grid and the run of
  the body at the first column block of a row block (`k = 0`): the three accumulators are zeroed, the block's
  contribution is added, nothing is stored into the outputs.
-/
import proofs.«156794_j4621384810949_2_alg».proof.Proof.Gen.Kernel.Launch
import proofs.«156794_j4621384810949_2_alg».proof.Proof.Gen.Kernel.Skeleton
import proofs.«156794_j4621384810949_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two branch conditions, decided over the grid -/

/-- The first `scf.if`: the column block is the first one (`k = 0`): the accumulators are reset. -/
abbrev cond3_0 (i : grid3.Coords) : Prop :=
  (Scalar.cmpi .ne (Scalar.extui (Scalar.cmpi .eq (BitVec.ofNat 32 (i 1).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)

/-- The second `scf.if`: the column block is the last one (`k = 7`): the outputs are written. -/
abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

/-! ## The staging and scratch memrefs the body is called with -/

abbrev ms3_0 (t : Fin cfg3.N) : Memref sig .tc .vmem S1024x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x40 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x40 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x40 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1024x40 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1024x40 .f32 := win3_6.stage (cfg3.slots t 6)
abbrev hs3_6 (t : Fin cfg3.N) : (ms3_6 t).IsWhole := hstage3_6 ((cfg3.slots t 6).cast nbuf3_6)
/-- The three accumulators: whole scoped buffers of the kernel's own. -/
abbrev scM3_0 : Memref sig .tc .vmem S1024x40 .f32 := Memref.whole cc3_scratch0
abbrev scM3_1 : Memref sig .tc .vmem S1024x40 .f32 := Memref.whole cc3_scratch1
abbrev scM3_2 : Memref sig .tc .vmem S1024x1 .f32 := Memref.whole cc3_scratch2
abbrev VS3_0 : View sig .tc .vmem S1024x40 .f32 := scM3_0.view
abbrev VS3_1 : View sig .tc .vmem S1024x40 .f32 := scM3_1.view
abbrev VS3_2 : View sig .tc .vmem S1024x1 .f32 := scM3_2.view
abbrev VO3_5 : View sig .tc .vmem S1024x40 .f32 := (Memref.whole cc3_stg5_0 : Memref sig .tc .vmem S1024x40 .f32).view
abbrev VO3_6 : View sig .tc .vmem S1024x40 .f32 := (Memref.whole cc3_stg6_0 : Memref sig .tc .vmem S1024x40 .f32).view

/-! ## The body at `k = 0` -/

set_option maxHeartbeats 4000000 in
/-- The pieces the body's stores leave in the three accumulators at a point with `k = 0` (and `k ≠ 7`), with the
    proof that the body runs there: inputs at their contents and handed back, the outputs untouched, the accumulators
    entered at anything. -/
noncomputable def kernelRun3_A (c : Dev nD) (i : grid3.Coords) (arg2 : Memref sig .tc .vmem S1024x1024 .f32) (harg2 : arg2.IsWhole) (arg3 : Memref sig .tc .vmem S1024x1024 .f32) (harg3 : arg3.IsWhole) (arg4 : Memref sig .tc .vmem S1024x40 .f32) (harg4 : arg4.IsWhole) (arg5 : Memref sig .tc .vmem S1024x40 .f32) (harg5 : arg5.IsWhole) (arg6 : Memref sig .tc .vmem S1x40 .f32) (harg6 : arg6.IsWhole) (arg7 : Memref sig .tc .vmem S1024x40 .f32) (harg7 : arg7.IsWhole) (arg8 : Memref sig .tc .vmem S1024x40 .f32) (harg8 : arg8.IsWhole) (arg9 : Memref sig .tc .vmem S1024x40 .f32) (harg9 : arg9.IsWhole) (arg10 : Memref sig .tc .vmem S1024x40 .f32) (harg10 : arg10.IsWhole) (arg11 : Memref sig .tc .vmem S1024x1 .f32) (harg11 : arg11.IsWhole) (hc0 : cond3_0 i) (hc1 : ¬cond3_1 i)
    (x0 : Vec F S1024x1024 .f32) (x1 : Vec F S1024x1024 .f32) (x2 : Vec F S1024x40 .f32) (x3 : Vec F S1024x40 .f32) (x4 : Vec F S1x40 .f32) :
    Σ' (LS0 : List (View.Piece (Elt F) S1024x40 .f32)) (LS1 : List (View.Piece (Elt F) S1024x40 .f32)), { LS2 : List (View.Piece (Elt F) S1024x1 .f32) //
      ∀ (d5 : Vec F S1024x40 .f32) (d6 : Vec F S1024x40 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare d5 ∗ owns (c : Thread nD τ) arg8 fullShare d6
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare d5 ∗ owns (c : Thread nD τ) arg8 fullShare d6
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)) -∗ K ⟨⟩))
          ⊢ wp frame (wpE (defs₀ (F := F)) Variants.none c none) E (cc3__layer_kernel i arg2 harg2 arg3 harg3 arg4 harg4 arg5 harg5 arg6 harg6 arg7 harg7 arg8 harg8 arg9 harg9 arg10 harg10 arg11 harg11) K } := by
  refine ⟨?_, ?_, ?_, fun d5 d6 E K => ?run⟩
  case run =>
    simp only [cc3__layer_kernel_eq_skeleton]; unfold cc3__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact hf5
      iexact H5
    isplitl [H6]
    · iexists _; isplitr; · ipureintro; exact hf6
      iexact H6
    isplitl [HS0]; · iexists _; iexact HS0
    isplitl [HS1]; · iexists _; iexact HS1
    iexists _; iexact HS2

end Cert.Kernel.Hand

end
-- ==== Proof.KR3RunB.lean ====
/-
  Region 3: the run of the body at an inner column block (`0 < k < 7`): the block's contribution is added to the three
  accumulators, which are entered at what the point before left; nothing is stored into the outputs.
-/
import proofs.«156794_j4621384810949_2_alg».proof.Proof.Gen.Kernel.Launch
import proofs.«156794_j4621384810949_2_alg».proof.Proof.Gen.Kernel.Skeleton
import proofs.«156794_j4621384810949_2_alg».proof.Proof.Gen.Kernel.Points
import proofs.«156794_j4621384810949_2_alg».proof.Proof.KR3RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave in the three accumulators at a point with `0 < k < 7`, with the proof that
    the body runs there. -/
noncomputable def kernelRun3_B (c : Dev nD) (i : grid3.Coords) (arg2 : Memref sig .tc .vmem S1024x1024 .f32) (harg2 : arg2.IsWhole) (arg3 : Memref sig .tc .vmem S1024x1024 .f32) (harg3 : arg3.IsWhole) (arg4 : Memref sig .tc .vmem S1024x40 .f32) (harg4 : arg4.IsWhole) (arg5 : Memref sig .tc .vmem S1024x40 .f32) (harg5 : arg5.IsWhole) (arg6 : Memref sig .tc .vmem S1x40 .f32) (harg6 : arg6.IsWhole) (arg7 : Memref sig .tc .vmem S1024x40 .f32) (harg7 : arg7.IsWhole) (arg8 : Memref sig .tc .vmem S1024x40 .f32) (harg8 : arg8.IsWhole) (arg9 : Memref sig .tc .vmem S1024x40 .f32) (harg9 : arg9.IsWhole) (arg10 : Memref sig .tc .vmem S1024x40 .f32) (harg10 : arg10.IsWhole) (arg11 : Memref sig .tc .vmem S1024x1 .f32) (harg11 : arg11.IsWhole) (hc0 : ¬cond3_0 i) (hc1 : ¬cond3_1 i)
    (x0 : Vec F S1024x1024 .f32) (x1 : Vec F S1024x1024 .f32) (x2 : Vec F S1024x40 .f32) (x3 : Vec F S1024x40 .f32) (x4 : Vec F S1x40 .f32) (xs0 : Vec F S1024x40 .f32) (xs1 : Vec F S1024x40 .f32) (xs2 : Vec F S1024x1 .f32) :
    Σ' (LS0 : List (View.Piece (Elt F) S1024x40 .f32)) (LS1 : List (View.Piece (Elt F) S1024x40 .f32)), { LS2 : List (View.Piece (Elt F) S1024x1 .f32) //
      ∀ (d5 : Vec F S1024x40 .f32) (d6 : Vec F S1024x40 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare d5 ∗ owns (c : Thread nD τ) arg8 fullShare d6
            ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare d5 ∗ owns (c : Thread nD τ) arg8 fullShare d6
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)) -∗ K ⟨⟩))
          ⊢ wp frame (wpE (defs₀ (F := F)) Variants.none c none) E (cc3__layer_kernel i arg2 harg2 arg3 harg3 arg4 harg4 arg5 harg5 arg6 harg6 arg7 harg7 arg8 harg8 arg9 harg9 arg10 harg10 arg11 harg11) K } := by
  refine ⟨?_, ?_, ?_, fun d5 d6 E K => ?run⟩
  case run =>
    simp only [cc3__layer_kernel_eq_skeleton]; unfold cc3__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact hf5
      iexact H5
    isplitl [H6]
    · iexists _; isplitr; · ipureintro; exact hf6
      iexact H6
    isplitl [HS0]; · iexists _; iexact HS0
    isplitl [HS1]; · iexists _; iexact HS1
    iexists _; iexact HS2

end Cert.Kernel.Hand

end
-- ==== Proof.KR3RunC.lean ====
/-
  Region 3: the run of the body at the last column block of a row block (`k = 7`): the block's contribution is added
  to the accumulators, then the two output blocks are stored: the logarithm of the softmax along the rows
  of the first accumulator times the inverse clipped row norm plus the bias, and of the second accumulator times the
  same inverse.
-/
import proofs.«156794_j4621384810949_2_alg».proof.Proof.Gen.Kernel.Launch
import proofs.«156794_j4621384810949_2_alg».proof.Proof.Gen.Kernel.Skeleton
import proofs.«156794_j4621384810949_2_alg».proof.Proof.Gen.Kernel.Points
import proofs.«156794_j4621384810949_2_alg».proof.Proof.KR3RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave in the two output blocks and the three accumulators at a point with `k = 7`,
    with the proof that the body runs there. -/
noncomputable def kernelRun3_C (c : Dev nD) (i : grid3.Coords) (arg2 : Memref sig .tc .vmem S1024x1024 .f32) (harg2 : arg2.IsWhole) (arg3 : Memref sig .tc .vmem S1024x1024 .f32) (harg3 : arg3.IsWhole) (arg4 : Memref sig .tc .vmem S1024x40 .f32) (harg4 : arg4.IsWhole) (arg5 : Memref sig .tc .vmem S1024x40 .f32) (harg5 : arg5.IsWhole) (arg6 : Memref sig .tc .vmem S1x40 .f32) (harg6 : arg6.IsWhole) (arg7 : Memref sig .tc .vmem S1024x40 .f32) (harg7 : arg7.IsWhole) (arg8 : Memref sig .tc .vmem S1024x40 .f32) (harg8 : arg8.IsWhole) (arg9 : Memref sig .tc .vmem S1024x40 .f32) (harg9 : arg9.IsWhole) (arg10 : Memref sig .tc .vmem S1024x40 .f32) (harg10 : arg10.IsWhole) (arg11 : Memref sig .tc .vmem S1024x1 .f32) (harg11 : arg11.IsWhole) (hc0 : ¬cond3_0 i) (hc1 : cond3_1 i)
    (x0 : Vec F S1024x1024 .f32) (x1 : Vec F S1024x1024 .f32) (x2 : Vec F S1024x40 .f32) (x3 : Vec F S1024x40 .f32) (x4 : Vec F S1x40 .f32) (xs0 : Vec F S1024x40 .f32) (xs1 : Vec F S1024x40 .f32) (xs2 : Vec F S1024x1 .f32) :
    Σ' (L5 : List (View.Piece (Elt F) S1024x40 .f32)) (L6 : List (View.Piece (Elt F) S1024x40 .f32)) (LS0 : List (View.Piece (Elt F) S1024x40 .f32)) (LS1 : List (View.Piece (Elt F) S1024x40 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)) -∗ K ⟨⟩))
          ⊢ wp frame (wpE (defs₀ (F := F)) Variants.none c none) E (cc3__layer_kernel i arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc3__layer_kernel_eq_skeleton]; unfold cc3__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]; · iexists _; iexact HS0
    isplitl [HS1]; · iexists _; iexact HS1
    iexists _; iexact HS2

end Cert.Kernel.Hand

end
-- ==== Proof.KR3Data.lean ====
/-
  Region 3 — the second layer kernel, with the logarithm of the softmax fused in, on its 8 × 8 grid: what the three accumulators and the two output blocks hold
  after every grid point, by recursion on the point; the region's invariant (the accumulators at those contents); the
  proof data; and the body obligation, by cases on the column block `k` of the point (`k = 0`: reset and add;
  `0 < k < 7`: add; `k = 7`: add and write the two output blocks).
-/
import proofs.«156794_j4621384810949_2_alg».proof.Proof.Gen.Kernel.Launch
import proofs.«156794_j4621384810949_2_alg».proof.Proof.Gen.Kernel.Skeleton
import proofs.«156794_j4621384810949_2_alg».proof.Proof.Gen.Kernel.Points
import proofs.«156794_j4621384810949_2_alg».proof.Proof.KR3RunB
import proofs.«156794_j4621384810949_2_alg».proof.Proof.KR3RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the window's view at that point read off the array the region finds. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's staging buffer holds its block at every point, brought in there or still there from an
    earlier point (the bias row is brought in once). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## Where the output windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
/-- Off the last column block the two output windows are idle and not written back; at it they are live. -/
theorem idleAt3_5 : ∀ t : Fin cfg3.N, ¬cond3_1 (grid3.coords t) → cfg3.idle 5 (grid3.coords t) = true := by decide +kernel
theorem idleAt3_6 : ∀ t : Fin cfg3.N, ¬cond3_1 (grid3.coords t) → cfg3.idle 6 (grid3.coords t) = true := by decide +kernel
theorem noFlush3_5 : ∀ t : Fin cfg3.N, ¬cond3_1 (grid3.coords t) → (cfg3.win 5).flush t = false := by decide +kernel
theorem noFlush3_6 : ∀ t : Fin cfg3.N, ¬cond3_1 (grid3.coords t) → (cfg3.win 6).flush t = false := by decide +kernel
theorem liveAt3_5 : ∀ t : Fin cfg3.N, cond3_1 (grid3.coords t) → cfg3.idle 5 (grid3.coords t) = false := by decide +kernel
theorem liveAt3_6 : ∀ t : Fin cfg3.N, cond3_1 (grid3.coords t) → cfg3.idle 6 (grid3.coords t) = false := by decide +kernel

/-! ## The region's untouched rest -/

/-- Every scoped buffer of the core other than the three accumulators, unopened. -/
abbrev Rest3 (c : Dev nD) : sProp 𝕄 :=
  Pipeline.scopedRestBut (Ix := Unit) (Name := ℕ) (U := UR sig nD τ) (Lvl := ℕ) (Val := Elt F) spec3 c [cc3_scratch0, cc3_scratch1, cc3_scratch2]

/-- What the launch hands the region: the three accumulators at some contents, the rest, the generator register. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d) ∗ (∃ d, owns (c : Thread nD τ) scM3_2 fullShare d))
          ∗ Rest3 (F := F) c) ∗ (∃ r, prngReg c r)) := by
  unfold Pipeline.ΦA; rw [scopedRest3_split]; simp only [scM3_0, scM3_1, scM3_2, owns_whole]; try rfl

/-! ## What one point leaves, by the point's column block -/

/-- What the two output blocks and the three accumulators hold after a point. -/
abbrev Outs3 : Type := Vec F S1024x40 .f32 × Vec F S1024x40 .f32 × Vec F S1024x40 .f32 × Vec F S1024x40 .f32 × Vec F S1024x1 .f32

/-- Contents nothing consults: an output block at a point where the body stores nothing into it. -/
def junk3_5 : Vec F S1024x40 .f32 := VO3_5.read (Elt F) VO3_5.junk
def junk3_6 : Vec F S1024x40 .f32 := VO3_6.read (Elt F) VO3_6.junk

theorem notC_of_A3 {t : Fin cfg3.N} (h0 : t.val % 8 = 0) : ¬cond3_1 (grid3.coords t) :=
  fun h => by have := (hcond3_1 t).mp h; omega

/-- The body's run at a point with `k = 0`. -/
abbrev run3A (c : Dev nD) (t : Fin cfg3.N) (h0 : t.val % 8 = 0) :=
  kernelRun3_A (F := F) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) ((hcond3_0 t).mpr h0) (notC_of_A3 h0) (iblk3 V c 0 t) (iblk3 V c 1 t) (iblk3 V c 2 t) (iblk3 V c 3 t) (iblk3 V c 4 t)
/-- The body's run at a point with `0 < k < 7`, the accumulators entered at `xs`. -/
abbrev run3B (c : Dev nD) (t : Fin cfg3.N) (h0 : ¬t.val % 8 = 0) (h1 : ¬t.val % 8 = 7) (xs0 : Vec F S1024x40 .f32) (xs1 : Vec F S1024x40 .f32) (xs2 : Vec F S1024x1 .f32) :=
  kernelRun3_B (F := F) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) xs0 xs1 xs2
/-- The body's run at a point with `k = 7`, the accumulators entered at `xs`. -/
abbrev run3C (c : Dev nD) (t : Fin cfg3.N) (h0 : ¬t.val % 8 = 0) (h1 : t.val % 8 = 7) (xs0 : Vec F S1024x40 .f32) (xs1 : Vec F S1024x40 .f32) (xs2 : Vec F S1024x1 .f32) :=
  kernelRun3_C (F := F) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) xs0 xs1 xs2

/-- After a point with `k = 0`: the accumulators at the run's pieces read back; the outputs untouched. -/
def step3A (c : Dev nD) (t : Fin cfg3.N) (h0 : t.val % 8 = 0) : Outs3 (F := F) :=
  (junk3_5, junk3_6,
    VS3_0.read (Elt F) (VS3_0.writes (Elt F) VS3_0.junk (run3A V c t h0).1),
    VS3_1.read (Elt F) (VS3_1.writes (Elt F) VS3_1.junk (run3A V c t h0).2.1),
    VS3_2.read (Elt F) (VS3_2.writes (Elt F) VS3_2.junk (run3A V c t h0).2.2.1))

/-- After a point with `0 < k < 7`, from what the point before left. -/
def step3B (c : Dev nD) (t : Fin cfg3.N) (h0 : ¬t.val % 8 = 0) (h1 : ¬t.val % 8 = 7) (prev : Outs3 (F := F)) : Outs3 (F := F) :=
  (junk3_5, junk3_6,
    VS3_0.read (Elt F) (VS3_0.writes (Elt F) VS3_0.junk (run3B V c t h0 h1 prev.2.2.1 prev.2.2.2.1 prev.2.2.2.2).1),
    VS3_1.read (Elt F) (VS3_1.writes (Elt F) VS3_1.junk (run3B V c t h0 h1 prev.2.2.1 prev.2.2.2.1 prev.2.2.2.2).2.1),
    VS3_2.read (Elt F) (VS3_2.writes (Elt F) VS3_2.junk (run3B V c t h0 h1 prev.2.2.1 prev.2.2.2.1 prev.2.2.2.2).2.2.1))

/-- After a point with `k = 7`, from what the point before left: the output blocks written too. -/
def step3C (c : Dev nD) (t : Fin cfg3.N) (h0 : ¬t.val % 8 = 0) (h1 : t.val % 8 = 7) (prev : Outs3 (F := F)) : Outs3 (F := F) :=
  (VO3_5.read (Elt F) (VO3_5.writes (Elt F) VO3_5.junk (run3C V c t h0 h1 prev.2.2.1 prev.2.2.2.1 prev.2.2.2.2).1),
    VO3_6.read (Elt F) (VO3_6.writes (Elt F) VO3_6.junk (run3C V c t h0 h1 prev.2.2.1 prev.2.2.2.1 prev.2.2.2.2).2.1),
    VS3_0.read (Elt F) (VS3_0.writes (Elt F) VS3_0.junk (run3C V c t h0 h1 prev.2.2.1 prev.2.2.2.1 prev.2.2.2.2).2.2.1),
    VS3_1.read (Elt F) (VS3_1.writes (Elt F) VS3_1.junk (run3C V c t h0 h1 prev.2.2.1 prev.2.2.2.1 prev.2.2.2.2).2.2.2.1),
    VS3_2.read (Elt F) (VS3_2.writes (Elt F) VS3_2.junk (run3C V c t h0 h1 prev.2.2.1 prev.2.2.2.1 prev.2.2.2.2).2.2.2.2.1))

/-! ### The pieces cover their buffers -/

theorem scover3A_0 (c : Dev nD) (t : Fin cfg3.N) (h0 : t.val % 8 = 0) (y : S1024x40.Idx) : ∃ pc ∈ (run3A V c t h0).1, y ∈ pc.1.set :=
  View.cover_of_tiledL (run3A V c t h0).1 S1024x40.size (by sl_kernel_rfl) y
theorem scover3A_1 (c : Dev nD) (t : Fin cfg3.N) (h0 : t.val % 8 = 0) (y : S1024x40.Idx) : ∃ pc ∈ (run3A V c t h0).2.1, y ∈ pc.1.set :=
  View.cover_of_tiledL (run3A V c t h0).2.1 S1024x40.size (by sl_kernel_rfl) y
theorem scover3A_2 (c : Dev nD) (t : Fin cfg3.N) (h0 : t.val % 8 = 0) (y : S1024x1.Idx) : ∃ pc ∈ (run3A V c t h0).2.2.1, y ∈ pc.1.set :=
  View.cover_of_tiledL (run3A V c t h0).2.2.1 S1024x1.size (by sl_kernel_rfl) y
theorem scover3B_0 (c : Dev nD) (t : Fin cfg3.N) (h0 : ¬t.val % 8 = 0) (h1 : ¬t.val % 8 = 7) (xs0 : Vec F S1024x40 .f32) (xs1 : Vec F S1024x40 .f32) (xs2 : Vec F S1024x1 .f32) (y : S1024x40.Idx) : ∃ pc ∈ (run3B V c t h0 h1 xs0 xs1 xs2).1, y ∈ pc.1.set :=
  View.cover_of_tiledL (run3B V c t h0 h1 xs0 xs1 xs2).1 S1024x40.size (by sl_kernel_rfl) y
theorem scover3B_1 (c : Dev nD) (t : Fin cfg3.N) (h0 : ¬t.val % 8 = 0) (h1 : ¬t.val % 8 = 7) (xs0 : Vec F S1024x40 .f32) (xs1 : Vec F S1024x40 .f32) (xs2 : Vec F S1024x1 .f32) (y : S1024x40.Idx) : ∃ pc ∈ (run3B V c t h0 h1 xs0 xs1 xs2).2.1, y ∈ pc.1.set :=
  View.cover_of_tiledL (run3B V c t h0 h1 xs0 xs1 xs2).2.1 S1024x40.size (by sl_kernel_rfl) y
theorem scover3B_2 (c : Dev nD) (t : Fin cfg3.N) (h0 : ¬t.val % 8 = 0) (h1 : ¬t.val % 8 = 7) (xs0 : Vec F S1024x40 .f32) (xs1 : Vec F S1024x40 .f32) (xs2 : Vec F S1024x1 .f32) (y : S1024x1.Idx) : ∃ pc ∈ (run3B V c t h0 h1 xs0 xs1 xs2).2.2.1, y ∈ pc.1.set :=
  View.cover_of_tiledL (run3B V c t h0 h1 xs0 xs1 xs2).2.2.1 S1024x1.size (by sl_kernel_rfl) y
theorem cover3C_5 (c : Dev nD) (t : Fin cfg3.N) (h0 : ¬t.val % 8 = 0) (h1 : t.val % 8 = 7) (xs0 : Vec F S1024x40 .f32) (xs1 : Vec F S1024x40 .f32) (xs2 : Vec F S1024x1 .f32) (y : S1024x40.Idx) : ∃ pc ∈ (run3C V c t h0 h1 xs0 xs1 xs2).1, y ∈ pc.1.set :=
  View.cover_of_tiledL (run3C V c t h0 h1 xs0 xs1 xs2).1 S1024x40.size (by sl_kernel_rfl) y
theorem cover3C_6 (c : Dev nD) (t : Fin cfg3.N) (h0 : ¬t.val % 8 = 0) (h1 : t.val % 8 = 7) (xs0 : Vec F S1024x40 .f32) (xs1 : Vec F S1024x40 .f32) (xs2 : Vec F S1024x1 .f32) (y : S1024x40.Idx) : ∃ pc ∈ (run3C V c t h0 h1 xs0 xs1 xs2).2.1, y ∈ pc.1.set :=
  View.cover_of_tiledL (run3C V c t h0 h1 xs0 xs1 xs2).2.1 S1024x40.size (by sl_kernel_rfl) y
theorem scover3C_0 (c : Dev nD) (t : Fin cfg3.N) (h0 : ¬t.val % 8 = 0) (h1 : t.val % 8 = 7) (xs0 : Vec F S1024x40 .f32) (xs1 : Vec F S1024x40 .f32) (xs2 : Vec F S1024x1 .f32) (y : S1024x40.Idx) : ∃ pc ∈ (run3C V c t h0 h1 xs0 xs1 xs2).2.2.1, y ∈ pc.1.set :=
  View.cover_of_tiledL (run3C V c t h0 h1 xs0 xs1 xs2).2.2.1 S1024x40.size (by sl_kernel_rfl) y
theorem scover3C_1 (c : Dev nD) (t : Fin cfg3.N) (h0 : ¬t.val % 8 = 0) (h1 : t.val % 8 = 7) (xs0 : Vec F S1024x40 .f32) (xs1 : Vec F S1024x40 .f32) (xs2 : Vec F S1024x1 .f32) (y : S1024x40.Idx) : ∃ pc ∈ (run3C V c t h0 h1 xs0 xs1 xs2).2.2.2.1, y ∈ pc.1.set :=
  View.cover_of_tiledL (run3C V c t h0 h1 xs0 xs1 xs2).2.2.2.1 S1024x40.size (by sl_kernel_rfl) y
theorem scover3C_2 (c : Dev nD) (t : Fin cfg3.N) (h0 : ¬t.val % 8 = 0) (h1 : t.val % 8 = 7) (xs0 : Vec F S1024x40 .f32) (xs1 : Vec F S1024x40 .f32) (xs2 : Vec F S1024x1 .f32) (y : S1024x1.Idx) : ∃ pc ∈ (run3C V c t h0 h1 xs0 xs1 xs2).2.2.2.2.1, y ∈ pc.1.set :=
  View.cover_of_tiledL (run3C V c t h0 h1 xs0 xs1 xs2).2.2.2.2.1 S1024x1.size (by sl_kernel_rfl) y

/-! ## What the buffers hold after each point -/

/-- THE ACCUMULATION: what the output blocks and the accumulators hold after the body at position `n`, by recursion
    on the position: the step of the position's column block over what the position before left. -/
def outsAt3 (c : Dev nD) : (n : ℕ) → n < cfg3.N → Outs3 (F := F)
  | 0, hn => step3A V c ⟨0, hn⟩ (Nat.zero_mod _)
  | n + 1, hn =>
    if h0 : (n + 1) % 8 = 0 then step3A V c ⟨n + 1, hn⟩ h0
    else if h1 : (n + 1) % 8 = 7 then step3C V c ⟨n + 1, hn⟩ h0 h1 (outsAt3 c n (Nat.lt_of_succ_lt hn))
    else step3B V c ⟨n + 1, hn⟩ h0 h1 (outsAt3 c n (Nat.lt_of_succ_lt hn))

theorem outsAt3_A (c : Dev nD) (t : Fin cfg3.N) (h0 : t.val % 8 = 0) : outsAt3 V c t.val t.isLt = step3A V c t h0 := by
  obtain ⟨n, hn⟩ := t
  cases n with
  | zero => rfl
  | succ n => exact (dif_pos h0).trans rfl

theorem outsAt3_B (c : Dev nD) (t : Fin cfg3.N) (h0 : ¬t.val % 8 = 0) (h1 : ¬t.val % 8 = 7) :
    outsAt3 V c t.val t.isLt = step3B V c t h0 h1 (outsAt3 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt3_C (c : Dev nD) (t : Fin cfg3.N) (h0 : ¬t.val % 8 = 0) (h1 : t.val % 8 = 7) :
    outsAt3 V c t.val t.isLt = step3C V c t h0 h1 (outsAt3 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The region invariant before position `n`: before the first point what the launch hands over; afterwards the three
    accumulators at what the position before left, the rest and the generator register. -/
def PhiS3 (c : Dev nD) : (n : ℕ) → n ≤ cfg3.N → sProp 𝕄
  | 0, _ => Pipeline.ΦA spec3 c
  | n + 1, hn => iprop(iprop(iprop(owns (c : Thread nD τ) scM3_0 fullShare (outsAt3 V c n hn).2.2.1 ∗ owns (c : Thread nD τ) scM3_1 fullShare (outsAt3 V c n hn).2.2.2.1 ∗ owns (c : Thread nD τ) scM3_2 fullShare (outsAt3 V c n hn).2.2.2.2)
      ∗ Rest3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare (outsAt3 V c n hn).2.2.1 ∗ owns (c : Thread nD τ) scM3_1 fullShare (outsAt3 V c n hn).2.2.2.1 ∗ owns (c : Thread nD τ) scM3_2 fullShare (outsAt3 V c n hn).2.2.2.2)
      ∗ Rest3 (F := F) c) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare (outsAt3 V c (n - 1) (by omega)).2.2.1 ∗ owns (c : Thread nD τ) scM3_1 fullShare (outsAt3 V c (n - 1) (by omega)).2.2.2.1 ∗ owns (c : Thread nD τ) scM3_2 fullShare (outsAt3 V c (n - 1) (by omega)).2.2.2.2)
      ∗ Rest3 (F := F) c) ∗ (∃ r, prngReg c r)) := by
  cases n with
  | zero => exact absurd rfl hz
  | succ n => rfl

/-! ## The proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
    | ⟨6, _⟩ => (outsAt3 V c t.val t.isLt).2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = (outsAt3 V c t.val t.isLt).1 := by dsimp only [dat3]
theorem after3_6 (c : Dev nD) (t : Fin cfg3.N) : (dat3 V c).after 6 t = (outsAt3 V c t.val t.isLt).2.1 := by dsimp only [dat3]

theorem before3_0 (c : Dev nD) (t : Fin cfg3.N) (d) : (dat3 V c).before 0 t d = iblk3 V c 0 t := before3_0_of V (dat3 V c) (A_eq3 V c 0) (after3_0 V c) t d
theorem before3_1 (c : Dev nD) (t : Fin cfg3.N) (d) : (dat3 V c).before 1 t d = iblk3 V c 1 t := before3_1_of V (dat3 V c) (A_eq3 V c 1) (after3_1 V c) t d
theorem before3_2 (c : Dev nD) (t : Fin cfg3.N) (d) : (dat3 V c).before 2 t d = iblk3 V c 2 t := before3_2_of V (dat3 V c) (A_eq3 V c 2) (after3_2 V c) t d
theorem before3_3 (c : Dev nD) (t : Fin cfg3.N) (d) : (dat3 V c).before 3 t d = iblk3 V c 3 t := before3_3_of V (dat3 V c) (A_eq3 V c 3) (after3_3 V c) t d
theorem before3_4 (c : Dev nD) (t : Fin cfg3.N) (d) : (dat3 V c).before 4 t d = iblk3 V c 4 t := before3_4_of V (dat3 V c) (A_eq3 V c 4) (after3_4 V c) t d

end Cert.Kernel.Hand

end
-- ==== Proof.KR3Body.lean ====
/-
  Region 3: the body obligation. At every grid point the body, called with the input windows' blocks, the output
  windows' buffers and the accumulators as the point before left them, runs and leaves the accumulators (and at the last
  column block the two output blocks) at the contents the recursion names.
-/
import proofs.«156794_j4621384810949_2_alg».proof.Proof.Gen.Kernel.Launch
import proofs.«156794_j4621384810949_2_alg».proof.Proof.Gen.Kernel.Skeleton
import proofs.«156794_j4621384810949_2_alg».proof.Proof.Gen.Kernel.Points
import proofs.«156794_j4621384810949_2_alg».proof.Proof.KR3Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`. -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

/-- What it returns. -/
def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t ∗ (dat3 V c).leavesExact 3 t
    ∗ (dat3 V c).leavesExact 4 t ∗ (dat3 V c).leavesExact 5 t ∗ (dat3 V c).leavesExact 6 t)

theorem leaves3_in (c : Dev nD) (t : Fin cfg3.N) :
    (dat3 V c).leavesExact 0 t = owns (c : Thread nD τ) (ms3_0 t) fullShare (iblk3 V c 0 t)
    ∧ (dat3 V c).leavesExact 1 t = owns (c : Thread nD τ) (ms3_1 t) fullShare (iblk3 V c 1 t)
    ∧ (dat3 V c).leavesExact 2 t = owns (c : Thread nD τ) (ms3_2 t) fullShare (iblk3 V c 2 t)
    ∧ (dat3 V c).leavesExact 3 t = owns (c : Thread nD τ) (ms3_3 t) fullShare (iblk3 V c 3 t)
    ∧ (dat3 V c).leavesExact 4 t = owns (c : Thread nD τ) (ms3_4 t) fullShare (iblk3 V c 4 t) := by
  refine ⟨?_, ?_, ?_, ?_, ?_⟩
  · unfold Dat.leavesExact; rw [liveAt3_0 t, after3_0]
  · unfold Dat.leavesExact; rw [liveAt3_1 t, after3_1]
  · unfold Dat.leavesExact; rw [liveAt3_2 t, after3_2]
  · unfold Dat.leavesExact; rw [liveAt3_3 t, after3_3]
  · unfold Dat.leavesExact; rw [liveAt3_4 t, after3_4]

set_option maxHeartbeats 8000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  obtain ⟨hl0, hl1, hl2, hl3, hl4⟩ := leaves3_in V c t
  rw [hl0, hl1, hl2, hl3, hl4]
  have hN : t.val < 64 := lt_of_lt_of_eq t.isLt (show cfg3.N = 64 from N_3)
  by_cases h0 : t.val % 8 = 0
  · -- the first column block: the accumulators are entered at anything
    have hc1 : ¬cond3_1 (grid3.coords t) := notC_of_A3 h0
    rw [Dat.leavesExact_idle (dat3 V c) 5 t (idleAt3_5 t hc1) (noFlush3_5 t hc1),
      Dat.leavesExact_idle (dat3 V c) 6 t (idleAt3_6 t hc1) (noFlush3_6 t hc1)]
    rw [outsAt3_A V c t h0]
    unfold step3A; (try dsimp only)
    have hΦ : (dat3 V c).Φ t.castSucc ⊢ iprop(iprop(iprop((∃ d, owns (c : Thread nD τ) scM3_0 fullShare d) ∗ (∃ d, owns (c : Thread nD τ) scM3_1 fullShare d) ∗ (∃ d, owns (c : Thread nD τ) scM3_2 fullShare d))
          ∗ Rest3 (F := F) c) ∗ (∃ r, prngReg c r)) := by
      by_cases hz : t.val = 0
      · rw [PhiS3_castSucc V c t, PhiS3_zero V c _ _ hz, PhiA3_eq]; try exact .rfl
      · rw [PhiS3_castSucc V c t, PhiS3_pos V c _ _ hz]
        iintro ⟨⟨⟨HS0, HS1, HS2⟩, Hrest⟩, Hg⟩
        isplitl [HS0 HS1 HS2 Hrest]
        · isplitl [HS0 HS1 HS2]
          · isplitl [HS0]; · iexists _; iexact HS0
            isplitl [HS1]; · iexists _; iexact HS1
            iexists _; iexact HS2
          iexact Hrest
        iexact Hg
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := hΦ $$ HΦ
    icases HΦ' with ⟨⟨⟨HS0, HS1, HS2⟩, Hrest⟩, Hg⟩
    iapply ((run3A V c t h0).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, ⟨%es0, HS0⟩, ⟨%es1, HS1⟩, ⟨%es2, HS2⟩⟩
    isplitl [HS0 HS1 HS2 Hrest Hg]
    · isplitl [HS0 HS1 HS2 Hrest]
      · isplitl [HS0 HS1 HS2]
        · isplitl [HS0]
          · unfold owns; iexists _; isplitr
            swap; · iexact HS0
            ipureintro; exact View.read_writes_of_cover _ _ _ _ _ (scover3A_0 V c t h0)
          isplitl [HS1]
          · unfold owns; iexists _; isplitr
            swap; · iexact HS1
            ipureintro; exact View.read_writes_of_cover _ _ _ _ _ (scover3A_1 V c t h0)
          unfold owns; iexists _; isplitr
          swap; · iexact HS2
          ipureintro; exact View.read_writes_of_cover _ _ _ _ _ (scover3A_2 V c t h0)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hz : t.val ≠ 0 := fun h => h0 (by rw [h])
    by_cases h1 : t.val % 8 = 7
    · -- the last column block: the outputs are written
      have hc1 : cond3_1 (grid3.coords t) := (hcond3_1 t).mpr h1
      rw [show (dat3 V c).leavesExact 5 t = owns (c : Thread nD τ) (ms3_5 t) fullShare ((dat3 V c).after 5 t) from by
          unfold Dat.leavesExact; rw [liveAt3_5 t hc1], after3_5,
        show (dat3 V c).leavesExact 6 t = owns (c : Thread nD τ) (ms3_6 t) fullShare ((dat3 V c).after 6 t) from by
          unfold Dat.leavesExact; rw [liveAt3_6 t hc1], after3_6]
      rw [outsAt3_C V c t h0 h1]
      unfold step3C; (try dsimp only)
      rw [PhiS3_castSucc V c t, PhiS3_pos V c _ _ hz]
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((run3C V c t h0 h1 _ _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, H4, ⟨%e5, H5⟩, ⟨%e6, H6⟩, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover3C_0 V c t h0 h1 _ _ _)
            isplitl [HS1]
            · unfold owns; iexists _; isplitr
              swap; · iexact HS1
              ipureintro; exact View.read_writes_of_cover _ _ _ _ _ (scover3C_1 V c t h0 h1 _ _ _)
            unfold owns; iexists _; isplitr
            swap; · iexact HS2
            ipureintro; exact View.read_writes_of_cover _ _ _ _ _ (scover3C_2 V c t h0 h1 _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover3C_5 V c t h0 h1 _ _ _)
      unfold owns; iexists _; isplitr
      swap; · iexact H6
      ipureintro; exact View.read_writes_of_cover _ _ _ _ _ (cover3C_6 V c t h0 h1 _ _ _)
    · -- an inner column block
      have hc1 : ¬cond3_1 (grid3.coords t) := fun h => h1 ((hcond3_1 t).mp h)
      rw [Dat.leavesExact_idle (dat3 V c) 5 t (idleAt3_5 t hc1) (noFlush3_5 t hc1),
        Dat.leavesExact_idle (dat3 V c) 6 t (idleAt3_6 t hc1) (noFlush3_6 t hc1)]
      rw [outsAt3_B V c t h0 h1]
      unfold step3B; (try dsimp only)
      rw [PhiS3_castSucc V c t, PhiS3_pos V c _ _ hz]
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((run3B V c t h0 h1 _ _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover3B_0 V c t h0 h1 _ _ _)
            isplitl [HS1]
            · unfold owns; iexists _; isplitr
              swap; · iexact HS1
              ipureintro; exact View.read_writes_of_cover _ _ _ _ _ (scover3B_1 V c t h0 h1 _ _ _)
            unfold owns; iexists _; isplitr
            swap; · iexact HS2
            ipureintro; exact View.read_writes_of_cover _ _ _ _ _ (scover3B_2 V c t h0 h1 _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact .rfl

/-- After the last point the invariant gives the launch's rest back: the accumulators' contents are forgotten. -/
theorem hout3 (c : Dev nD) : (dat3 V c).Φ (Fin.last cfg3.N) ⊢ (Pipeline.ΦA spec3 c : sProp 𝕄) := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 64 := N_3; omega), PhiA3_eq]
  iintro ⟨⟨⟨HS0, HS1, HS2⟩, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

end Cert.Kernel.Hand

end
-- ==== Proof.KRegR3.lean ====
/- Region 3: its proof data and body obligation, under the names the assembly uses. -/
import proofs.«156794_j4621384810949_2_alg».proof.Proof.KR3Body
-- ==== Proof.KRun.lean ====
/- The run of @main: the contents of every unscoped buffer at each boundary between two segments, the four regions
   and the two host stretches as segments over one thread state, the launch, and what the final memory holds. -/
import proofs.«156794_j4621384810949_2_alg».proof.Proof.KRegA0
import proofs.«156794_j4621384810949_2_alg».proof.Proof.KRegA2
import proofs.«156794_j4621384810949_2_alg».proof.Proof.KRegR1
import proofs.«156794_j4621384810949_2_alg».proof.Proof.KRegR3
import proofs.«156794_j4621384810949_2_alg».proof.Proof.Gen.Kernel.Launch
import proofs.«156794_j4621384810949_2_alg».proof.Proof.Gen.Kernel.Skeleton
import proofs.«156794_j4621384810949_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch (region 0's entry). -/
abbrev W0 : Dev nD → Valuation τ sig (Elt F) := fun c b => (s₀ m ρ).mem ((c : Dev nD), b)
/-- The launch contents read at the TensorCore's references (what region 0's proof data take). -/
abbrev V0 : (c : Dev nD) → (b : Ref sig .tc) → Buf (Elt F) ((c : Thread nD τ).loc b) := fun c b => W0 m ρ c b

/-- At region 0's exit: its windows' arrays at what the pipeline leaves (an input as entered, an output with its
    write-backs folded in), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- Region 0's exit contents read at the TensorCore's references. -/
abbrev V1 : (c : Dev nD) → (b : Ref sig .tc) → Buf (Elt F) ((c : Thread nD τ).loc b) := fun c b => W1 m ρ c b
/-- At region 0's exit each of its arrays holds what the pipeline leaves and every other buffer what it held at entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host stretch that reshapes the first bias to a row (region 1's entry). -/
abbrev W2 : Dev nD → Valuation τ sig (Elt F) := fun c => StableHlo.after hostOps1 (W1 m ρ c)
/-- Region 1's entry contents read at the TensorCore's references. -/
abbrev V2 : (c : Dev nD) → (b : Ref sig .tc) → Buf (Elt F) ((c : Thread nD τ).loc b) := fun c b => W2 m ρ c b

/-- At region 1's exit: its windows' arrays at what the pipeline leaves (an input as entered, an output with its
    write-backs folded in), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- Region 1's exit contents, which are region 2's entry contents, read at the TensorCore's references. -/
abbrev V3 : (c : Dev nD) → (b : Ref sig .tc) → Buf (Elt F) ((c : Thread nD τ).loc b) := fun c b => W3 m ρ c b
/-- At region 1's exit each of its arrays holds what the pipeline leaves and every other buffer what it held at entry. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its windows' arrays at what the pipeline leaves (an input as entered, an output with its
    write-backs folded in), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- Region 2's exit contents read at the TensorCore's references. -/
abbrev V4 : (c : Dev nD) → (b : Ref sig .tc) → Buf (Elt F) ((c : Thread nD τ).loc b) := fun c b => W4 m ρ c b
/-- At region 2's exit each of its arrays holds what the pipeline leaves and every other buffer what it held at entry. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the host stretch that reshapes the second bias to a row (region 3's entry). -/
abbrev W5 : Dev nD → Valuation τ sig (Elt F) := fun c => StableHlo.after hostOps3 (W4 m ρ c)
/-- Region 3's entry contents read at the TensorCore's references. -/
abbrev V5 : (c : Dev nD) → (b : Ref sig .tc) → Buf (Elt F) ((c : Thread nD τ).loc b) := fun c b => W5 m ρ c b

/-- At region 3's exit: its windows' arrays at what the pipeline leaves (an input as entered, an output with its
    write-backs folded in), every other buffer as entered. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
/-- The final contents read at the TensorCore's references. -/
abbrev V6 : (c : Dev nD) → (b : Ref sig .tc) → Buf (Elt F) ((c : Thread nD τ).loc b) := fun c b => W6 m ρ c b
/-- At region 3's exit each of its arrays holds what the pipeline leaves and every other buffer what it held at entry. -/
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents: a literal `match`, so that the pinned
    configuration at a numeral reduces to the printed one. -/
def pdats : (p : Fin 4) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V3 m ρ) c
  | ⟨3, _⟩ => fun c => dat3 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev Rth (c : Dev nD) : sProp 𝕄 := iprop((∃ r, prngReg c r) ∗ ∃ W, owes (c : Thread nD τ) (0 : CellTallies nD τ sig Unit) W)
/-- A host stretch as a segment over the unscoped references from the contents `W`, `Rth` riding along; it is left
    with those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rth

/-- Neither host stretch allocates a buffer. -/
theorem hostOps1_fresh' : (hostOps1 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the final contents `W6`, the generator
    register at some state. -/
abbrev Tₙ (c : Dev nD) : sProp 𝕄 := iprop(StableHlo.held (c : Thread nD τ) (Pipeline.ucRefs τ sig) (W6 m ρ c) ∗ ∃ r, prngReg c r)

/-- Into a region's invariant: the generator register and the scoped buffers no window stages, the (empty) tables dropped. -/
theorem sep_drop_mid (X P S : sProp 𝕄) : iprop(X ∗ P ∗ S) ⊢ iprop(S ∗ X) := by
  iintro ⟨Hx, -, Hs⟩
  isplitl [Hs]; · iexact Hs
  iexact Hx
/-- Out of a region's invariant: the same two, beside no semaphore of the kernel's own. -/
theorem sep_add_emp (X S : sProp 𝕄) : iprop(S ∗ X) ⊢ iprop(X ∗ BI.emp ∗ S) := by
  iintro ⟨Hs, Hx⟩
  isplitl [Hx]; · iexact Hx
  isplitr; · iempintro
  iexact Hs

/-! ## The regions as segments -/

-- a library lemma stated over the pinned configuration unifies with the printed one only when unification may unfold
-- plain definitions in a metavariable's type
set_option backward.isDefEq.respectTransparency.types false in
/-- Region 0 over the thread state: entered from every unscoped buffer at `W0`, left at `W1`. Its windows' arrays
    are split out of the unscoped buffers at entry and put back at the exit contents; the generator register and the
    scoped buffers no window stages pass through the region's invariant; nothing is owed; the kernel has no semaphore
    of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ Rth c)
  post c := iprop(StableHlo.held (c : Thread nD τ) (Pipeline.ucRefs τ sig) (W1 m ρ c) ∗ Rth c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (sep_drop_mid _ _ _).trans (hin0 (V0 m ρ) c)
  hout c := by
    rw [Pipeline.ownSems0_none]
    exact (hout0 (V0 m ρ) c).trans (sep_add_emp _ _)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W2`, left at `W3`. Its windows' arrays
    are split out of the unscoped buffers at entry and put back at the exit contents; the generator register and the
    scoped buffers no window stages pass through the region's invariant; nothing is owed; the kernel has no semaphore
    of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ Rth c)
  post c := iprop(StableHlo.held (c : Thread nD τ) (Pipeline.ucRefs τ sig) (W3 m ρ c) ∗ Rth c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (sep_drop_mid _ _ _).trans (hin1 (V2 m ρ) c)
  hout c := by
    rw [Pipeline.ownSems0_none]
    exact (hout1 (V2 m ρ) c).trans (sep_add_emp _ _)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at `W3`, left at `W4`. Its windows' arrays
    are split out of the unscoped buffers at entry and put back at the exit contents; the generator register and the
    scoped buffers no window stages pass through the region's invariant; nothing is owed; the kernel has no semaphore
    of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ Rth c)
  post c := iprop(StableHlo.held (c : Thread nD τ) (Pipeline.ucRefs τ sig) (W4 m ρ c) ∗ Rth c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (sep_drop_mid _ _ _).trans (hin2 (V3 m ρ) c)
  hout c := by
    rw [Pipeline.ownSems0_none]
    exact (hout2 (V3 m ρ) c).trans (sep_add_emp _ _)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 over the thread state: entered from every unscoped buffer at `W5`, left at `W6`. Its windows' arrays
    are split out of the unscoped buffers at entry and put back at the exit contents; the generator register and the
    scoped buffers no window stages pass through the region's invariant; nothing is owed; the kernel has no semaphore
    of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ Rth c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) (A_eq3 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (sep_drop_mid _ _ _).trans (hin3 (V5 m ρ) c)
  hout c := by
    rw [Pipeline.ownSems0_none]
    exact (hout3 (V5 m ρ) c).trans (sep_add_emp _ _)
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order. -/
abbrev segs : List (Pipeline.Seg (pcfgs (F := F)) adm (pdats m ρ) () defs₀ 𝒱₀ L lv) :=
  [ .region (reg0 m ρ),
    .host (hseg hostOps1 hostOps1_sub hostOps1_fresh' (W1 m ρ)),
    .region (reg1 m ρ),
    .region (reg2 m ρ),
    .host (hseg hostOps3 hostOps3_sub hostOps3_fresh' (W4 m ρ)),
    .region (reg3 m ρ) ]
/-- @main is the run of the segments. -/
theorem main_run (c : Dev nD) : main (F := F) c = Pipeline.Seg.run (segs m ρ) := (main_chain c).trans (by chain_rfl)

-- the library lemma's implicit arguments are found by unifying its conclusion with this one, which takes unfolding plain
-- definitions in a metavariable's type
set_option backward.isDefEq.respectTransparency.types false in
/-- THE RUN, at any post `Q` that follows from the final memory holding every unscoped buffer at `W6`: at the compiled
    mesh, from any memory with zero counters, every weakly fair execution of @main on the TensorCores terminates,
    nothing faulting, and every final state satisfies `Q`. -/
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W6 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rth c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := hQ)

/-- THE RUN with the final memory's unscoped buffers as the post. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W6 m ρ c b) :=
  run_post m ρ fun _ h => h

/-! ## What each segment leaves unchanged -/

/-- The references the two host stretches write: each reshapes a bias vector into a one-row matrix. -/
abbrev hostOps1_W' : List (Ref sig .tc) := [main_v1]
theorem hostOps1_writes' : (hostOps1 : List (HloOp τ sig (Elt F))).Forall fun op => op.writes ⊆ (hostOps1_W'.map (Proc.devRef (τ := τ) .tc)).toFinset := by
  simp only [List.Forall]; exact (by simp only [StableHlo.reshape_writes, Finset.singleton_subset_iff, List.mem_toFinset]; exact List.mem_map_of_mem (by decide))
abbrev hostOps3_W' : List (Ref sig .tc) := [main_v4]
theorem hostOps3_writes' : (hostOps3 : List (HloOp τ sig (Elt F))).Forall fun op => op.writes ⊆ (hostOps3_W'.map (Proc.devRef (τ := τ) .tc)).toFinset := by
  simp only [List.Forall]; exact (by simp only [StableHlo.reshape_writes, Finset.singleton_subset_iff, List.mem_toFinset]; exact List.mem_map_of_mem (by decide))
theorem W2_keep (c : Dev nD) (b : Ref sig .tc) (h : b ∉ hostOps1_W') : W2 m ρ c (Proc.devRef .tc b) = W1 m ρ c (Proc.devRef .tc b) :=
  StableHlo.after_of_writes_sub hostOps1 _ hostOps1_writes' h
theorem W5_keep (c : Dev nD) (b : Ref sig .tc) (h : b ∉ hostOps3_W') : W5 m ρ c (Proc.devRef .tc b) = W4 m ρ c (Proc.devRef .tc b) :=
  StableHlo.after_of_writes_sub hostOps3 _ hostOps3_writes' h
/-- Region 0 leaves every buffer that is no output window's array as it was entered: an input window's array is
    read only, a buffer no window stages is not touched. -/
theorem W1_keep (c : Dev nD) (b : Ref sig .tc) (hb : ∀ w, Pipeline.arrRef spec0 w = b → (cfg0.win w).isOut = false) :
    W1 m ρ c (Proc.devRef .tc b) = W0 m ρ c (Proc.devRef .tc b) := by
  by_cases h : ∃ w, Pipeline.arrRef spec0 w = b
  · obtain ⟨w, rfl⟩ := h
    exact (W1_arr m ρ c w).trans (((dat0 (V0 m ρ) c).arrAt_in w (hb w rfl) _).trans (A_eq0 (V0 m ρ) c w))
  · exact W1_of_ne m ρ c b fun w e => h ⟨w, e⟩
/-- Region 1 leaves every buffer that is no output window's array as it was entered: an input window's array is
    read only, a buffer no window stages is not touched. -/
theorem W3_keep (c : Dev nD) (b : Ref sig .tc) (hb : ∀ w, Pipeline.arrRef spec1 w = b → (cfg1.win w).isOut = false) :
    W3 m ρ c (Proc.devRef .tc b) = W2 m ρ c (Proc.devRef .tc b) := by
  by_cases h : ∃ w, Pipeline.arrRef spec1 w = b
  · obtain ⟨w, rfl⟩ := h
    exact (W3_arr m ρ c w).trans (((dat1 (V2 m ρ) c).arrAt_in w (hb w rfl) _).trans (A_eq1 (V2 m ρ) c w))
  · exact W3_of_ne m ρ c b fun w e => h ⟨w, e⟩
/-- Region 2 leaves every buffer that is no output window's array as it was entered: an input window's array is
    read only, a buffer no window stages is not touched. -/
theorem W4_keep (c : Dev nD) (b : Ref sig .tc) (hb : ∀ w, Pipeline.arrRef spec2 w = b → (cfg2.win w).isOut = false) :
    W4 m ρ c (Proc.devRef .tc b) = W3 m ρ c (Proc.devRef .tc b) := by
  by_cases h : ∃ w, Pipeline.arrRef spec2 w = b
  · obtain ⟨w, rfl⟩ := h
    exact (W4_arr m ρ c w).trans (((dat2 (V3 m ρ) c).arrAt_in w (hb w rfl) _).trans (A_eq2 (V3 m ρ) c w))
  · exact W4_of_ne m ρ c b fun w e => h ⟨w, e⟩
/-- Region 3 leaves every buffer that is no output window's array as it was entered: an input window's array is
    read only, a buffer no window stages is not touched. -/
theorem W6_keep (c : Dev nD) (b : Ref sig .tc) (hb : ∀ w, Pipeline.arrRef spec3 w = b → (cfg3.win w).isOut = false) :
    W6 m ρ c (Proc.devRef .tc b) = W5 m ρ c (Proc.devRef .tc b) := by
  by_cases h : ∃ w, Pipeline.arrRef spec3 w = b
  · obtain ⟨w, rfl⟩ := h
    exact (W6_arr m ρ c w).trans (((dat3 (V5 m ρ) c).arrAt_in w (hb w rfl) _).trans (A_eq3 (V5 m ρ) c w))
  · exact W6_of_ne m ρ c b fun w e => h ⟨w, e⟩

/-! ## The arguments hold their launch contents at every boundary: no host stretch writes one and no region has one as
    an output window's array -/
theorem W0_main_arg0 (c : Dev nD) : W0 m ρ c (Proc.devRef .tc main_arg0) = m ((c : Thread nD τ).loc main_arg0) := rfl
theorem W1_main_arg0 (c : Dev nD) : W1 m ρ c (Proc.devRef .tc main_arg0) = m ((c : Thread nD τ).loc main_arg0) :=
  (W1_keep m ρ c main_arg0 (by decide)).trans (W0_main_arg0 m ρ c)
theorem W2_main_arg0 (c : Dev nD) : W2 m ρ c (Proc.devRef .tc main_arg0) = m ((c : Thread nD τ).loc main_arg0) :=
  (W2_keep m ρ c main_arg0 (by decide)).trans (W1_main_arg0 m ρ c)
theorem W3_main_arg0 (c : Dev nD) : W3 m ρ c (Proc.devRef .tc main_arg0) = m ((c : Thread nD τ).loc main_arg0) :=
  (W3_keep m ρ c main_arg0 (by decide)).trans (W2_main_arg0 m ρ c)
theorem W4_main_arg0 (c : Dev nD) : W4 m ρ c (Proc.devRef .tc main_arg0) = m ((c : Thread nD τ).loc main_arg0) :=
  (W4_keep m ρ c main_arg0 (by decide)).trans (W3_main_arg0 m ρ c)
theorem W5_main_arg0 (c : Dev nD) : W5 m ρ c (Proc.devRef .tc main_arg0) = m ((c : Thread nD τ).loc main_arg0) :=
  (W5_keep m ρ c main_arg0 (by decide)).trans (W4_main_arg0 m ρ c)
theorem W6_main_arg0 (c : Dev nD) : W6 m ρ c (Proc.devRef .tc main_arg0) = m ((c : Thread nD τ).loc main_arg0) :=
  (W6_keep m ρ c main_arg0 (by decide)).trans (W5_main_arg0 m ρ c)
theorem W0_main_arg1 (c : Dev nD) : W0 m ρ c (Proc.devRef .tc main_arg1) = m ((c : Thread nD τ).loc main_arg1) := rfl
theorem W1_main_arg1 (c : Dev nD) : W1 m ρ c (Proc.devRef .tc main_arg1) = m ((c : Thread nD τ).loc main_arg1) :=
  (W1_keep m ρ c main_arg1 (by decide)).trans (W0_main_arg1 m ρ c)
theorem W2_main_arg1 (c : Dev nD) : W2 m ρ c (Proc.devRef .tc main_arg1) = m ((c : Thread nD τ).loc main_arg1) :=
  (W2_keep m ρ c main_arg1 (by decide)).trans (W1_main_arg1 m ρ c)
theorem W3_main_arg1 (c : Dev nD) : W3 m ρ c (Proc.devRef .tc main_arg1) = m ((c : Thread nD τ).loc main_arg1) :=
  (W3_keep m ρ c main_arg1 (by decide)).trans (W2_main_arg1 m ρ c)
theorem W4_main_arg1 (c : Dev nD) : W4 m ρ c (Proc.devRef .tc main_arg1) = m ((c : Thread nD τ).loc main_arg1) :=
  (W4_keep m ρ c main_arg1 (by decide)).trans (W3_main_arg1 m ρ c)
theorem W5_main_arg1 (c : Dev nD) : W5 m ρ c (Proc.devRef .tc main_arg1) = m ((c : Thread nD τ).loc main_arg1) :=
  (W5_keep m ρ c main_arg1 (by decide)).trans (W4_main_arg1 m ρ c)
theorem W6_main_arg1 (c : Dev nD) : W6 m ρ c (Proc.devRef .tc main_arg1) = m ((c : Thread nD τ).loc main_arg1) :=
  (W6_keep m ρ c main_arg1 (by decide)).trans (W5_main_arg1 m ρ c)
theorem W0_main_arg2 (c : Dev nD) : W0 m ρ c (Proc.devRef .tc main_arg2) = m ((c : Thread nD τ).loc main_arg2) := rfl
theorem W1_main_arg2 (c : Dev nD) : W1 m ρ c (Proc.devRef .tc main_arg2) = m ((c : Thread nD τ).loc main_arg2) :=
  (W1_keep m ρ c main_arg2 (by decide)).trans (W0_main_arg2 m ρ c)
theorem W2_main_arg2 (c : Dev nD) : W2 m ρ c (Proc.devRef .tc main_arg2) = m ((c : Thread nD τ).loc main_arg2) :=
  (W2_keep m ρ c main_arg2 (by decide)).trans (W1_main_arg2 m ρ c)
theorem W3_main_arg2 (c : Dev nD) : W3 m ρ c (Proc.devRef .tc main_arg2) = m ((c : Thread nD τ).loc main_arg2) :=
  (W3_keep m ρ c main_arg2 (by decide)).trans (W2_main_arg2 m ρ c)
theorem W4_main_arg2 (c : Dev nD) : W4 m ρ c (Proc.devRef .tc main_arg2) = m ((c : Thread nD τ).loc main_arg2) :=
  (W4_keep m ρ c main_arg2 (by decide)).trans (W3_main_arg2 m ρ c)
theorem W5_main_arg2 (c : Dev nD) : W5 m ρ c (Proc.devRef .tc main_arg2) = m ((c : Thread nD τ).loc main_arg2) :=
  (W5_keep m ρ c main_arg2 (by decide)).trans (W4_main_arg2 m ρ c)
theorem W6_main_arg2 (c : Dev nD) : W6 m ρ c (Proc.devRef .tc main_arg2) = m ((c : Thread nD τ).loc main_arg2) :=
  (W6_keep m ρ c main_arg2 (by decide)).trans (W5_main_arg2 m ρ c)
theorem W0_main_arg3 (c : Dev nD) : W0 m ρ c (Proc.devRef .tc main_arg3) = m ((c : Thread nD τ).loc main_arg3) := rfl
theorem W1_main_arg3 (c : Dev nD) : W1 m ρ c (Proc.devRef .tc main_arg3) = m ((c : Thread nD τ).loc main_arg3) :=
  (W1_keep m ρ c main_arg3 (by decide)).trans (W0_main_arg3 m ρ c)
theorem W2_main_arg3 (c : Dev nD) : W2 m ρ c (Proc.devRef .tc main_arg3) = m ((c : Thread nD τ).loc main_arg3) :=
  (W2_keep m ρ c main_arg3 (by decide)).trans (W1_main_arg3 m ρ c)
theorem W3_main_arg3 (c : Dev nD) : W3 m ρ c (Proc.devRef .tc main_arg3) = m ((c : Thread nD τ).loc main_arg3) :=
  (W3_keep m ρ c main_arg3 (by decide)).trans (W2_main_arg3 m ρ c)
theorem W4_main_arg3 (c : Dev nD) : W4 m ρ c (Proc.devRef .tc main_arg3) = m ((c : Thread nD τ).loc main_arg3) :=
  (W4_keep m ρ c main_arg3 (by decide)).trans (W3_main_arg3 m ρ c)
theorem W5_main_arg3 (c : Dev nD) : W5 m ρ c (Proc.devRef .tc main_arg3) = m ((c : Thread nD τ).loc main_arg3) :=
  (W5_keep m ρ c main_arg3 (by decide)).trans (W4_main_arg3 m ρ c)
theorem W6_main_arg3 (c : Dev nD) : W6 m ρ c (Proc.devRef .tc main_arg3) = m ((c : Thread nD τ).loc main_arg3) :=
  (W6_keep m ρ c main_arg3 (by decide)).trans (W5_main_arg3 m ρ c)
theorem W0_main_arg4 (c : Dev nD) : W0 m ρ c (Proc.devRef .tc main_arg4) = m ((c : Thread nD τ).loc main_arg4) := rfl
theorem W1_main_arg4 (c : Dev nD) : W1 m ρ c (Proc.devRef .tc main_arg4) = m ((c : Thread nD τ).loc main_arg4) :=
  (W1_keep m ρ c main_arg4 (by decide)).trans (W0_main_arg4 m ρ c)
theorem W2_main_arg4 (c : Dev nD) : W2 m ρ c (Proc.devRef .tc main_arg4) = m ((c : Thread nD τ).loc main_arg4) :=
  (W2_keep m ρ c main_arg4 (by decide)).trans (W1_main_arg4 m ρ c)
theorem W3_main_arg4 (c : Dev nD) : W3 m ρ c (Proc.devRef .tc main_arg4) = m ((c : Thread nD τ).loc main_arg4) :=
  (W3_keep m ρ c main_arg4 (by decide)).trans (W2_main_arg4 m ρ c)
theorem W4_main_arg4 (c : Dev nD) : W4 m ρ c (Proc.devRef .tc main_arg4) = m ((c : Thread nD τ).loc main_arg4) :=
  (W4_keep m ρ c main_arg4 (by decide)).trans (W3_main_arg4 m ρ c)
theorem W5_main_arg4 (c : Dev nD) : W5 m ρ c (Proc.devRef .tc main_arg4) = m ((c : Thread nD τ).loc main_arg4) :=
  (W5_keep m ρ c main_arg4 (by decide)).trans (W4_main_arg4 m ρ c)
theorem W6_main_arg4 (c : Dev nD) : W6 m ρ c (Proc.devRef .tc main_arg4) = m ((c : Thread nD τ).loc main_arg4) :=
  (W6_keep m ρ c main_arg4 (by decide)).trans (W5_main_arg4 m ρ c)
theorem W0_main_arg5 (c : Dev nD) : W0 m ρ c (Proc.devRef .tc main_arg5) = m ((c : Thread nD τ).loc main_arg5) := rfl
theorem W1_main_arg5 (c : Dev nD) : W1 m ρ c (Proc.devRef .tc main_arg5) = m ((c : Thread nD τ).loc main_arg5) :=
  (W1_keep m ρ c main_arg5 (by decide)).trans (W0_main_arg5 m ρ c)
theorem W2_main_arg5 (c : Dev nD) : W2 m ρ c (Proc.devRef .tc main_arg5) = m ((c : Thread nD τ).loc main_arg5) :=
  (W2_keep m ρ c main_arg5 (by decide)).trans (W1_main_arg5 m ρ c)
theorem W3_main_arg5 (c : Dev nD) : W3 m ρ c (Proc.devRef .tc main_arg5) = m ((c : Thread nD τ).loc main_arg5) :=
  (W3_keep m ρ c main_arg5 (by decide)).trans (W2_main_arg5 m ρ c)
theorem W4_main_arg5 (c : Dev nD) : W4 m ρ c (Proc.devRef .tc main_arg5) = m ((c : Thread nD τ).loc main_arg5) :=
  (W4_keep m ρ c main_arg5 (by decide)).trans (W3_main_arg5 m ρ c)
theorem W5_main_arg5 (c : Dev nD) : W5 m ρ c (Proc.devRef .tc main_arg5) = m ((c : Thread nD τ).loc main_arg5) :=
  (W5_keep m ρ c main_arg5 (by decide)).trans (W4_main_arg5 m ρ c)
theorem W6_main_arg5 (c : Dev nD) : W6 m ρ c (Proc.devRef .tc main_arg5) = m ((c : Thread nD τ).loc main_arg5) :=
  (W6_keep m ρ c main_arg5 (by decide)).trans (W5_main_arg5 m ρ c)
theorem W0_main_arg6 (c : Dev nD) : W0 m ρ c (Proc.devRef .tc main_arg6) = m ((c : Thread nD τ).loc main_arg6) := rfl
theorem W1_main_arg6 (c : Dev nD) : W1 m ρ c (Proc.devRef .tc main_arg6) = m ((c : Thread nD τ).loc main_arg6) :=
  (W1_keep m ρ c main_arg6 (by decide)).trans (W0_main_arg6 m ρ c)
theorem W2_main_arg6 (c : Dev nD) : W2 m ρ c (Proc.devRef .tc main_arg6) = m ((c : Thread nD τ).loc main_arg6) :=
  (W2_keep m ρ c main_arg6 (by decide)).trans (W1_main_arg6 m ρ c)
theorem W3_main_arg6 (c : Dev nD) : W3 m ρ c (Proc.devRef .tc main_arg6) = m ((c : Thread nD τ).loc main_arg6) :=
  (W3_keep m ρ c main_arg6 (by decide)).trans (W2_main_arg6 m ρ c)
theorem W4_main_arg6 (c : Dev nD) : W4 m ρ c (Proc.devRef .tc main_arg6) = m ((c : Thread nD τ).loc main_arg6) :=
  (W4_keep m ρ c main_arg6 (by decide)).trans (W3_main_arg6 m ρ c)
theorem W5_main_arg6 (c : Dev nD) : W5 m ρ c (Proc.devRef .tc main_arg6) = m ((c : Thread nD τ).loc main_arg6) :=
  (W5_keep m ρ c main_arg6 (by decide)).trans (W4_main_arg6 m ρ c)
theorem W6_main_arg6 (c : Dev nD) : W6 m ρ c (Proc.devRef .tc main_arg6) = m ((c : Thread nD τ).loc main_arg6) :=
  (W6_keep m ρ c main_arg6 (by decide)).trans (W5_main_arg6 m ρ c)
theorem W0_main_arg7 (c : Dev nD) : W0 m ρ c (Proc.devRef .tc main_arg7) = m ((c : Thread nD τ).loc main_arg7) := rfl
theorem W1_main_arg7 (c : Dev nD) : W1 m ρ c (Proc.devRef .tc main_arg7) = m ((c : Thread nD τ).loc main_arg7) :=
  (W1_keep m ρ c main_arg7 (by decide)).trans (W0_main_arg7 m ρ c)
theorem W2_main_arg7 (c : Dev nD) : W2 m ρ c (Proc.devRef .tc main_arg7) = m ((c : Thread nD τ).loc main_arg7) :=
  (W2_keep m ρ c main_arg7 (by decide)).trans (W1_main_arg7 m ρ c)
theorem W3_main_arg7 (c : Dev nD) : W3 m ρ c (Proc.devRef .tc main_arg7) = m ((c : Thread nD τ).loc main_arg7) :=
  (W3_keep m ρ c main_arg7 (by decide)).trans (W2_main_arg7 m ρ c)
theorem W4_main_arg7 (c : Dev nD) : W4 m ρ c (Proc.devRef .tc main_arg7) = m ((c : Thread nD τ).loc main_arg7) :=
  (W4_keep m ρ c main_arg7 (by decide)).trans (W3_main_arg7 m ρ c)
theorem W5_main_arg7 (c : Dev nD) : W5 m ρ c (Proc.devRef .tc main_arg7) = m ((c : Thread nD τ).loc main_arg7) :=
  (W5_keep m ρ c main_arg7 (by decide)).trans (W4_main_arg7 m ρ c)
theorem W6_main_arg7 (c : Dev nD) : W6 m ρ c (Proc.devRef .tc main_arg7) = m ((c : Thread nD τ).loc main_arg7) :=
  (W6_keep m ρ c main_arg7 (by decide)).trans (W5_main_arg7 m ρ c)
theorem W0_main_arg8 (c : Dev nD) : W0 m ρ c (Proc.devRef .tc main_arg8) = m ((c : Thread nD τ).loc main_arg8) := rfl
theorem W1_main_arg8 (c : Dev nD) : W1 m ρ c (Proc.devRef .tc main_arg8) = m ((c : Thread nD τ).loc main_arg8) :=
  (W1_keep m ρ c main_arg8 (by decide)).trans (W0_main_arg8 m ρ c)
theorem W2_main_arg8 (c : Dev nD) : W2 m ρ c (Proc.devRef .tc main_arg8) = m ((c : Thread nD τ).loc main_arg8) :=
  (W2_keep m ρ c main_arg8 (by decide)).trans (W1_main_arg8 m ρ c)
theorem W3_main_arg8 (c : Dev nD) : W3 m ρ c (Proc.devRef .tc main_arg8) = m ((c : Thread nD τ).loc main_arg8) :=
  (W3_keep m ρ c main_arg8 (by decide)).trans (W2_main_arg8 m ρ c)
theorem W4_main_arg8 (c : Dev nD) : W4 m ρ c (Proc.devRef .tc main_arg8) = m ((c : Thread nD τ).loc main_arg8) :=
  (W4_keep m ρ c main_arg8 (by decide)).trans (W3_main_arg8 m ρ c)
theorem W5_main_arg8 (c : Dev nD) : W5 m ρ c (Proc.devRef .tc main_arg8) = m ((c : Thread nD τ).loc main_arg8) :=
  (W5_keep m ρ c main_arg8 (by decide)).trans (W4_main_arg8 m ρ c)
theorem W6_main_arg8 (c : Dev nD) : W6 m ρ c (Proc.devRef .tc main_arg8) = m ((c : Thread nD τ).loc main_arg8) :=
  (W6_keep m ρ c main_arg8 (by decide)).trans (W5_main_arg8 m ρ c)

/-! ## The frame: every argument array ends as launched -/

/-- At the compiled mesh, from any memory with zero counters, every weakly fair execution of @main on the TensorCores
    terminates, nothing faulting, and every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_post m ρ fun s h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c)⟩

/-! ## What the regions hand one another -/

/-- The two results are region 3's two output arrays as its pipeline leaves them. -/
theorem results (c : Dev nD) :
    W6 m ρ c (Proc.devRef .tc main_v5_0) = (dat3 (V5 m ρ) c).arrAt 5 cfg3.N
    ∧ W6 m ρ c (Proc.devRef .tc main_v5_1) = (dat3 (V5 m ρ) c).arrAt 6 cfg3.N :=
  ⟨W6_arr m ρ c 5, W6_arr m ρ c 6⟩

/-- Region 1 reads region 0's product at `main_v0`. -/
theorem V2_main_v0 (c : Dev nD) : V2 m ρ c main_v0 = (dat0 (V0 m ρ) c).arrAt 2 cfg0.N :=
  (W2_keep m ρ c main_v0 (by decide)).trans (W1_arr m ρ c 2)
/-- Region 2 reads region 1's first output at `main_v2_0`. -/
theorem V3_main_v2_0 (c : Dev nD) : V3 m ρ c main_v2_0 = (dat1 (V2 m ρ) c).arrAt 5 cfg1.N := W3_arr m ρ c 5
theorem V3_main_v2_1 (c : Dev nD) : V3 m ρ c main_v2_1 = (dat1 (V2 m ρ) c).arrAt 6 cfg1.N := W3_arr m ρ c 6
/-- Region 3 reads region 1's second output at `main_v2_1` (region 2 and the second host stretch leave it) and region 2's
    product at `main_v3`. -/
theorem V5_main_v2_1 (c : Dev nD) : V5 m ρ c main_v2_1 = (dat1 (V2 m ρ) c).arrAt 6 cfg1.N :=
  (W5_keep m ρ c main_v2_1 (by decide)).trans ((W4_keep m ρ c main_v2_1 (by decide)).trans (W3_arr m ρ c 6))
theorem V5_main_v3 (c : Dev nD) : V5 m ρ c main_v3 = (dat2 (V3 m ρ) c).arrAt 2 cfg2.N :=
  (W5_keep m ρ c main_v3 (by decide)).trans (W4_arr m ρ c 2)
/-- The bias rows: each host stretch reshapes a bias vector, still as launched, into a one-row matrix. -/
theorem V2_main_v1 (c : Dev nD) : V2 m ρ c main_v1
    = fun i => shapeCast main_v1.ty.shape (m ((c : Thread nD τ).loc main_arg6)) shapeCasts_S256_S1x256 i := by
  show StableHlo.after hostOps1 (W1 m ρ c) (Proc.devRef .tc main_v1) = _
  after_results
  rw [W1_main_arg6 m ρ c]
theorem V5_main_v4 (c : Dev nD) : V5 m ρ c main_v4
    = fun i => shapeCast main_v4.ty.shape (m ((c : Thread nD τ).loc main_arg8)) shapeCasts_S40_S1x40 i := by
  show StableHlo.after hostOps3 (W4 m ρ c) (Proc.devRef .tc main_v4) = _
  after_results
  rw [W4_main_arg8 m ρ c]

end Cert.Kernel.Hand

end
-- ==== Proof.Spec.lean ====
/-
  The mathematics of the two programs, stated once over the extended reals.

  A two-layer graph network with label propagation. With `a = adj ∘ mask` (entrywise), `R i = ∑ j |a i j|` and
  `d i = max (R i) ε`, one layer sends features `s` and labels `y` to `(a / d) · s + b` and `(a / d) · y`. The kernel
  forms the plain products `a · s`, `a · y` first and multiplies row `i` by `1 / d i` afterwards; the reference divides
  every entry of `a` by `d i` before the product. Since `d i ≥ ε > 0`, the factor `(d i)⁻¹` is a nonnegative real
  (zero when `d i = ⊤`), and multiplication by a nonnegative real distributes over every finite sum of extended
  reals: the two arrangements agree at every extended real, with no finiteness hypothesis.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- A matrix of extended reals. -/
abbrev Mat (a b : ℕ) := Fin a → Fin b → EReal

/-- An array of shape `[a, b]` read as a matrix. -/
def mat {a b : ℕ} (v : (⟨2, ![a, b]⟩ : Shape).Idx → EReal) : Mat a b := fun i j => v (ix2 i j)

/-- A vector of shape `[a]` read as a function. -/
def vec {a : ℕ} (v : (⟨1, ![a]⟩ : Shape).Idx → EReal) : Fin a → EReal := fun i => v (ix1 i)

/-- A matrix as an array of shape `[a, b]`. -/
def arr {a b : ℕ} (f : Mat a b) : (⟨2, ![a, b]⟩ : Shape).Idx → EReal := fun j => f (j 0) (j 1)

/-- The clip `ε` of the row norms: the single-precision word nearest to `10⁻¹²`. -/
def eps : EReal := Ideal.ofBits .f32 0x2B8CBCCC#32

/-- The matrix product. -/
def prod {n k m : ℕ} (x : Mat n k) (w : Mat k m) : Mat n m := fun i c => ∑ l : Fin k, x i l * w l c

/-- The masked adjacency. -/
def masked {n : ℕ} (adj mask : Mat n n) : Mat n n := fun i j => adj i j * mask i j

/-- The clipped absolute row sum `d i = max (∑ j |a i j|) ε`. -/
def den {n : ℕ} (a : Mat n n) (i : Fin n) : EReal := max (∑ j : Fin n, max (a i j) (-(a i j))) eps

/-- Aggregation as the kernel arranges it: the plain product, then row `i` times `1 / d i`. -/
def aggK {n m : ℕ} (a : Mat n n) (s : Mat n m) : Mat n m :=
  fun i c => (∑ j : Fin n, a i j * s j c) * Ideal.div 1 (den a i)

/-- Aggregation as the reference arranges it: every entry of `a` divided by `d i`, then the product. -/
def aggR {n m : ℕ} (a : Mat n n) (s : Mat n m) : Mat n m :=
  fun i c => ∑ j : Fin n, Ideal.div (a i j) (den a i) * s j c

/-- The rectifier. -/
def relu {n m : ℕ} (h : Mat n m) : Mat n m := fun i c => max (h i c) 0

/-- The row maximum, folded from `-∞`. -/
def rowMax {n m : ℕ} (h : Mat n m) (i : Fin n) : EReal := (Finset.univ : Finset (Fin m)).fold max ⊥ (fun c => h i c)

/-- The logarithm of the softmax along the rows: `(h − M) − log ∑ exp (h − M)` with `M` the row maximum. -/
def logSoftmax {n m : ℕ} (h : Mat n m) : Mat n m :=
  fun i c => (h i c - rowMax h i) - Ideal.log (∑ c' : Fin m, Ideal.exp (h i c' - rowMax h i))

section Net

variable (x : Mat 8192 512) (adj : Mat 8192 8192) (y : Mat 8192 40) (mask1 mask2 : Mat 8192 8192)
  (w1 : Mat 512 256) (b1 : Fin 256 → EReal) (w2 : Mat 256 40) (b2 : Fin 40 → EReal)

/-- The hidden features after layer one (kernel arrangement). -/
def hidK : Mat 8192 256 := relu fun i c => aggK (masked adj mask1) (prod x w1) i c + b1 c
/-- The propagated labels after layer one (kernel arrangement). -/
def labK : Mat 8192 40 := aggK (masked adj mask1) y
/-- The logits of layer two before the softmax (kernel arrangement). -/
def logitK : Mat 8192 40 := fun i c => aggK (masked adj mask2) (prod (hidK x adj mask1 w1 b1) w2) i c + b2 c
/-- The labels of layer two before the softmax (kernel arrangement). -/
def lab2K : Mat 8192 40 := aggK (masked adj mask2) (labK adj y mask1)

/-- The same four stages in the reference's arrangement. -/
def hidR : Mat 8192 256 := relu fun i c => aggR (masked adj mask1) (prod x w1) i c + b1 c
def labR : Mat 8192 40 := aggR (masked adj mask1) y
def logitR : Mat 8192 40 := fun i c => aggR (masked adj mask2) (prod (hidR x adj mask1 w1 b1) w2) i c + b2 c
def lab2R : Mat 8192 40 := aggR (masked adj mask2) (labR adj y mask1)

/-- The network's first result, in the kernel's arrangement. -/
def resK0 : Mat 8192 40 := logSoftmax (logitK x adj mask1 mask2 w1 b1 w2 b2)
/-- The network's second result, in the kernel's arrangement. -/
def resK1 : Mat 8192 40 := logSoftmax (lab2K adj y mask1 mask2)
/-- The network's first result, in the reference's arrangement. -/
def resR0 : Mat 8192 40 := logSoftmax (logitR x adj mask1 mask2 w1 b1 w2 b2)
/-- The network's second result, in the reference's arrangement. -/
def resR1 : Mat 8192 40 := logSoftmax (lab2R adj y mask1 mask2)

end Net

end Cert.Spec

end
-- ==== Proof.ValA.lean ====
/- The two projection regions' output arrays after each region, over the extended reals: each is the matrix product of
   the two arrays the region reads. A grid point writes back one block of 1024 rows of the product; row `r` of the
   output lies in the block of point `r / 1024`, so the eight blocks tile the array. -/
import proofs.«156794_j4621384810949_2_alg».proof.Proof.RegA0
import proofs.«156794_j4621384810949_2_alg».proof.Proof.RegA2
import proofs.«156794_j4621384810949_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The zero offsets of a whole-buffer access, as a constant function. -/
theorem hzA : (![0, 0] : Fin 2 → Nat) = fun _ => 0 := funext fun a => by fin_cases a <;> rfl

variable (V : (c : Dev nD) → (b : Ref sig .tc) → Buf (Elt Ideal) ((c : Thread nD τ).loc b))

/-! ## Region 0: the body's product at an index -/

/-- The left operand's index of the contraction keeps the output's row … -/
theorem lhs0_0 (i : S1024x256.Idx) (q : dot_S1024x512_S512x256_S1024x256_1_0_0_1_n_n.contr.Idx) : (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
/-- … and runs over the contracted axis in its column; -/
theorem lhs0_1 (i : S1024x256.Idx) (q : dot_S1024x512_S512x256_S1024x256_1_0_0_1_n_n.contr.Idx) : (dot_S1024x512_S512x256_S1024x256_1_0_0_1_n_n.lhsIdx i q 1).val = (q ⟨0, by decide⟩).val :=
  dot_S1024x512_S512x256_S1024x256_1_0_0_1_n_n.lhsIdx_val_of_single rfl i q
/-- the right operand's runs over the contracted axis in its row … -/
theorem rhs0_0 (i : S1024x256.Idx) (q : dot_S1024x512_S512x256_S1024x256_1_0_0_1_n_n.contr.Idx) : (dot_S1024x512_S512x256_S1024x256_1_0_0_1_n_n.rhsIdx i q 0).val = (q ⟨0, by decide⟩).val :=
  dot_S1024x512_S512x256_S1024x256_1_0_0_1_n_n.rhsIdx_val_of_single rfl i q
/-- … and keeps the output's column. -/
theorem rhs0_1 (i : S1024x256.Idx) (q : dot_S1024x512_S512x256_S1024x256_1_0_0_1_n_n.contr.Idx) : (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

/-- The body's payload at row `p`, column `q` of the block: the sum over the contracted axis of the products of the
    left block's row `p` with the right block's column `q` (the change of format before the product is the identity
    over the extended reals, and the accumulator starts at zero). -/
theorem pay0_apply (x0 : Vec Ideal S1024x512 .f32) (x1 : Vec Ideal S512x256 .f32) (p : Fin 1024) (q : Fin 256) :
    k0_pay1 (F := Ideal) x0 x1 (ix2 p q) = ∑ l : Fin 512, x0 (ix2 p l) * x1 (ix2 l q) := by
  unfold k0_pay1
  refine (Ideal.matmul_constant_zero_apply dot_S1024x512_S512x256_S1024x256_1_0_0_1_n_n none _ _ (ix2 p q)).trans ?_
  rw [← Equiv.sum_comp (contrEquiv1 dot_S1024x512_S512x256_S1024x256_1_0_0_1_n_n 512 rfl rfl).symm]
  refine Finset.sum_congr rfl fun l _ => ?_
  have hl := contrEquiv1_symm_val dot_S1024x512_S512x256_S1024x256_1_0_0_1_n_n 512 rfl rfl l
  have el : dot_S1024x512_S512x256_S1024x256_1_0_0_1_n_n.lhsIdx (ix2 p q) ((contrEquiv1 dot_S1024x512_S512x256_S1024x256_1_0_0_1_n_n 512 rfl rfl).symm l) = ix2 p l := funext fun a => Fin.ext (by
    match a with
    | ⟨0, _⟩ => exact lhs0_0 _ _
    | ⟨1, _⟩ => exact (lhs0_1 _ _).trans hl)
  have er : dot_S1024x512_S512x256_S1024x256_1_0_0_1_n_n.rhsIdx (ix2 p q) ((contrEquiv1 dot_S1024x512_S512x256_S1024x256_1_0_0_1_n_n 512 rfl rfl).symm l) = ix2 l q := funext fun a => Fin.ext (by
    match a with
    | ⟨0, _⟩ => exact (rhs0_0 _ _).trans hl
    | ⟨1, _⟩ => exact rhs0_1 _ _)
  rw [el, er]
  rfl

/-! ## Region 0: from the blocks to the array -/

/-- The windows' block indices at a grid point, decided over the eight points: the left factor's and the output's
    row block is the point's number, every column block and the right factor's block is block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One block of the product: if the left block is rows `1024 n …` of `A` and the right block is all of `B`, the
    body's payload at an index of the block is the product `A · B` at the array's index `1024 n` rows further down. -/
theorem blk0_apply (A : S8192x512.Idx → EReal) (B : S512x256.Idx → EReal)
    (x0 : Vec Ideal S1024x512 .f32) (x1 : Vec Ideal S512x256 .f32) (n : ℕ) (hn : n < 8)
    (h0 : ∀ (p : Fin 1024) (l : Fin 512), x0 (ix2 p l) = A (ix2 (⟨n * 1024 + p.val, by omega⟩ : Fin 8192) l))
    (h1 : ∀ (l : Fin 512) (q : Fin 256), x1 (ix2 l q) = B (ix2 l q))
    (j : S1024x256.Idx) (i : S8192x256.Idx) (hi0 : (i 0).val = n * 1024 + (j 0).val) (hi1 : (i 1).val = (j 1).val) :
    k0_pay1 (F := Ideal) x0 x1 j = Cert.Spec.arr (Cert.Spec.prod (Cert.Spec.mat A) (Cert.Spec.mat B)) i := by
  obtain ⟨p, q, rfl⟩ : ∃ (p : Fin 1024) (q : Fin 256), j = ix2 p q := ⟨j 0, j 1, eq_ix2 j⟩
  rw [pay0_apply]
  unfold Cert.Spec.arr Cert.Spec.prod Cert.Spec.mat
  have e0 : i 0 = (⟨n * 1024 + p.val, by omega⟩ : Fin 8192) := Fin.ext hi0
  have e1 : i 1 = q := Fin.ext hi1
  rw [e0, e1]
  exact Finset.sum_congr rfl fun l _ => by rw [h0, h1]

/-- The left window's block at point `t`: rows `1024 t …` of the left array as the region finds it. -/
theorem iblk0_0_apply (c : Dev nD) (t : Fin cfg0.N) (ht : t.val < 8) (p : Fin 1024) (l : Fin 512) :
    (iblk0 V c 0 t : Vec Ideal S1024x512 .f32) (ix2 p l)
      = (V c main_arg0 : S8192x512.Idx → EReal) (ix2 (⟨t.val * 1024 + p.val, by omega⟩ : Fin 8192) l) := by
  obtain ⟨e0, e1, -⟩ := idx_facts0 t
  unfold iblk0
  rw [View.read_apply]
  show V c main_arg0 _ = V c main_arg0 _
  congr 1
  funext a; apply Fin.ext
  match a with
  | ⟨0, _⟩ => show win0_0.index t (0 : Fin 2) * 1024 + 1 * p.val = t.val * 1024 + p.val; rw [e0]; omega
  | ⟨1, _⟩ => show win0_0.index t (1 : Fin 2) * 512 + 1 * l.val = l.val; rw [e1]; omega

/-- The right window's block at any point: the whole right array as the region finds it. -/
theorem iblk0_1_apply (c : Dev nD) (t : Fin cfg0.N) (l : Fin 512) (q : Fin 256) :
    (iblk0 V c 1 t : Vec Ideal S512x256 .f32) (ix2 l q) = (V c main_arg5 : S512x256.Idx → EReal) (ix2 l q) := by
  obtain ⟨-, -, e2, e3, -⟩ := idx_facts0 t
  unfold iblk0
  rw [View.read_apply]
  show V c main_arg5 _ = V c main_arg5 _
  congr 1
  funext a; apply Fin.ext
  match a with
  | ⟨0, _⟩ => show win0_1.index t (0 : Fin 2) * 512 + 1 * l.val = l.val; rw [e2]; omega
  | ⟨1, _⟩ => show win0_1.index t (1 : Fin 2) * 256 + 1 * q.val = q.val; rw [e3]; omega

/-- What point `t` writes back is block `t` of the product of the two arrays. -/
theorem flushed0_eq (c : Dev nD) (t : Fin cfg0.N) :
    (dat0 (F := Ideal) V c).flushed 2 t = ((cfg0.win 2).blk t).view.read (Elt Ideal)
      (Cert.Spec.arr (Cert.Spec.prod (Cert.Spec.mat (V c main_arg0)) (Cert.Spec.mat (V c main_arg5)))) := by
  have ht : t.val < 8 := Nat.lt_of_lt_of_eq t.isLt (show cfg0.N = 8 from N_0)
  obtain ⟨-, -, -, -, e4, e5⟩ := idx_facts0 t
  show (cfg0.win 2).cut (grid0.coords t) ((dat0 V c).after 2 t) = _
  rw [after0_2]
  unfold out0_2
  rw [View.canon_unit_zero hzA]
  simp only [View.ld_unit_zero (S := S1024x512) hzA, View.ld_unit_zero (S := S512x256) hzA]
  funext j
  rw [View.read_apply]
  refine blk0_apply (V c main_arg0) (V c main_arg5) (iblk0 V c 0 t) (iblk0 V c 1 t) t.val ht
    (iblk0_0_apply V c t ht) (iblk0_1_apply V c t) j (((cfg0.win 2).blk t).view.emb j) ?_ ?_
  · show win0_2.index t (0 : Fin 2) * 1024 + 1 * (j 0).val = t.val * 1024 + (j 0).val; rw [e4]; omega
  · show win0_2.index t (1 : Fin 2) * 256 + 1 * (j 1).val = (j 1).val; rw [e5]; omega

/-- An index of the output array is in point `t`'s block iff each coordinate is in the block's range on its axis. -/
theorem mem_blk0 (t : Fin cfg0.N) (i : S8192x256.Idx) :
    i ∈ ((cfg0.win 2).blk t).view.set ↔ ∀ a : Fin 2, win0_2.index t a * S1024x256.size a ≤ (i a).val ∧ (i a).val < win0_2.index t a * S1024x256.size a + S1024x256.size a := by
  show i ∈ ((View.whole main_v0).slice (win0_2.rect t)).set ↔ _
  rw [View.set_slice_whole, Rect.mem_set_unit]
  exact Iff.rfl

/-- Every index of the output array is in some point's block: row `r` is in the block of point `r / 1024`. -/
theorem cover0 (i : S8192x256.Idx) : ∃ t : Fin cfg0.N, (cfg0.win 2).flush t = true ∧ i ∈ ((cfg0.win 2).blk t).view.set := by
  have hi0 : (i 0).val < 8192 := (i 0).isLt
  have hi1 : (i 1).val < 256 := (i 1).isLt
  have hN : cfg0.N = 8 := N_0
  obtain ⟨t, htv⟩ : ∃ t : Fin cfg0.N, t.val = (i 0).val / 1024 := ⟨⟨(i 0).val / 1024, by rw [hN]; omega⟩, rfl⟩
  obtain ⟨-, -, -, -, e4, e5⟩ := idx_facts0 t
  refine ⟨t, flush0_2 t, ?_⟩
  rw [mem_blk0]
  intro a
  match a with
  | ⟨0, _⟩ =>
    show win0_2.index t (0 : Fin 2) * 1024 ≤ (i 0).val ∧ (i 0).val < win0_2.index t (0 : Fin 2) * 1024 + 1024
    rw [e4, htv]; omega
  | ⟨1, _⟩ =>
    show win0_2.index t (1 : Fin 2) * 256 ≤ (i 1).val ∧ (i 1).val < win0_2.index t (1 : Fin 2) * 256 + 256
    rw [e5]; omega

/-- The region's output array after the region: the product of the two arrays it reads. -/
theorem arr0 (c : Dev nD) : (dat0 (F := Ideal) V c).arrAt 2 cfg0.N
    = Cert.Spec.arr (Cert.Spec.prod (Cert.Spec.mat (V c main_arg0)) (Cert.Spec.mat (V c main_arg5))) :=
  (dat0 V c).arrAt_eq_of_cover 2 _ (fun t _ => flushed0_eq V c t) (cover0)

/-! ## Region 2: the body's product at an index -/

/-- The left operand's index of the contraction keeps the output's row … -/
theorem lhs2_0 (i : S1024x40.Idx) (q : dot_S1024x256_S256x40_S1024x40_1_0_0_1_n_n.contr.Idx) : (dot_S1024x256_S256x40_S1024x40_1_0_0_1_n_n.lhsIdx i q 0).val = (i 0).val := by
  unfold DotDims.lhsIdx
  rw [dif_neg (show ¬(0 : Fin S1024x256.rank) ∈ dot_S1024x256_S256x40_S1024x40_1_0_0_1_n_n.lhsBatch by decide), dif_pos (show (0 : Fin S1024x256.rank) ∈ dot_S1024x256_S256x40_S1024x40_1_0_0_1_n_n.lhsNonContracting by decide)]
  rfl
/-- … and runs over the contracted axis in its column; -/
theorem lhs2_1 (i : S1024x40.Idx) (q : dot_S1024x256_S256x40_S1024x40_1_0_0_1_n_n.contr.Idx) : (dot_S1024x256_S256x40_S1024x40_1_0_0_1_n_n.lhsIdx i q 1).val = (q ⟨0, by decide⟩).val :=
  dot_S1024x256_S256x40_S1024x40_1_0_0_1_n_n.lhsIdx_val_of_single rfl i q
/-- the right operand's runs over the contracted axis in its row … -/
theorem rhs2_0 (i : S1024x40.Idx) (q : dot_S1024x256_S256x40_S1024x40_1_0_0_1_n_n.contr.Idx) : (dot_S1024x256_S256x40_S1024x40_1_0_0_1_n_n.rhsIdx i q 0).val = (q ⟨0, by decide⟩).val :=
  dot_S1024x256_S256x40_S1024x40_1_0_0_1_n_n.rhsIdx_val_of_single rfl i q
/-- … and keeps the output's column. -/
theorem rhs2_1 (i : S1024x40.Idx) (q : dot_S1024x256_S256x40_S1024x40_1_0_0_1_n_n.contr.Idx) : (dot_S1024x256_S256x40_S1024x40_1_0_0_1_n_n.rhsIdx i q 1).val = (i 1).val := by
  unfold DotDims.rhsIdx
  rw [dif_neg (show ¬(1 : Fin S256x40.rank) ∈ dot_S1024x256_S256x40_S1024x40_1_0_0_1_n_n.rhsBatch by decide), dif_pos (show (1 : Fin S256x40.rank) ∈ dot_S1024x256_S256x40_S1024x40_1_0_0_1_n_n.rhsNonContracting by decide)]
  rfl

/-- The body's payload at row `p`, column `q` of the block: the sum over the contracted axis of the products of the
    left block's row `p` with the right block's column `q` (the change of format before the product is the identity
    over the extended reals, and the accumulator starts at zero). -/
theorem proj2_pay_apply (x0 : Vec Ideal S1024x256 .f32) (x1 : Vec Ideal S256x40 .f32) (p : Fin 1024) (q : Fin 40) :
    k2_pay1 (F := Ideal) x0 x1 (ix2 p q) = ∑ l : Fin 256, x0 (ix2 p l) * x1 (ix2 l q) := by
  unfold k2_pay1
  refine (Ideal.matmul_constant_zero_apply dot_S1024x256_S256x40_S1024x40_1_0_0_1_n_n none _ _ (ix2 p q)).trans ?_
  rw [← Equiv.sum_comp (contrEquiv1 dot_S1024x256_S256x40_S1024x40_1_0_0_1_n_n 256 rfl rfl).symm]
  refine Finset.sum_congr rfl fun l _ => ?_
  have hl := contrEquiv1_symm_val dot_S1024x256_S256x40_S1024x40_1_0_0_1_n_n 256 rfl rfl l
  have el : dot_S1024x256_S256x40_S1024x40_1_0_0_1_n_n.lhsIdx (ix2 p q) ((contrEquiv1 dot_S1024x256_S256x40_S1024x40_1_0_0_1_n_n 256 rfl rfl).symm l) = ix2 p l := funext fun a => Fin.ext (by
    match a with
    | ⟨0, _⟩ => exact lhs2_0 _ _
    | ⟨1, _⟩ => exact (lhs2_1 _ _).trans hl)
  have er : dot_S1024x256_S256x40_S1024x40_1_0_0_1_n_n.rhsIdx (ix2 p q) ((contrEquiv1 dot_S1024x256_S256x40_S1024x40_1_0_0_1_n_n 256 rfl rfl).symm l) = ix2 l q := funext fun a => Fin.ext (by
    match a with
    | ⟨0, _⟩ => exact (rhs2_0 _ _).trans hl
    | ⟨1, _⟩ => exact rhs2_1 _ _)
  rw [el, er]
  rw [shapeCast_self]
  rfl

/-! ## Region 2: from the blocks to the array -/

/-- The windows' block indices at a grid point, decided over the eight points: the left factor's and the output's
    row block is the point's number, every column block and the right factor's block is block 0. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- One block of the product: if the left block is rows `1024 n …` of `A` and the right block is all of `B`, the
    body's payload at an index of the block is the product `A · B` at the array's index `1024 n` rows further down. -/
theorem blk2_apply (A : S8192x256.Idx → EReal) (B : S256x40.Idx → EReal)
    (x0 : Vec Ideal S1024x256 .f32) (x1 : Vec Ideal S256x40 .f32) (n : ℕ) (hn : n < 8)
    (h0 : ∀ (p : Fin 1024) (l : Fin 256), x0 (ix2 p l) = A (ix2 (⟨n * 1024 + p.val, by omega⟩ : Fin 8192) l))
    (h1 : ∀ (l : Fin 256) (q : Fin 40), x1 (ix2 l q) = B (ix2 l q))
    (j : S1024x40.Idx) (i : S8192x40.Idx) (hi0 : (i 0).val = n * 1024 + (j 0).val) (hi1 : (i 1).val = (j 1).val) :
    k2_pay1 (F := Ideal) x0 x1 j = Cert.Spec.arr (Cert.Spec.prod (Cert.Spec.mat A) (Cert.Spec.mat B)) i := by
  obtain ⟨p, q, rfl⟩ : ∃ (p : Fin 1024) (q : Fin 40), j = ix2 p q := ⟨j 0, j 1, eq_ix2 j⟩
  rw [proj2_pay_apply]
  unfold Cert.Spec.arr Cert.Spec.prod Cert.Spec.mat
  have e0 : i 0 = (⟨n * 1024 + p.val, by omega⟩ : Fin 8192) := Fin.ext hi0
  have e1 : i 1 = q := Fin.ext hi1
  rw [e0, e1]
  exact Finset.sum_congr rfl fun l _ => by rw [h0, h1]

/-- The left window's block at point `t`: rows `1024 t …` of the left array as the region finds it. -/
theorem iblk2_0_apply (c : Dev nD) (t : Fin cfg2.N) (ht : t.val < 8) (p : Fin 1024) (l : Fin 256) :
    (iblk2 V c 0 t : Vec Ideal S1024x256 .f32) (ix2 p l)
      = (V c main_v2_0 : S8192x256.Idx → EReal) (ix2 (⟨t.val * 1024 + p.val, by omega⟩ : Fin 8192) l) := by
  obtain ⟨e0, e1, -⟩ := idx_facts2 t
  unfold iblk2
  rw [View.read_apply]
  show V c main_v2_0 _ = V c main_v2_0 _
  congr 1
  funext a; apply Fin.ext
  match a with
  | ⟨0, _⟩ => show win2_0.index t (0 : Fin 2) * 1024 + 1 * p.val = t.val * 1024 + p.val; rw [e0]; omega
  | ⟨1, _⟩ => show win2_0.index t (1 : Fin 2) * 256 + 1 * l.val = l.val; rw [e1]; omega

/-- The right window's block at any point: the whole right array as the region finds it. -/
theorem iblk2_1_apply (c : Dev nD) (t : Fin cfg2.N) (l : Fin 256) (q : Fin 40) :
    (iblk2 V c 1 t : Vec Ideal S256x40 .f32) (ix2 l q) = (V c main_arg7 : S256x40.Idx → EReal) (ix2 l q) := by
  obtain ⟨-, -, e2, e3, -⟩ := idx_facts2 t
  unfold iblk2
  rw [View.read_apply]
  show V c main_arg7 _ = V c main_arg7 _
  congr 1
  funext a; apply Fin.ext
  match a with
  | ⟨0, _⟩ => show win2_1.index t (0 : Fin 2) * 256 + 1 * l.val = l.val; rw [e2]; omega
  | ⟨1, _⟩ => show win2_1.index t (1 : Fin 2) * 40 + 1 * q.val = q.val; rw [e3]; omega

/-- What point `t` writes back is block `t` of the product of the two arrays. -/
theorem flushed2_eq (c : Dev nD) (t : Fin cfg2.N) :
    (dat2 (F := Ideal) V c).flushed 2 t = ((cfg2.win 2).blk t).view.read (Elt Ideal)
      (Cert.Spec.arr (Cert.Spec.prod (Cert.Spec.mat (V c main_v2_0)) (Cert.Spec.mat (V c main_arg7)))) := by
  have ht : t.val < 8 := Nat.lt_of_lt_of_eq t.isLt (show cfg2.N = 8 from N_2)
  obtain ⟨-, -, -, -, e4, e5⟩ := idx_facts2 t
  show (cfg2.win 2).cut (grid2.coords t) ((dat2 V c).after 2 t) = _
  rw [after2_2]
  unfold out2_2
  rw [View.canon_unit_zero hzA]
  simp only [View.ld_unit_zero (S := S1024x256) hzA, View.ld_unit_zero (S := S256x40) hzA]
  funext j
  rw [View.read_apply]
  refine blk2_apply (V c main_v2_0) (V c main_arg7) (iblk2 V c 0 t) (iblk2 V c 1 t) t.val ht
    (iblk2_0_apply V c t ht) (iblk2_1_apply V c t) j (((cfg2.win 2).blk t).view.emb j) ?_ ?_
  · show win2_2.index t (0 : Fin 2) * 1024 + 1 * (j 0).val = t.val * 1024 + (j 0).val; rw [e4]; omega
  · show win2_2.index t (1 : Fin 2) * 40 + 1 * (j 1).val = (j 1).val; rw [e5]; omega

/-- An index of the output array is in point `t`'s block iff each coordinate is in the block's range on its axis. -/
theorem mem_blk2 (t : Fin cfg2.N) (i : S8192x40.Idx) :
    i ∈ ((cfg2.win 2).blk t).view.set ↔ ∀ a : Fin 2, win2_2.index t a * S1024x40.size a ≤ (i a).val ∧ (i a).val < win2_2.index t a * S1024x40.size a + S1024x40.size a := by
  show i ∈ ((View.whole main_v3).slice (win2_2.rect t)).set ↔ _
  rw [View.set_slice_whole, Rect.mem_set_unit]
  exact Iff.rfl

/-- Every index of the output array is in some point's block: row `r` is in the block of point `r / 1024`. -/
theorem cover2 (i : S8192x40.Idx) : ∃ t : Fin cfg2.N, (cfg2.win 2).flush t = true ∧ i ∈ ((cfg2.win 2).blk t).view.set := by
  have hi0 : (i 0).val < 8192 := (i 0).isLt
  have hi1 : (i 1).val < 40 := (i 1).isLt
  have hN : cfg2.N = 8 := N_2
  obtain ⟨t, htv⟩ : ∃ t : Fin cfg2.N, t.val = (i 0).val / 1024 := ⟨⟨(i 0).val / 1024, by rw [hN]; omega⟩, rfl⟩
  obtain ⟨-, -, -, -, e4, e5⟩ := idx_facts2 t
  refine ⟨t, flush2_2 t, ?_⟩
  rw [mem_blk2]
  intro a
  match a with
  | ⟨0, _⟩ =>
    show win2_2.index t (0 : Fin 2) * 1024 ≤ (i 0).val ∧ (i 0).val < win2_2.index t (0 : Fin 2) * 1024 + 1024
    rw [e4, htv]; omega
  | ⟨1, _⟩ =>
    show win2_2.index t (1 : Fin 2) * 40 ≤ (i 1).val ∧ (i 1).val < win2_2.index t (1 : Fin 2) * 40 + 40
    rw [e5]; omega

/-- The region's output array after the region: the product of the two arrays it reads. -/
theorem arr2 (c : Dev nD) : (dat2 (F := Ideal) V c).arrAt 2 cfg2.N
    = Cert.Spec.arr (Cert.Spec.prod (Cert.Spec.mat (V c main_v2_0)) (Cert.Spec.mat (V c main_arg7))) :=
  (dat2 V c).arrAt_eq_of_cover 2 _ (fun t _ => flushed2_eq V c t) (cover2)

end Cert.KernelIdeal.Hand

end
-- ==== Proof.R1Pieces.lean ====
/-
  Region 1: each buffer's contents after a grid point, as the body's arithmetic (the skeleton's named payloads) of the
  point's input blocks and of what the point before left in the accumulators.
-/
import proofs.«156794_j4621384810949_2_alg».proof.Proof.Gen.KernelIdeal.Launch
import proofs.«156794_j4621384810949_2_alg».proof.Proof.Gen.KernelIdeal.Skeleton
import proofs.«156794_j4621384810949_2_alg».proof.Proof.Gen.KernelIdeal.Points
import proofs.«156794_j4621384810949_2_alg».proof.Proof.R1Data
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz00 : (![0, 0] : Fin 2 → Nat) = fun _ => 0 := funext fun a => by fin_cases a <;> rfl

/-- An accumulator entered at contents `X` reads back `X`. -/
theorem rdS0 (X : Vec F S1024x256 .f32) : View.read (Elt F) (View.whole (cc1_scratch0 : Ref sig .tc)) ((Memref.isWhole_whole (cc1_scratch0 : Ref sig .tc)).unread X) = X :=
  (Memref.isWhole_whole (cc1_scratch0 : Ref sig .tc)).read_unread X
theorem rdS1 (X : Vec F S1024x40 .f32) : View.read (Elt F) (View.whole (cc1_scratch1 : Ref sig .tc)) ((Memref.isWhole_whole (cc1_scratch1 : Ref sig .tc)).unread X) = X :=
  (Memref.isWhole_whole (cc1_scratch1 : Ref sig .tc)).read_unread X
theorem rdS2 (X : Vec F S1024x1 .f32) : View.read (Elt F) (View.whole (cc1_scratch2 : Ref sig .tc)) ((Memref.isWhole_whole (cc1_scratch2 : Ref sig .tc)).unread X) = X :=
  (Memref.isWhole_whole (cc1_scratch2 : Ref sig .tc)).read_unread X

/-! ## `k = 0`: from zero -/

theorem stepA_s0 (c : Dev nD) (t : Fin cfg1.N) (h0 : t.val % 8 = 0) :
    (stepA V c t h0).2.2.1 = k1_pay11 (iblk1 V c 0 t) (iblk1 V c 1 t) (k1_pay5 (F := F)) (iblk1 V c 2 t) := by
  unfold stepA; dsimp only
  rw [View.read_writes_eq_canon _ _ _ (scoverA_0 V c t h0)]
  unfold runA kernelRun1_A; dsimp only
  sl_unfold_words
  rw [View.canon_cons_unit_zero hz00]
  simp only [View.readCov_unit_zero (S := S1024x256) _ hz00, View.readCov_unit_zero (S := S1024x40) _ hz00, View.readCov_unit_zero (S := S1024x1) _ hz00,
    View.readAt_eq_ld, Memref.IsWhole.read_unread, rdS0, rdS1, rdS2,
    View.ld_unit_zero (S := S1024x1024) hz00, View.ld_unit_zero (S := S1024x256) hz00, View.ld_unit_zero (S := S1024x40) hz00,
    View.ld_unit_zero (S := S1x256) hz00, View.ld_unit_zero (S := S1024x1) hz00]

theorem stepA_s1 (c : Dev nD) (t : Fin cfg1.N) (h0 : t.val % 8 = 0) :
    (stepA V c t h0).2.2.2.1 = k1_pay1 (k1_pay12 (iblk1 V c 0 t) (iblk1 V c 1 t) (k1_pay6 (F := F)) (iblk1 V c 3 t)) := by
  unfold stepA; dsimp only
  rw [View.read_writes_eq_canon _ _ _ (scoverA_1 V c t h0)]
  unfold runA kernelRun1_A; dsimp only
  sl_unfold_words
  rw [View.canon_cons_unit_zero hz00]
  simp only [View.readCov_unit_zero (S := S1024x256) _ hz00, View.readCov_unit_zero (S := S1024x40) _ hz00, View.readCov_unit_zero (S := S1024x1) _ hz00,
    View.readAt_eq_ld, Memref.IsWhole.read_unread, rdS0, rdS1, rdS2,
    View.ld_unit_zero (S := S1024x1024) hz00, View.ld_unit_zero (S := S1024x256) hz00, View.ld_unit_zero (S := S1024x40) hz00,
    View.ld_unit_zero (S := S1x256) hz00, View.ld_unit_zero (S := S1024x1) hz00]

theorem stepA_s2 (c : Dev nD) (t : Fin cfg1.N) (h0 : t.val % 8 = 0) :
    (stepA V c t h0).2.2.2.2 = k1_pay9 (iblk1 V c 0 t) (iblk1 V c 1 t) (k1_pay7 (F := F)) := by
  unfold stepA; dsimp only
  rw [View.read_writes_eq_canon _ _ _ (scoverA_2 V c t h0)]
  unfold runA kernelRun1_A; dsimp only
  sl_unfold_words
  rw [View.canon_cons_unit_zero hz00]
  simp only [View.readCov_unit_zero (S := S1024x256) _ hz00, View.readCov_unit_zero (S := S1024x40) _ hz00, View.readCov_unit_zero (S := S1024x1) _ hz00,
    View.readAt_eq_ld, Memref.IsWhole.read_unread, rdS0, rdS1, rdS2,
    View.ld_unit_zero (S := S1024x1024) hz00, View.ld_unit_zero (S := S1024x256) hz00, View.ld_unit_zero (S := S1024x40) hz00,
    View.ld_unit_zero (S := S1x256) hz00, View.ld_unit_zero (S := S1024x1) hz00]

/-! ## `0 < k < 7`: from what the point before left -/

theorem stepB_s0 (c : Dev nD) (t : Fin cfg1.N) (h0 : ¬t.val % 8 = 0) (h1 : ¬t.val % 8 = 7) (prev : Outs1 (F := F)) :
    (stepB V c t h0 h1 prev).2.2.1 = k1_pay11 (iblk1 V c 0 t) (iblk1 V c 1 t) prev.2.2.1 (iblk1 V c 2 t) := by
  unfold stepB; dsimp only
  rw [View.read_writes_eq_canon _ _ _ (scoverB_0 V c t h0 h1 _ _ _)]
  unfold runB kernelRun1_B; dsimp only
  sl_unfold_words
  rw [View.canon_cons_unit_zero hz00]
  simp only [View.readCov_unit_zero (S := S1024x256) _ hz00, View.readCov_unit_zero (S := S1024x40) _ hz00, View.readCov_unit_zero (S := S1024x1) _ hz00,
    View.readAt_eq_ld, Memref.IsWhole.read_unread, rdS0, rdS1, rdS2,
    View.ld_unit_zero (S := S1024x1024) hz00, View.ld_unit_zero (S := S1024x256) hz00, View.ld_unit_zero (S := S1024x40) hz00,
    View.ld_unit_zero (S := S1x256) hz00, View.ld_unit_zero (S := S1024x1) hz00]

theorem stepB_s1 (c : Dev nD) (t : Fin cfg1.N) (h0 : ¬t.val % 8 = 0) (h1 : ¬t.val % 8 = 7) (prev : Outs1 (F := F)) :
    (stepB V c t h0 h1 prev).2.2.2.1 = k1_pay1 (k1_pay12 (iblk1 V c 0 t) (iblk1 V c 1 t) prev.2.2.2.1 (iblk1 V c 3 t)) := by
  unfold stepB; dsimp only
  rw [View.read_writes_eq_canon _ _ _ (scoverB_1 V c t h0 h1 _ _ _)]
  unfold runB kernelRun1_B; dsimp only
  sl_unfold_words
  rw [View.canon_cons_unit_zero hz00]
  simp only [View.readCov_unit_zero (S := S1024x256) _ hz00, View.readCov_unit_zero (S := S1024x40) _ hz00, View.readCov_unit_zero (S := S1024x1) _ hz00,
    View.readAt_eq_ld, Memref.IsWhole.read_unread, rdS0, rdS1, rdS2,
    View.ld_unit_zero (S := S1024x1024) hz00, View.ld_unit_zero (S := S1024x256) hz00, View.ld_unit_zero (S := S1024x40) hz00,
    View.ld_unit_zero (S := S1x256) hz00, View.ld_unit_zero (S := S1024x1) hz00]

theorem stepB_s2 (c : Dev nD) (t : Fin cfg1.N) (h0 : ¬t.val % 8 = 0) (h1 : ¬t.val % 8 = 7) (prev : Outs1 (F := F)) :
    (stepB V c t h0 h1 prev).2.2.2.2 = k1_pay9 (iblk1 V c 0 t) (iblk1 V c 1 t) prev.2.2.2.2 := by
  unfold stepB; dsimp only
  rw [View.read_writes_eq_canon _ _ _ (scoverB_2 V c t h0 h1 _ _ _)]
  unfold runB kernelRun1_B; dsimp only
  sl_unfold_words
  rw [View.canon_cons_unit_zero hz00]
  simp only [View.readCov_unit_zero (S := S1024x256) _ hz00, View.readCov_unit_zero (S := S1024x40) _ hz00, View.readCov_unit_zero (S := S1024x1) _ hz00,
    View.readAt_eq_ld, Memref.IsWhole.read_unread, rdS0, rdS1, rdS2,
    View.ld_unit_zero (S := S1024x1024) hz00, View.ld_unit_zero (S := S1024x256) hz00, View.ld_unit_zero (S := S1024x40) hz00,
    View.ld_unit_zero (S := S1x256) hz00, View.ld_unit_zero (S := S1024x1) hz00]

/-! ## `k = 7`: the accumulators as before, and the two output blocks from the finished accumulators -/

theorem stepC_s0 (c : Dev nD) (t : Fin cfg1.N) (h0 : ¬t.val % 8 = 0) (h1 : t.val % 8 = 7) (prev : Outs1 (F := F)) :
    (stepC V c t h0 h1 prev).2.2.1 = k1_pay11 (iblk1 V c 0 t) (iblk1 V c 1 t) prev.2.2.1 (iblk1 V c 2 t) := by
  unfold stepC; dsimp only
  rw [View.read_writes_eq_canon _ _ _ (scoverC_0 V c t h0 h1 _ _ _)]
  unfold runC kernelRun1_C; dsimp only
  sl_unfold_words
  rw [View.canon_cons_unit_zero hz00]
  simp only [View.readCov_unit_zero (S := S1024x256) _ hz00, View.readCov_unit_zero (S := S1024x40) _ hz00, View.readCov_unit_zero (S := S1024x1) _ hz00,
    View.readAt_eq_ld, Memref.IsWhole.read_unread, rdS0, rdS1, rdS2,
    View.ld_unit_zero (S := S1024x1024) hz00, View.ld_unit_zero (S := S1024x256) hz00, View.ld_unit_zero (S := S1024x40) hz00,
    View.ld_unit_zero (S := S1x256) hz00, View.ld_unit_zero (S := S1024x1) hz00]

theorem stepC_s1 (c : Dev nD) (t : Fin cfg1.N) (h0 : ¬t.val % 8 = 0) (h1 : t.val % 8 = 7) (prev : Outs1 (F := F)) :
    (stepC V c t h0 h1 prev).2.2.2.1 = k1_pay1 (k1_pay12 (iblk1 V c 0 t) (iblk1 V c 1 t) prev.2.2.2.1 (iblk1 V c 3 t)) := by
  unfold stepC; dsimp only
  rw [View.read_writes_eq_canon _ _ _ (scoverC_1 V c t h0 h1 _ _ _)]
  unfold runC kernelRun1_C; dsimp only
  sl_unfold_words
  rw [View.canon_cons_unit_zero hz00]
  simp only [View.readCov_unit_zero (S := S1024x256) _ hz00, View.readCov_unit_zero (S := S1024x40) _ hz00, View.readCov_unit_zero (S := S1024x1) _ hz00,
    View.readAt_eq_ld, Memref.IsWhole.read_unread, rdS0, rdS1, rdS2,
    View.ld_unit_zero (S := S1024x1024) hz00, View.ld_unit_zero (S := S1024x256) hz00, View.ld_unit_zero (S := S1024x40) hz00,
    View.ld_unit_zero (S := S1x256) hz00, View.ld_unit_zero (S := S1024x1) hz00]

theorem stepC_s2 (c : Dev nD) (t : Fin cfg1.N) (h0 : ¬t.val % 8 = 0) (h1 : t.val % 8 = 7) (prev : Outs1 (F := F)) :
    (stepC V c t h0 h1 prev).2.2.2.2 = k1_pay9 (iblk1 V c 0 t) (iblk1 V c 1 t) prev.2.2.2.2 := by
  unfold stepC; dsimp only
  rw [View.read_writes_eq_canon _ _ _ (scoverC_2 V c t h0 h1 _ _ _)]
  unfold runC kernelRun1_C; dsimp only
  sl_unfold_words
  rw [View.canon_cons_unit_zero hz00]
  simp only [View.readCov_unit_zero (S := S1024x256) _ hz00, View.readCov_unit_zero (S := S1024x40) _ hz00, View.readCov_unit_zero (S := S1024x1) _ hz00,
    View.readAt_eq_ld, Memref.IsWhole.read_unread, rdS0, rdS1, rdS2,
    View.ld_unit_zero (S := S1024x1024) hz00, View.ld_unit_zero (S := S1024x256) hz00, View.ld_unit_zero (S := S1024x40) hz00,
    View.ld_unit_zero (S := S1x256) hz00, View.ld_unit_zero (S := S1024x1) hz00]

theorem stepC_o5 (c : Dev nD) (t : Fin cfg1.N) (h0 : ¬t.val % 8 = 0) (h1 : t.val % 8 = 7) (prev : Outs1 (F := F)) :
    (stepC V c t h0 h1 prev).1 = k1_pay3 (k1_pay9 (iblk1 V c 0 t) (iblk1 V c 1 t) prev.2.2.2.2) (k1_pay11 (iblk1 V c 0 t) (iblk1 V c 1 t) prev.2.2.1 (iblk1 V c 2 t)) (iblk1 V c 4 t) := by
  unfold stepC; dsimp only
  rw [View.read_writes_eq_canon _ _ _ (coverC_5 V c t h0 h1 _ _ _)]
  unfold runC kernelRun1_C; dsimp only
  sl_unfold_words
  rw [View.canon_cons_unit_zero hz00]
  simp only [View.readCov_unit_zero (S := S1024x256) _ hz00, View.readCov_unit_zero (S := S1024x40) _ hz00, View.readCov_unit_zero (S := S1024x1) _ hz00,
    View.readAt_eq_ld, Memref.IsWhole.read_unread, rdS0, rdS1, rdS2,
    View.ld_unit_zero (S := S1024x1024) hz00, View.ld_unit_zero (S := S1024x256) hz00, View.ld_unit_zero (S := S1024x40) hz00,
    View.ld_unit_zero (S := S1x256) hz00, View.ld_unit_zero (S := S1024x1) hz00]

theorem stepC_o6 (c : Dev nD) (t : Fin cfg1.N) (h0 : ¬t.val % 8 = 0) (h1 : t.val % 8 = 7) (prev : Outs1 (F := F)) :
    (stepC V c t h0 h1 prev).2.1 = k1_pay4 (k1_pay9 (iblk1 V c 0 t) (iblk1 V c 1 t) prev.2.2.2.2) (k1_pay1 (k1_pay12 (iblk1 V c 0 t) (iblk1 V c 1 t) prev.2.2.2.1 (iblk1 V c 3 t))) := by
  unfold stepC; dsimp only
  rw [View.read_writes_eq_canon _ _ _ (coverC_6 V c t h0 h1 _ _ _)]
  unfold runC kernelRun1_C; dsimp only
  sl_unfold_words
  rw [View.canon_cons_unit_zero hz00]
  simp only [View.readCov_unit_zero (S := S1024x256) _ hz00, View.readCov_unit_zero (S := S1024x40) _ hz00, View.readCov_unit_zero (S := S1024x1) _ hz00,
    View.readAt_eq_ld, Memref.IsWhole.read_unread, rdS0, rdS1, rdS2,
    View.ld_unit_zero (S := S1024x1024) hz00, View.ld_unit_zero (S := S1024x256) hz00, View.ld_unit_zero (S := S1024x40) hz00,
    View.ld_unit_zero (S := S1x256) hz00, View.ld_unit_zero (S := S1024x1) hz00]

end Cert.KernelIdeal.Hand

end
-- ==== Proof.PayR1.lean ====
/-
  The first layer kernel's stored values read at an index, at the ideal values: the three accumulators after one
  column block (what each held plus the block's contribution: the product with the features, the product with the
  labels, the absolute row sum), their zero fills, and the last block's results (the product scaled by the inverse of
  the clipped row norm, plus the bias, rectified; the scaled label product).
-/
import proofs.«156794_j4621384810949_2_alg».proof.Proof.Gen.KernelIdeal.Skeleton
import proofs.«156794_j4621384810949_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx

variable {α : Type}

/-! ## Layout operations on a one-column array -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two block products and the lane sum at an index -/

abbrev D256 := dot_S1024x1024_S1024x256_S1024x256_1_0_0_1_n_n
abbrev D40 := dot_S1024x1024_S1024x40_S1024x40_1_0_0_1_n_n

theorem lhs256_0 (i : S1024x256.Idx) (k : D256.contr.Idx) : (D256.lhsIdx i k 0).val = (i 0).val := by
  unfold DotDims.lhsIdx
  rw [dif_neg (show ¬(0 : Fin S1024x1024.rank) ∈ D256.lhsBatch by decide),
    dif_pos (show (0 : Fin S1024x1024.rank) ∈ D256.lhsNonContracting by decide)]
  rfl

theorem rhs256_1 (i : S1024x256.Idx) (k : D256.contr.Idx) : (D256.rhsIdx i k 1).val = (i 1).val := by
  unfold DotDims.rhsIdx
  rw [dif_neg (show ¬(1 : Fin S1024x256.rank) ∈ D256.rhsBatch by decide),
    dif_pos (show (1 : Fin S1024x256.rank) ∈ D256.rhsNonContracting by decide)]
  rfl

/-- The `[1024, 1024] × [1024, 256]` block product into the zero splat, at `(p, q)`: the sum over the 1024 columns. -/
theorem matmul256_apply (x : FVec Ideal S1024x1024 .bf16) (w : FVec Ideal S1024x256 .bf16) (p : Fin 1024) (q : Fin 256) :
    matmul D256 none x w (constant (F := Ideal) S1024x256 .f32 0x00000000#32) (ix2 p q)
      = ∑ j : Fin 1024, x (ix2 p j) * w (ix2 j q) := by
  refine (Ideal.matmul_constant_zero_apply D256 none x w (ix2 p q)).trans ?_
  rw [← Equiv.sum_comp (contrEquiv1 D256 1024 rfl rfl).symm]
  refine Finset.sum_congr rfl fun k _ => ?_
  have hk := contrEquiv1_symm_val D256 1024 rfl rfl k
  have el : D256.lhsIdx (ix2 p q) ((contrEquiv1 D256 1024 rfl rfl).symm k) = ix2 p k := funext fun a => Fin.ext (by
    match a with
    | ⟨0, _⟩ => exact lhs256_0 _ _
    | ⟨1, _⟩ => exact (D256.lhsIdx_val_of_single rfl _ _).trans hk)
  have er : D256.rhsIdx (ix2 p q) ((contrEquiv1 D256 1024 rfl rfl).symm k) = ix2 k q := funext fun a => Fin.ext (by
    match a with
    | ⟨0, _⟩ => exact (D256.rhsIdx_val_of_single rfl _ _).trans hk
    | ⟨1, _⟩ => exact rhs256_1 _ _)
  rw [el, er]

theorem lhs40_0 (i : S1024x40.Idx) (k : D40.contr.Idx) : (D40.lhsIdx i k 0).val = (i 0).val := by
  unfold DotDims.lhsIdx
  rw [dif_neg (show ¬(0 : Fin S1024x1024.rank) ∈ D40.lhsBatch by decide),
    dif_pos (show (0 : Fin S1024x1024.rank) ∈ D40.lhsNonContracting by decide)]
  rfl

theorem rhs40_1 (i : S1024x40.Idx) (k : D40.contr.Idx) : (D40.rhsIdx i k 1).val = (i 1).val := by
  unfold DotDims.rhsIdx
  rw [dif_neg (show ¬(1 : Fin S1024x40.rank) ∈ D40.rhsBatch by decide),
    dif_pos (show (1 : Fin S1024x40.rank) ∈ D40.rhsNonContracting by decide)]
  rfl

/-- The `[1024, 1024] × [1024, 40]` block product into the zero splat, at `(p, q)`: the sum over the 1024 columns. -/
theorem matmul40_apply (x : FVec Ideal S1024x1024 .bf16) (w : FVec Ideal S1024x40 .bf16) (p : Fin 1024) (q : Fin 40) :
    matmul D40 none x w (constant (F := Ideal) S1024x40 .f32 0x00000000#32) (ix2 p q)
      = ∑ j : Fin 1024, x (ix2 p j) * w (ix2 j q) := by
  refine (Ideal.matmul_constant_zero_apply D40 none x w (ix2 p q)).trans ?_
  rw [← Equiv.sum_comp (contrEquiv1 D40 1024 rfl rfl).symm]
  refine Finset.sum_congr rfl fun k _ => ?_
  have hk := contrEquiv1_symm_val D40 1024 rfl rfl k
  have el : D40.lhsIdx (ix2 p q) ((contrEquiv1 D40 1024 rfl rfl).symm k) = ix2 p k := funext fun a => Fin.ext (by
    match a with
    | ⟨0, _⟩ => exact lhs40_0 _ _
    | ⟨1, _⟩ => exact (D40.lhsIdx_val_of_single rfl _ _).trans hk)
  have er : D40.rhsIdx (ix2 p q) ((contrEquiv1 D40 1024 rfl rfl).symm k) = ix2 k q := funext fun a => Fin.ext (by
    match a with
    | ⟨0, _⟩ => exact (D40.rhsIdx_val_of_single rfl _ _).trans hk
    | ⟨1, _⟩ => exact rhs40_1 _ _)
  rw [el, er]

/-- The source index over row `p` with column `k` inserted is `(p, k)`. -/
theorem lift_row (h : S1024x1024.Reduces [1] S1024) (p : Fin 1024) (k : Fin 1024) : h.lift (ix1 p) k = ix2 p k :=
  funext fun c => Fin.ext (by
    match c with
    | ⟨0, _⟩ => rfl
    | ⟨1, _⟩ => rfl)

/-- The sum along the lanes of a `[1024, 1024]` vector, at row `p`. -/
theorem laneSum_apply (src : FVec Ideal S1024x1024 .f32) (h : S1024x1024.Reduces [1] S1024) (hφ : FKind.Formats .f32)
    (hacc : (0x00000000#32 : BitVec 32) = FKind.add.neutral .f32 hφ) (p : Fin 1024) :
    multiReduction .add [1] S1024 src 0x00000000#32 h hφ hacc (ix1 p) = ∑ j : Fin 1024, src (ix2 p j) := by
  refine (Ideal.multiReduction_add_single src 0x00000000#32 h hφ hacc (ix1 p)).trans ?_
  show ∑ k : Fin 1024, src (h.lift (ix1 p) k) = _
  exact Finset.sum_congr rfl fun k _ => by rw [lift_row]

/-! ## The accumulators after one block, at an index -/

/-- The feature accumulator after one block: what it held plus the block's product at `(p, q)`. -/
theorem pay11_apply (v3 v4 : Vec Ideal S1024x1024 .f32) (v15 v16 : Vec Ideal S1024x256 .f32) (p : Fin 1024) (q : Fin 256) :
    k1_pay11 (F := Ideal) v3 v4 v15 v16 (ix2 p q)
      = v15 (ix2 p q) + ∑ j : Fin 1024, (v3 (ix2 p j) * v4 (ix2 p j)) * v16 (ix2 j q) := by
  unfold k1_pay11 k1_pay10 k1_pay8
  dsimp only
  rw [shapeCast_self, shapeCast_self, addf_apply, matmul256_apply]
  rfl

/-- The label accumulator after one block. -/
theorem pay12_apply (v3 v4 : Vec Ideal S1024x1024 .f32) (v24 v25 : Vec Ideal S1024x40 .f32) (p : Fin 1024) (q : Fin 40) :
    k1_pay1 (k1_pay12 (F := Ideal) v3 v4 v24 v25) (ix2 p q)
      = v24 (ix2 p q) + ∑ j : Fin 1024, (v3 (ix2 p j) * v4 (ix2 p j)) * v25 (ix2 j q) := by
  unfold k1_pay1 k1_pay12 k1_pay10 k1_pay8
  dsimp only
  rw [shapeCast_self, addf_apply, matmul40_apply]
  rfl

/-- The row-norm accumulator after one block: what it held plus the block's absolute row sum at `p`. -/
theorem pay9_apply (v3 v4 : Vec Ideal S1024x1024 .f32) (v6 : Vec Ideal S1024x1 .f32) (p : Fin 1024) :
    k1_pay9 (F := Ideal) v3 v4 v6 (ix2 p (0 : Fin 1))
      = v6 (ix2 p 0) + ∑ j : Fin 1024, max (v3 (ix2 p j) * v4 (ix2 p j)) (-(v3 (ix2 p j) * v4 (ix2 p j))) := by
  unfold k1_pay9 k1_pay8
  dsimp only
  rw [shapeCast_self, addf_apply, shapeCast_a_a1_apply]
  refine congrArg (v6 (ix2 p 0) + ·) ((laneSum_apply _ _ _ _ p).trans ?_)
  rfl

/-! ## The zero fills -/

theorem pay5_apply (p : Fin 1024) (q : Fin 256) : k1_pay5 (F := Ideal) (ix2 p q) = 0 := by
  unfold k1_pay5
  rw [shapeCast_self]
  exact Ideal.ofBits_zero_f32

theorem pay6_apply (p : Fin 1024) (q : Fin 40) : k1_pay6 (F := Ideal) (ix2 p q) = 0 := by
  unfold k1_pay6
  rw [shapeCast_self]
  exact Ideal.ofBits_zero_f32

theorem pay7_apply (p : Fin 1024) : k1_pay7 (F := Ideal) (ix2 p (0 : Fin 1)) = 0 := by
  unfold k1_pay7
  rw [shapeCast_self]
  exact Ideal.ofBits_zero_f32

/-! ## The last block's results -/

/-- The word `0x3F800000` is one. -/
theorem one_word : Ideal.ofBits .f32 0x3F800000#32 = 1 := by
  rw [← EReal.coe_one]
  simp [Ideal.ofBits, Ideal.ieee, -EReal.coe_mul]
  norm_num

/-- The inverse of the clipped row norm at row `p`. -/
theorem pay2_apply (v35 : Vec Ideal S1024x1 .f32) (p : Fin 1024) :
    k1_pay2 (F := Ideal) v35 (ix2 p (0 : Fin 1)) = Ideal.div 1 (max (v35 (ix2 p 0)) Cert.Spec.eps) := by
  unfold k1_pay2
  show Ideal.div (Ideal.ofBits .f32 0x3F800000#32) (max (v35 (ix2 p 0)) (Ideal.ofBits .f32 0x2B8CBCCC#32)) = _
  rw [one_word]
  rfl

/-- The feature result: the accumulated product scaled by the inverse norm, plus the bias, rectified. -/
theorem pay3_apply (v35 : Vec Ideal S1024x1 .f32) (v40 : Vec Ideal S1024x256 .f32) (v43 : Vec Ideal S1x256 .f32)
    (p : Fin 1024) (q : Fin 256) :
    k1_pay3 (F := Ideal) v35 v40 v43 (ix2 p q)
      = max (v40 (ix2 p q) * Ideal.div 1 (max (v35 (ix2 p 0)) Cert.Spec.eps) + v43 (ix2 (0 : Fin 1) q)) 0 := by
  unfold k1_pay3
  rw [maximumf_apply, addf_apply, mulf_apply, broadcastTo_a1_ab_apply, broadcastTo_1b_ab_apply, shapeCast_self,
    shapeCast_self, pay2_apply]
  show max _ (Ideal.ofBits .f32 0x00000000#32) = _
  rw [Ideal.ofBits_zero_f32]

/-- The label result: the accumulated product scaled by the inverse norm. -/
theorem pay4_apply (v35 : Vec Ideal S1024x1 .f32) (v50 : Vec Ideal S1024x40 .f32) (p : Fin 1024) (q : Fin 40) :
    k1_pay4 (F := Ideal) v35 v50 (ix2 p q) = v50 (ix2 p q) * Ideal.div 1 (max (v35 (ix2 p 0)) Cert.Spec.eps) := by
  unfold k1_pay4
  rw [mulf_apply, broadcastTo_a1_ab_apply, pay2_apply]

end Cert.KernelIdeal.Hand

end
-- ==== Proof.LibBlockSum.lean ====
/-
  Sums over `L · B` indices taken as `B` runs of `L` consecutive terms. The runs' sums add up to the whole sum, and an
  accumulator that starts from zero and adds one run at each step holds, after the last run, the whole sum. Both are
  stated for a sequence on the naturals (sums over `Finset.range`) and for a function on `Fin N`, `N = L · B` (sums
  over `Fin`), and once more at `8192 = 8 · 1024` over the extended reals. Only the laws of a commutative additive
  monoid are used, so no finiteness hypothesis is needed.
-/
import Mathlib.Algebra.BigOperators.Fin
import Mathlib.Algebra.BigOperators.Intervals
import Mathlib.Data.EReal.Basic

noncomputable section

open scoped BigOperators

open Finset

namespace Cert.BlockSum

section General

variable {M : Type*} [AddCommMonoid M]

/-- The `k`-th block of length `L` of a sequence on the naturals. -/
def blkN (L : ℕ) (g : ℕ → M) (k : ℕ) : M := ∑ j ∈ range L, g (L * k + j)

/-- The accumulator after the blocks `0, …, n`, started from zero. -/
def accN (L : ℕ) (g : ℕ → M) : ℕ → M
  | 0 => 0 + blkN L g 0
  | n + 1 => accN L g n + blkN L g (n + 1)

theorem accN_eq (L : ℕ) (g : ℕ → M) (n : ℕ) : accN L g n = ∑ t ∈ range (L * (n + 1)), g t := by
  induction n with
  | zero => simp [accN, blkN]
  | succ n ih => rw [accN, ih, blkN, Nat.mul_succ L (n + 1), Finset.sum_range_add]

/-- A function on `Fin N` extended by zero to the naturals. -/
def ext {N : ℕ} (f : Fin N → M) : ℕ → M := fun t => if h : t < N then f ⟨t, h⟩ else 0

theorem ext_val {N : ℕ} (f : Fin N → M) (t : ℕ) (h : t < N) : ext f t = f ⟨t, h⟩ := by
  simp [ext, h]

theorem sum_ext {N : ℕ} (f : Fin N → M) : ∑ j : Fin N, f j = ∑ t ∈ range N, ext f t := by
  rw [← Fin.sum_univ_eq_sum_range]
  exact Finset.sum_congr rfl fun j _ => (ext_val f j.val j.isLt).symm

theorem lt_of_blk {L B N : ℕ} (h : L * B = N) {k : ℕ} (hk : k < B) (j : Fin L) : L * k + j.val < N :=
  calc L * k + j.val < L * k + L := Nat.add_lt_add_left j.isLt _
    _ = L * (k + 1) := (Nat.mul_succ L k).symm
    _ ≤ L * B := Nat.mul_le_mul_left L hk
    _ = N := h

/-- The `k`-th block of length `L` of a function on `Fin N`, `N = L · B`. -/
def blkG {L B N : ℕ} (h : L * B = N) (f : Fin N → M) (k : ℕ) (hk : k < B) : M :=
  ∑ j : Fin L, f ⟨L * k + j.val, lt_of_blk h hk j⟩

/-- The accumulator over the blocks `0, …, n` of a function on `Fin N`, started from zero. -/
def accG {L B N : ℕ} (h : L * B = N) (f : Fin N → M) : (n : ℕ) → n < B → M
  | 0, hn => 0 + blkG h f 0 hn
  | n + 1, hn => accG h f n (Nat.lt_of_succ_lt hn) + blkG h f (n + 1) hn

theorem blkG_eq {L B N : ℕ} (h : L * B = N) (f : Fin N → M) (k : ℕ) (hk : k < B) :
    blkG h f k hk = blkN L (ext f) k := by
  unfold blkG blkN
  rw [← Fin.sum_univ_eq_sum_range (fun j => ext f (L * k + j)) L]
  exact Finset.sum_congr rfl fun j _ => (ext_val f _ (lt_of_blk h hk j)).symm

theorem accG_eq {L B N : ℕ} (h : L * B = N) (f : Fin N → M) :
    ∀ (n : ℕ) (hn : n < B), accG h f n hn = accN L (ext f) n
  | 0, hn => by rw [accG, accN, blkG_eq]
  | n + 1, hn => by rw [accG, accN, blkG_eq, accG_eq h f n]

/-- After the last block the accumulator holds the whole sum. -/
theorem accG_last {L B N : ℕ} (h : L * B = N) (f : Fin N → M) (n : ℕ) (hn : n < B) (hlast : n + 1 = B) :
    accG h f n hn = ∑ j : Fin N, f j := by
  rw [accG_eq, accN_eq, sum_ext, hlast, h]

/-- The blocks' sums add up to the whole sum (range form). -/
theorem sum_range_blkN (L : ℕ) (g : ℕ → M) (B : ℕ) :
    ∑ s ∈ range B, blkN L g s = ∑ t ∈ range (L * B), g t := by
  induction B with
  | zero => simp
  | succ B ih => rw [Finset.sum_range_succ, ih, blkN, Nat.mul_succ, Finset.sum_range_add]

/-- The blocks' sums add up to the whole sum. -/
theorem sum_blkG {L B N : ℕ} (h : L * B = N) (f : Fin N → M) :
    ∑ s : Fin B, blkG h f s.val s.isLt = ∑ j : Fin N, f j := by
  have hN : ∑ t ∈ range N, ext f t = ∑ t ∈ range (L * B), ext f t := by rw [h]
  rw [sum_ext f, hN, ← sum_range_blkN, ← Fin.sum_univ_eq_sum_range]
  exact Finset.sum_congr rfl fun s _ => blkG_eq h f s.val s.isLt

/-- The same for any sequence `G` on the naturals that agrees with the blocks' sums below `B` (its values from `B` on
    are not used). -/
theorem sum_range_of_blkG {L B N : ℕ} (h : L * B = N) (f : Fin N → M) (G : ℕ → M)
    (hG : ∀ (s : ℕ) (hs : s < B), G s = blkG h f s hs) : ∑ s ∈ range B, G s = ∑ j : Fin N, f j := by
  rw [← sum_blkG h f, ← Fin.sum_univ_eq_sum_range]
  exact Finset.sum_congr rfl fun s _ => hG s.val s.isLt

end General

/-! ### 8192 = 8 blocks of 1024, extended reals -/

/-- The `k`-th block of 1024 consecutive terms. -/
def blk (f : Fin 8192 → EReal) (k : ℕ) (hk : k < 8) : EReal :=
  ∑ j : Fin 1024, f ⟨1024 * k + j.val, by omega⟩

/-- The accumulator over the blocks `0, …, n`, started from zero. -/
def acc (f : Fin 8192 → EReal) : (n : ℕ) → n < 8 → EReal
  | 0, hn => 0 + blk f 0 hn
  | n + 1, hn => acc f n (Nat.lt_of_succ_lt hn) + blk f (n + 1) hn

theorem blk_eq_blkG (f : Fin 8192 → EReal) (k : ℕ) (hk : k < 8) :
    blk f k hk = blkG (L := 1024) (B := 8) (by norm_num) f k hk := rfl

theorem acc_eq_accG (f : Fin 8192 → EReal) :
    ∀ (n : ℕ) (hn : n < 8), acc f n hn = accG (L := 1024) (B := 8) (by norm_num) f n hn
  | 0, hn => by rw [acc, accG, blk_eq_blkG]
  | n + 1, hn => by rw [acc, accG, blk_eq_blkG, acc_eq_accG f n]

/-- After the eighth block the accumulator holds the sum over all 8192 terms. -/
theorem acc_last (f : Fin 8192 → EReal) : acc f 7 (by decide) = ∑ j : Fin 8192, f j := by
  rw [acc_eq_accG]
  exact accG_last _ f 7 _ rfl

/-- The eight blocks' sums add up to the whole sum. -/
theorem sum_blk (f : Fin 8192 → EReal) : ∑ s : Fin 8, blk f s.val s.isLt = ∑ j : Fin 8192, f j :=
  sum_blkG (L := 1024) (B := 8) (by norm_num) f

/-- Zero plus eight consecutive addends, the `s`-th being the `s`-th block's sum, is the whole sum (the values of `G`
    from 8 on are not used). -/
theorem zero_add_sum_range (f : Fin 8192 → EReal) (G : ℕ → EReal)
    (hG : ∀ (s : ℕ) (hs : s < 8), G s = blk f s hs) :
    0 + ∑ s ∈ range (7 + 1), G s = ∑ j : Fin 8192, f j := by
  rw [zero_add]
  exact sum_range_of_blkG (L := 1024) (B := 8) (by norm_num) f G hG

end Cert.BlockSum

end
-- ==== Proof.Val1Blk.lean ====
/-
  Region 1 (the first layer kernel): where each window's block sits in its array. Grid point `t = 8 I + k` reads
  block `(I, k)` of the adjacency and of the mask, row block `k` of the projected features and of the labels, and
  the whole bias row; it writes row block `I` of the two outputs.
-/
import proofs.«156794_j4621384810949_2_alg».proof.Proof.R1Data
import proofs.«156794_j4621384810949_2_alg».proof.Proof.Spec
import Idealize.ShloMosaic.Lib.Pipeline.Value
import Idealize.ShloMosaic.Lib.ValueIdx
import Idealize.ShloMosaic.PureOps.Ideal.Laws
set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The windows' block indices at a grid point, decided over the 64 points. -/
theorem idx_facts1 : ∀ t : Fin cfg1.N,
    win1_0.index t (0 : Fin 2) = t.val / 8 ∧ win1_0.index t (1 : Fin 2) = t.val % 8
    ∧ win1_1.index t (0 : Fin 2) = t.val / 8 ∧ win1_1.index t (1 : Fin 2) = t.val % 8
    ∧ win1_2.index t (0 : Fin 2) = t.val % 8 ∧ win1_2.index t (1 : Fin 2) = 0
    ∧ win1_3.index t (0 : Fin 2) = t.val % 8 ∧ win1_3.index t (1 : Fin 2) = 0
    ∧ win1_4.index t (0 : Fin 2) = 0 ∧ win1_4.index t (1 : Fin 2) = 0
    ∧ win1_5.index t (0 : Fin 2) = t.val / 8 ∧ win1_5.index t (1 : Fin 2) = 0
    ∧ win1_6.index t (0 : Fin 2) = t.val / 8 ∧ win1_6.index t (1 : Fin 2) = 0 :=
  (by decide +kernel : ∀ t : Fin grid1.N, _)

theorem lt64 (t : Fin cfg1.N) : t.val < 64 := Nat.lt_of_lt_of_eq t.isLt (show cfg1.N = 64 from N_1)

/-- The row block of a grid point. -/
def rowBlk (t : Fin cfg1.N) : Fin 8 := ⟨t.val / 8, by have := lt64 t; omega⟩

/-- Row `p` of row block `I`. -/
def rowOf (I : Fin 8) (p : Fin 1024) : Fin 8192 := ⟨1024 * I.val + p.val, by omega⟩

/-- Entry `j` of block `k` of a run of 8192. -/
def colOf (k : ℕ) (hk : k < 8) (j : Fin 1024) : Fin 8192 := ⟨1024 * k + j.val, by omega⟩

theorem kmod (t : Fin cfg1.N) : t.val % 8 < 8 := Nat.mod_lt _ (by decide)

/-- The adjacency's block at point `t`. -/
theorem iblk1_0_apply (c : Dev nD) (t : Fin cfg1.N) (p j : Fin 1024) :
    (iblk1 V c 0 t : Vec Ideal S1024x1024 .f32) (ix2 p j)
      = (V c main_arg1 : S8192x8192.Idx → EReal) (ix2 (rowOf (rowBlk t) p) (colOf (t.val % 8) (kmod t) j)) := by
  obtain ⟨e0, e1, -⟩ := idx_facts1 t
  unfold iblk1
  rw [View.read_apply]
  show V c main_arg1 _ = V c main_arg1 _
  congr 1
  funext a; apply Fin.ext
  match a with
  | ⟨0, _⟩ => show win1_0.index t (0 : Fin 2) * 1024 + 1 * p.val = 1024 * (t.val / 8) + p.val; rw [e0]; omega
  | ⟨1, _⟩ => show win1_0.index t (1 : Fin 2) * 1024 + 1 * j.val = 1024 * (t.val % 8) + j.val; rw [e1]; omega

/-- The mask's block at point `t`. -/
theorem iblk1_1_apply (c : Dev nD) (t : Fin cfg1.N) (p j : Fin 1024) :
    (iblk1 V c 1 t : Vec Ideal S1024x1024 .f32) (ix2 p j)
      = (V c main_arg3 : S8192x8192.Idx → EReal) (ix2 (rowOf (rowBlk t) p) (colOf (t.val % 8) (kmod t) j)) := by
  obtain ⟨-, -, e0, e1, -⟩ := idx_facts1 t
  unfold iblk1
  rw [View.read_apply]
  show V c main_arg3 _ = V c main_arg3 _
  congr 1
  funext a; apply Fin.ext
  match a with
  | ⟨0, _⟩ => show win1_1.index t (0 : Fin 2) * 1024 + 1 * p.val = 1024 * (t.val / 8) + p.val; rw [e0]; omega
  | ⟨1, _⟩ => show win1_1.index t (1 : Fin 2) * 1024 + 1 * j.val = 1024 * (t.val % 8) + j.val; rw [e1]; omega

/-- The projected features' block at point `t`. -/
theorem iblk1_2_apply (c : Dev nD) (t : Fin cfg1.N) (j : Fin 1024) (q : Fin 256) :
    (iblk1 V c 2 t : Vec Ideal S1024x256 .f32) (ix2 j q)
      = (V c main_v0 : S8192x256.Idx → EReal) (ix2 (colOf (t.val % 8) (kmod t) j) q) := by
  obtain ⟨-, -, -, -, e0, e1, -⟩ := idx_facts1 t
  unfold iblk1
  rw [View.read_apply]
  show V c main_v0 _ = V c main_v0 _
  congr 1
  funext a; apply Fin.ext
  match a with
  | ⟨0, _⟩ => show win1_2.index t (0 : Fin 2) * 1024 + 1 * j.val = 1024 * (t.val % 8) + j.val; rw [e0]; omega
  | ⟨1, _⟩ => show win1_2.index t (1 : Fin 2) * 256 + 1 * q.val = q.val; rw [e1]; omega

/-- The labels' block at point `t`. -/
theorem iblk1_3_apply (c : Dev nD) (t : Fin cfg1.N) (j : Fin 1024) (q : Fin 40) :
    (iblk1 V c 3 t : Vec Ideal S1024x40 .f32) (ix2 j q)
      = (V c main_arg2 : S8192x40.Idx → EReal) (ix2 (colOf (t.val % 8) (kmod t) j) q) := by
  obtain ⟨-, -, -, -, -, -, e0, e1, -⟩ := idx_facts1 t
  unfold iblk1
  rw [View.read_apply]
  show V c main_arg2 _ = V c main_arg2 _
  congr 1
  funext a; apply Fin.ext
  match a with
  | ⟨0, _⟩ => show win1_3.index t (0 : Fin 2) * 1024 + 1 * j.val = 1024 * (t.val % 8) + j.val; rw [e0]; omega
  | ⟨1, _⟩ => show win1_3.index t (1 : Fin 2) * 40 + 1 * q.val = q.val; rw [e1]; omega

/-- The bias row at any point: the whole row. -/
theorem iblk1_4_apply (c : Dev nD) (t : Fin cfg1.N) (q : Fin 256) :
    (iblk1 V c 4 t : Vec Ideal S1x256 .f32) (ix2 0 q) = (V c main_v1 : S1x256.Idx → EReal) (ix2 0 q) := by
  obtain ⟨-, -, -, -, -, -, -, -, e0, e1, -⟩ := idx_facts1 t
  unfold iblk1
  rw [View.read_apply]
  show V c main_v1 _ = V c main_v1 _
  congr 1
  funext a; apply Fin.ext
  match a with
  | ⟨0, _⟩ => show win1_4.index t (0 : Fin 2) * 1 + 1 * 0 = 0; rw [e0]
  | ⟨1, _⟩ => show win1_4.index t (1 : Fin 2) * 256 + 1 * q.val = q.val; rw [e1]; omega

end Cert.KernelIdeal.Hand

end
-- ==== Proof.Val1Acc.lean ====
/-
  Region 1 (the first layer kernel): the three accumulators in closed form. Within a row block `I` the eight points
  `k = 0, …, 7` add, for every row `p` of the block, the `k`-th run of 1024 terms of three sums over the 8192
  columns: the masked adjacency's row times a column of the projected features, times a column of the labels, and the
  row's absolute values. After the point with `k = 7` each accumulator holds the whole sum, and the two output
  blocks are the rectified, normalized, biased features and the normalized labels.
-/
import proofs.«156794_j4621384810949_2_alg».proof.Proof.R1Pieces
import proofs.«156794_j4621384810949_2_alg».proof.Proof.PayR1
import proofs.«156794_j4621384810949_2_alg».proof.Proof.LibBlockSum
import proofs.«156794_j4621384810949_2_alg».proof.Proof.Val1Blk
set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

open Cert.BlockSum (accN blkN ext blkG)

variable (V : (c : Dev nD) → (b : Ref sig .tc) → Buf (Elt Ideal) ((c : Thread nD τ).loc b))

/-- The masked adjacency as the region finds it. -/
def adjM (c : Dev nD) : Cert.Spec.Mat 8192 8192 :=
  Cert.Spec.masked (Cert.Spec.mat (V c main_arg1)) (Cert.Spec.mat (V c main_arg3))

/-- The terms of the feature sum of row `i`, column `q`. -/
def f0 (c : Dev nD) (i : Fin 8192) (q : Fin 256) : Fin 8192 → EReal :=
  fun j => adjM V c i j * Cert.Spec.mat (V c main_v0) j q
/-- The terms of the label sum of row `i`, column `q`. -/
def f1 (c : Dev nD) (i : Fin 8192) (q : Fin 40) : Fin 8192 → EReal :=
  fun j => adjM V c i j * Cert.Spec.mat (V c main_arg2) j q
/-- The terms of the absolute row sum of row `i`. -/
def f2 (c : Dev nD) (i : Fin 8192) : Fin 8192 → EReal :=
  fun j => max (adjM V c i j) (-(adjM V c i j))

/-- The `k`-th run of 1024 terms of a sum over 8192, summed over the block's own index. -/
theorem blkN_eq (f : Fin 8192 → EReal) (k : ℕ) (hk : k < 8) :
    blkN 1024 (ext f) k = ∑ j : Fin 1024, f (colOf k hk j) :=
  (Cert.BlockSum.blkG_eq (L := 1024) (B := 8) (N := 8192) (by norm_num) f k hk).symm

/-- After the eighth run the accumulator holds the whole sum. -/
theorem accN_last (f : Fin 8192 → EReal) : accN 1024 (ext f) 6 + blkN 1024 (ext f) 7 = ∑ j : Fin 8192, f j := by
  show accN 1024 (ext f) 7 = _
  rw [Cert.BlockSum.accN_eq, Cert.BlockSum.sum_ext]

section Point

variable (c : Dev nD) (t : Fin cfg1.N)

/-- The block's contribution to the feature sum at point `t`, from the blocks read in their arrays. -/
theorem blk0_gen (k : ℕ) (hkt : t.val % 8 = k) (b0 b1 : Vec Ideal S1024x1024 .f32) (b2 : Vec Ideal S1024x256 .f32)
    (h0 : ∀ p j : Fin 1024, b0 (ix2 p j) = (V c main_arg1 : S8192x8192.Idx → EReal) (ix2 (rowOf (rowBlk t) p) (colOf (t.val % 8) (kmod t) j)))
    (h1 : ∀ p j : Fin 1024, b1 (ix2 p j) = (V c main_arg3 : S8192x8192.Idx → EReal) (ix2 (rowOf (rowBlk t) p) (colOf (t.val % 8) (kmod t) j)))
    (h2 : ∀ (j : Fin 1024) (q : Fin 256), b2 (ix2 j q) = (V c main_v0 : S8192x256.Idx → EReal) (ix2 (colOf (t.val % 8) (kmod t) j) q))
    (p : Fin 1024) (q : Fin 256) :
    ∑ j : Fin 1024, (b0 (ix2 p j) * b1 (ix2 p j)) * b2 (ix2 j q) = blkN 1024 (ext (f0 V c (rowOf (rowBlk t) p) q)) k := by
  subst hkt
  rw [blkN_eq _ _ (kmod t)]
  refine Finset.sum_congr rfl fun j _ => ?_
  rw [h0, h1, h2]
  rfl

/-- The block's contribution to the label sum at point `t`. -/
theorem blk1_gen (k : ℕ) (hkt : t.val % 8 = k) (b0 b1 : Vec Ideal S1024x1024 .f32) (b3 : Vec Ideal S1024x40 .f32)
    (h0 : ∀ p j : Fin 1024, b0 (ix2 p j) = (V c main_arg1 : S8192x8192.Idx → EReal) (ix2 (rowOf (rowBlk t) p) (colOf (t.val % 8) (kmod t) j)))
    (h1 : ∀ p j : Fin 1024, b1 (ix2 p j) = (V c main_arg3 : S8192x8192.Idx → EReal) (ix2 (rowOf (rowBlk t) p) (colOf (t.val % 8) (kmod t) j)))
    (h3 : ∀ (j : Fin 1024) (q : Fin 40), b3 (ix2 j q) = (V c main_arg2 : S8192x40.Idx → EReal) (ix2 (colOf (t.val % 8) (kmod t) j) q))
    (p : Fin 1024) (q : Fin 40) :
    ∑ j : Fin 1024, (b0 (ix2 p j) * b1 (ix2 p j)) * b3 (ix2 j q) = blkN 1024 (ext (f1 V c (rowOf (rowBlk t) p) q)) k := by
  subst hkt
  rw [blkN_eq _ _ (kmod t)]
  refine Finset.sum_congr rfl fun j _ => ?_
  rw [h0, h1, h3]
  rfl

/-- The block's contribution to the absolute row sum at point `t`. -/
theorem blk2_gen (k : ℕ) (hkt : t.val % 8 = k) (b0 b1 : Vec Ideal S1024x1024 .f32)
    (h0 : ∀ p j : Fin 1024, b0 (ix2 p j) = (V c main_arg1 : S8192x8192.Idx → EReal) (ix2 (rowOf (rowBlk t) p) (colOf (t.val % 8) (kmod t) j)))
    (h1 : ∀ p j : Fin 1024, b1 (ix2 p j) = (V c main_arg3 : S8192x8192.Idx → EReal) (ix2 (rowOf (rowBlk t) p) (colOf (t.val % 8) (kmod t) j)))
    (p : Fin 1024) :
    ∑ j : Fin 1024, max (b0 (ix2 p j) * b1 (ix2 p j)) (-(b0 (ix2 p j) * b1 (ix2 p j)))
      = blkN 1024 (ext (f2 V c (rowOf (rowBlk t) p))) k := by
  subst hkt
  rw [blkN_eq _ _ (kmod t)]
  refine Finset.sum_congr rfl fun j _ => ?_
  rw [h0, h1]
  rfl

/-- The three accumulators hold, for every row of row block `I`, the sums' first `k + 1` runs. -/
def Acc3 (I : Fin 8) (k : ℕ) (o : Outs1 (F := Ideal)) : Prop :=
  (∀ (p : Fin 1024) (q : Fin 256), o.2.2.1 (ix2 p q) = accN 1024 (ext (f0 V c (rowOf I p) q)) k)
  ∧ (∀ (p : Fin 1024) (q : Fin 40), o.2.2.2.1 (ix2 p q) = accN 1024 (ext (f1 V c (rowOf I p) q)) k)
  ∧ (∀ p : Fin 1024, o.2.2.2.2 (ix2 p (0 : Fin 1)) = accN 1024 (ext (f2 V c (rowOf I p))) k)

/-- After a point with `k = 0`: the first runs, from zero. -/
theorem stepA_good (h0 : t.val % 8 = 0) : Acc3 V c (rowBlk t) 0 (stepA V c t h0) := by
  refine ⟨fun p q => ?_, fun p q => ?_, fun p => ?_⟩
  · rw [stepA_s0, pay11_apply, pay5_apply, blk0_gen V c t 0 h0 (iblk1 V c 0 t) (iblk1 V c 1 t) (iblk1 V c 2 t) (iblk1_0_apply V c t) (iblk1_1_apply V c t) (iblk1_2_apply V c t) p q]; rfl
  · rw [stepA_s1, pay12_apply, pay6_apply, blk1_gen V c t 0 h0 (iblk1 V c 0 t) (iblk1 V c 1 t) (iblk1 V c 3 t) (iblk1_0_apply V c t) (iblk1_1_apply V c t) (iblk1_3_apply V c t) p q]; rfl
  · rw [stepA_s2, pay9_apply, pay7_apply, blk2_gen V c t 0 h0 (iblk1 V c 0 t) (iblk1 V c 1 t) (iblk1_0_apply V c t) (iblk1_1_apply V c t) p]; rfl

/-- After a point with `0 < k < 7`: one more run. -/
theorem stepB_good (h0 : ¬t.val % 8 = 0) (h1 : ¬t.val % 8 = 7) (prev : Outs1 (F := Ideal)) (k : ℕ) (hkt : t.val % 8 = k + 1)
    (hp : Acc3 V c (rowBlk t) k prev) : Acc3 V c (rowBlk t) (k + 1) (stepB V c t h0 h1 prev) := by
  refine ⟨fun p q => ?_, fun p q => ?_, fun p => ?_⟩
  · rw [stepB_s0, pay11_apply, hp.1 p q, blk0_gen V c t (k + 1) hkt (iblk1 V c 0 t) (iblk1 V c 1 t) (iblk1 V c 2 t) (iblk1_0_apply V c t) (iblk1_1_apply V c t) (iblk1_2_apply V c t) p q]; rfl
  · rw [stepB_s1, pay12_apply, hp.2.1 p q, blk1_gen V c t (k + 1) hkt (iblk1 V c 0 t) (iblk1 V c 1 t) (iblk1 V c 3 t) (iblk1_0_apply V c t) (iblk1_1_apply V c t) (iblk1_3_apply V c t) p q]; rfl
  · rw [stepB_s2, pay9_apply, hp.2.2 p, blk2_gen V c t (k + 1) hkt (iblk1 V c 0 t) (iblk1 V c 1 t) (iblk1_0_apply V c t) (iblk1_1_apply V c t) p]; rfl

/-- After the point with `k = 7`: one more run. -/
theorem stepC_good (h0 : ¬t.val % 8 = 0) (h1 : t.val % 8 = 7) (prev : Outs1 (F := Ideal)) (k : ℕ) (hkt : t.val % 8 = k + 1)
    (hp : Acc3 V c (rowBlk t) k prev) : Acc3 V c (rowBlk t) (k + 1) (stepC V c t h0 h1 prev) := by
  refine ⟨fun p q => ?_, fun p q => ?_, fun p => ?_⟩
  · rw [stepC_s0, pay11_apply, hp.1 p q, blk0_gen V c t (k + 1) hkt (iblk1 V c 0 t) (iblk1 V c 1 t) (iblk1 V c 2 t) (iblk1_0_apply V c t) (iblk1_1_apply V c t) (iblk1_2_apply V c t) p q]; rfl
  · rw [stepC_s1, pay12_apply, hp.2.1 p q, blk1_gen V c t (k + 1) hkt (iblk1 V c 0 t) (iblk1 V c 1 t) (iblk1 V c 3 t) (iblk1_0_apply V c t) (iblk1_1_apply V c t) (iblk1_3_apply V c t) p q]; rfl
  · rw [stepC_s2, pay9_apply, hp.2.2 p, blk2_gen V c t (k + 1) hkt (iblk1 V c 0 t) (iblk1 V c 1 t) (iblk1_0_apply V c t) (iblk1_1_apply V c t) p]; rfl

/-- The first output block the point with `k = 7` writes: the aggregated features times the reciprocal of the
    clipped row norm, plus the bias, rectified. -/
theorem stepC_out5 (h0 : ¬t.val % 8 = 0) (h1 : t.val % 8 = 7) (prev : Outs1 (F := Ideal)) (hp : Acc3 V c (rowBlk t) 6 prev)
    (p : Fin 1024) (q : Fin 256) :
    (stepC V c t h0 h1 prev).1 (ix2 p q)
      = Cert.Spec.relu (fun i q => Cert.Spec.aggK (adjM V c) (Cert.Spec.mat (V c main_v0)) i q
          + (V c main_v1 : S1x256.Idx → EReal) (ix2 0 q)) (rowOf (rowBlk t) p) q := by
  rw [stepC_o5, pay3_apply, pay11_apply, pay9_apply, hp.1 p q, hp.2.2 p, blk0_gen V c t 7 h1 (iblk1 V c 0 t) (iblk1 V c 1 t) (iblk1 V c 2 t) (iblk1_0_apply V c t) (iblk1_1_apply V c t) (iblk1_2_apply V c t) p q, blk2_gen V c t 7 h1 (iblk1 V c 0 t) (iblk1 V c 1 t) (iblk1_0_apply V c t) (iblk1_1_apply V c t) p,
    iblk1_4_apply, accN_last, accN_last]
  rfl

/-- The second output block the point with `k = 7` writes: the aggregated labels times the reciprocal of the
    clipped row norm. -/
theorem stepC_out6 (h0 : ¬t.val % 8 = 0) (h1 : t.val % 8 = 7) (prev : Outs1 (F := Ideal)) (hp : Acc3 V c (rowBlk t) 6 prev)
    (p : Fin 1024) (q : Fin 40) :
    (stepC V c t h0 h1 prev).2.1 (ix2 p q)
      = Cert.Spec.aggK (adjM V c) (Cert.Spec.mat (V c main_arg2)) (rowOf (rowBlk t) p) q := by
  rw [stepC_o6, pay4_apply, pay12_apply, pay9_apply, hp.2.1 p q, hp.2.2 p, blk1_gen V c t 7 h1 (iblk1 V c 0 t) (iblk1 V c 1 t) (iblk1 V c 3 t) (iblk1_0_apply V c t) (iblk1_1_apply V c t) (iblk1_3_apply V c t) p q, blk2_gen V c t 7 h1 (iblk1 V c 0 t) (iblk1 V c 1 t) (iblk1_0_apply V c t) (iblk1_1_apply V c t) p,
    accN_last, accN_last]
  rfl

end Point

/-- THE ACCUMULATORS IN CLOSED FORM after every point, by induction on the point. -/
theorem accs (c : Dev nD) : ∀ (n : ℕ) (t : Fin cfg1.N), t.val = n → ∀ k : ℕ, t.val % 8 = k →
    Acc3 V c (rowBlk t) k (outsAt1 V c t.val t.isLt) := by
  intro n
  induction n with
  | zero =>
    intro t ht k hk
    have h0 : t.val % 8 = 0 := by omega
    obtain rfl : k = 0 := by omega
    rw [outsAt1_A V c t h0]
    exact stepA_good V c t h0
  | succ n ih =>
    intro t ht k hk
    by_cases h0 : t.val % 8 = 0
    · obtain rfl : k = 0 := by omega
      rw [outsAt1_A V c t h0]
      exact stepA_good V c t h0
    · have hlt : t.val - 1 < cfg1.N := Nat.lt_of_le_of_lt (Nat.sub_le _ _) t.isLt
      obtain ⟨k', rfl⟩ : ∃ k', k = k' + 1 := ⟨k - 1, by omega⟩
      have hI : rowBlk ⟨t.val - 1, hlt⟩ = rowBlk t := Fin.ext (by show (t.val - 1) / 8 = t.val / 8; omega)
      have ihp := ih ⟨t.val - 1, hlt⟩ (by show t.val - 1 = n; omega) k' (by show (t.val - 1) % 8 = k'; omega)
      rw [hI] at ihp
      by_cases h1 : t.val % 8 = 7
      · rw [outsAt1_C V c t h0 h1]
        exact stepC_good V c t h0 h1 _ k' hk ihp
      · rw [outsAt1_B V c t h0 h1]
        exact stepB_good V c t h0 h1 _ k' hk ihp

/-- What the accumulators hold on entering the point with `k = 7`. -/
theorem accs_before_last (c : Dev nD) (t : Fin cfg1.N) (h1 : t.val % 8 = 7) :
    Acc3 V c (rowBlk t) 6 (outsAt1 V c (t.val - 1) (Nat.lt_of_le_of_lt (Nat.sub_le _ _) t.isLt)) := by
  have hlt : t.val - 1 < cfg1.N := Nat.lt_of_le_of_lt (Nat.sub_le _ _) t.isLt
  have hI : rowBlk ⟨t.val - 1, hlt⟩ = rowBlk t := Fin.ext (by show (t.val - 1) / 8 = t.val / 8; omega)
  have h := accs V c (t.val - 1) ⟨t.val - 1, hlt⟩ rfl 6 (by show (t.val - 1) % 8 = 6; omega)
  rw [hI] at h
  exact h

/-- The first output's block at a flushing point. -/
theorem out5_at (c : Dev nD) (t : Fin cfg1.N) (h1 : t.val % 8 = 7) (p : Fin 1024) (q : Fin 256) :
    (outsAt1 V c t.val t.isLt).1 (ix2 p q)
      = Cert.Spec.relu (fun i q => Cert.Spec.aggK (adjM V c) (Cert.Spec.mat (V c main_v0)) i q
          + (V c main_v1 : S1x256.Idx → EReal) (ix2 0 q)) (rowOf (rowBlk t) p) q := by
  have h0 : ¬t.val % 8 = 0 := by omega
  rw [outsAt1_C V c t h0 h1]
  exact stepC_out5 V c t h0 h1 _ (accs_before_last V c t h1) p q

/-- The second output's block at a flushing point. -/
theorem out6_at (c : Dev nD) (t : Fin cfg1.N) (h1 : t.val % 8 = 7) (p : Fin 1024) (q : Fin 40) :
    (outsAt1 V c t.val t.isLt).2.1 (ix2 p q)
      = Cert.Spec.aggK (adjM V c) (Cert.Spec.mat (V c main_arg2)) (rowOf (rowBlk t) p) q := by
  have h0 : ¬t.val % 8 = 0 := by omega
  rw [outsAt1_C V c t h0 h1]
  exact stepC_out6 V c t h0 h1 _ (accs_before_last V c t h1) p q

end Cert.KernelIdeal.Hand

end
-- ==== Proof.Val1.lean ====
/-
  Region 1 (the first layer kernel): the two output arrays after the region. Only the points with column block 7
  write back, each its row block of 1024 rows; row `r` of an output lies in the block of the point with row block
  `r / 1024`, so the eight written blocks tile the array.
-/
import proofs.«156794_j4621384810949_2_alg».proof.Proof.Val1Acc
set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- A matrix as an array, at an index with known coordinates. -/
theorem arr_at {a b : ℕ} (G : Cert.Spec.Mat a b) (i : (⟨2, ![a, b]⟩ : Shape).Idx) (r : Fin a) (q : Fin b)
    (h0 : (i 0).val = r.val) (h1 : (i 1).val = q.val) : Cert.Spec.arr G i = G r q :=
  congrArg₂ G (Fin.ext h0) (Fin.ext h1)

/-- What a flushing point writes back into output one is its row block of the closed form. -/
theorem flushed1_5_eq (c : Dev nD) (t : Fin cfg1.N) (hf : (cfg1.win 5).flush t = true) :
    (dat1 (F := Ideal) V c).flushed 5 t = ((cfg1.win 5).blk t).view.read (Elt Ideal)
      (Cert.Spec.arr (Cert.Spec.relu fun i q => Cert.Spec.aggK (Cert.Spec.masked (Cert.Spec.mat (V c main_arg1)) (Cert.Spec.mat (V c main_arg3)))
          (Cert.Spec.mat (V c main_v0)) i q + (V c main_v1 : S1x256.Idx → EReal) (ix2 0 q))) := by
  have h1 : t.val % 8 = 7 := (flush1_5 t).mp hf
  obtain ⟨-, -, -, -, -, -, -, -, -, -, e0, e1, -⟩ := idx_facts1 t
  show (cfg1.win 5).cut (grid1.coords t) ((dat1 V c).after 5 t) = _
  rw [after1_5]
  funext j
  rw [View.read_apply]
  obtain ⟨p, q, rfl⟩ : ∃ (p : Fin 1024) (q : Fin 256), j = ix2 p q := ⟨j 0, j 1, eq_ix2 j⟩
  refine (out5_at V c t h1 p q).trans (arr_at _ _ _ _ ?_ ?_).symm
  · show win1_5.index t (0 : Fin 2) * 1024 + 1 * p.val = 1024 * (t.val / 8) + p.val; rw [e0]; omega
  · show win1_5.index t (1 : Fin 2) * 256 + 1 * q.val = q.val; rw [e1]; omega

/-- An index of the output array is in point `t`'s block iff each coordinate is in the block's range on its axis. -/
theorem mem_blk1_5 (t : Fin cfg1.N) (i : S8192x256.Idx) :
    i ∈ ((cfg1.win 5).blk t).view.set ↔ ∀ a : Fin 2, win1_5.index t a * S1024x256.size a ≤ (i a).val ∧ (i a).val < win1_5.index t a * S1024x256.size a + S1024x256.size a := by
  show i ∈ ((View.whole main_v2_0).slice (win1_5.rect t)).set ↔ _
  rw [View.set_slice_whole, Rect.mem_set_unit]
  exact Iff.rfl

/-- Every index of the output array is in some flushing point's block: row `r` is in the block of the point with
    row block `r / 1024` and column block 7. -/
theorem cover1_5 (i : S8192x256.Idx) : ∃ t : Fin cfg1.N, (cfg1.win 5).flush t = true ∧ i ∈ ((cfg1.win 5).blk t).view.set := by
  have hi0 : (i 0).val < 8192 := (i 0).isLt
  have hi1 : (i 1).val < 256 := (i 1).isLt
  have hN : cfg1.N = 64 := N_1
  obtain ⟨t, htv⟩ : ∃ t : Fin cfg1.N, t.val = 8 * ((i 0).val / 1024) + 7 := ⟨⟨8 * ((i 0).val / 1024) + 7, by rw [hN]; omega⟩, rfl⟩
  obtain ⟨-, -, -, -, -, -, -, -, -, -, e0, e1, -⟩ := idx_facts1 t
  refine ⟨t, (flush1_5 t).mpr (by omega), ?_⟩
  rw [mem_blk1_5]
  intro a
  match a with
  | ⟨0, _⟩ =>
    show win1_5.index t (0 : Fin 2) * 1024 ≤ (i 0).val ∧ (i 0).val < win1_5.index t (0 : Fin 2) * 1024 + 1024
    rw [e0, htv]; omega
  | ⟨1, _⟩ =>
    show win1_5.index t (1 : Fin 2) * 256 ≤ (i 1).val ∧ (i 1).val < win1_5.index t (1 : Fin 2) * 256 + 256
    rw [e1]; omega

/-- The first output array after the region: the aggregated features in the kernel's arrangement, biased and rectified. -/
theorem arr1_5 (c : Dev nD) : (dat1 (F := Ideal) V c).arrAt 5 cfg1.N
    = Cert.Spec.arr (Cert.Spec.relu fun i q => Cert.Spec.aggK (Cert.Spec.masked (Cert.Spec.mat (V c main_arg1)) (Cert.Spec.mat (V c main_arg3)))
          (Cert.Spec.mat (V c main_v0)) i q + (V c main_v1 : S1x256.Idx → EReal) (ix2 0 q)) :=
  (dat1 V c).arrAt_eq_of_cover 5 _ (fun t hf => flushed1_5_eq V c t hf) cover1_5

/-- What a flushing point writes back into output two is its row block of the closed form. -/
theorem flushed1_6_eq (c : Dev nD) (t : Fin cfg1.N) (hf : (cfg1.win 6).flush t = true) :
    (dat1 (F := Ideal) V c).flushed 6 t = ((cfg1.win 6).blk t).view.read (Elt Ideal)
      (Cert.Spec.arr (Cert.Spec.aggK (Cert.Spec.masked (Cert.Spec.mat (V c main_arg1)) (Cert.Spec.mat (V c main_arg3)))
          (Cert.Spec.mat (V c main_arg2)))) := by
  have h1 : t.val % 8 = 7 := (flush1_6 t).mp hf
  obtain ⟨-, -, -, -, -, -, -, -, -, -, -, -, e0, e1⟩ := idx_facts1 t
  show (cfg1.win 6).cut (grid1.coords t) ((dat1 V c).after 6 t) = _
  rw [after1_6]
  funext j
  rw [View.read_apply]
  obtain ⟨p, q, rfl⟩ : ∃ (p : Fin 1024) (q : Fin 40), j = ix2 p q := ⟨j 0, j 1, eq_ix2 j⟩
  refine (out6_at V c t h1 p q).trans (arr_at _ _ _ _ ?_ ?_).symm
  · show win1_6.index t (0 : Fin 2) * 1024 + 1 * p.val = 1024 * (t.val / 8) + p.val; rw [e0]; omega
  · show win1_6.index t (1 : Fin 2) * 40 + 1 * q.val = q.val; rw [e1]; omega

/-- An index of the output array is in point `t`'s block iff each coordinate is in the block's range on its axis. -/
theorem mem_blk1_6 (t : Fin cfg1.N) (i : S8192x40.Idx) :
    i ∈ ((cfg1.win 6).blk t).view.set ↔ ∀ a : Fin 2, win1_6.index t a * S1024x40.size a ≤ (i a).val ∧ (i a).val < win1_6.index t a * S1024x40.size a + S1024x40.size a := by
  show i ∈ ((View.whole main_v2_1).slice (win1_6.rect t)).set ↔ _
  rw [View.set_slice_whole, Rect.mem_set_unit]
  exact Iff.rfl

/-- Every index of the output array is in some flushing point's block: row `r` is in the block of the point with
    row block `r / 1024` and column block 7. -/
theorem cover1_6 (i : S8192x40.Idx) : ∃ t : Fin cfg1.N, (cfg1.win 6).flush t = true ∧ i ∈ ((cfg1.win 6).blk t).view.set := by
  have hi0 : (i 0).val < 8192 := (i 0).isLt
  have hi1 : (i 1).val < 40 := (i 1).isLt
  have hN : cfg1.N = 64 := N_1
  obtain ⟨t, htv⟩ : ∃ t : Fin cfg1.N, t.val = 8 * ((i 0).val / 1024) + 7 := ⟨⟨8 * ((i 0).val / 1024) + 7, by rw [hN]; omega⟩, rfl⟩
  obtain ⟨-, -, -, -, -, -, -, -, -, -, -, -, e0, e1⟩ := idx_facts1 t
  refine ⟨t, (flush1_6 t).mpr (by omega), ?_⟩
  rw [mem_blk1_6]
  intro a
  match a with
  | ⟨0, _⟩ =>
    show win1_6.index t (0 : Fin 2) * 1024 ≤ (i 0).val ∧ (i 0).val < win1_6.index t (0 : Fin 2) * 1024 + 1024
    rw [e0, htv]; omega
  | ⟨1, _⟩ =>
    show win1_6.index t (1 : Fin 2) * 40 ≤ (i 1).val ∧ (i 1).val < win1_6.index t (1 : Fin 2) * 40 + 40
    rw [e1]; omega

/-- The second output array after the region: the aggregated labels in the kernel's arrangement. -/
theorem arr1_6 (c : Dev nD) : (dat1 (F := Ideal) V c).arrAt 6 cfg1.N
    = Cert.Spec.arr (Cert.Spec.aggK (Cert.Spec.masked (Cert.Spec.mat (V c main_arg1)) (Cert.Spec.mat (V c main_arg3)))
          (Cert.Spec.mat (V c main_arg2))) :=
  (dat1 V c).arrAt_eq_of_cover 6 _ (fun t hf => flushed1_6_eq V c t hf) cover1_6

end Cert.KernelIdeal.Hand

end
-- ==== Proof.R3Pieces.lean ====
/-
  Region 3: each buffer's contents after a grid point, as the body's arithmetic (the skeleton's named payloads) of the
  point's input blocks and of what the point before left in the accumulators.
-/
import proofs.«156794_j4621384810949_2_alg».proof.Proof.Gen.KernelIdeal.Launch
import proofs.«156794_j4621384810949_2_alg».proof.Proof.Gen.KernelIdeal.Skeleton
import proofs.«156794_j4621384810949_2_alg».proof.Proof.Gen.KernelIdeal.Points
import proofs.«156794_j4621384810949_2_alg».proof.Proof.R3Data
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz3 : (![0, 0] : Fin 2 → Nat) = fun _ => 0 := funext fun a => by fin_cases a <;> rfl

/-- An accumulator entered at contents `X` reads back `X`. -/
theorem rd3S0 (X : Vec F S1024x40 .f32) : View.read (Elt F) (View.whole (cc3_scratch0 : Ref sig .tc)) ((Memref.isWhole_whole (cc3_scratch0 : Ref sig .tc)).unread X) = X :=
  (Memref.isWhole_whole (cc3_scratch0 : Ref sig .tc)).read_unread X
theorem rd3S1 (X : Vec F S1024x40 .f32) : View.read (Elt F) (View.whole (cc3_scratch1 : Ref sig .tc)) ((Memref.isWhole_whole (cc3_scratch1 : Ref sig .tc)).unread X) = X :=
  (Memref.isWhole_whole (cc3_scratch1 : Ref sig .tc)).read_unread X
theorem rd3S2 (X : Vec F S1024x1 .f32) : View.read (Elt F) (View.whole (cc3_scratch2 : Ref sig .tc)) ((Memref.isWhole_whole (cc3_scratch2 : Ref sig .tc)).unread X) = X :=
  (Memref.isWhole_whole (cc3_scratch2 : Ref sig .tc)).read_unread X

/-! ## `k = 0`: from zero -/

theorem step3A_s0 (c : Dev nD) (t : Fin cfg3.N) (h0 : t.val % 8 = 0) :
    (step3A V c t h0).2.2.1 = k3_pay11 (iblk3 V c 0 t) (iblk3 V c 1 t) (k3_pay5 (F := F)) (iblk3 V c 2 t) := by
  unfold step3A; dsimp only
  rw [View.read_writes_eq_canon _ _ _ (scover3A_0 V c t h0)]
  unfold run3A kernelRun3_A; dsimp only
  sl_unfold_words
  rw [View.canon_cons_unit_zero hz3]
  simp only [View.readCov_unit_zero (S := S1024x40) _ hz3, View.readCov_unit_zero (S := S1024x40) _ hz3, View.readCov_unit_zero (S := S1024x1) _ hz3,
    View.readAt_eq_ld, Memref.IsWhole.read_unread, rd3S0, rd3S1, rd3S2,
    View.ld_unit_zero (S := S1024x1024) hz3, View.ld_unit_zero (S := S1024x40) hz3, View.ld_unit_zero (S := S1024x40) hz3,
    View.ld_unit_zero (S := S1x40) hz3, View.ld_unit_zero (S := S1024x1) hz3]

theorem step3A_s1 (c : Dev nD) (t : Fin cfg3.N) (h0 : t.val % 8 = 0) :
    (step3A V c t h0).2.2.2.1 = k3_pay1 (k3_pay12 (iblk3 V c 0 t) (iblk3 V c 1 t) (k3_pay6 (F := F)) (iblk3 V c 3 t)) := by
  unfold step3A; dsimp only
  rw [View.read_writes_eq_canon _ _ _ (scover3A_1 V c t h0)]
  unfold run3A kernelRun3_A; dsimp only
  sl_unfold_words
  rw [View.canon_cons_unit_zero hz3]
  simp only [View.readCov_unit_zero (S := S1024x40) _ hz3, View.readCov_unit_zero (S := S1024x40) _ hz3, View.readCov_unit_zero (S := S1024x1) _ hz3,
    View.readAt_eq_ld, Memref.IsWhole.read_unread, rd3S0, rd3S1, rd3S2,
    View.ld_unit_zero (S := S1024x1024) hz3, View.ld_unit_zero (S := S1024x40) hz3, View.ld_unit_zero (S := S1024x40) hz3,
    View.ld_unit_zero (S := S1x40) hz3, View.ld_unit_zero (S := S1024x1) hz3]

theorem step3A_s2 (c : Dev nD) (t : Fin cfg3.N) (h0 : t.val % 8 = 0) :
    (step3A V c t h0).2.2.2.2 = k3_pay9 (iblk3 V c 0 t) (iblk3 V c 1 t) (k3_pay7 (F := F)) := by
  unfold step3A; dsimp only
  rw [View.read_writes_eq_canon _ _ _ (scover3A_2 V c t h0)]
  unfold run3A kernelRun3_A; dsimp only
  sl_unfold_words
  rw [View.canon_cons_unit_zero hz3]
  simp only [View.readCov_unit_zero (S := S1024x40) _ hz3, View.readCov_unit_zero (S := S1024x40) _ hz3, View.readCov_unit_zero (S := S1024x1) _ hz3,
    View.readAt_eq_ld, Memref.IsWhole.read_unread, rd3S0, rd3S1, rd3S2,
    View.ld_unit_zero (S := S1024x1024) hz3, View.ld_unit_zero (S := S1024x40) hz3, View.ld_unit_zero (S := S1024x40) hz3,
    View.ld_unit_zero (S := S1x40) hz3, View.ld_unit_zero (S := S1024x1) hz3]

/-! ## `0 < k < 7`: from what the point before left -/

theorem step3B_s0 (c : Dev nD) (t : Fin cfg3.N) (h0 : ¬t.val % 8 = 0) (h1 : ¬t.val % 8 = 7) (prev : Outs3 (F := F)) :
    (step3B V c t h0 h1 prev).2.2.1 = k3_pay11 (iblk3 V c 0 t) (iblk3 V c 1 t) prev.2.2.1 (iblk3 V c 2 t) := by
  unfold step3B; dsimp only
  rw [View.read_writes_eq_canon _ _ _ (scover3B_0 V c t h0 h1 _ _ _)]
  unfold run3B kernelRun3_B; dsimp only
  sl_unfold_words
  rw [View.canon_cons_unit_zero hz3]
  simp only [View.readCov_unit_zero (S := S1024x40) _ hz3, View.readCov_unit_zero (S := S1024x40) _ hz3, View.readCov_unit_zero (S := S1024x1) _ hz3,
    View.readAt_eq_ld, Memref.IsWhole.read_unread, rd3S0, rd3S1, rd3S2,
    View.ld_unit_zero (S := S1024x1024) hz3, View.ld_unit_zero (S := S1024x40) hz3, View.ld_unit_zero (S := S1024x40) hz3,
    View.ld_unit_zero (S := S1x40) hz3, View.ld_unit_zero (S := S1024x1) hz3]

theorem step3B_s1 (c : Dev nD) (t : Fin cfg3.N) (h0 : ¬t.val % 8 = 0) (h1 : ¬t.val % 8 = 7) (prev : Outs3 (F := F)) :
    (step3B V c t h0 h1 prev).2.2.2.1 = k3_pay1 (k3_pay12 (iblk3 V c 0 t) (iblk3 V c 1 t) prev.2.2.2.1 (iblk3 V c 3 t)) := by
  unfold step3B; dsimp only
  rw [View.read_writes_eq_canon _ _ _ (scover3B_1 V c t h0 h1 _ _ _)]
  unfold run3B kernelRun3_B; dsimp only
  sl_unfold_words
  rw [View.canon_cons_unit_zero hz3]
  simp only [View.readCov_unit_zero (S := S1024x40) _ hz3, View.readCov_unit_zero (S := S1024x40) _ hz3, View.readCov_unit_zero (S := S1024x1) _ hz3,
    View.readAt_eq_ld, Memref.IsWhole.read_unread, rd3S0, rd3S1, rd3S2,
    View.ld_unit_zero (S := S1024x1024) hz3, View.ld_unit_zero (S := S1024x40) hz3, View.ld_unit_zero (S := S1024x40) hz3,
    View.ld_unit_zero (S := S1x40) hz3, View.ld_unit_zero (S := S1024x1) hz3]

theorem step3B_s2 (c : Dev nD) (t : Fin cfg3.N) (h0 : ¬t.val % 8 = 0) (h1 : ¬t.val % 8 = 7) (prev : Outs3 (F := F)) :
    (step3B V c t h0 h1 prev).2.2.2.2 = k3_pay9 (iblk3 V c 0 t) (iblk3 V c 1 t) prev.2.2.2.2 := by
  unfold step3B; dsimp only
  rw [View.read_writes_eq_canon _ _ _ (scover3B_2 V c t h0 h1 _ _ _)]
  unfold run3B kernelRun3_B; dsimp only
  sl_unfold_words
  rw [View.canon_cons_unit_zero hz3]
  simp only [View.readCov_unit_zero (S := S1024x40) _ hz3, View.readCov_unit_zero (S := S1024x40) _ hz3, View.readCov_unit_zero (S := S1024x1) _ hz3,
    View.readAt_eq_ld, Memref.IsWhole.read_unread, rd3S0, rd3S1, rd3S2,
    View.ld_unit_zero (S := S1024x1024) hz3, View.ld_unit_zero (S := S1024x40) hz3, View.ld_unit_zero (S := S1024x40) hz3,
    View.ld_unit_zero (S := S1x40) hz3, View.ld_unit_zero (S := S1024x1) hz3]

/-! ## `k = 7`: the accumulators as before, and the two output blocks from the finished accumulators -/

theorem step3C_s0 (c : Dev nD) (t : Fin cfg3.N) (h0 : ¬t.val % 8 = 0) (h1 : t.val % 8 = 7) (prev : Outs3 (F := F)) :
    (step3C V c t h0 h1 prev).2.2.1 = k3_pay11 (iblk3 V c 0 t) (iblk3 V c 1 t) prev.2.2.1 (iblk3 V c 2 t) := by
  unfold step3C; dsimp only
  rw [View.read_writes_eq_canon _ _ _ (scover3C_0 V c t h0 h1 _ _ _)]
  unfold run3C kernelRun3_C; dsimp only
  sl_unfold_words
  rw [View.canon_cons_unit_zero hz3]
  simp only [View.readCov_unit_zero (S := S1024x40) _ hz3, View.readCov_unit_zero (S := S1024x40) _ hz3, View.readCov_unit_zero (S := S1024x1) _ hz3,
    View.readAt_eq_ld, Memref.IsWhole.read_unread, rd3S0, rd3S1, rd3S2,
    View.ld_unit_zero (S := S1024x1024) hz3, View.ld_unit_zero (S := S1024x40) hz3, View.ld_unit_zero (S := S1024x40) hz3,
    View.ld_unit_zero (S := S1x40) hz3, View.ld_unit_zero (S := S1024x1) hz3]

theorem step3C_s1 (c : Dev nD) (t : Fin cfg3.N) (h0 : ¬t.val % 8 = 0) (h1 : t.val % 8 = 7) (prev : Outs3 (F := F)) :
    (step3C V c t h0 h1 prev).2.2.2.1 = k3_pay1 (k3_pay12 (iblk3 V c 0 t) (iblk3 V c 1 t) prev.2.2.2.1 (iblk3 V c 3 t)) := by
  unfold step3C; dsimp only
  rw [View.read_writes_eq_canon _ _ _ (scover3C_1 V c t h0 h1 _ _ _)]
  unfold run3C kernelRun3_C; dsimp only
  sl_unfold_words
  rw [View.canon_cons_unit_zero hz3]
  simp only [View.readCov_unit_zero (S := S1024x40) _ hz3, View.readCov_unit_zero (S := S1024x40) _ hz3, View.readCov_unit_zero (S := S1024x1) _ hz3,
    View.readAt_eq_ld, Memref.IsWhole.read_unread, rd3S0, rd3S1, rd3S2,
    View.ld_unit_zero (S := S1024x1024) hz3, View.ld_unit_zero (S := S1024x40) hz3, View.ld_unit_zero (S := S1024x40) hz3,
    View.ld_unit_zero (S := S1x40) hz3, View.ld_unit_zero (S := S1024x1) hz3]

theorem step3C_s2 (c : Dev nD) (t : Fin cfg3.N) (h0 : ¬t.val % 8 = 0) (h1 : t.val % 8 = 7) (prev : Outs3 (F := F)) :
    (step3C V c t h0 h1 prev).2.2.2.2 = k3_pay9 (iblk3 V c 0 t) (iblk3 V c 1 t) prev.2.2.2.2 := by
  unfold step3C; dsimp only
  rw [View.read_writes_eq_canon _ _ _ (scover3C_2 V c t h0 h1 _ _ _)]
  unfold run3C kernelRun3_C; dsimp only
  sl_unfold_words
  rw [View.canon_cons_unit_zero hz3]
  simp only [View.readCov_unit_zero (S := S1024x40) _ hz3, View.readCov_unit_zero (S := S1024x40) _ hz3, View.readCov_unit_zero (S := S1024x1) _ hz3,
    View.readAt_eq_ld, Memref.IsWhole.read_unread, rd3S0, rd3S1, rd3S2,
    View.ld_unit_zero (S := S1024x1024) hz3, View.ld_unit_zero (S := S1024x40) hz3, View.ld_unit_zero (S := S1024x40) hz3,
    View.ld_unit_zero (S := S1x40) hz3, View.ld_unit_zero (S := S1024x1) hz3]

theorem step3C_o5 (c : Dev nD) (t : Fin cfg3.N) (h0 : ¬t.val % 8 = 0) (h1 : t.val % 8 = 7) (prev : Outs3 (F := F)) :
    (step3C V c t h0 h1 prev).1 = k3_pay3 (k3_pay9 (iblk3 V c 0 t) (iblk3 V c 1 t) prev.2.2.2.2) (k3_pay11 (iblk3 V c 0 t) (iblk3 V c 1 t) prev.2.2.1 (iblk3 V c 2 t)) (iblk3 V c 4 t) := by
  unfold step3C; dsimp only
  rw [View.read_writes_eq_canon _ _ _ (cover3C_5 V c t h0 h1 _ _ _)]
  unfold run3C kernelRun3_C; dsimp only
  sl_unfold_words
  rw [View.canon_cons_unit_zero hz3]
  simp only [View.readCov_unit_zero (S := S1024x40) _ hz3, View.readCov_unit_zero (S := S1024x40) _ hz3, View.readCov_unit_zero (S := S1024x1) _ hz3,
    View.readAt_eq_ld, Memref.IsWhole.read_unread, rd3S0, rd3S1, rd3S2,
    View.ld_unit_zero (S := S1024x1024) hz3, View.ld_unit_zero (S := S1024x40) hz3, View.ld_unit_zero (S := S1024x40) hz3,
    View.ld_unit_zero (S := S1x40) hz3, View.ld_unit_zero (S := S1024x1) hz3]

theorem step3C_o6 (c : Dev nD) (t : Fin cfg3.N) (h0 : ¬t.val % 8 = 0) (h1 : t.val % 8 = 7) (prev : Outs3 (F := F)) :
    (step3C V c t h0 h1 prev).2.1 = k3_pay4 (k3_pay9 (iblk3 V c 0 t) (iblk3 V c 1 t) prev.2.2.2.2) (k3_pay1 (k3_pay12 (iblk3 V c 0 t) (iblk3 V c 1 t) prev.2.2.2.1 (iblk3 V c 3 t))) := by
  unfold step3C; dsimp only
  rw [View.read_writes_eq_canon _ _ _ (cover3C_6 V c t h0 h1 _ _ _)]
  unfold run3C kernelRun3_C; dsimp only
  sl_unfold_words
  rw [View.canon_cons_unit_zero hz3]
  simp only [View.readCov_unit_zero (S := S1024x40) _ hz3, View.readCov_unit_zero (S := S1024x40) _ hz3, View.readCov_unit_zero (S := S1024x1) _ hz3,
    View.readAt_eq_ld, Memref.IsWhole.read_unread, rd3S0, rd3S1, rd3S2,
    View.ld_unit_zero (S := S1024x1024) hz3, View.ld_unit_zero (S := S1024x40) hz3, View.ld_unit_zero (S := S1024x40) hz3,
    View.ld_unit_zero (S := S1x40) hz3, View.ld_unit_zero (S := S1024x1) hz3]

end Cert.KernelIdeal.Hand

end
-- ==== Proof.PayR3.lean ====
/-
  The second layer kernel's stored values read at an index, at the ideal values: the three accumulators after one column
  block, their zero fills, and the last block's two results, each the logarithm of the softmax along the lanes of the
  accumulated product scaled by the inverse of the clipped row norm (plus the bias, for the first): the row formula of
  `Cert.Spec.logSoftmax`.
-/
import proofs.«156794_j4621384810949_2_alg».proof.Proof.PayR1

noncomputable section

open scoped BigOperators

namespace Cert.KernelIdeal.Hand

open Cert.KernelIdeal Cert.KernelIdeal.Gen Idealize.ShloMosaic Idealize.ShloMosaic.ValueIdx

/-! ## The lane sum and the lane maximum of a `[1024, 40]` vector at a row -/

/-- The source index over row `p` with column `k` inserted is `(p, k)`. -/
theorem lift_row40 (h : S1024x40.Reduces [1] S1024) (p : Fin 1024) (k : Fin 40) : h.lift (ix1 p) k = ix2 p k :=
  funext fun c => Fin.ext (by
    match c with
    | ⟨0, _⟩ => rfl
    | ⟨1, _⟩ => rfl)

theorem laneSum40_apply (src : FVec Ideal S1024x40 .f32) (h : S1024x40.Reduces [1] S1024) (hφ : FKind.Formats .f32)
    (hacc : (0x00000000#32 : BitVec 32) = FKind.add.neutral .f32 hφ) (p : Fin 1024) :
    multiReduction .add [1] S1024 src 0x00000000#32 h hφ hacc (ix1 p) = ∑ c : Fin 40, src (ix2 p c) := by
  refine (Ideal.multiReduction_add_single src 0x00000000#32 h hφ hacc (ix1 p)).trans ?_
  show ∑ k : Fin 40, src (h.lift (ix1 p) k) = _
  exact Finset.sum_congr rfl fun k _ => by rw [lift_row40]

/-- The word `0xFF800000` is `-∞`. -/
theorem neg_inf_word : Ideal.ofBits .f32 0xFF800000#32 = ⊥ := by
  simp [Ideal.ofBits, Ideal.ieee]

theorem laneMax40_apply (src : FVec Ideal S1024x40 .f32) (h : S1024x40.Reduces [1] S1024) (hφ : FKind.Formats .f32)
    (hacc : (0xFF800000#32 : BitVec 32) = FKind.maximumf.neutral .f32 hφ) (p : Fin 1024) :
    multiReduction .maximumf [1] S1024 src 0xFF800000#32 h hφ hacc (ix1 p)
      = (Finset.univ : Finset (Fin 40)).fold max ⊥ (fun c => src (ix2 p c)) := by
  refine (Ideal.multiReduction_maximumf_single src 0xFF800000#32 h hφ hacc (ix1 p)).trans ?_
  show (Finset.univ : Finset (Fin 40)).fold max (Ideal.ofBits .f32 0xFF800000#32) (src ∘ h.lift (ix1 p)) = _
  rw [neg_inf_word]
  exact Finset.fold_congr fun k _ => congrArg src (lift_row40 h p k)

/-- The logarithm of the softmax along the lanes, as the kernel spells it (the lane maximum from `-∞`, broadcast back,
    subtracted; the exponentials' lane sum; its logarithm broadcast back and subtracted), at `(p, q)`: the row formula
    of `Cert.Spec.logSoftmax`. -/
theorem logSoftmax_lanes (o : FVec Ideal S1024x40 .f32) (h : S1024x40.Reduces [1] S1024) (hφ : FKind.Formats .f32)
    (hmax : (0xFF800000#32 : BitVec 32) = FKind.maximumf.neutral .f32 hφ)
    (hadd : (0x00000000#32 : BitVec 32) = FKind.add.neutral .f32 hφ)
    (hc : S1024.ShapeCasts S1024x1) (hb : S1024x1.Broadcasts S1024x40) (p : Fin 1024) (q : Fin 40) :
    subf (subf o (broadcastTo S1024x40 (shapeCast S1024x1 (multiReduction .maximumf [1] S1024 o 0xFF800000#32 h hφ hmax) hc) hb))
        (broadcastTo S1024x40
          (log (shapeCast S1024x1
            (multiReduction .add [1] S1024
              (exp (subf o (broadcastTo S1024x40
                (shapeCast S1024x1 (multiReduction .maximumf [1] S1024 o 0xFF800000#32 h hφ hmax) hc) hb)))
              0x00000000#32 h hφ hadd) hc)) hb) (ix2 p q)
      = Cert.Spec.logSoftmax (fun (i : Fin 1024) (c : Fin 40) => o (ix2 i c)) p q := by
  have hM : ∀ c : Fin 40, broadcastTo S1024x40
      (shapeCast S1024x1 (multiReduction .maximumf [1] S1024 o 0xFF800000#32 h hφ hmax) hc) hb (ix2 p c)
        = Cert.Spec.rowMax (fun (i : Fin 1024) (c : Fin 40) => o (ix2 i c)) p := fun c => by
    rw [broadcastTo_a1_ab_apply, shapeCast_a_a1_apply, laneMax40_apply]
    rfl
  rw [subf_apply, subf_apply, hM, broadcastTo_a1_ab_apply]
  show _ - Ideal.log (shapeCast S1024x1 _ hc (ix2 p (0 : Fin 1))) = _
  rw [shapeCast_a_a1_apply, laneSum40_apply]
  unfold Cert.Spec.logSoftmax
  refine congrArg (fun z => _ - Ideal.log z) (Finset.sum_congr rfl fun c _ => ?_)
  show Ideal.exp (subf o _ (ix2 p c)) = _
  rw [subf_apply, hM]

/-! ## The second layer kernel's accumulators, zero fills and inverse norm -/

theorem r3_pay5_apply (p : Fin 1024) (q : Fin 40) : k3_pay5 (F := Ideal) (ix2 p q) = 0 := by
  unfold k3_pay5
  rw [shapeCast_self]
  exact Ideal.ofBits_zero_f32

theorem r3_pay6_apply (p : Fin 1024) (q : Fin 40) : k3_pay6 (F := Ideal) (ix2 p q) = 0 := by
  unfold k3_pay6
  rw [shapeCast_self]
  exact Ideal.ofBits_zero_f32

theorem r3_pay7_apply (p : Fin 1024) : k3_pay7 (F := Ideal) (ix2 p (0 : Fin 1)) = 0 := by
  unfold k3_pay7
  rw [shapeCast_self]
  exact Ideal.ofBits_zero_f32

/-- The row-norm accumulator after one block. -/
theorem r3_pay9_apply (v3 v4 : Vec Ideal S1024x1024 .f32) (v6 : Vec Ideal S1024x1 .f32) (p : Fin 1024) :
    k3_pay9 (F := Ideal) v3 v4 v6 (ix2 p (0 : Fin 1))
      = v6 (ix2 p 0) + ∑ j : Fin 1024, max (v3 (ix2 p j) * v4 (ix2 p j)) (-(v3 (ix2 p j) * v4 (ix2 p j))) := by
  unfold k3_pay9 k3_pay8
  dsimp only
  rw [shapeCast_self, addf_apply, shapeCast_a_a1_apply]
  refine congrArg (v6 (ix2 p 0) + ·) ((laneSum_apply _ _ _ _ p).trans ?_)
  rfl

/-- The logit accumulator after one block. -/
theorem r3_pay11_apply (v3 v4 : Vec Ideal S1024x1024 .f32) (v15 v16 : Vec Ideal S1024x40 .f32) (p : Fin 1024) (q : Fin 40) :
    k3_pay11 (F := Ideal) v3 v4 v15 v16 (ix2 p q)
      = v15 (ix2 p q) + ∑ j : Fin 1024, (v3 (ix2 p j) * v4 (ix2 p j)) * v16 (ix2 j q) := by
  unfold k3_pay11 k3_pay10 k3_pay8
  dsimp only
  rw [shapeCast_self, shapeCast_self, addf_apply, matmul40_apply]
  rfl

/-- The label accumulator after one block. -/
theorem r3_pay12_apply (v3 v4 : Vec Ideal S1024x1024 .f32) (v24 v25 : Vec Ideal S1024x40 .f32) (p : Fin 1024) (q : Fin 40) :
    k3_pay1 (k3_pay12 (F := Ideal) v3 v4 v24 v25) (ix2 p q)
      = v24 (ix2 p q) + ∑ j : Fin 1024, (v3 (ix2 p j) * v4 (ix2 p j)) * v25 (ix2 j q) := by
  unfold k3_pay1 k3_pay12 k3_pay10 k3_pay8
  dsimp only
  rw [shapeCast_self, shapeCast_self, addf_apply, matmul40_apply]
  rfl

/-- The inverse of the clipped row norm at row `p`. -/
theorem r3_pay2_apply (v36 : Vec Ideal S1024x1 .f32) (p : Fin 1024) :
    k3_pay2 (F := Ideal) v36 (ix2 p (0 : Fin 1)) = Ideal.div 1 (max (v36 (ix2 p 0)) Cert.Spec.eps) := by
  unfold k3_pay2
  show Ideal.div (Ideal.ofBits .f32 0x3F800000#32) (max (v36 (ix2 p 0)) (Ideal.ofBits .f32 0x2B8CBCCC#32)) = _
  rw [one_word]
  rfl

/-! ## The last block's results: the logarithm of the softmax of the scaled products -/

/-- The first result: the row formula of `Cert.Spec.logSoftmax` on the block's logits (the accumulated product scaled by
    the inverse norm, plus the bias). -/
theorem r3_pay3_apply (v36 : Vec Ideal S1024x1 .f32) (v41 : Vec Ideal S1024x40 .f32) (v44 : Vec Ideal S1x40 .f32)
    (p : Fin 1024) (q : Fin 40) :
    k3_pay3 (F := Ideal) v36 v41 v44 (ix2 p q)
      = Cert.Spec.logSoftmax (fun (i : Fin 1024) (c : Fin 40) =>
          v41 (ix2 i c) * Ideal.div 1 (max (v36 (ix2 i 0)) Cert.Spec.eps) + v44 (ix2 (0 : Fin 1) c)) p q := by
  unfold k3_pay3
  refine (logSoftmax_lanes _ _ _ _ _ _ _ p q).trans ?_
  refine congrArg (fun M => Cert.Spec.logSoftmax M p q) (funext fun i => funext fun c => ?_)
  rw [addf_apply, mulf_apply, broadcastTo_a1_ab_apply, broadcastTo_1b_ab_apply, shapeCast_self, shapeCast_self,
    r3_pay2_apply]

/-- The second result: the same on the block's scaled label product. -/
theorem r3_pay4_apply (v36 : Vec Ideal S1024x1 .f32) (v49 : Vec Ideal S1024x40 .f32) (p : Fin 1024) (q : Fin 40) :
    k3_pay4 (F := Ideal) v36 v49 (ix2 p q)
      = Cert.Spec.logSoftmax (fun (i : Fin 1024) (c : Fin 40) =>
          v49 (ix2 i c) * Ideal.div 1 (max (v36 (ix2 i 0)) Cert.Spec.eps)) p q := by
  unfold k3_pay4
  refine (logSoftmax_lanes _ _ _ _ _ _ _ p q).trans ?_
  refine congrArg (fun M => Cert.Spec.logSoftmax M p q) (funext fun i => funext fun c => ?_)
  rw [mulf_apply, broadcastTo_a1_ab_apply, r3_pay2_apply]

end Cert.KernelIdeal.Hand

end
-- ==== Proof.LibSoftmaxRow.lean ====
/-
  The row maximum and the logarithm of the softmax along the rows depend only on the row: two matrices that agree on
  a row, whatever their other rows and their numbers of rows, have the same row maximum there and the same logarithm of
  the softmax at every entry of it. This carries a row of a row block to the same row of the whole matrix.
-/
import proofs.«156794_j4621384810949_2_alg».proof.Proof.Spec

noncomputable section

open scoped BigOperators

namespace Cert.Law

open Idealize.ShloMosaic Cert.Spec

theorem rowMax_congr {n n' m : ℕ} (h : Mat n m) (h' : Mat n' m) (i : Fin n) (i' : Fin n')
    (hrow : ∀ c, h i c = h' i' c) : rowMax h i = rowMax h' i' := by
  unfold rowMax
  exact Finset.fold_congr fun c _ => hrow c

theorem logSoftmax_congr_row {n n' m : ℕ} (h : Mat n m) (h' : Mat n' m) (i : Fin n) (i' : Fin n')
    (hrow : ∀ c, h i c = h' i' c) (c : Fin m) : logSoftmax h i c = logSoftmax h' i' c := by
  unfold logSoftmax
  rw [rowMax_congr h h' i i' hrow, hrow c]
  exact congrArg (fun z => _ - Ideal.log z) (Finset.sum_congr rfl fun c' _ => by rw [hrow c'])

end Cert.Law

end
-- ==== Proof.Val3Blk.lean ====
/-
  Region 3 (the second layer kernel): where each window's block sits in its array. Grid point `t = 8 I + k` reads
  block `(I, k)` of the adjacency and of the second mask, row block `k` of the second projection and of the first layer's labels, and
  the whole second bias row; it writes row block `I` of the two outputs.
-/
import proofs.«156794_j4621384810949_2_alg».proof.Proof.R3Data
import proofs.«156794_j4621384810949_2_alg».proof.Proof.Val1Blk
import proofs.«156794_j4621384810949_2_alg».proof.Proof.Spec
import Idealize.ShloMosaic.Lib.Pipeline.Value
import Idealize.ShloMosaic.Lib.ValueIdx
import Idealize.ShloMosaic.PureOps.Ideal.Laws
set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The windows' block indices at a grid point, decided over the 64 points. -/
theorem idx_facts3 : ∀ t : Fin cfg3.N,
    win3_0.index t (0 : Fin 2) = t.val / 8 ∧ win3_0.index t (1 : Fin 2) = t.val % 8
    ∧ win3_1.index t (0 : Fin 2) = t.val / 8 ∧ win3_1.index t (1 : Fin 2) = t.val % 8
    ∧ win3_2.index t (0 : Fin 2) = t.val % 8 ∧ win3_2.index t (1 : Fin 2) = 0
    ∧ win3_3.index t (0 : Fin 2) = t.val % 8 ∧ win3_3.index t (1 : Fin 2) = 0
    ∧ win3_4.index t (0 : Fin 2) = 0 ∧ win3_4.index t (1 : Fin 2) = 0
    ∧ win3_5.index t (0 : Fin 2) = t.val / 8 ∧ win3_5.index t (1 : Fin 2) = 0
    ∧ win3_6.index t (0 : Fin 2) = t.val / 8 ∧ win3_6.index t (1 : Fin 2) = 0 :=
  (by decide +kernel : ∀ t : Fin grid3.N, _)

theorem lt64_3 (t : Fin cfg3.N) : t.val < 64 := Nat.lt_of_lt_of_eq t.isLt (show cfg3.N = 64 from N_3)

/-- The row block of a grid point. -/
def rowBlk3 (t : Fin cfg3.N) : Fin 8 := ⟨t.val / 8, by have := lt64_3 t; omega⟩

theorem kmod3 (t : Fin cfg3.N) : t.val % 8 < 8 := Nat.mod_lt _ (by decide)

/-- The adjacency's block at point `t`. -/
theorem iblk3_0_apply (c : Dev nD) (t : Fin cfg3.N) (p j : Fin 1024) :
    (iblk3 V c 0 t : Vec Ideal S1024x1024 .f32) (ix2 p j)
      = (V c main_arg1 : S8192x8192.Idx → EReal) (ix2 (rowOf (rowBlk3 t) p) (colOf (t.val % 8) (kmod3 t) j)) := by
  obtain ⟨e0, e1, -⟩ := idx_facts3 t
  unfold iblk3
  rw [View.read_apply]
  show V c main_arg1 _ = V c main_arg1 _
  congr 1
  funext a; apply Fin.ext
  match a with
  | ⟨0, _⟩ => show win3_0.index t (0 : Fin 2) * 1024 + 1 * p.val = 1024 * (t.val / 8) + p.val; rw [e0]; omega
  | ⟨1, _⟩ => show win3_0.index t (1 : Fin 2) * 1024 + 1 * j.val = 1024 * (t.val % 8) + j.val; rw [e1]; omega

/-- The second mask's block at point `t`. -/
theorem iblk3_1_apply (c : Dev nD) (t : Fin cfg3.N) (p j : Fin 1024) :
    (iblk3 V c 1 t : Vec Ideal S1024x1024 .f32) (ix2 p j)
      = (V c main_arg4 : S8192x8192.Idx → EReal) (ix2 (rowOf (rowBlk3 t) p) (colOf (t.val % 8) (kmod3 t) j)) := by
  obtain ⟨-, -, e0, e1, -⟩ := idx_facts3 t
  unfold iblk3
  rw [View.read_apply]
  show V c main_arg4 _ = V c main_arg4 _
  congr 1
  funext a; apply Fin.ext
  match a with
  | ⟨0, _⟩ => show win3_1.index t (0 : Fin 2) * 1024 + 1 * p.val = 1024 * (t.val / 8) + p.val; rw [e0]; omega
  | ⟨1, _⟩ => show win3_1.index t (1 : Fin 2) * 1024 + 1 * j.val = 1024 * (t.val % 8) + j.val; rw [e1]; omega

/-- The second projection's block at point `t`. -/
theorem iblk3_2_apply (c : Dev nD) (t : Fin cfg3.N) (j : Fin 1024) (q : Fin 40) :
    (iblk3 V c 2 t : Vec Ideal S1024x40 .f32) (ix2 j q)
      = (V c main_v3 : S8192x40.Idx → EReal) (ix2 (colOf (t.val % 8) (kmod3 t) j) q) := by
  obtain ⟨-, -, -, -, e0, e1, -⟩ := idx_facts3 t
  unfold iblk3
  rw [View.read_apply]
  show V c main_v3 _ = V c main_v3 _
  congr 1
  funext a; apply Fin.ext
  match a with
  | ⟨0, _⟩ => show win3_2.index t (0 : Fin 2) * 1024 + 1 * j.val = 1024 * (t.val % 8) + j.val; rw [e0]; omega
  | ⟨1, _⟩ => show win3_2.index t (1 : Fin 2) * 40 + 1 * q.val = q.val; rw [e1]; omega

/-- The first layer's labels' block at point `t`. -/
theorem iblk3_3_apply (c : Dev nD) (t : Fin cfg3.N) (j : Fin 1024) (q : Fin 40) :
    (iblk3 V c 3 t : Vec Ideal S1024x40 .f32) (ix2 j q)
      = (V c main_v2_1 : S8192x40.Idx → EReal) (ix2 (colOf (t.val % 8) (kmod3 t) j) q) := by
  obtain ⟨-, -, -, -, -, -, e0, e1, -⟩ := idx_facts3 t
  unfold iblk3
  rw [View.read_apply]
  show V c main_v2_1 _ = V c main_v2_1 _
  congr 1
  funext a; apply Fin.ext
  match a with
  | ⟨0, _⟩ => show win3_3.index t (0 : Fin 2) * 1024 + 1 * j.val = 1024 * (t.val % 8) + j.val; rw [e0]; omega
  | ⟨1, _⟩ => show win3_3.index t (1 : Fin 2) * 40 + 1 * q.val = q.val; rw [e1]; omega

/-- The bias row at any point: the whole row. -/
theorem iblk3_4_apply (c : Dev nD) (t : Fin cfg3.N) (q : Fin 40) :
    (iblk3 V c 4 t : Vec Ideal S1x40 .f32) (ix2 0 q) = (V c main_v4 : S1x40.Idx → EReal) (ix2 0 q) := by
  obtain ⟨-, -, -, -, -, -, -, -, e0, e1, -⟩ := idx_facts3 t
  unfold iblk3
  rw [View.read_apply]
  show V c main_v4 _ = V c main_v4 _
  congr 1
  funext a; apply Fin.ext
  match a with
  | ⟨0, _⟩ => show win3_4.index t (0 : Fin 2) * 1 + 1 * 0 = 0; rw [e0]
  | ⟨1, _⟩ => show win3_4.index t (1 : Fin 2) * 40 + 1 * q.val = q.val; rw [e1]; omega

end Cert.KernelIdeal.Hand

end
-- ==== Proof.Val3Acc.lean ====
/-
  Region 3 (the second layer kernel): the three accumulators in closed form. Within a row block `I` the eight points
  `k = 0, …, 7` add, for every row `p` of the block, the `k`-th run of 1024 terms of three sums over the 8192
  columns: the masked adjacency's row times a column of the second projection, times a column of the first layer's
  labels, and the row's absolute values. After the point with `k = 7` each accumulator holds the whole sum, and the two
  output blocks are the logarithms of the softmax along the rows of the normalized, biased logits and of the normalized
  labels.
-/
import proofs.«156794_j4621384810949_2_alg».proof.Proof.R3Pieces
import proofs.«156794_j4621384810949_2_alg».proof.Proof.PayR3
import proofs.«156794_j4621384810949_2_alg».proof.Proof.LibBlockSum
import proofs.«156794_j4621384810949_2_alg».proof.Proof.LibSoftmaxRow
import proofs.«156794_j4621384810949_2_alg».proof.Proof.Val3Blk
set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

open Cert.BlockSum (accN blkN ext blkG)

variable (V : (c : Dev nD) → (b : Ref sig .tc) → Buf (Elt Ideal) ((c : Thread nD τ).loc b))

/-- The masked adjacency as the region finds it. -/
def adjM3 (c : Dev nD) : Cert.Spec.Mat 8192 8192 :=
  Cert.Spec.masked (Cert.Spec.mat (V c main_arg1)) (Cert.Spec.mat (V c main_arg4))

/-- The terms of the logit sum of row `i`, column `q`. -/
def f0_3 (c : Dev nD) (i : Fin 8192) (q : Fin 40) : Fin 8192 → EReal :=
  fun j => adjM3 V c i j * Cert.Spec.mat (V c main_v3) j q
/-- The terms of the label sum of row `i`, column `q`. -/
def f1_3 (c : Dev nD) (i : Fin 8192) (q : Fin 40) : Fin 8192 → EReal :=
  fun j => adjM3 V c i j * Cert.Spec.mat (V c main_v2_1) j q
/-- The terms of the absolute row sum of row `i`. -/
def f2_3 (c : Dev nD) (i : Fin 8192) : Fin 8192 → EReal :=
  fun j => max (adjM3 V c i j) (-(adjM3 V c i j))

/-- The `k`-th run of 1024 terms of a sum over 8192, summed over the block's own index. -/
theorem blkN_eq3 (f : Fin 8192 → EReal) (k : ℕ) (hk : k < 8) :
    blkN 1024 (ext f) k = ∑ j : Fin 1024, f (colOf k hk j) :=
  (Cert.BlockSum.blkG_eq (L := 1024) (B := 8) (N := 8192) (by norm_num) f k hk).symm

/-- After the eighth run the accumulator holds the whole sum. -/
theorem accN_last3 (f : Fin 8192 → EReal) : accN 1024 (ext f) 6 + blkN 1024 (ext f) 7 = ∑ j : Fin 8192, f j := by
  show accN 1024 (ext f) 7 = _
  rw [Cert.BlockSum.accN_eq, Cert.BlockSum.sum_ext]

section Point

variable (c : Dev nD) (t : Fin cfg3.N)

/-- The block's contribution to the logit sum at point `t`, from the blocks read in their arrays. -/
theorem blk0_gen3 (k : ℕ) (hkt : t.val % 8 = k) (b0 b1 : Vec Ideal S1024x1024 .f32) (b2 : Vec Ideal S1024x40 .f32)
    (h0 : ∀ p j : Fin 1024, b0 (ix2 p j) = (V c main_arg1 : S8192x8192.Idx → EReal) (ix2 (rowOf (rowBlk3 t) p) (colOf (t.val % 8) (kmod3 t) j)))
    (h1 : ∀ p j : Fin 1024, b1 (ix2 p j) = (V c main_arg4 : S8192x8192.Idx → EReal) (ix2 (rowOf (rowBlk3 t) p) (colOf (t.val % 8) (kmod3 t) j)))
    (h2 : ∀ (j : Fin 1024) (q : Fin 40), b2 (ix2 j q) = (V c main_v3 : S8192x40.Idx → EReal) (ix2 (colOf (t.val % 8) (kmod3 t) j) q))
    (p : Fin 1024) (q : Fin 40) :
    ∑ j : Fin 1024, (b0 (ix2 p j) * b1 (ix2 p j)) * b2 (ix2 j q) = blkN 1024 (ext (f0_3 V c (rowOf (rowBlk3 t) p) q)) k := by
  subst hkt
  rw [blkN_eq3 _ _ (kmod3 t)]
  refine Finset.sum_congr rfl fun j _ => ?_
  rw [h0, h1, h2]
  rfl

/-- The block's contribution to the label sum at point `t`. -/
theorem blk1_gen3 (k : ℕ) (hkt : t.val % 8 = k) (b0 b1 : Vec Ideal S1024x1024 .f32) (b3 : Vec Ideal S1024x40 .f32)
    (h0 : ∀ p j : Fin 1024, b0 (ix2 p j) = (V c main_arg1 : S8192x8192.Idx → EReal) (ix2 (rowOf (rowBlk3 t) p) (colOf (t.val % 8) (kmod3 t) j)))
    (h1 : ∀ p j : Fin 1024, b1 (ix2 p j) = (V c main_arg4 : S8192x8192.Idx → EReal) (ix2 (rowOf (rowBlk3 t) p) (colOf (t.val % 8) (kmod3 t) j)))
    (h3 : ∀ (j : Fin 1024) (q : Fin 40), b3 (ix2 j q) = (V c main_v2_1 : S8192x40.Idx → EReal) (ix2 (colOf (t.val % 8) (kmod3 t) j) q))
    (p : Fin 1024) (q : Fin 40) :
    ∑ j : Fin 1024, (b0 (ix2 p j) * b1 (ix2 p j)) * b3 (ix2 j q) = blkN 1024 (ext (f1_3 V c (rowOf (rowBlk3 t) p) q)) k := by
  subst hkt
  rw [blkN_eq3 _ _ (kmod3 t)]
  refine Finset.sum_congr rfl fun j _ => ?_
  rw [h0, h1, h3]
  rfl

/-- The block's contribution to the absolute row sum at point `t`. -/
theorem blk2_gen3 (k : ℕ) (hkt : t.val % 8 = k) (b0 b1 : Vec Ideal S1024x1024 .f32)
    (h0 : ∀ p j : Fin 1024, b0 (ix2 p j) = (V c main_arg1 : S8192x8192.Idx → EReal) (ix2 (rowOf (rowBlk3 t) p) (colOf (t.val % 8) (kmod3 t) j)))
    (h1 : ∀ p j : Fin 1024, b1 (ix2 p j) = (V c main_arg4 : S8192x8192.Idx → EReal) (ix2 (rowOf (rowBlk3 t) p) (colOf (t.val % 8) (kmod3 t) j)))
    (p : Fin 1024) :
    ∑ j : Fin 1024, max (b0 (ix2 p j) * b1 (ix2 p j)) (-(b0 (ix2 p j) * b1 (ix2 p j)))
      = blkN 1024 (ext (f2_3 V c (rowOf (rowBlk3 t) p))) k := by
  subst hkt
  rw [blkN_eq3 _ _ (kmod3 t)]
  refine Finset.sum_congr rfl fun j _ => ?_
  rw [h0, h1]
  rfl

/-- The three accumulators hold, for every row of row block `I`, the sums' first `k + 1` runs. -/
def Acc3_3 (I : Fin 8) (k : ℕ) (o : Outs3 (F := Ideal)) : Prop :=
  (∀ (p : Fin 1024) (q : Fin 40), o.2.2.1 (ix2 p q) = accN 1024 (ext (f0_3 V c (rowOf I p) q)) k)
  ∧ (∀ (p : Fin 1024) (q : Fin 40), o.2.2.2.1 (ix2 p q) = accN 1024 (ext (f1_3 V c (rowOf I p) q)) k)
  ∧ (∀ p : Fin 1024, o.2.2.2.2 (ix2 p (0 : Fin 1)) = accN 1024 (ext (f2_3 V c (rowOf I p))) k)

/-- After a point with `k = 0`: the first runs, from zero. -/
theorem step3A_good (h0 : t.val % 8 = 0) : Acc3_3 V c (rowBlk3 t) 0 (step3A V c t h0) := by
  refine ⟨fun p q => ?_, fun p q => ?_, fun p => ?_⟩
  · rw [step3A_s0, r3_pay11_apply, r3_pay5_apply, blk0_gen3 V c t 0 h0 (iblk3 V c 0 t) (iblk3 V c 1 t) (iblk3 V c 2 t) (iblk3_0_apply V c t) (iblk3_1_apply V c t) (iblk3_2_apply V c t) p q]; rfl
  · rw [step3A_s1, r3_pay12_apply, r3_pay6_apply, blk1_gen3 V c t 0 h0 (iblk3 V c 0 t) (iblk3 V c 1 t) (iblk3 V c 3 t) (iblk3_0_apply V c t) (iblk3_1_apply V c t) (iblk3_3_apply V c t) p q]; rfl
  · rw [step3A_s2, r3_pay9_apply, r3_pay7_apply, blk2_gen3 V c t 0 h0 (iblk3 V c 0 t) (iblk3 V c 1 t) (iblk3_0_apply V c t) (iblk3_1_apply V c t) p]; rfl

/-- After a point with `0 < k < 7`: one more run. -/
theorem step3B_good (h0 : ¬t.val % 8 = 0) (h1 : ¬t.val % 8 = 7) (prev : Outs3 (F := Ideal)) (k : ℕ) (hkt : t.val % 8 = k + 1)
    (hp : Acc3_3 V c (rowBlk3 t) k prev) : Acc3_3 V c (rowBlk3 t) (k + 1) (step3B V c t h0 h1 prev) := by
  refine ⟨fun p q => ?_, fun p q => ?_, fun p => ?_⟩
  · rw [step3B_s0, r3_pay11_apply, hp.1 p q, blk0_gen3 V c t (k + 1) hkt (iblk3 V c 0 t) (iblk3 V c 1 t) (iblk3 V c 2 t) (iblk3_0_apply V c t) (iblk3_1_apply V c t) (iblk3_2_apply V c t) p q]; rfl
  · rw [step3B_s1, r3_pay12_apply, hp.2.1 p q, blk1_gen3 V c t (k + 1) hkt (iblk3 V c 0 t) (iblk3 V c 1 t) (iblk3 V c 3 t) (iblk3_0_apply V c t) (iblk3_1_apply V c t) (iblk3_3_apply V c t) p q]; rfl
  · rw [step3B_s2, r3_pay9_apply, hp.2.2 p, blk2_gen3 V c t (k + 1) hkt (iblk3 V c 0 t) (iblk3 V c 1 t) (iblk3_0_apply V c t) (iblk3_1_apply V c t) p]; rfl

/-- After the point with `k = 7`: one more run. -/
theorem step3C_good (h0 : ¬t.val % 8 = 0) (h1 : t.val % 8 = 7) (prev : Outs3 (F := Ideal)) (k : ℕ) (hkt : t.val % 8 = k + 1)
    (hp : Acc3_3 V c (rowBlk3 t) k prev) : Acc3_3 V c (rowBlk3 t) (k + 1) (step3C V c t h0 h1 prev) := by
  refine ⟨fun p q => ?_, fun p q => ?_, fun p => ?_⟩
  · rw [step3C_s0, r3_pay11_apply, hp.1 p q, blk0_gen3 V c t (k + 1) hkt (iblk3 V c 0 t) (iblk3 V c 1 t) (iblk3 V c 2 t) (iblk3_0_apply V c t) (iblk3_1_apply V c t) (iblk3_2_apply V c t) p q]; rfl
  · rw [step3C_s1, r3_pay12_apply, hp.2.1 p q, blk1_gen3 V c t (k + 1) hkt (iblk3 V c 0 t) (iblk3 V c 1 t) (iblk3 V c 3 t) (iblk3_0_apply V c t) (iblk3_1_apply V c t) (iblk3_3_apply V c t) p q]; rfl
  · rw [step3C_s2, r3_pay9_apply, hp.2.2 p, blk2_gen3 V c t (k + 1) hkt (iblk3 V c 0 t) (iblk3 V c 1 t) (iblk3_0_apply V c t) (iblk3_1_apply V c t) p]; rfl

/-- The first output block the point with `k = 7` writes: the logarithm of the softmax along the rows of the aggregated
    logits (the product times the reciprocal of the clipped row norm, plus the bias). -/
theorem step3C_out5 (h0 : ¬t.val % 8 = 0) (h1 : t.val % 8 = 7) (prev : Outs3 (F := Ideal)) (hp : Acc3_3 V c (rowBlk3 t) 6 prev)
    (p : Fin 1024) (q : Fin 40) :
    (step3C V c t h0 h1 prev).1 (ix2 p q)
      = Cert.Spec.logSoftmax (fun i q => Cert.Spec.aggK (adjM3 V c) (Cert.Spec.mat (V c main_v3)) i q
          + (V c main_v4 : S1x40.Idx → EReal) (ix2 0 q)) (rowOf (rowBlk3 t) p) q := by
  rw [step3C_o5, r3_pay3_apply]
  refine Cert.Law.logSoftmax_congr_row _ _ p (rowOf (rowBlk3 t) p) (fun q' => ?_) q
  show _ * Ideal.div 1 (max _ Cert.Spec.eps) + _ = Cert.Spec.aggK (adjM3 V c) (Cert.Spec.mat (V c main_v3)) (rowOf (rowBlk3 t) p) q' + _
  rw [r3_pay11_apply, r3_pay9_apply, hp.1 p q', hp.2.2 p, blk0_gen3 V c t 7 h1 (iblk3 V c 0 t) (iblk3 V c 1 t) (iblk3 V c 2 t) (iblk3_0_apply V c t) (iblk3_1_apply V c t) (iblk3_2_apply V c t) p q', blk2_gen3 V c t 7 h1 (iblk3 V c 0 t) (iblk3 V c 1 t) (iblk3_0_apply V c t) (iblk3_1_apply V c t) p,
    iblk3_4_apply, accN_last3, accN_last3]
  rfl

/-- The second output block the point with `k = 7` writes: the logarithm of the softmax along the rows of the aggregated
    labels (the product times the reciprocal of the clipped row norm). -/
theorem step3C_out6 (h0 : ¬t.val % 8 = 0) (h1 : t.val % 8 = 7) (prev : Outs3 (F := Ideal)) (hp : Acc3_3 V c (rowBlk3 t) 6 prev)
    (p : Fin 1024) (q : Fin 40) :
    (step3C V c t h0 h1 prev).2.1 (ix2 p q)
      = Cert.Spec.logSoftmax (Cert.Spec.aggK (adjM3 V c) (Cert.Spec.mat (V c main_v2_1))) (rowOf (rowBlk3 t) p) q := by
  rw [step3C_o6, r3_pay4_apply]
  refine Cert.Law.logSoftmax_congr_row _ _ p (rowOf (rowBlk3 t) p) (fun q' => ?_) q
  show _ * Ideal.div 1 (max _ Cert.Spec.eps) = Cert.Spec.aggK (adjM3 V c) (Cert.Spec.mat (V c main_v2_1)) (rowOf (rowBlk3 t) p) q'
  rw [r3_pay12_apply, r3_pay9_apply, hp.2.1 p q', hp.2.2 p, blk1_gen3 V c t 7 h1 (iblk3 V c 0 t) (iblk3 V c 1 t) (iblk3 V c 3 t) (iblk3_0_apply V c t) (iblk3_1_apply V c t) (iblk3_3_apply V c t) p q', blk2_gen3 V c t 7 h1 (iblk3 V c 0 t) (iblk3 V c 1 t) (iblk3_0_apply V c t) (iblk3_1_apply V c t) p,
    accN_last3, accN_last3]
  rfl

end Point

/-- THE ACCUMULATORS IN CLOSED FORM after every point, by induction on the point. -/
theorem accs3 (c : Dev nD) : ∀ (n : ℕ) (t : Fin cfg3.N), t.val = n → ∀ k : ℕ, t.val % 8 = k →
    Acc3_3 V c (rowBlk3 t) k (outsAt3 V c t.val t.isLt) := by
  intro n
  induction n with
  | zero =>
    intro t ht k hk
    have h0 : t.val % 8 = 0 := by omega
    obtain rfl : k = 0 := by omega
    rw [outsAt3_A V c t h0]
    exact step3A_good V c t h0
  | succ n ih =>
    intro t ht k hk
    by_cases h0 : t.val % 8 = 0
    · obtain rfl : k = 0 := by omega
      rw [outsAt3_A V c t h0]
      exact step3A_good V c t h0
    · have hlt : t.val - 1 < cfg3.N := Nat.lt_of_le_of_lt (Nat.sub_le _ _) t.isLt
      obtain ⟨k', rfl⟩ : ∃ k', k = k' + 1 := ⟨k - 1, by omega⟩
      have hI : rowBlk3 ⟨t.val - 1, hlt⟩ = rowBlk3 t := Fin.ext (by show (t.val - 1) / 8 = t.val / 8; omega)
      have ihp := ih ⟨t.val - 1, hlt⟩ (by show t.val - 1 = n; omega) k' (by show (t.val - 1) % 8 = k'; omega)
      rw [hI] at ihp
      by_cases h1 : t.val % 8 = 7
      · rw [outsAt3_C V c t h0 h1]
        exact step3C_good V c t h0 h1 _ k' hk ihp
      · rw [outsAt3_B V c t h0 h1]
        exact step3B_good V c t h0 h1 _ k' hk ihp

/-- What the accumulators hold on entering the point with `k = 7`. -/
theorem accs_before_last3 (c : Dev nD) (t : Fin cfg3.N) (h1 : t.val % 8 = 7) :
    Acc3_3 V c (rowBlk3 t) 6 (outsAt3 V c (t.val - 1) (Nat.lt_of_le_of_lt (Nat.sub_le _ _) t.isLt)) := by
  have hlt : t.val - 1 < cfg3.N := Nat.lt_of_le_of_lt (Nat.sub_le _ _) t.isLt
  have hI : rowBlk3 ⟨t.val - 1, hlt⟩ = rowBlk3 t := Fin.ext (by show (t.val - 1) / 8 = t.val / 8; omega)
  have h := accs3 V c (t.val - 1) ⟨t.val - 1, hlt⟩ rfl 6 (by show (t.val - 1) % 8 = 6; omega)
  rw [hI] at h
  exact h

/-- The first output's block at a flushing point. -/
theorem out5_at3 (c : Dev nD) (t : Fin cfg3.N) (h1 : t.val % 8 = 7) (p : Fin 1024) (q : Fin 40) :
    (outsAt3 V c t.val t.isLt).1 (ix2 p q)
      = Cert.Spec.logSoftmax (fun i q => Cert.Spec.aggK (adjM3 V c) (Cert.Spec.mat (V c main_v3)) i q
          + (V c main_v4 : S1x40.Idx → EReal) (ix2 0 q)) (rowOf (rowBlk3 t) p) q := by
  have h0 : ¬t.val % 8 = 0 := by omega
  rw [outsAt3_C V c t h0 h1]
  exact step3C_out5 V c t h0 h1 _ (accs_before_last3 V c t h1) p q

/-- The second output's block at a flushing point. -/
theorem out6_at3 (c : Dev nD) (t : Fin cfg3.N) (h1 : t.val % 8 = 7) (p : Fin 1024) (q : Fin 40) :
    (outsAt3 V c t.val t.isLt).2.1 (ix2 p q)
      = Cert.Spec.logSoftmax (Cert.Spec.aggK (adjM3 V c) (Cert.Spec.mat (V c main_v2_1))) (rowOf (rowBlk3 t) p) q := by
  have h0 : ¬t.val % 8 = 0 := by omega
  rw [outsAt3_C V c t h0 h1]
  exact step3C_out6 V c t h0 h1 _ (accs_before_last3 V c t h1) p q

end Cert.KernelIdeal.Hand

end
-- ==== Proof.Val3.lean ====
/-
  Region 3 (the second layer kernel): the two output arrays after the region. Only the points with column block 7
  write back, each its row block of 1024 rows; row `r` of an output lies in the block of the point with row block
  `r / 1024`, so the eight written blocks tile the array.
-/
import proofs.«156794_j4621384810949_2_alg».proof.Proof.Val3Acc
set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- A matrix as an array, at an index with known coordinates. -/
theorem arr_at3 {a b : ℕ} (G : Cert.Spec.Mat a b) (i : (⟨2, ![a, b]⟩ : Shape).Idx) (r : Fin a) (q : Fin b)
    (h0 : (i 0).val = r.val) (h1 : (i 1).val = q.val) : Cert.Spec.arr G i = G r q :=
  congrArg₂ G (Fin.ext h0) (Fin.ext h1)

/-- What a flushing point writes back into output one is its row block of the closed form. -/
theorem flushed3_5_eq (c : Dev nD) (t : Fin cfg3.N) (hf : (cfg3.win 5).flush t = true) :
    (dat3 (F := Ideal) V c).flushed 5 t = ((cfg3.win 5).blk t).view.read (Elt Ideal)
      (Cert.Spec.arr (Cert.Spec.logSoftmax fun i q => Cert.Spec.aggK (Cert.Spec.masked (Cert.Spec.mat (V c main_arg1)) (Cert.Spec.mat (V c main_arg4)))
          (Cert.Spec.mat (V c main_v3)) i q + (V c main_v4 : S1x40.Idx → EReal) (ix2 0 q))) := by
  have h1 : t.val % 8 = 7 := (flush3_5 t).mp hf
  obtain ⟨-, -, -, -, -, -, -, -, -, -, e0, e1, -⟩ := idx_facts3 t
  show (cfg3.win 5).cut (grid3.coords t) ((dat3 V c).after 5 t) = _
  rw [after3_5]
  funext j
  rw [View.read_apply]
  obtain ⟨p, q, rfl⟩ : ∃ (p : Fin 1024) (q : Fin 40), j = ix2 p q := ⟨j 0, j 1, eq_ix2 j⟩
  refine (out5_at3 V c t h1 p q).trans (arr_at3 _ _ _ _ ?_ ?_).symm
  · show win3_5.index t (0 : Fin 2) * 1024 + 1 * p.val = 1024 * (t.val / 8) + p.val; rw [e0]; omega
  · show win3_5.index t (1 : Fin 2) * 40 + 1 * q.val = q.val; rw [e1]; omega

/-- An index of the output array is in point `t`'s block iff each coordinate is in the block's range on its axis. -/
theorem mem_blk3_5 (t : Fin cfg3.N) (i : S8192x40.Idx) :
    i ∈ ((cfg3.win 5).blk t).view.set ↔ ∀ a : Fin 2, win3_5.index t a * S1024x40.size a ≤ (i a).val ∧ (i a).val < win3_5.index t a * S1024x40.size a + S1024x40.size a := by
  show i ∈ ((View.whole main_v5_0).slice (win3_5.rect t)).set ↔ _
  rw [View.set_slice_whole, Rect.mem_set_unit]
  exact Iff.rfl

/-- Every index of the output array is in some flushing point's block: row `r` is in the block of the point with
    row block `r / 1024` and column block 7. -/
theorem cover3_5 (i : S8192x40.Idx) : ∃ t : Fin cfg3.N, (cfg3.win 5).flush t = true ∧ i ∈ ((cfg3.win 5).blk t).view.set := by
  have hi0 : (i 0).val < 8192 := (i 0).isLt
  have hi1 : (i 1).val < 40 := (i 1).isLt
  have hN : cfg3.N = 64 := N_3
  obtain ⟨t, htv⟩ : ∃ t : Fin cfg3.N, t.val = 8 * ((i 0).val / 1024) + 7 := ⟨⟨8 * ((i 0).val / 1024) + 7, by rw [hN]; omega⟩, rfl⟩
  obtain ⟨-, -, -, -, -, -, -, -, -, -, e0, e1, -⟩ := idx_facts3 t
  refine ⟨t, (flush3_5 t).mpr (by omega), ?_⟩
  rw [mem_blk3_5]
  intro a
  match a with
  | ⟨0, _⟩ =>
    show win3_5.index t (0 : Fin 2) * 1024 ≤ (i 0).val ∧ (i 0).val < win3_5.index t (0 : Fin 2) * 1024 + 1024
    rw [e0, htv]; omega
  | ⟨1, _⟩ =>
    show win3_5.index t (1 : Fin 2) * 40 ≤ (i 1).val ∧ (i 1).val < win3_5.index t (1 : Fin 2) * 40 + 40
    rw [e1]; omega

/-- The first output array after the region: the logarithm of the softmax of the second layer's logits in the
    kernel's arrangement. -/
theorem arr3_5 (c : Dev nD) : (dat3 (F := Ideal) V c).arrAt 5 cfg3.N
    = Cert.Spec.arr (Cert.Spec.logSoftmax fun i q => Cert.Spec.aggK (Cert.Spec.masked (Cert.Spec.mat (V c main_arg1)) (Cert.Spec.mat (V c main_arg4)))
          (Cert.Spec.mat (V c main_v3)) i q + (V c main_v4 : S1x40.Idx → EReal) (ix2 0 q)) :=
  (dat3 V c).arrAt_eq_of_cover 5 _ (fun t hf => flushed3_5_eq V c t hf) cover3_5

/-- What a flushing point writes back into output two is its row block of the closed form. -/
theorem flushed3_6_eq (c : Dev nD) (t : Fin cfg3.N) (hf : (cfg3.win 6).flush t = true) :
    (dat3 (F := Ideal) V c).flushed 6 t = ((cfg3.win 6).blk t).view.read (Elt Ideal)
      (Cert.Spec.arr (Cert.Spec.logSoftmax (Cert.Spec.aggK (Cert.Spec.masked (Cert.Spec.mat (V c main_arg1)) (Cert.Spec.mat (V c main_arg4)))
          (Cert.Spec.mat (V c main_v2_1))))) := by
  have h1 : t.val % 8 = 7 := (flush3_6 t).mp hf
  obtain ⟨-, -, -, -, -, -, -, -, -, -, -, -, e0, e1⟩ := idx_facts3 t
  show (cfg3.win 6).cut (grid3.coords t) ((dat3 V c).after 6 t) = _
  rw [after3_6]
  funext j
  rw [View.read_apply]
  obtain ⟨p, q, rfl⟩ : ∃ (p : Fin 1024) (q : Fin 40), j = ix2 p q := ⟨j 0, j 1, eq_ix2 j⟩
  refine (out6_at3 V c t h1 p q).trans (arr_at3 _ _ _ _ ?_ ?_).symm
  · show win3_6.index t (0 : Fin 2) * 1024 + 1 * p.val = 1024 * (t.val / 8) + p.val; rw [e0]; omega
  · show win3_6.index t (1 : Fin 2) * 40 + 1 * q.val = q.val; rw [e1]; omega

/-- An index of the output array is in point `t`'s block iff each coordinate is in the block's range on its axis. -/
theorem mem_blk3_6 (t : Fin cfg3.N) (i : S8192x40.Idx) :
    i ∈ ((cfg3.win 6).blk t).view.set ↔ ∀ a : Fin 2, win3_6.index t a * S1024x40.size a ≤ (i a).val ∧ (i a).val < win3_6.index t a * S1024x40.size a + S1024x40.size a := by
  show i ∈ ((View.whole main_v5_1).slice (win3_6.rect t)).set ↔ _
  rw [View.set_slice_whole, Rect.mem_set_unit]
  exact Iff.rfl

/-- Every index of the output array is in some flushing point's block: row `r` is in the block of the point with
    row block `r / 1024` and column block 7. -/
theorem cover3_6 (i : S8192x40.Idx) : ∃ t : Fin cfg3.N, (cfg3.win 6).flush t = true ∧ i ∈ ((cfg3.win 6).blk t).view.set := by
  have hi0 : (i 0).val < 8192 := (i 0).isLt
  have hi1 : (i 1).val < 40 := (i 1).isLt
  have hN : cfg3.N = 64 := N_3
  obtain ⟨t, htv⟩ : ∃ t : Fin cfg3.N, t.val = 8 * ((i 0).val / 1024) + 7 := ⟨⟨8 * ((i 0).val / 1024) + 7, by rw [hN]; omega⟩, rfl⟩
  obtain ⟨-, -, -, -, -, -, -, -, -, -, -, -, e0, e1⟩ := idx_facts3 t
  refine ⟨t, (flush3_6 t).mpr (by omega), ?_⟩
  rw [mem_blk3_6]
  intro a
  match a with
  | ⟨0, _⟩ =>
    show win3_6.index t (0 : Fin 2) * 1024 ≤ (i 0).val ∧ (i 0).val < win3_6.index t (0 : Fin 2) * 1024 + 1024
    rw [e0, htv]; omega
  | ⟨1, _⟩ =>
    show win3_6.index t (1 : Fin 2) * 40 ≤ (i 1).val ∧ (i 1).val < win3_6.index t (1 : Fin 2) * 40 + 40
    rw [e1]; omega

/-- The second output array after the region: the logarithm of the softmax of the twice aggregated labels in the
    kernel's arrangement. -/
theorem arr3_6 (c : Dev nD) : (dat3 (F := Ideal) V c).arrAt 6 cfg3.N
    = Cert.Spec.arr (Cert.Spec.logSoftmax (Cert.Spec.aggK (Cert.Spec.masked (Cert.Spec.mat (V c main_arg1)) (Cert.Spec.mat (V c main_arg4)))
          (Cert.Spec.mat (V c main_v2_1)))) :=
  (dat3 V c).arrAt_eq_of_cover 6 _ (fun t hf => flushed3_6_eq V c t hf) cover3_6

end Cert.KernelIdeal.Hand

end
-- ==== Proof.KernelValue.lean ====
/- The kernel run's two result arrays over the extended reals. Each region's output is a function of the arrays it
   reads; what it reads is either an argument, still as launched, or an earlier region's output. Chaining the four
   regions gives the two results as the network of the specification in the kernel's arrangement: the plain products
   first, each row then multiplied by the inverse of its clipped norm. -/
import proofs.«156794_j4621384810949_2_alg».proof.Proof.Run
import proofs.«156794_j4621384810949_2_alg».proof.Proof.ValA
import proofs.«156794_j4621384810949_2_alg».proof.Proof.Val1
import proofs.«156794_j4621384810949_2_alg».proof.Proof.Val3
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Spec

/-- A matrix written as an array and read back is itself. -/
theorem mat_arr {a b : ℕ} (f : Mat a b) : mat (arr f) = f := rfl

variable (m : (ℓ : Loc nD τ sig) → Buf (Elt Ideal) ℓ) (ρ : Dev nD → PrngReg)

/-! ## The arguments as each region finds them -/

theorem V2_arg1 (c : Dev nD) : V2 m ρ c main_arg1 = (m ((c.tc : Thread nD τ).loc main_arg1)) := W2_main_arg1 m ρ c
theorem V2_arg2 (c : Dev nD) : V2 m ρ c main_arg2 = (m ((c.tc : Thread nD τ).loc main_arg2)) := W2_main_arg2 m ρ c
theorem V2_arg3 (c : Dev nD) : V2 m ρ c main_arg3 = (m ((c.tc : Thread nD τ).loc main_arg3)) := W2_main_arg3 m ρ c
theorem V3_arg7 (c : Dev nD) : V3 m ρ c main_arg7 = (m ((c.tc : Thread nD τ).loc main_arg7)) := W3_main_arg7 m ρ c
theorem V5_arg1 (c : Dev nD) : V5 m ρ c main_arg1 = (m ((c.tc : Thread nD τ).loc main_arg1)) := W5_main_arg1 m ρ c
theorem V5_arg4 (c : Dev nD) : V5 m ρ c main_arg4 = (m ((c.tc : Thread nD τ).loc main_arg4)) := W5_main_arg4 m ρ c

/-! ## The bias rows: a vector reshaped to one row reads, at column `q` of its row, the vector at `q` -/

theorem bias1 (c : Dev nD) (q : Fin 256) : (V2 m ρ c main_v1) (ix2 0 q) = vec (m ((c.tc : Thread nD τ).loc main_arg6)) q := by
  rw [V2_main_v1 m ρ c]
  exact shapeCast_a_1a_apply _ _ 0 q
theorem bias2 (c : Dev nD) (q : Fin 40) : (V5 m ρ c main_v4) (ix2 0 q) = vec (m ((c.tc : Thread nD τ).loc main_arg8)) q := by
  rw [V5_main_v4 m ρ c]
  exact shapeCast_a_1a_apply _ _ 0 q

/-! ## The stages -/

/-- Region 1 reads the first projection `x · w₁`. -/
theorem stage_support1 (c : Dev nD) : mat (V2 m ρ c main_v0) = prod (mat (m ((c.tc : Thread nD τ).loc main_arg0))) (mat (m ((c.tc : Thread nD τ).loc main_arg5))) := by
  rw [V2_main_v0 m ρ c, arr0 (V0 m ρ) c, mat_arr]

/-- Region 2 reads the hidden features of layer one. -/
theorem stage_hid (c : Dev nD) : mat (V3 m ρ c main_v2_0)
    = hidK (mat (m ((c.tc : Thread nD τ).loc main_arg0))) (mat (m ((c.tc : Thread nD τ).loc main_arg1))) (mat (m ((c.tc : Thread nD τ).loc main_arg3))) (mat (m ((c.tc : Thread nD τ).loc main_arg5))) (vec (m ((c.tc : Thread nD τ).loc main_arg6))) := by
  rw [V3_main_v2_0 m ρ c, arr1_5 (V2 m ρ) c, mat_arr, stage_support1 m ρ c, V2_arg1 m ρ c, V2_arg3 m ρ c]
  simp only [bias1 m ρ c]
  rfl

/-- Region 3 reads the second projection `hidden · w₂`. -/
theorem stage_support2 (c : Dev nD) : mat (V5 m ρ c main_v3)
    = prod (hidK (mat (m ((c.tc : Thread nD τ).loc main_arg0))) (mat (m ((c.tc : Thread nD τ).loc main_arg1))) (mat (m ((c.tc : Thread nD τ).loc main_arg3))) (mat (m ((c.tc : Thread nD τ).loc main_arg5))) (vec (m ((c.tc : Thread nD τ).loc main_arg6)))) (mat (m ((c.tc : Thread nD τ).loc main_arg7))) := by
  rw [V5_main_v3 m ρ c, arr2 (V3 m ρ) c, mat_arr, stage_hid m ρ c, V3_arg7 m ρ c]

/-- Region 3 reads the labels propagated once. -/
theorem stage_lab (c : Dev nD) : mat (V5 m ρ c main_v2_1)
    = labK (mat (m ((c.tc : Thread nD τ).loc main_arg1))) (mat (m ((c.tc : Thread nD τ).loc main_arg2))) (mat (m ((c.tc : Thread nD τ).loc main_arg3))) := by
  rw [V5_main_v2_1 m ρ c, arr1_6 (V2 m ρ) c, mat_arr, V2_arg1 m ρ c, V2_arg2 m ρ c, V2_arg3 m ρ c]
  rfl

/-! ## The two results -/

/-- The first result: the logarithm of the softmax of the second layer's logits, in the kernel's arrangement. -/
theorem kout0 (c : Dev nD) : W6 (F := Ideal) m ρ c (Proc.devRef .tc main_v5_0)
    = arr (resK0 (mat (m ((c.tc : Thread nD τ).loc main_arg0))) (mat (m ((c.tc : Thread nD τ).loc main_arg1))) (mat (m ((c.tc : Thread nD τ).loc main_arg3))) (mat (m ((c.tc : Thread nD τ).loc main_arg4))) (mat (m ((c.tc : Thread nD τ).loc main_arg5)))
        (vec (m ((c.tc : Thread nD τ).loc main_arg6))) (mat (m ((c.tc : Thread nD τ).loc main_arg7))) (vec (m ((c.tc : Thread nD τ).loc main_arg8)))) := by
  rw [(results m ρ c).1, arr3_5 (V5 m ρ) c, stage_support2 m ρ c, V5_arg1 m ρ c, V5_arg4 m ρ c]
  simp only [bias2 m ρ c]
  rfl

/-- The second result: the logarithm of the softmax of the labels propagated twice, in the kernel's arrangement. -/
theorem kout1 (c : Dev nD) : W6 (F := Ideal) m ρ c (Proc.devRef .tc main_v5_1)
    = arr (resK1 (mat (m ((c.tc : Thread nD τ).loc main_arg1))) (mat (m ((c.tc : Thread nD τ).loc main_arg2))) (mat (m ((c.tc : Thread nD τ).loc main_arg3))) (mat (m ((c.tc : Thread nD τ).loc main_arg4)))) := by
  rw [(results m ρ c).2, arr3_6 (V5 m ρ) c, stage_lab m ρ c, V5_arg1 m ρ c, V5_arg4 m ρ c]
  rfl

end Cert.KernelIdeal.Hand

end
-- ==== Proof.RefLayer1.lean ====
/-
  The reference's first layer, read entry by entry: the masked adjacency, its clipped absolute row sums, the
  entrywise quotient, and the three products (features times weights, normalized adjacency times that product,
  normalized adjacency times the labels), then the bias and the rectifier.
-/
import proofs.«156794_j4621384810949_2_alg».proof.Proof.RefReadP
import proofs.«156794_j4621384810949_2_alg».proof.Proof.Spec

noncomputable section

open scoped BigOperators

namespace Cert.RefSpec

open Cert.ReferenceIdeal Cert.ReferenceIdeal.Gen Cert.ReferenceIdeal.ReadP Idealize.ShloMosaic Idealize.ShloMosaic.ValueIdx
  Idealize.ShloMosaic.StableHlo Cert.Spec

/-- An array of single-precision words over the extended reals. -/
abbrev Arr (s : Shape) := (⟨s, .f32⟩ : BufTy).Contents (Elt Ideal)

section Layer1

variable (x0 : Arr S8192x512) (x1 x3 : Arr S8192x8192) (x2 : Arr S8192x40) (x5 : Arr S512x256) (x6 : Arr S256)

/-- The entrywise product of adjacency and mask is the masked adjacency. -/
theorem v1_at (i j : Fin 8192) :
    val_main_v1 (F := Ideal) x1 x3 (ix2 i j) = masked (mat x1) (mat x3) i j := by
  rw [val_main_v1_apply, Ideal.mulf_def]
  rfl

/-- The absolute row sum, from the zero word. -/
theorem v3_at (i : Fin 8192) :
    val_main_v3 (F := Ideal) x1 x3 (ix1 i)
      = ∑ j : Fin 8192, max (masked (mat x1) (mat x3) i j) (-(masked (mat x1) (mat x3) i j)) := by
  rw [val_main_v3_apply, val_main_cst_apply, Ideal.ofBits_def, Ideal.ofBits_zero_f32, zero_add]
  refine Finset.sum_congr rfl fun k _ => ?_
  have e : idx_main_v3 (ix1 i) k = ix2 i k :=
    funext fun a => Fin.ext (by match a with | ⟨0, _⟩ => rfl | ⟨1, _⟩ => rfl)
  rw [e, val_main_v2_apply, Ideal.hostAbsf_def, Ideal.absf_def, v1_at]

/-- The clipped row norm, broadcast along the row. -/
theorem v7_at (i j : Fin 8192) :
    val_main_v7 (F := Ideal) x1 x3 (ix2 i j) = den (masked (mat x1) (mat x3)) i := by
  rw [val_main_v7_apply, val_main_v6_apply, val_main_v4_apply, val_main_v5_apply, val_main_cst_0_apply]
  have e : idx_main_v4 (idx_main_v7 (ix2 i j)) = ix1 i :=
    funext fun a => Fin.ext (by match a with | ⟨0, _⟩ => rfl)
  rw [e, v3_at, Ideal.maximumf_def, Ideal.ofBits_def]
  rfl

/-- The normalized adjacency: every entry divided by its row's clipped norm. -/
theorem v8_at (i j : Fin 8192) :
    val_main_v8 (F := Ideal) x1 x3 (ix2 i j)
      = Ideal.div (masked (mat x1) (mat x3) i j) (den (masked (mat x1) (mat x3)) i) := by
  rw [val_main_v8_apply, Ideal.hostDivf_def, v1_at, v7_at]

/-- Features times weights. -/
theorem v0_at (k : Fin 8192) (c : Fin 256) :
    val_main_v0 (F := Ideal) x0 x5 (ix2 k c) = prod (mat x0) (mat x5) k c := by
  rw [val_main_v0_apply]
  refine Finset.sum_congr rfl fun l _ => ?_
  have el : lidx_main_v0 (ix2 k c) l = ix2 k l :=
    funext fun a => Fin.ext (by match a with | ⟨0, _⟩ => rfl | ⟨1, _⟩ => rfl)
  have er : ridx_main_v0 (ix2 k c) l = ix2 l c :=
    funext fun a => Fin.ext (by match a with | ⟨0, _⟩ => rfl | ⟨1, _⟩ => rfl)
  rw [el, er]
  rfl

/-- The aggregated features. -/
theorem v9_at (i : Fin 8192) (c : Fin 256) :
    val_main_v9 (F := Ideal) x0 x1 x3 x5 (ix2 i c)
      = aggR (masked (mat x1) (mat x3)) (prod (mat x0) (mat x5)) i c := by
  rw [val_main_v9_apply]
  refine Finset.sum_congr rfl fun k _ => ?_
  have el : lidx_main_v9 (ix2 i c) k = ix2 i k :=
    funext fun a => Fin.ext (by match a with | ⟨0, _⟩ => rfl | ⟨1, _⟩ => rfl)
  have er : ridx_main_v9 (ix2 i c) k = ix2 k c :=
    funext fun a => Fin.ext (by match a with | ⟨0, _⟩ => rfl | ⟨1, _⟩ => rfl)
  rw [el, er, v8_at, v0_at]

/-- The bias, broadcast along the rows. -/
theorem v11_at (i : Fin 8192) (c : Fin 256) :
    val_main_v11 (F := Ideal) x6 (ix2 i c) = vec x6 c := by
  rw [val_main_v11_apply, val_main_v10_apply]
  have e : idx_main_v10 (idx_main_v11 (ix2 i c)) = ix1 c :=
    funext fun a => Fin.ext (by match a with | ⟨0, _⟩ => rfl)
  rw [e]
  rfl

/-- The hidden features: aggregation, bias, rectifier. -/
theorem v14_at (i : Fin 8192) (c : Fin 256) :
    val_main_v14 (F := Ideal) x0 x1 x3 x5 x6 (ix2 i c)
      = hidR (mat x0) (mat x1) (mat x3) (mat x5) (vec x6) i c := by
  rw [val_main_v14_apply, val_main_v12_apply, val_main_call0_v0_apply, val_main_call0_cst_apply, v9_at, v11_at,
    Ideal.maximumf_def, Ideal.addf_def, Ideal.ofBits_def, Ideal.ofBits_zero_f32]
  rfl

/-- The propagated labels. -/
theorem v13_at (i : Fin 8192) (c : Fin 40) :
    val_main_v13 (F := Ideal) x1 x2 x3 (ix2 i c) = labR (mat x1) (mat x2) (mat x3) i c := by
  rw [val_main_v13_apply]
  unfold labR aggR
  refine Finset.sum_congr rfl fun k _ => ?_
  have el : lidx_main_v13 (ix2 i c) k = ix2 i k :=
    funext fun a => Fin.ext (by match a with | ⟨0, _⟩ => rfl | ⟨1, _⟩ => rfl)
  have er : ridx_main_v13 (ix2 i c) k = ix2 k c :=
    funext fun a => Fin.ext (by match a with | ⟨0, _⟩ => rfl | ⟨1, _⟩ => rfl)
  rw [el, er, v8_at]
  rfl

end Layer1

end Cert.RefSpec

end
-- ==== Proof.RefLayer2.lean ====
/-
  The reference's second layer, read entry by entry: the adjacency masked by the second mask and normalized by its
  clipped absolute row sums, the hidden features times the second weights, and the two aggregations (logits with
  bias, labels).
-/
import proofs.«156794_j4621384810949_2_alg».proof.Proof.RefLayer1

noncomputable section

open scoped BigOperators

namespace Cert.RefSpec

open Cert.ReferenceIdeal Cert.ReferenceIdeal.Gen Cert.ReferenceIdeal.ReadP Idealize.ShloMosaic Idealize.ShloMosaic.ValueIdx
  Idealize.ShloMosaic.StableHlo Cert.Spec

section Layer2

variable (x0 : Arr S8192x512) (x1 x3 x4 : Arr S8192x8192) (x2 : Arr S8192x40) (x5 : Arr S512x256) (x6 : Arr S256)
  (x7 : Arr S256x40) (x8 : Arr S40)

/-- The entrywise product of adjacency and the second mask. -/
theorem v16_at (i j : Fin 8192) :
    val_main_v16 (F := Ideal) x1 x4 (ix2 i j) = masked (mat x1) (mat x4) i j := by
  rw [val_main_v16_apply, Ideal.mulf_def]
  rfl

/-- Its absolute row sum, from the zero word. -/
theorem v18_at (i : Fin 8192) :
    val_main_v18 (F := Ideal) x1 x4 (ix1 i)
      = ∑ j : Fin 8192, max (masked (mat x1) (mat x4) i j) (-(masked (mat x1) (mat x4) i j)) := by
  rw [val_main_v18_apply, val_main_cst_1_apply, Ideal.ofBits_def, Ideal.ofBits_zero_f32, zero_add]
  refine Finset.sum_congr rfl fun k _ => ?_
  have e : idx_main_v18 (ix1 i) k = ix2 i k :=
    funext fun a => Fin.ext (by match a with | ⟨0, _⟩ => rfl | ⟨1, _⟩ => rfl)
  rw [e, val_main_v17_apply, Ideal.hostAbsf_def, Ideal.absf_def, v16_at]

/-- The clipped row norm, broadcast along the row. -/
theorem v22_at (i j : Fin 8192) :
    val_main_v22 (F := Ideal) x1 x4 (ix2 i j) = den (masked (mat x1) (mat x4)) i := by
  rw [val_main_v22_apply, val_main_v21_apply, val_main_v19_apply, val_main_v20_apply, val_main_cst_2_apply]
  have e : idx_main_v19 (idx_main_v22 (ix2 i j)) = ix1 i :=
    funext fun a => Fin.ext (by match a with | ⟨0, _⟩ => rfl)
  rw [e, v18_at, Ideal.maximumf_def, Ideal.ofBits_def]
  rfl

/-- The adjacency normalized with the second mask. -/
theorem v23_at (i j : Fin 8192) :
    val_main_v23 (F := Ideal) x1 x4 (ix2 i j)
      = Ideal.div (masked (mat x1) (mat x4) i j) (den (masked (mat x1) (mat x4)) i) := by
  rw [val_main_v23_apply, Ideal.hostDivf_def, v16_at, v22_at]

/-- Hidden features times the second weights. -/
theorem v15_at (k : Fin 8192) (c : Fin 40) :
    val_main_v15 (F := Ideal) x0 x1 x3 x5 x6 x7 (ix2 k c)
      = prod (hidR (mat x0) (mat x1) (mat x3) (mat x5) (vec x6)) (mat x7) k c := by
  rw [val_main_v15_apply]
  refine Finset.sum_congr rfl fun l _ => ?_
  have el : lidx_main_v15 (ix2 k c) l = ix2 k l :=
    funext fun a => Fin.ext (by match a with | ⟨0, _⟩ => rfl | ⟨1, _⟩ => rfl)
  have er : ridx_main_v15 (ix2 k c) l = ix2 l c :=
    funext fun a => Fin.ext (by match a with | ⟨0, _⟩ => rfl | ⟨1, _⟩ => rfl)
  rw [el, er, v14_at]
  rfl

/-- The second bias, broadcast along the rows. -/
theorem v26_at (i : Fin 8192) (c : Fin 40) :
    val_main_v26 (F := Ideal) x8 (ix2 i c) = vec x8 c := by
  rw [val_main_v26_apply, val_main_v25_apply]
  have e : idx_main_v25 (idx_main_v26 (ix2 i c)) = ix1 c :=
    funext fun a => Fin.ext (by match a with | ⟨0, _⟩ => rfl)
  rw [e]
  rfl

/-- The logits of layer two before the softmax. -/
theorem v27_at (i : Fin 8192) (c : Fin 40) :
    val_main_v27 (F := Ideal) x0 x1 x3 x4 x5 x6 x7 x8 (ix2 i c)
      = logitR (mat x0) (mat x1) (mat x3) (mat x4) (mat x5) (vec x6) (mat x7) (vec x8) i c := by
  rw [val_main_v27_apply, v26_at, Ideal.addf_def, val_main_v24_apply]
  unfold logitR aggR
  refine congrArg (· + vec x8 c) (Finset.sum_congr rfl fun k _ => ?_)
  have el : lidx_main_v24 (ix2 i c) k = ix2 i k :=
    funext fun a => Fin.ext (by match a with | ⟨0, _⟩ => rfl | ⟨1, _⟩ => rfl)
  have er : ridx_main_v24 (ix2 i c) k = ix2 k c :=
    funext fun a => Fin.ext (by match a with | ⟨0, _⟩ => rfl | ⟨1, _⟩ => rfl)
  rw [el, er, v23_at, v15_at]

/-- The labels of layer two before the softmax. -/
theorem v28_at (i : Fin 8192) (c : Fin 40) :
    val_main_v28 (F := Ideal) x1 x2 x3 x4 (ix2 i c) = lab2R (mat x1) (mat x2) (mat x3) (mat x4) i c := by
  rw [val_main_v28_apply]
  unfold lab2R aggR
  refine Finset.sum_congr rfl fun k _ => ?_
  have el : lidx_main_v28 (ix2 i c) k = ix2 i k :=
    funext fun a => Fin.ext (by match a with | ⟨0, _⟩ => rfl | ⟨1, _⟩ => rfl)
  have er : ridx_main_v28 (ix2 i c) k = ix2 k c :=
    funext fun a => Fin.ext (by match a with | ⟨0, _⟩ => rfl | ⟨1, _⟩ => rfl)
  rw [el, er, v23_at, v13_at]

end Layer2

end Cert.RefSpec

end
-- ==== Proof.RefSoftmax.lean ====
/-
  The reference's two logarithms of a softmax, read entry by entry. The row maximum is a fold of the maximum
  from −∞ along the row (the host's reduce over one axis, then one more maximum with a broadcast −∞, which changes
  nothing); the row sum of the exponentials starts from the zero word.
-/
import proofs.«156794_j4621384810949_2_alg».proof.Proof.RefLayer2

noncomputable section

open scoped BigOperators

namespace Cert.RefSpec

open Cert.ReferenceIdeal Cert.ReferenceIdeal.Gen Cert.ReferenceIdeal.ReadP Idealize.ShloMosaic Idealize.ShloMosaic.ValueIdx
  Idealize.ShloMosaic.StableHlo Cert.Spec

/-- The word of −∞. -/
theorem negInf_word : Ideal.ofBits .f32 0xFF800000#32 = (⊥ : EReal) := by
  simp [Ideal.ofBits, Ideal.ieee]

/-- The index over row `i` with the coordinate `k` put back on the column axis is `(i, k)`. -/
theorem lift_col (h : S8192x40.Reduces [1] S8192) (i : Fin 8192) (k : Fin (S8192x40.size 1)) :
    h.lift (ix1 i) k = ix2 i (⟨k.val, k.isLt⟩ : Fin 40) := by
  funext c; apply Fin.ext
  fin_cases c <;> rfl

/-- The host's reduce with a maximum body along the rows, from −∞, is the row maximum. -/
theorem rowMax_read (h : Arr S8192x40) (i : Fin 8192) :
    Host.reduce FloatOps.maximumf h (constant (F := Ideal) S_ .f32 0xFF800000#32) reducesTo_S8192x40_S8192_d1 h_S_ (ix1 i)
      = rowMax (mat h) i := by
  have hR : S8192x40.Reduces [1] S8192 := by decide
  refine (Host.reduce_eq_fold_single (FloatOps.maximumf (F := Ideal) (φ := .f32)) h _ reducesTo_S8192x40_S8192_d1 hR h_S_
    (ix1 i)).trans ?_
  have hf : (h ∘ hR.lift (ix1 i)) = fun c : Fin 40 => mat h i c :=
    funext fun c => congrArg h (lift_col hR i c)
  have h0 : (constant (F := Ideal) S_ .f32 0xFF800000#32) (Shape.Idx.first h_S_) = (⊥ : EReal) := negInf_word
  unfold rowMax
  exact congrArg₂ (fun (b : EReal) (f : Fin 40 → EReal) => Finset.fold max b f (Finset.univ : Finset (Fin 40))) h0 hf

section Softmax

variable (x0 : Arr S8192x512) (x1 x3 x4 : Arr S8192x8192) (x2 : Arr S8192x40) (x5 : Arr S512x256) (x6 : Arr S256)
  (x7 : Arr S256x40) (x8 : Arr S40)

/-- The row maximum of the logits, as the reference forms it: the fold from −∞, then one more maximum with −∞. -/
theorem c1v2_at (i : Fin 8192) :
    val_main_call1_v2 (F := Ideal) x0 x1 x3 x4 x5 x6 x7 x8 (ix1 i) = rowMax (logitR (mat x0) (mat x1) (mat x3) (mat x4) (mat x5) (vec x6) (mat x7) (vec x8)) i := by
  rw [val_main_call1_v2_apply, val_main_call1_v1_apply, val_main_call1_cst_0_apply, Ideal.maximumf_def,
    Ideal.ofBits_def, negInf_word, max_eq_right bot_le]
  unfold val_main_call1_v0 val_main_call1_cst
  have hm : mat (val_main_v27 (F := Ideal) x0 x1 x3 x4 x5 x6 x7 x8) = (logitR (mat x0) (mat x1) (mat x3) (mat x4) (mat x5) (vec x6) (mat x7) (vec x8)) :=
    funext fun p => funext fun q => v27_at _ _ _ _ _ _ _ _ p q
  rw [rowMax_read, hm]

/-- the logits minus their row maximum. -/
theorem c1v5_at (i : Fin 8192) (c : Fin 40) :
    val_main_call1_v5 (F := Ideal) x0 x1 x3 x4 x5 x6 x7 x8 (ix2 i c) = (logitR (mat x0) (mat x1) (mat x3) (mat x4) (mat x5) (vec x6) (mat x7) (vec x8)) i c - rowMax (logitR (mat x0) (mat x1) (mat x3) (mat x4) (mat x5) (vec x6) (mat x7) (vec x8)) i := by
  rw [val_main_call1_v5_apply, val_main_call1_v4_apply, val_main_call1_v3_apply]
  have e : idx_main_call1_v3 (idx_main_call1_v4 (ix2 i c)) = ix1 i :=
    funext fun a => Fin.ext (by match a with | ⟨0, _⟩ => rfl)
  rw [e, c1v2_at, v27_at, Ideal.subf_def]

/-- The row sum of the exponentials, from the zero word. -/
theorem c1v7_at (i : Fin 8192) :
    val_main_call1_v7 (F := Ideal) x0 x1 x3 x4 x5 x6 x7 x8 (ix1 i)
      = ∑ c' : Fin 40, Ideal.exp ((logitR (mat x0) (mat x1) (mat x3) (mat x4) (mat x5) (vec x6) (mat x7) (vec x8)) i c' - rowMax (logitR (mat x0) (mat x1) (mat x3) (mat x4) (mat x5) (vec x6) (mat x7) (vec x8)) i) := by
  rw [val_main_call1_v7_apply, val_main_call1_cst_1_apply, Ideal.ofBits_def, Ideal.ofBits_zero_f32, zero_add]
  refine Finset.sum_congr rfl fun k _ => ?_
  have e : idx_main_call1_v7 (ix1 i) k = ix2 i k :=
    funext fun a => Fin.ext (by match a with | ⟨0, _⟩ => rfl | ⟨1, _⟩ => rfl)
  rw [e, val_main_call1_v6_apply, Ideal.hostUnary_exp_def, c1v5_at]

/-- The logarithm of the softmax of the logits. -/
theorem v29_at (i : Fin 8192) (c : Fin 40) :
    val_main_v29 (F := Ideal) x0 x1 x3 x4 x5 x6 x7 x8 (ix2 i c) = resR0 (mat x0) (mat x1) (mat x3) (mat x4) (mat x5) (vec x6) (mat x7) (vec x8) i c := by
  rw [val_main_v29_apply, val_main_call1_v10_apply, val_main_call1_v9_apply, val_main_call1_v8_apply]
  have e : idx_main_call1_v8 (idx_main_call1_v10 (ix2 i c)) = ix1 i :=
    funext fun a => Fin.ext (by match a with | ⟨0, _⟩ => rfl)
  rw [e, c1v7_at, c1v5_at, Ideal.subf_def, Ideal.hostUnary_log_def]
  rfl

/-- The row maximum of the propagated labels, as the reference forms it: the fold from −∞, then one more maximum with −∞. -/
theorem c2v2_at (i : Fin 8192) :
    val_main_call2_v2 (F := Ideal) x1 x2 x3 x4 (ix1 i) = rowMax (lab2R (mat x1) (mat x2) (mat x3) (mat x4)) i := by
  rw [val_main_call2_v2_apply, val_main_call2_v1_apply, val_main_call2_cst_0_apply, Ideal.maximumf_def,
    Ideal.ofBits_def, negInf_word, max_eq_right bot_le]
  unfold val_main_call2_v0 val_main_call2_cst
  have hm : mat (val_main_v28 (F := Ideal) x1 x2 x3 x4) = (lab2R (mat x1) (mat x2) (mat x3) (mat x4)) :=
    funext fun p => funext fun q => v28_at _ _ _ _ p q
  rw [rowMax_read, hm]

/-- the propagated labels minus their row maximum. -/
theorem c2v5_at (i : Fin 8192) (c : Fin 40) :
    val_main_call2_v5 (F := Ideal) x1 x2 x3 x4 (ix2 i c) = (lab2R (mat x1) (mat x2) (mat x3) (mat x4)) i c - rowMax (lab2R (mat x1) (mat x2) (mat x3) (mat x4)) i := by
  rw [val_main_call2_v5_apply, val_main_call2_v4_apply, val_main_call2_v3_apply]
  have e : idx_main_call2_v3 (idx_main_call2_v4 (ix2 i c)) = ix1 i :=
    funext fun a => Fin.ext (by match a with | ⟨0, _⟩ => rfl)
  rw [e, c2v2_at, v28_at, Ideal.subf_def]

/-- The row sum of the exponentials, from the zero word. -/
theorem c2v7_at (i : Fin 8192) :
    val_main_call2_v7 (F := Ideal) x1 x2 x3 x4 (ix1 i)
      = ∑ c' : Fin 40, Ideal.exp ((lab2R (mat x1) (mat x2) (mat x3) (mat x4)) i c' - rowMax (lab2R (mat x1) (mat x2) (mat x3) (mat x4)) i) := by
  rw [val_main_call2_v7_apply, val_main_call2_cst_1_apply, Ideal.ofBits_def, Ideal.ofBits_zero_f32, zero_add]
  refine Finset.sum_congr rfl fun k _ => ?_
  have e : idx_main_call2_v7 (ix1 i) k = ix2 i k :=
    funext fun a => Fin.ext (by match a with | ⟨0, _⟩ => rfl | ⟨1, _⟩ => rfl)
  rw [e, val_main_call2_v6_apply, Ideal.hostUnary_exp_def, c2v5_at]

/-- The logarithm of the softmax of the propagated labels. -/
theorem v30_at (i : Fin 8192) (c : Fin 40) :
    val_main_v30 (F := Ideal) x1 x2 x3 x4 (ix2 i c) = resR1 (mat x1) (mat x2) (mat x3) (mat x4) i c := by
  rw [val_main_v30_apply, val_main_call2_v10_apply, val_main_call2_v9_apply, val_main_call2_v8_apply]
  have e : idx_main_call2_v8 (idx_main_call2_v10 (ix2 i c)) = ix1 i :=
    funext fun a => Fin.ext (by match a with | ⟨0, _⟩ => rfl)
  rw [e, c2v7_at, c2v5_at, Ideal.subf_def, Ideal.hostUnary_log_def]
  rfl

end Softmax

end Cert.RefSpec

end
-- ==== Proof.RefSpec.lean ====
/-
  The reference run's two result arrays are the specification's two results in the reference's arrangement
  (every entry of the masked adjacency divided by its row's clipped norm before the products), as arrays.
-/
import proofs.«156794_j4621384810949_2_alg».proof.Proof.RefSoftmax

noncomputable section

open scoped BigOperators

namespace Cert.RefSpec

open Cert.ReferenceIdeal Cert.ReferenceIdeal.Gen Cert.ReferenceIdeal.ReadP Idealize.ShloMosaic Idealize.ShloMosaic.ValueIdx
  Idealize.ShloMosaic.StableHlo Cert.Spec

open Idealize.ShloMosaic.TcCoe Idealize.SL.Sem

/-- The first result: the logarithm of the softmax of the second layer's logits. -/
theorem out0 (m : (ℓ : Loc nD τ sig) → Buf (Elt Ideal) ℓ) (c : Dev nD) :
    Cert.ReferenceIdeal.ValueP.res_main_v29 (F := Ideal) m c
      = arr (resR0 (mat (m ((c.tc : Thread nD τ).loc main_arg0))) (mat (m ((c.tc : Thread nD τ).loc main_arg1))) (mat (m ((c.tc : Thread nD τ).loc main_arg3))) (mat (m ((c.tc : Thread nD τ).loc main_arg4))) (mat (m ((c.tc : Thread nD τ).loc main_arg5)))
          (vec (m ((c.tc : Thread nD τ).loc main_arg6))) (mat (m ((c.tc : Thread nD τ).loc main_arg7))) (vec (m ((c.tc : Thread nD τ).loc main_arg8)))) := by
  rw [val_main_v29_eq]
  funext j
  obtain ⟨p, q, rfl⟩ : ∃ (p : Fin 8192) (q : Fin 40), j = ix2 p q := ⟨j 0, j 1, eq_ix2 j⟩
  rw [v29_at]
  rfl

/-- The second result: the logarithm of the softmax of the twice propagated labels. -/
theorem out1 (m : (ℓ : Loc nD τ sig) → Buf (Elt Ideal) ℓ) (c : Dev nD) :
    Cert.ReferenceIdeal.ValueP.res_main_v30 (F := Ideal) m c
      = arr (resR1 (mat (m ((c.tc : Thread nD τ).loc main_arg1))) (mat (m ((c.tc : Thread nD τ).loc main_arg2))) (mat (m ((c.tc : Thread nD τ).loc main_arg3))) (mat (m ((c.tc : Thread nD τ).loc main_arg4)))) := by
  rw [val_main_v30_eq]
  funext j
  obtain ⟨p, q, rfl⟩ : ∃ (p : Fin 8192) (q : Fin 40), j = ix2 p q := ⟨j 0, j 1, eq_ix2 j⟩
  rw [v30_at]
  rfl

end Cert.RefSpec

end
-- ==== Proof.Law.lean ====
/-
  The algebra behind the two arrangements of one aggregation layer: the clip `ε` is a positive real, so the row norm
  `d i ≥ ε` is never zero and `(d i)⁻¹` is a nonnegative real; multiplication by a nonnegative real distributes over
  every finite sum of extended reals, so dividing each entry before the product equals scaling the row afterwards.
-/
import proofs.«156794_j4621384810949_2_alg».proof.Proof.Spec

noncomputable section

open scoped BigOperators

namespace Cert.Law

open Idealize.ShloMosaic Cert.Spec

/-- The clip is the real number `9223372 · 2⁻⁶³`. -/
theorem eps_eq : eps = (((9223372 : ℝ) * (2 : ℝ) ^ (-63 : ℤ) : ℝ) : EReal) := by
  unfold eps
  simp [Ideal.ofBits, Ideal.ieee, -EReal.coe_mul]

theorem eps_pos : (0 : EReal) < eps := by
  rw [eps_eq, EReal.coe_pos]
  positivity

theorem eps_ne_top : eps ≠ ⊤ := by
  rw [eps_eq]
  exact EReal.coe_ne_top _

theorem eps_le_den {n : ℕ} (a : Mat n n) (i : Fin n) : eps ≤ den a i := le_max_right _ _

theorem den_pos {n : ℕ} (a : Mat n n) (i : Fin n) : 0 < den a i := lt_of_lt_of_le eps_pos (eps_le_den a i)

/-- The row norm is never zero and its inverse is a nonnegative real (zero when the norm is `⊤`). -/
theorem inv_den {n : ℕ} (a : Mat n n) (i : Fin n) :
    den a i ≠ 0 ∧ ∃ r : ℝ, 0 ≤ r ∧ (den a i)⁻¹ = (r : EReal) := by
  have hpos : 0 < den a i := den_pos a i
  refine ⟨hpos.ne', ?_⟩
  have hnn : 0 ≤ (den a i)⁻¹ := EReal.inv_nonneg_of_nonneg hpos.le
  have hnt : (den a i)⁻¹ ≠ ⊤ := (EReal.inv_lt_top _).ne
  have hnb : (den a i)⁻¹ ≠ ⊥ := (lt_of_lt_of_le EReal.bot_lt_zero hnn).ne'
  exact ⟨((den a i)⁻¹).toReal, EReal.toReal_nonneg hnn, (EReal.coe_toReal hnt hnb).symm⟩

/-- Multiplication by a nonnegative real distributes over every finite sum of extended reals. -/
theorem sum_mul_real {ι : Type*} (s : Finset ι) (f : ι → EReal) {r : ℝ} (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- Scaling row `i` of the product by `1 / d i` equals dividing every entry of row `i` by `d i` first. -/
theorem aggK_eq_aggR {n m : ℕ} (a : Mat n n) (s : Mat n m) : aggK a s = aggR a s := by
  funext i c
  obtain ⟨h0, r, hr, hinv⟩ := inv_den a i
  unfold aggK aggR
  simp only [Ideal.div, if_neg h0, one_mul, hinv]
  rw [sum_mul_real _ _ hr]
  refine Finset.sum_congr rfl fun j _ => ?_
  rw [mul_right_comm]

section Net

variable (x : Mat 8192 512) (adj : Mat 8192 8192) (y : Mat 8192 40) (mask1 mask2 : Mat 8192 8192)
  (w1 : Mat 512 256) (b1 : Fin 256 → EReal) (w2 : Mat 256 40) (b2 : Fin 40 → EReal)

theorem hidK_eq_hidR : hidK x adj mask1 w1 b1 = hidR x adj mask1 w1 b1 := by
  unfold hidK hidR
  rw [aggK_eq_aggR]

theorem labK_eq_labR : labK adj y mask1 = labR adj y mask1 := by
  unfold labK labR
  rw [aggK_eq_aggR]

theorem logitK_eq_logitR :
    logitK x adj mask1 mask2 w1 b1 w2 b2 = logitR x adj mask1 mask2 w1 b1 w2 b2 := by
  unfold logitK logitR
  rw [aggK_eq_aggR, hidK_eq_hidR]

theorem lab2K_eq_lab2R : lab2K adj y mask1 mask2 = lab2R adj y mask1 mask2 := by
  unfold lab2K lab2R
  rw [aggK_eq_aggR, labK_eq_labR]

/-- The first result agrees in the two arrangements. -/
theorem resK0_eq_resR0 :
    resK0 x adj mask1 mask2 w1 b1 w2 b2 = resR0 x adj mask1 mask2 w1 b1 w2 b2 := by
  unfold resK0 resR0
  rw [logitK_eq_logitR]

/-- The second result agrees in the two arrangements. -/
theorem resK1_eq_resR1 : resK1 adj y mask1 mask2 = resR1 adj y mask1 mask2 := by
  unfold resK1 resR1
  rw [lab2K_eq_lab2R]

end Net

end Cert.Law

end
-- ==== Proof.lean ====
/- The five claims of this certificate. The program as printed, the program read over the extended reals and the
   reference read over the extended reals each run to the end and leave their argument arrays as launched; the ideal
   reading rewrote no operation of the program; and over the extended reals the program and the reference, from
   memories agreeing on the arguments, end with equal results.

   The network has two layers. With `a = adj ∘ mask` entrywise and `d i = max (∑ j |a i j|) ε`, a layer sends features
   `s` to `(a / d) · s + b` and labels `y` to `(a / d) · y`; the results are the row-wise logarithm of the softmax of the
   second layer's two outputs. The program forms the plain products `a · s` first and then multiplies row `i` by
   `1 / d i`; the reference divides every entry of `a` by `d i` before the product. Since `d i ≥ ε > 0`, the factor
   `(d i)⁻¹` is a nonnegative real, and multiplication by a nonnegative real distributes over every finite sum of
   extended reals: the two arrangements are one function, with no finiteness hypothesis. -/
import proofs.«156794_j4621384810949_2_alg».proof.Defs
import proofs.«156794_j4621384810949_2_alg».proof.Proof.Gen.Kernel
import proofs.«156794_j4621384810949_2_alg».proof.Proof.Gen.Kernel.Skeleton
import proofs.«156794_j4621384810949_2_alg».proof.Proof.Gen.Kernel.Launch
import proofs.«156794_j4621384810949_2_alg».proof.Proof.Gen.Kernel.Regions
import proofs.«156794_j4621384810949_2_alg».proof.Proof.Gen.Kernel.Points
import proofs.«156794_j4621384810949_2_alg».proof.Proof.Gen.KernelIdeal
import proofs.«156794_j4621384810949_2_alg».proof.Proof.Gen.KernelIdeal.Skeleton
import proofs.«156794_j4621384810949_2_alg».proof.Proof.Gen.KernelIdeal.Launch
import proofs.«156794_j4621384810949_2_alg».proof.Proof.Gen.KernelIdeal.Regions
import proofs.«156794_j4621384810949_2_alg».proof.Proof.Gen.KernelIdeal.Points
import proofs.«156794_j4621384810949_2_alg».proof.Proof.Gen.ReferenceIdeal
import proofs.«156794_j4621384810949_2_alg».proof.Proof.Gen.Pre_finite_inputs
import proofs.«156794_j4621384810949_2_alg».proof.Proof.Run
import proofs.«156794_j4621384810949_2_alg».proof.Proof.KRun
import proofs.«156794_j4621384810949_2_alg».proof.Proof.KernelValue
import proofs.«156794_j4621384810949_2_alg».proof.Proof.RefSpec
import proofs.«156794_j4621384810949_2_alg».proof.Proof.Law
import Idealize.ShloMosaic.Adequacy
import Idealize.ShloMosaic.Init

noncomputable section

namespace Cert.Proof

open Idealize.ShloMosaic Idealize.ShloMosaic.TcCoe Idealize.SL.Sem Cert.Spec

/-- The program as printed runs and leaves its arguments as launched. -/
theorem frame_k : Cert.frame_Kernel := fun m ρ _ => Cert.Kernel.Hand.frame m ρ

/-- The program read over the extended reals runs and leaves its arguments as launched. -/
theorem frame_ki : Cert.frame_KernelIdeal := fun m ρ _ => Cert.KernelIdeal.Hand.frame m ρ

/-- The reference read over the extended reals runs and leaves its arguments as launched. -/
theorem frame_ri : Cert.frame_ReferenceIdeal := fun m ρ _ =>
  (θ_run Cert.ReferenceIdeal.defs _ _).mono (fun _ h c => (h c).2.2) (Cert.ReferenceIdeal.ValueP.run (F := Ideal) m ρ)

/-- Over the extended reals the two programs, from memories that agree on the arguments, end with equal results: the
    kernel's are the network with each aggregation scaled after its product, the reference's the network with each
    entry divided before it, and the two arrangements are one function. -/
theorem algebraic : Cert.algebraic_KernelIdeal_ReferenceIdeal := by
  intro m ρ m' ρ' _ hagree
  refine ⟨fun c => arr (resK0 (mat (m ((c.tc : Thread Cert.KernelIdeal.nD Cert.KernelIdeal.τ).loc Cert.KernelIdeal.main_arg0))) (mat (m ((c.tc : Thread Cert.KernelIdeal.nD Cert.KernelIdeal.τ).loc Cert.KernelIdeal.main_arg1))) (mat (m ((c.tc : Thread Cert.KernelIdeal.nD Cert.KernelIdeal.τ).loc Cert.KernelIdeal.main_arg3))) (mat (m ((c.tc : Thread Cert.KernelIdeal.nD Cert.KernelIdeal.τ).loc Cert.KernelIdeal.main_arg4))) (mat (m ((c.tc : Thread Cert.KernelIdeal.nD Cert.KernelIdeal.τ).loc Cert.KernelIdeal.main_arg5))) (vec (m ((c.tc : Thread Cert.KernelIdeal.nD Cert.KernelIdeal.τ).loc Cert.KernelIdeal.main_arg6))) (mat (m ((c.tc : Thread Cert.KernelIdeal.nD Cert.KernelIdeal.τ).loc Cert.KernelIdeal.main_arg7))) (vec (m ((c.tc : Thread Cert.KernelIdeal.nD Cert.KernelIdeal.τ).loc Cert.KernelIdeal.main_arg8)))),
    fun c => arr (resK1 (mat (m ((c.tc : Thread Cert.KernelIdeal.nD Cert.KernelIdeal.τ).loc Cert.KernelIdeal.main_arg1))) (mat (m ((c.tc : Thread Cert.KernelIdeal.nD Cert.KernelIdeal.τ).loc Cert.KernelIdeal.main_arg2))) (mat (m ((c.tc : Thread Cert.KernelIdeal.nD Cert.KernelIdeal.τ).loc Cert.KernelIdeal.main_arg3))) (mat (m ((c.tc : Thread Cert.KernelIdeal.nD Cert.KernelIdeal.τ).loc Cert.KernelIdeal.main_arg4)))), ?_, ?_⟩
  · exact Cert.KernelIdeal.Hand.run_post (F := Ideal) m ρ fun s h c =>
      ⟨(h c _ (Cert.KernelIdeal.Hand.mem_uc Cert.KernelIdeal.main_v5_0 (by decide))).trans (Cert.KernelIdeal.Hand.kout0 m ρ c),
       (h c _ (Cert.KernelIdeal.Hand.mem_uc Cert.KernelIdeal.main_v5_1 (by decide))).trans (Cert.KernelIdeal.Hand.kout1 m ρ c),
       (h c _ (Cert.KernelIdeal.Hand.mem_uc Cert.KernelIdeal.main_arg0 (by decide))).trans (Cert.KernelIdeal.Hand.W6_main_arg0 m ρ c),
       (h c _ (Cert.KernelIdeal.Hand.mem_uc Cert.KernelIdeal.main_arg1 (by decide))).trans (Cert.KernelIdeal.Hand.W6_main_arg1 m ρ c),
       (h c _ (Cert.KernelIdeal.Hand.mem_uc Cert.KernelIdeal.main_arg2 (by decide))).trans (Cert.KernelIdeal.Hand.W6_main_arg2 m ρ c),
       (h c _ (Cert.KernelIdeal.Hand.mem_uc Cert.KernelIdeal.main_arg3 (by decide))).trans (Cert.KernelIdeal.Hand.W6_main_arg3 m ρ c),
       (h c _ (Cert.KernelIdeal.Hand.mem_uc Cert.KernelIdeal.main_arg4 (by decide))).trans (Cert.KernelIdeal.Hand.W6_main_arg4 m ρ c),
       (h c _ (Cert.KernelIdeal.Hand.mem_uc Cert.KernelIdeal.main_arg5 (by decide))).trans (Cert.KernelIdeal.Hand.W6_main_arg5 m ρ c),
       (h c _ (Cert.KernelIdeal.Hand.mem_uc Cert.KernelIdeal.main_arg6 (by decide))).trans (Cert.KernelIdeal.Hand.W6_main_arg6 m ρ c),
       (h c _ (Cert.KernelIdeal.Hand.mem_uc Cert.KernelIdeal.main_arg7 (by decide))).trans (Cert.KernelIdeal.Hand.W6_main_arg7 m ρ c),
       (h c _ (Cert.KernelIdeal.Hand.mem_uc Cert.KernelIdeal.main_arg8 (by decide))).trans (Cert.KernelIdeal.Hand.W6_main_arg8 m ρ c)⟩
  · refine (θ_run Cert.ReferenceIdeal.defs _ _).mono (fun _ h c => ⟨(h c).1.trans ?_, (h c).2.1.trans ?_, (h c).2.2⟩)
      (Cert.ReferenceIdeal.ValueP.run (F := Ideal) m' ρ')
    · rw [Cert.RefSpec.out0 m' c, (hagree c).1, (hagree c).2.1, (hagree c).2.2.2.1, (hagree c).2.2.2.2.1, (hagree c).2.2.2.2.2.1, (hagree c).2.2.2.2.2.2.1, (hagree c).2.2.2.2.2.2.2.1, (hagree c).2.2.2.2.2.2.2.2]
      exact congrArg arr (Cert.Law.resK0_eq_resR0 _ _ _ _ _ _ _ _).symm
    · rw [Cert.RefSpec.out1 m' c, (hagree c).2.1, (hagree c).2.2.1, (hagree c).2.2.2.1, (hagree c).2.2.2.2.1]
      exact congrArg arr (Cert.Law.resK1_eq_resR1 _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
